-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S3x256x256 : Shape := ⟨3, ![3, 256, 256]⟩
abbrev S3x256 : Shape := ⟨2, ![3, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg6 : FVec F S3x256 .f32) (main_arg7 : FVec F S3x256 .f32) (main_arg8 : FVec F S3x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256 .f32 := Host.absf main_arg7
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256 .f32 := Host.absf main_arg8
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  main_v33

def fn {F : FTy → Type} [FloatOps F] (main_arg0 : FVec F S50000x256 .f32) (main_arg1 : IVec S2x800000 32) (main_arg2 : IVec S50000 32) (main_arg3 : FVec F S3x256x256 .f32) (main_arg4 : FVec F S3x256 .f32) (main_arg5 : FVec F S3x256x256 .f32) (main_arg6 : FVec F S3x256 .f32) (main_arg7 : FVec F S3x256 .f32) (main_arg8 : FVec F S3x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S3x256x256 .f32 := Host.absf main_arg3
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg4
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256x256 .f32 := Host.absf main_arg5
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg6 main_arg7 main_arg8 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩
abbrev S50000x1 : Shape := ⟨2, ![50000, 1]⟩
abbrev S256x768 : Shape := ⟨2, ![256, 768]⟩

abbrev nBuf : Space → Nat
  | .hbm => 137
  | .vmem => 60
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S3x256x256, .f32⟩
  | 4 => ⟨S3x256, .f32⟩
  | 5 => ⟨S3x256x256, .f32⟩
  | 6 => ⟨S3x256, .f32⟩
  | 7 => ⟨S3x256, .f32⟩
  | 8 => ⟨S3x256, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x256, .f32⟩
  | 22 => ⟨S_, .f32⟩
  | 23 => ⟨S50000x256, .f32⟩
  | 24 => ⟨S800000x1, .i32⟩
  | 25 => ⟨S50000x256, .f32⟩
  | 26 => ⟨S1x256x256, .f32⟩
  | 27 => ⟨S256x256, .f32⟩
  | 28 => ⟨S1x256, .f32⟩
  | 29 => ⟨S256, .f32⟩
  | 30 => ⟨S1x256x256, .f32⟩
  | 31 => ⟨S256x256, .f32⟩
  | 32 => ⟨S1x256, .f32⟩
  | 33 => ⟨S256, .f32⟩
  | 34 => ⟨S50000x256, .f32⟩
  | 35 => ⟨S256, .f32⟩
  | 36 => ⟨S256, .f32⟩
  | 37 => ⟨S_, .f32⟩
  | 38 => ⟨S256, .f32⟩
  | 39 => ⟨S256, .f32⟩
  | 40 => ⟨S_, .f32⟩
  | 41 => ⟨S256, .f32⟩
  | 42 => ⟨S256, .f32⟩
  | 43 => ⟨S256, .f32⟩
  | 44 => ⟨S256, .f32⟩
  | 45 => ⟨S1x256, .f32⟩
  | 46 => ⟨S256, .f32⟩
  | 47 => ⟨S1x256, .f32⟩
  | 48 => ⟨S256, .f32⟩
  | 49 => ⟨S50000x256, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x256, .f32⟩
  | 59 => ⟨S_, .f32⟩
  | 60 => ⟨S50000x256, .f32⟩
  | 61 => ⟨S800000x1, .i32⟩
  | 62 => ⟨S50000x256, .f32⟩
  | 63 => ⟨S1x256x256, .f32⟩
  | 64 => ⟨S256x256, .f32⟩
  | 65 => ⟨S1x256, .f32⟩
  | 66 => ⟨S256, .f32⟩
  | 67 => ⟨S1x256x256, .f32⟩
  | 68 => ⟨S256x256, .f32⟩
  | 69 => ⟨S1x256, .f32⟩
  | 70 => ⟨S256, .f32⟩
  | 71 => ⟨S50000x256, .f32⟩
  | 72 => ⟨S256, .f32⟩
  | 73 => ⟨S256, .f32⟩
  | 74 => ⟨S_, .f32⟩
  | 75 => ⟨S256, .f32⟩
  | 76 => ⟨S256, .f32⟩
  | 77 => ⟨S_, .f32⟩
  | 78 => ⟨S256, .f32⟩
  | 79 => ⟨S256, .f32⟩
  | 80 => ⟨S256, .f32⟩
  | 81 => ⟨S256, .f32⟩
  | 82 => ⟨S1x256, .f32⟩
  | 83 => ⟨S256, .f32⟩
  | 84 => ⟨S1x256, .f32⟩
  | 85 => ⟨S256, .f32⟩
  | 86 => ⟨S50000x256, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x256, .f32⟩
  | 96 => ⟨S_, .f32⟩
  | 97 => ⟨S50000x256, .f32⟩
  | 98 => ⟨S800000x1, .i32⟩
  | 99 => ⟨S50000x256, .f32⟩
  | 100 => ⟨S1x256x256, .f32⟩
  | 101 => ⟨S256x256, .f32⟩
  | 102 => ⟨S1x256, .f32⟩
  | 103 => ⟨S256, .f32⟩
  | 104 => ⟨S1x256x256, .f32⟩
  | 105 => ⟨S256x256, .f32⟩
  | 106 => ⟨S1x256, .f32⟩
  | 107 => ⟨S256, .f32⟩
  | 108 => ⟨S50000x256, .f32⟩
  | 109 => ⟨S256, .f32⟩
  | 110 => ⟨S256, .f32⟩
  | 111 => ⟨S_, .f32⟩
  | 112 => ⟨S256, .f32⟩
  | 113 => ⟨S256, .f32⟩
  | 114 => ⟨S_, .f32⟩
  | 115 => ⟨S256, .f32⟩
  | 116 => ⟨S256, .f32⟩
  | 117 => ⟨S256, .f32⟩
  | 118 => ⟨S256, .f32⟩
  | 119 => ⟨S1x256, .f32⟩
  | 120 => ⟨S256, .f32⟩
  | 121 => ⟨S1x256, .f32⟩
  | 122 => ⟨S256, .f32⟩
  | 123 => ⟨S50000x256, .f32⟩
  | 124 => ⟨S_, .f32⟩
  | 125 => ⟨S256x256, .f32⟩
  | 126 => ⟨S50000x1, .i32⟩
  | 127 => ⟨S256x256, .f32⟩
  | _ => ⟨S50000x256, .f32⟩

abbrev hbmTy0_1 (i : Nat) : BufTy := match i % 128 with
  | 0 => ⟨S_, .f32⟩
  | 1 => ⟨S256x256, .f32⟩
  | 2 => ⟨S50000x1, .i32⟩
  | 3 => ⟨S256x256, .f32⟩
  | 4 => ⟨S_, .f32⟩
  | 5 => ⟨S256x256, .f32⟩
  | 6 => ⟨S50000x1, .i32⟩
  | 7 => ⟨S256x256, .f32⟩
  | 8 => ⟨S256x768, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S2000x256, .f32⟩
  | .local _ .vmem, ⟨9, _⟩ => ⟨S2000x256, .f32⟩
  | .local _ .vmem, ⟨10, _⟩ => ⟨S256, .f32⟩
  | .local _ .vmem, ⟨11, _⟩ => ⟨S256, .f32⟩
  | .local _ .vmem, ⟨12, _⟩ => ⟨S2000x256, .f32⟩
  | .local _ .vmem, ⟨13, _⟩ => ⟨S2000x256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S256, .f32⟩
  | .local _ .vmem, ⟨26, _⟩ => ⟨S256x256, .f32⟩
  | .local _ .vmem, ⟨27, _⟩ => ⟨S256, .f32⟩
  | .local _ .vmem, ⟨28, _⟩ => ⟨S2000x256, .f32⟩
  | .local _ .vmem, ⟨29, _⟩ => ⟨S2000x256, .f32⟩
  | .local _ .vmem, ⟨30, _⟩ => ⟨S256, .f32⟩
  | .local _ .vmem, ⟨31, _⟩ => ⟨S256, .f32⟩
  | .local _ .vmem, ⟨32, _⟩ => ⟨S2000x256, .f32⟩
  | .local _ .vmem, ⟨33, _⟩ => ⟨S2000x256, .f32⟩
  | .local _ .vmem, ⟨34, _⟩ => ⟨S256, .f32⟩
  | .local _ .vmem, ⟨35, _⟩ => ⟨S256, .f32⟩
  | .local _ .vmem, ⟨36, _⟩ => ⟨S256, .f32⟩
  | .local _ .vmem, ⟨37, _⟩ => ⟨S256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S256x256, .f32⟩
  | .local _ .vmem, ⟨45, _⟩ => ⟨S256, .f32⟩
  | .local _ .vmem, ⟨46, _⟩ => ⟨S256x256, .f32⟩
  | .local _ .vmem, ⟨47, _⟩ => ⟨S256, .f32⟩
  | .local _ .vmem, ⟨48, _⟩ => ⟨S2000x256, .f32⟩
  | .local _ .vmem, ⟨49, _⟩ => ⟨S2000x256, .f32⟩
  | .local _ .vmem, ⟨50, _⟩ => ⟨S256, .f32⟩
  | .local _ .vmem, ⟨51, _⟩ => ⟨S256, .f32⟩
  | .local _ .vmem, ⟨52, _⟩ => ⟨S2000x256, .f32⟩
  | .local _ .vmem, ⟨53, _⟩ => ⟨S2000x256, .f32⟩
  | .local _ .vmem, ⟨54, _⟩ => ⟨S256, .f32⟩
  | .local _ .vmem, ⟨55, _⟩ => ⟨S256, .f32⟩
  | .local _ .vmem, ⟨56, _⟩ => ⟨S256, .f32⟩
  | .local _ .vmem, ⟨57, _⟩ => ⟨S256, .f32⟩
  | .local _ .vmem, ⟨58, _⟩ => ⟨S2000x256, .f32⟩
  | .local _ .vmem, ⟨59, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_3 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52_0 : Ref sig .tc := ⟨.hbm, 71, rfl⟩
abbrev main_v52_1 : Ref sig .tc := ⟨.hbm, 72, rfl⟩
abbrev main_v52_2 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_8 : Ref sig .tc := ⟨.hbm, 87, rfl⟩
abbrev main_v64 : Ref sig .tc := ⟨.hbm, 88, rfl⟩
abbrev main_v65 : Ref sig .tc := ⟨.hbm, 89, rfl⟩
abbrev main_c_9 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82_0 : Ref sig .tc := ⟨.hbm, 108, rfl⟩
abbrev main_v82_1 : Ref sig .tc := ⟨.hbm, 109, rfl⟩
abbrev main_v82_2 : Ref sig .tc := ⟨.hbm, 110, rfl⟩
abbrev main_cst_11 : Ref sig .tc := ⟨.hbm, 111, rfl⟩
abbrev main_v83 : Ref sig .tc := ⟨.hbm, 112, rfl⟩
abbrev main_v84 : Ref sig .tc := ⟨.hbm, 113, rfl⟩
abbrev main_cst_12 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_13 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_14 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_15 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  inb_S256_S256_0 : ∀ a, (![0] : Fin 1 → Nat) a + S256.size a ≤ S256.size a
  h_S256 : 0 < S256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  shapeCasts_S256_S1x256 : S256.ShapeCasts S1x256
  broadcasts_S1x256_S2000x256 : S1x256.Broadcasts S2000x256
  reduces_S2000x256_S256 : S2000x256.Reduces [0] S256
  bcast_S_S256 : S_.BroadcastsInDim S256 (![] : Fin 0 → Fin S256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S256x256 : S_.BroadcastsInDim S256x256 (![] : Fin 0 → Fin S256x256.rank)
  bcast_S50000_S50000x1_0 : S50000.BroadcastsInDim S50000x1 (![0] : Fin 1 → Fin S50000x1.rank)
  concatenates_S256x256_S256x256_S256x256_S256x768_d1 : Shape.Concatenates [S256x256, S256x256, S256x256] S256x768 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S256x256_S50000x1_S50000x256_1_0_0_1_wf : ScatterDims.WF S256x256 S50000x1 S50000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256.size a ≤ S256.size a
  hwx2_7 : ∀ i : grid2.Coords, EltTy.bits .f32 = 32 ∨ (Rect.block (s := S256) S256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256.size a ≤ S256.size a
  hwx2_8 : ∀ i : grid2.Coords, EltTy.bits .f32 = 32 ∨ (Rect.block (s := S256) S256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256.size a ≤ S256.size a
  hwx3_1 : ∀ i : grid3.Coords, EltTy.bits .f32 = 32 ∨ (Rect.block (s := S256) S256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256.size a ≤ S256.size a
  hwx4_5 : ∀ i : grid4.Coords, EltTy.bits .f32 = 32 ∨ (Rect.block (s := S256) S256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S50000x256.size a
  hwx4_6 : ∀ i : grid4.Coords, EltTy.bits .f32 = 32 ∨ (Rect.block (s := S50000x256) S2000x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256.size a ≤ S256.size a
  hwx4_7 : ∀ i : grid4.Coords, EltTy.bits .f32 = 32 ∨ (Rect.block (s := S256) S256.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S256.size a ≤ S256.size a
  hwx4_8 : ∀ i : grid4.Coords, EltTy.bits .f32 = 32 ∨ (Rect.block (s := S256) S256.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256.size a ≤ S256.size a
  hwx5_1 : ∀ i : grid5.Coords, EltTy.bits .f32 = 32 ∨ (Rect.block (s := S256) S256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256.size a ≤ S256.size a
  hwx5_2 : ∀ i : grid5.Coords, EltTy.bits .f32 = 32 ∨ (Rect.block (s := S256) S256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256.size a ≤ S256.size a
  hwx5_4 : ∀ i : grid5.Coords, EltTy.bits .f32 = 32 ∨ (Rect.block (s := S256) S256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S256.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22_2) S256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v22_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52_0) S2000x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v52_1) S256.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v52_2) S256.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v52_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v82_0) S2000x256.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v82_1) S256.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v82_2) S256.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v82_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S50000x1 : Shape := ⟨2, ![50000, 1]⟩
abbrev S256x768 : Shape := ⟨2, ![256, 768]⟩

abbrev nBuf : Space → Nat
  | .hbm => 278
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S3x256x256, .f32⟩
  | 4 => ⟨S3x256, .f32⟩
  | 5 => ⟨S3x256x256, .f32⟩
  | 6 => ⟨S3x256, .f32⟩
  | 7 => ⟨S3x256, .f32⟩
  | 8 => ⟨S3x256, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x256, .f32⟩
  | 22 => ⟨S_, .f32⟩
  | 23 => ⟨S50000x256, .f32⟩
  | 24 => ⟨S800000x1, .i32⟩
  | 25 => ⟨S50000x256, .f32⟩
  | 26 => ⟨S50000x256, .f32⟩
  | 27 => ⟨S1x256x256, .f32⟩
  | 28 => ⟨S256x256, .f32⟩
  | 29 => ⟨S50000x256, .f32⟩
  | 30 => ⟨S1x256, .f32⟩
  | 31 => ⟨S256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S1x256x256, .f32⟩
  | 39 => ⟨S256x256, .f32⟩
  | 40 => ⟨S50000x256, .f32⟩
  | 41 => ⟨S1x256, .f32⟩
  | 42 => ⟨S256, .f32⟩
  | 43 => ⟨S1x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S_, .f32⟩
  | 50 => ⟨S256, .f32⟩
  | 51 => ⟨S_, .f32⟩
  | 52 => ⟨S256, .f32⟩
  | 53 => ⟨S256, .f32⟩
  | 54 => ⟨S_, .i32⟩
  | 55 => ⟨S_, .f32⟩
  | 56 => ⟨S256, .f32⟩
  | 57 => ⟨S1x256, .f32⟩
  | 58 => ⟨S_, .f32⟩
  | 59 => ⟨S1x256, .f32⟩
  | 60 => ⟨S1x256, .f32⟩
  | 61 => ⟨S50000x256, .f32⟩
  | 62 => ⟨S50000x256, .f32⟩
  | 63 => ⟨S50000x256, .f32⟩
  | 64 => ⟨S_, .f32⟩
  | 65 => ⟨S_, .f32⟩
  | 66 => ⟨S_, .f32⟩
  | 67 => ⟨S_, .f32⟩
  | 68 => ⟨S256, .f32⟩
  | 69 => ⟨S256, .f32⟩
  | 70 => ⟨S256, .f32⟩
  | 71 => ⟨S_, .f32⟩
  | 72 => ⟨S_, .i1⟩
  | 73 => ⟨S_, .f32⟩
  | 74 => ⟨S_, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S_, .f32⟩
  | 81 => ⟨S256, .f32⟩
  | 82 => ⟨S256, .f32⟩
  | 83 => ⟨S256, .f32⟩
  | 84 => ⟨S1x256, .f32⟩
  | 85 => ⟨S50000x256, .f32⟩
  | 86 => ⟨S50000x256, .f32⟩
  | 87 => ⟨S1x256, .f32⟩
  | 88 => ⟨S256, .f32⟩
  | 89 => ⟨S1x256, .f32⟩
  | 90 => ⟨S50000x256, .f32⟩
  | 91 => ⟨S50000x256, .f32⟩
  | 92 => ⟨S1x256, .f32⟩
  | 93 => ⟨S256, .f32⟩
  | 94 => ⟨S1x256, .f32⟩
  | 95 => ⟨S50000x256, .f32⟩
  | 96 => ⟨S50000x256, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x256, .f32⟩
  | 106 => ⟨S_, .f32⟩
  | 107 => ⟨S50000x256, .f32⟩
  | 108 => ⟨S800000x1, .i32⟩
  | 109 => ⟨S50000x256, .f32⟩
  | 110 => ⟨S50000x256, .f32⟩
  | 111 => ⟨S1x256x256, .f32⟩
  | 112 => ⟨S256x256, .f32⟩
  | 113 => ⟨S50000x256, .f32⟩
  | 114 => ⟨S1x256, .f32⟩
  | 115 => ⟨S256, .f32⟩
  | 116 => ⟨S1x256, .f32⟩
  | 117 => ⟨S50000x256, .f32⟩
  | 118 => ⟨S50000x256, .f32⟩
  | 119 => ⟨S_, .f32⟩
  | 120 => ⟨S50000x256, .f32⟩
  | 121 => ⟨S50000x256, .f32⟩
  | 122 => ⟨S1x256x256, .f32⟩
  | 123 => ⟨S256x256, .f32⟩
  | 124 => ⟨S50000x256, .f32⟩
  | 125 => ⟨S1x256, .f32⟩
  | 126 => ⟨S256, .f32⟩
  | 127 => ⟨S1x256, .f32⟩
  | _ => ⟨S50000x256, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S_, .f32⟩
  | 6 => ⟨S256, .f32⟩
  | 7 => ⟨S_, .f32⟩
  | 8 => ⟨S256, .f32⟩
  | 9 => ⟨S256, .f32⟩
  | 10 => ⟨S_, .i32⟩
  | 11 => ⟨S_, .f32⟩
  | 12 => ⟨S256, .f32⟩
  | 13 => ⟨S1x256, .f32⟩
  | 14 => ⟨S_, .f32⟩
  | 15 => ⟨S1x256, .f32⟩
  | 16 => ⟨S1x256, .f32⟩
  | 17 => ⟨S50000x256, .f32⟩
  | 18 => ⟨S50000x256, .f32⟩
  | 19 => ⟨S50000x256, .f32⟩
  | 20 => ⟨S_, .f32⟩
  | 21 => ⟨S_, .f32⟩
  | 22 => ⟨S_, .f32⟩
  | 23 => ⟨S_, .f32⟩
  | 24 => ⟨S256, .f32⟩
  | 25 => ⟨S256, .f32⟩
  | 26 => ⟨S256, .f32⟩
  | 27 => ⟨S_, .f32⟩
  | 28 => ⟨S_, .i1⟩
  | 29 => ⟨S_, .f32⟩
  | 30 => ⟨S_, .f32⟩
  | 31 => ⟨S256, .f32⟩
  | 32 => ⟨S256, .f32⟩
  | 33 => ⟨S1x256, .f32⟩
  | 34 => ⟨S50000x256, .f32⟩
  | 35 => ⟨S50000x256, .f32⟩
  | 36 => ⟨S_, .f32⟩
  | 37 => ⟨S256, .f32⟩
  | 38 => ⟨S256, .f32⟩
  | 39 => ⟨S256, .f32⟩
  | 40 => ⟨S1x256, .f32⟩
  | 41 => ⟨S50000x256, .f32⟩
  | 42 => ⟨S50000x256, .f32⟩
  | 43 => ⟨S1x256, .f32⟩
  | 44 => ⟨S256, .f32⟩
  | 45 => ⟨S1x256, .f32⟩
  | 46 => ⟨S50000x256, .f32⟩
  | 47 => ⟨S50000x256, .f32⟩
  | 48 => ⟨S1x256, .f32⟩
  | 49 => ⟨S256, .f32⟩
  | 50 => ⟨S1x256, .f32⟩
  | 51 => ⟨S50000x256, .f32⟩
  | 52 => ⟨S50000x256, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x256, .f32⟩
  | 62 => ⟨S_, .f32⟩
  | 63 => ⟨S50000x256, .f32⟩
  | 64 => ⟨S800000x1, .i32⟩
  | 65 => ⟨S50000x256, .f32⟩
  | 66 => ⟨S50000x256, .f32⟩
  | 67 => ⟨S1x256x256, .f32⟩
  | 68 => ⟨S256x256, .f32⟩
  | 69 => ⟨S50000x256, .f32⟩
  | 70 => ⟨S1x256, .f32⟩
  | 71 => ⟨S256, .f32⟩
  | 72 => ⟨S1x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S1x256x256, .f32⟩
  | 79 => ⟨S256x256, .f32⟩
  | 80 => ⟨S50000x256, .f32⟩
  | 81 => ⟨S1x256, .f32⟩
  | 82 => ⟨S256, .f32⟩
  | 83 => ⟨S1x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S_, .f32⟩
  | 90 => ⟨S256, .f32⟩
  | 91 => ⟨S_, .f32⟩
  | 92 => ⟨S256, .f32⟩
  | 93 => ⟨S256, .f32⟩
  | 94 => ⟨S_, .i32⟩
  | 95 => ⟨S_, .f32⟩
  | 96 => ⟨S256, .f32⟩
  | 97 => ⟨S1x256, .f32⟩
  | 98 => ⟨S_, .f32⟩
  | 99 => ⟨S1x256, .f32⟩
  | 100 => ⟨S1x256, .f32⟩
  | 101 => ⟨S50000x256, .f32⟩
  | 102 => ⟨S50000x256, .f32⟩
  | 103 => ⟨S50000x256, .f32⟩
  | 104 => ⟨S_, .f32⟩
  | 105 => ⟨S_, .f32⟩
  | 106 => ⟨S_, .f32⟩
  | 107 => ⟨S_, .f32⟩
  | 108 => ⟨S256, .f32⟩
  | 109 => ⟨S256, .f32⟩
  | 110 => ⟨S256, .f32⟩
  | 111 => ⟨S_, .f32⟩
  | 112 => ⟨S_, .i1⟩
  | 113 => ⟨S_, .f32⟩
  | 114 => ⟨S_, .f32⟩
  | 115 => ⟨S256, .f32⟩
  | 116 => ⟨S256, .f32⟩
  | 117 => ⟨S1x256, .f32⟩
  | 118 => ⟨S50000x256, .f32⟩
  | 119 => ⟨S50000x256, .f32⟩
  | 120 => ⟨S_, .f32⟩
  | 121 => ⟨S256, .f32⟩
  | 122 => ⟨S256, .f32⟩
  | 123 => ⟨S256, .f32⟩
  | 124 => ⟨S1x256, .f32⟩
  | 125 => ⟨S50000x256, .f32⟩
  | 126 => ⟨S50000x256, .f32⟩
  | 127 => ⟨S1x256, .f32⟩
  | _ => ⟨S50000x256, .f32⟩

abbrev hbmTy0_2 (i : Nat) : BufTy := match i % 128 with
  | 0 => ⟨S256, .f32⟩
  | 1 => ⟨S1x256, .f32⟩
  | 2 => ⟨S50000x256, .f32⟩
  | 3 => ⟨S50000x256, .f32⟩
  | 4 => ⟨S1x256, .f32⟩
  | 5 => ⟨S256, .f32⟩
  | 6 => ⟨S1x256, .f32⟩
  | 7 => ⟨S50000x256, .f32⟩
  | 8 => ⟨S50000x256, .f32⟩
  | 9 => ⟨S_, .f32⟩
  | 10 => ⟨S256x256, .f32⟩
  | 11 => ⟨S50000x1, .i32⟩
  | 12 => ⟨S256x256, .f32⟩
  | 13 => ⟨S_, .f32⟩
  | 14 => ⟨S256x256, .f32⟩
  | 15 => ⟨S50000x1, .i32⟩
  | 16 => ⟨S256x256, .f32⟩
  | 17 => ⟨S_, .f32⟩
  | 18 => ⟨S256x256, .f32⟩
  | 19 => ⟨S50000x1, .i32⟩
  | 20 => ⟨S256x256, .f32⟩
  | 21 => ⟨S256x768, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_cst_2 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_cst_3 : Ref sig .tc := ⟨.hbm, 71, rfl⟩
abbrev main_call0_v12 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_6 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_7 : Ref sig .tc := ⟨.hbm, 97, rfl⟩
abbrev main_v58 : Ref sig .tc := ⟨.hbm, 98, rfl⟩
abbrev main_v59 : Ref sig .tc := ⟨.hbm, 99, rfl⟩
abbrev main_c_8 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_9 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_10 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_11 : Ref sig .tc := ⟨.hbm, 130, rfl⟩
abbrev main_v87 : Ref sig .tc := ⟨.hbm, 131, rfl⟩
abbrev main_v88 : Ref sig .tc := ⟨.hbm, 132, rfl⟩
abbrev main_cst_12 : Ref sig .tc := ⟨.hbm, 133, rfl⟩
abbrev main_v89 : Ref sig .tc := ⟨.hbm, 134, rfl⟩
abbrev main_cst_13 : Ref sig .tc := ⟨.hbm, 135, rfl⟩
abbrev main_v90 : Ref sig .tc := ⟨.hbm, 136, rfl⟩
abbrev main_v91 : Ref sig .tc := ⟨.hbm, 137, rfl⟩
abbrev main_c_14 : Ref sig .tc := ⟨.hbm, 138, rfl⟩
abbrev main_call1_cst : Ref sig .tc := ⟨.hbm, 139, rfl⟩
abbrev main_call1_v0 : Ref sig .tc := ⟨.hbm, 140, rfl⟩
abbrev main_call1_v1 : Ref sig .tc := ⟨.hbm, 141, rfl⟩
abbrev main_call1_cst_0 : Ref sig .tc := ⟨.hbm, 142, rfl⟩
abbrev main_call1_v2 : Ref sig .tc := ⟨.hbm, 143, rfl⟩
abbrev main_call1_v3 : Ref sig .tc := ⟨.hbm, 144, rfl⟩
abbrev main_call1_v4 : Ref sig .tc := ⟨.hbm, 145, rfl⟩
abbrev main_call1_v5 : Ref sig .tc := ⟨.hbm, 146, rfl⟩
abbrev main_call1_v6 : Ref sig .tc := ⟨.hbm, 147, rfl⟩
abbrev main_call1_v7 : Ref sig .tc := ⟨.hbm, 148, rfl⟩
abbrev main_call1_cst_1 : Ref sig .tc := ⟨.hbm, 149, rfl⟩
abbrev main_call1_v8 : Ref sig .tc := ⟨.hbm, 150, rfl⟩
abbrev main_call1_cst_2 : Ref sig .tc := ⟨.hbm, 151, rfl⟩
abbrev main_call1_v9 : Ref sig .tc := ⟨.hbm, 152, rfl⟩
abbrev main_call1_v10 : Ref sig .tc := ⟨.hbm, 153, rfl⟩
abbrev main_call1_v11 : Ref sig .tc := ⟨.hbm, 154, rfl⟩
abbrev main_call1_cst_3 : Ref sig .tc := ⟨.hbm, 155, rfl⟩
abbrev main_call1_v12 : Ref sig .tc := ⟨.hbm, 156, rfl⟩
abbrev main_call1_cst_4 : Ref sig .tc := ⟨.hbm, 157, rfl⟩
abbrev main_call1_call0_v0 : Ref sig .tc := ⟨.hbm, 158, rfl⟩
abbrev main_call1_call0_v1 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_cst_15 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_c_16 : Ref sig .tc := ⟨.hbm, 181, rfl⟩
abbrev main_v112 : Ref sig .tc := ⟨.hbm, 182, rfl⟩
abbrev main_v113 : Ref sig .tc := ⟨.hbm, 183, rfl⟩
abbrev main_c_17 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_cst_18 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_19 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_cst_20 : Ref sig .tc := ⟨.hbm, 214, rfl⟩
abbrev main_v141 : Ref sig .tc := ⟨.hbm, 215, rfl⟩
abbrev main_v142 : Ref sig .tc := ⟨.hbm, 216, rfl⟩
abbrev main_cst_21 : Ref sig .tc := ⟨.hbm, 217, rfl⟩
abbrev main_v143 : Ref sig .tc := ⟨.hbm, 218, rfl⟩
abbrev main_cst_22 : Ref sig .tc := ⟨.hbm, 219, rfl⟩
abbrev main_v144 : Ref sig .tc := ⟨.hbm, 220, rfl⟩
abbrev main_v145 : Ref sig .tc := ⟨.hbm, 221, rfl⟩
abbrev main_c_23 : Ref sig .tc := ⟨.hbm, 222, rfl⟩
abbrev main_call2_cst : Ref sig .tc := ⟨.hbm, 223, rfl⟩
abbrev main_call2_v0 : Ref sig .tc := ⟨.hbm, 224, rfl⟩
abbrev main_call2_v1 : Ref sig .tc := ⟨.hbm, 225, rfl⟩
abbrev main_call2_cst_0 : Ref sig .tc := ⟨.hbm, 226, rfl⟩
abbrev main_call2_v2 : Ref sig .tc := ⟨.hbm, 227, rfl⟩
abbrev main_call2_v3 : Ref sig .tc := ⟨.hbm, 228, rfl⟩
abbrev main_call2_v4 : Ref sig .tc := ⟨.hbm, 229, rfl⟩
abbrev main_call2_v5 : Ref sig .tc := ⟨.hbm, 230, rfl⟩
abbrev main_call2_v6 : Ref sig .tc := ⟨.hbm, 231, rfl⟩
abbrev main_call2_v7 : Ref sig .tc := ⟨.hbm, 232, rfl⟩
abbrev main_call2_cst_1 : Ref sig .tc := ⟨.hbm, 233, rfl⟩
abbrev main_call2_v8 : Ref sig .tc := ⟨.hbm, 234, rfl⟩
abbrev main_call2_cst_2 : Ref sig .tc := ⟨.hbm, 235, rfl⟩
abbrev main_call2_v9 : Ref sig .tc := ⟨.hbm, 236, rfl⟩
abbrev main_call2_v10 : Ref sig .tc := ⟨.hbm, 237, rfl⟩
abbrev main_call2_v11 : Ref sig .tc := ⟨.hbm, 238, rfl⟩
abbrev main_call2_cst_3 : Ref sig .tc := ⟨.hbm, 239, rfl⟩
abbrev main_call2_v12 : Ref sig .tc := ⟨.hbm, 240, rfl⟩
abbrev main_call2_cst_4 : Ref sig .tc := ⟨.hbm, 241, rfl⟩
abbrev main_call2_call0_v0 : Ref sig .tc := ⟨.hbm, 242, rfl⟩
abbrev main_call2_call0_v1 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_cst_24 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_cst_25 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_cst_26 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_cst_27 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S256x256 : S_.BroadcastsInDim S256x256 (![] : Fin 0 → Fin S256x256.rank)
  bcast_S50000_S50000x1_0 : S50000.BroadcastsInDim S50000x1 (![0] : Fin 1 → Fin S50000x1.rank)
  concatenates_S256x256_S256x256_S256x256_S256x768_d1 : Shape.Concatenates [S256x256, S256x256, S256x256] S256x768 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S256x256_S50000x1_S50000x256_1_0_0_1_wf : ScatterDims.WF S256x256 S50000x1 S50000x256 [1] [0] [0] 1

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf

class Facts : Prop extends Facts₀ where

variable [Facts]
-- ==== Proof.K.A1.lean ====
import proofs.«130186_j80642305950442_1_alg».proof.Proof.Gen.Kernel.Launch
import proofs.«130186_j80642305950442_1_alg».proof.Proof.Gen.Kernel.Skeleton
import proofs.«130186_j80642305950442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 1: the elementwise normalisation ((z - mean) * rsqrt(var + eps)) * gamma + beta over blocks of 2000 rows -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not, for any proof data
    whose array is `V`'s (`hA`) and whose body leaves the block in place (`hafter`): where the window is not
    fetched its block index has not moved, so the block of the point before is the block of this point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not, for any proof data
    whose array is `V`'s (`hA`) and whose body leaves the block in place (`hafter`): where the window is not
    fetched its block index has not moved, so the block of the point before is the block of this point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not, for any proof data
    whose array is `V`'s (`hA`) and whose body leaves the block in place (`hafter`): where the window is not
    fetched its block index has not moved, so the block of the point before is the block of this point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not, for any proof data
    whose array is `V`'s (`hA`) and whose body leaves the block in place (`hafter`): where the window is not
    fetched its block index has not moved, so the block of the point before is the block of this point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not, for any proof data
    whose array is `V`'s (`hA`) and whose body leaves the block in place (`hafter`): where the window is not
    fetched its block index has not moved, so the block of the point before is the block of this point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: a whole row of 256 and a whole block of 2000 rows -/

abbrev r1_0 : Rect S256 := Rect.unit (s := S256) ![0] S256.size inb_S256_S256_0
abbrev r1_1 : Rect S2000x256 := Rect.unit (s := S2000x256) ![0, 0] S2000x256.size inb_S2000x256_S2000x256_0_0

/-! ## What the body leaves in the output window's buffer -/

/-- Window 5's staging buffer after the body, from the input windows' blocks `x0` (z), `x1` (mean), `x2`
    (variance), `x3` (scale), `x4` (shift): its one store, of the normalised block, over the whole buffer. -/
def out1_5 (x0 : Vec F S2000x256 .f32) (x1 : Vec F S256 .f32) (x2 : Vec F S256 .f32) (x3 : Vec F S256 .f32) (x4 : Vec F S256 .f32) : Vec F S2000x256 .f32 :=
  View.canon [⟨r1_1, k1_pay1 (View.ld x2 r1_0) (View.ld x0 r1_1) (View.ld x1 r1_0) (View.ld x3 r1_0) (View.ld x4 r1_0)⟩]

/-- The one store is of the whole buffer, so it covers it. -/
theorem cover1_5 (p0 : Vec F S2000x256 .f32) (y : S2000x256.Idx) :
    ∃ pc ∈ ([⟨r1_1, p0⟩] : List (View.Piece (Elt F) S2000x256 .f32)), y ∈ pc.1.set :=
  View.cover_of_tiled [⟨r1_1, p0⟩] S2000x256.size (by rfl) y

/-! ## The body's triple -/

set_option maxHeartbeats 1000000 in
/-- The body on whole staging memrefs, the five inputs' at read contents `x0 … x4` and the output's at anything,
    runs to the continuation holding the inputs' as they were and the output's at `out1_5` of the inputs'. -/
theorem sound_kernel1 (c : Dev nD) (E : Set ℕ) (i : grid1.Coords) (arg1 : Memref sig .tc .vmem S2000x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256 .f32) (x2 : Vec F S256 .f32) (x3 : Vec F S256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_apply_kernel i arg1 harg1 arg2 harg2 arg3 harg3 arg4 harg4 arg5 harg5 arg6 harg6) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.A3.lean ====
import proofs.«130186_j80642305950442_1_alg».proof.Proof.Gen.Kernel.Launch
import proofs.«130186_j80642305950442_1_alg».proof.Proof.Gen.Kernel.Skeleton
import proofs.«130186_j80642305950442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 3: the elementwise normalisation ((z - mean) * rsqrt(var + eps)) * gamma + beta over blocks of 2000 rows -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not, for any proof data
    whose array is `V`'s (`hA`) and whose body leaves the block in place (`hafter`): where the window is not
    fetched its block index has not moved, so the block of the point before is the block of this point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not, for any proof data
    whose array is `V`'s (`hA`) and whose body leaves the block in place (`hafter`): where the window is not
    fetched its block index has not moved, so the block of the point before is the block of this point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not, for any proof data
    whose array is `V`'s (`hA`) and whose body leaves the block in place (`hafter`): where the window is not
    fetched its block index has not moved, so the block of the point before is the block of this point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not, for any proof data
    whose array is `V`'s (`hA`) and whose body leaves the block in place (`hafter`): where the window is not
    fetched its block index has not moved, so the block of the point before is the block of this point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not, for any proof data
    whose array is `V`'s (`hA`) and whose body leaves the block in place (`hafter`): where the window is not
    fetched its block index has not moved, so the block of the point before is the block of this point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: a whole row of 256 and a whole block of 2000 rows -/

abbrev r3_0 : Rect S256 := Rect.unit (s := S256) ![0] S256.size inb_S256_S256_0
abbrev r3_1 : Rect S2000x256 := Rect.unit (s := S2000x256) ![0, 0] S2000x256.size inb_S2000x256_S2000x256_0_0

/-! ## What the body leaves in the output window's buffer -/

/-- Window 5's staging buffer after the body, from the input windows' blocks `x0` (z), `x1` (mean), `x2`
    (variance), `x3` (scale), `x4` (shift): its one store, of the normalised block, over the whole buffer. -/
def out3_5 (x0 : Vec F S2000x256 .f32) (x1 : Vec F S256 .f32) (x2 : Vec F S256 .f32) (x3 : Vec F S256 .f32) (x4 : Vec F S256 .f32) : Vec F S2000x256 .f32 :=
  View.canon [⟨r3_1, k3_pay1 (View.ld x2 r3_0) (View.ld x0 r3_1) (View.ld x1 r3_0) (View.ld x3 r3_0) (View.ld x4 r3_0)⟩]

/-- The one store is of the whole buffer, so it covers it. -/
theorem cover3_5 (p0 : Vec F S2000x256 .f32) (y : S2000x256.Idx) :
    ∃ pc ∈ ([⟨r3_1, p0⟩] : List (View.Piece (Elt F) S2000x256 .f32)), y ∈ pc.1.set :=
  View.cover_of_tiled [⟨r3_1, p0⟩] S2000x256.size (by rfl) y

/-! ## The body's triple -/

set_option maxHeartbeats 1000000 in
/-- The body on whole staging memrefs, the five inputs' at read contents `x0 … x4` and the output's at anything,
    runs to the continuation holding the inputs' as they were and the output's at `out3_5` of the inputs'. -/
theorem sound_kernel3 (c : Dev nD) (E : Set ℕ) (i : grid3.Coords) (arg1 : Memref sig .tc .vmem S2000x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256 .f32) (x2 : Vec F S256 .f32) (x3 : Vec F S256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_apply_kernel i arg1 harg1 arg2 harg2 arg3 harg3 arg4 harg4 arg5 harg5 arg6 harg6) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point
    `t` each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.A5.lean ====
import proofs.«130186_j80642305950442_1_alg».proof.Proof.Gen.Kernel.Launch
import proofs.«130186_j80642305950442_1_alg».proof.Proof.Gen.Kernel.Skeleton
import proofs.«130186_j80642305950442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 5: the elementwise normalisation ((z - mean) * rsqrt(var + eps)) * gamma + beta over blocks of 2000 rows -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not, for any proof data
    whose array is `V`'s (`hA`) and whose body leaves the block in place (`hafter`): where the window is not
    fetched its block index has not moved, so the block of the point before is the block of this point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not, for any proof data
    whose array is `V`'s (`hA`) and whose body leaves the block in place (`hafter`): where the window is not
    fetched its block index has not moved, so the block of the point before is the block of this point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not, for any proof data
    whose array is `V`'s (`hA`) and whose body leaves the block in place (`hafter`): where the window is not
    fetched its block index has not moved, so the block of the point before is the block of this point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not, for any proof data
    whose array is `V`'s (`hA`) and whose body leaves the block in place (`hafter`): where the window is not
    fetched its block index has not moved, so the block of the point before is the block of this point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not, for any proof data
    whose array is `V`'s (`hA`) and whose body leaves the block in place (`hafter`): where the window is not
    fetched its block index has not moved, so the block of the point before is the block of this point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: a whole row of 256 and a whole block of 2000 rows -/

abbrev r5_0 : Rect S256 := Rect.unit (s := S256) ![0] S256.size inb_S256_S256_0
abbrev r5_1 : Rect S2000x256 := Rect.unit (s := S2000x256) ![0, 0] S2000x256.size inb_S2000x256_S2000x256_0_0

/-! ## What the body leaves in the output window's buffer -/

/-- Window 5's staging buffer after the body, from the input windows' blocks `x0` (z), `x1` (mean), `x2`
    (variance), `x3` (scale), `x4` (shift): its one store, of the normalised block, over the whole buffer. -/
def out5_5 (x0 : Vec F S2000x256 .f32) (x1 : Vec F S256 .f32) (x2 : Vec F S256 .f32) (x3 : Vec F S256 .f32) (x4 : Vec F S256 .f32) : Vec F S2000x256 .f32 :=
  View.canon [⟨r5_1, k5_pay1 (View.ld x2 r5_0) (View.ld x0 r5_1) (View.ld x1 r5_0) (View.ld x3 r5_0) (View.ld x4 r5_0)⟩]

/-- The one store is of the whole buffer, so it covers it. -/
theorem cover5_5 (p0 : Vec F S2000x256 .f32) (y : S2000x256.Idx) :
    ∃ pc ∈ ([⟨r5_1, p0⟩] : List (View.Piece (Elt F) S2000x256 .f32)), y ∈ pc.1.set :=
  View.cover_of_tiled [⟨r5_1, p0⟩] S2000x256.size (by rfl) y

/-! ## The body's triple -/

set_option maxHeartbeats 1000000 in
/-- The body on whole staging memrefs, the five inputs' at read contents `x0 … x4` and the output's at anything,
    runs to the continuation holding the inputs' as they were and the output's at `out5_5` of the inputs'. -/
theorem sound_kernel5 (c : Dev nD) (E : Set ℕ) (i : grid5.Coords) (arg1 : Memref sig .tc .vmem S2000x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256 .f32) (x2 : Vec F S256 .f32) (x3 : Vec F S256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point
    `t` each input's buffer at its block and the output's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R0Defs.lean ====
/-
  Region 0 of the program: the first dense-and-statistics kernel on its 25 grid points. What the six input
  windows hold at a point (their blocks of the arrays as the region finds them), and the one branch of the
  body (the reset of the two accumulators), decided over the grid: it is taken at the first point only.
-/
import proofs.«130186_j80642305950442_1_alg».proof.Proof.Gen.Kernel.Launch
import proofs.«130186_j80642305950442_1_alg».proof.Proof.Gen.Kernel.Skeleton
import proofs.«130186_j80642305950442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is
    not fetched its block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched its block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is
    not fetched its block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is
    not fetched its block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is
    not fetched its block index has not moved, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is
    not fetched its block index has not moved, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch -/

/-- The condition of the body's one conditional (the reset of the accumulators), from the grid coordinates. -/
abbrev cond0_0 (i : grid0.Coords) : Prop := (Scalar.cmpi .ne (Scalar.extui (Scalar.cmpi .eq (BitVec.ofNat 32 (i 0).val) 0#32)) 0#32) = 1#1
/-- It holds at the first point only: decided over the 25 points. -/
theorem hcond0_0 : ∀ t : Fin cfg0.N, cond0_0 (grid0.coords t) ↔ t.val % 25 = 0 :=
  (by decide +kernel : ∀ t : Fin grid0.N, cond0_0 (grid0.coords t) ↔ t.val % 25 = 0)

/-- One staging buffer of each output window, through which its contents are stated (the choice does not matter). -/
abbrev VO0_6 : View sig .tc .vmem S2000x256 .f32 := (Memref.whole cc0_stg6_0 : Memref sig .tc .vmem S2000x256 .f32).view
abbrev VO0_7 : View sig .tc .vmem S256 .f32 := (Memref.whole cc0_stg7_0 : Memref sig .tc .vmem S256 .f32).view
abbrev VO0_8 : View sig .tc .vmem S256 .f32 := (Memref.whole cc0_stg8_0 : Memref sig .tc .vmem S256 .f32).view

end Cert.Kernel.Hand

end
-- ==== Proof.K.R0RunA.lean ====
/-
  The whole body of region 0's kernel at the first grid point (the reset taken): on whole staging buffers, the six
  inputs at given contents and the three outputs at anything, it runs to the end leaving the inputs as they were
  and in each output's buffer the pieces its stores wrote (last first).
-/
import proofs.«130186_j80642305950442_1_alg».proof.Proof.K.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case A (the first point): the pieces each output's buffer ends with, with the proof that the body runs to them. -/
noncomputable def kernelRun0_A (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.K.R0RunB.lean ====
/-
  The whole body of region 0's kernel at a later grid point (the reset not taken): as at the first point, but the
  two accumulators' buffers enter at their running contents, which the body reads before it writes them.
-/
import proofs.«130186_j80642305950442_1_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case B (points 1 to 24): the pieces each output's buffer ends with, with the proof that the body runs to them. -/
noncomputable def kernelRun0_B (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.K.R0.lean ====
/-
  Region 0 of the program, the first dense-and-statistics kernel, as a pipeline over 25 grid points. Its body
  adds the aggregated neighbours to a block of 2000 rows, applies the two dense maps with their clamps, writes
  the block of results, and adds the block's column sums (of the results and of their squares) to two running
  rows, which are reset at the first point and written back after the last. This file states what every
  window's staging buffer holds after each point — the inputs their blocks, the result window what the body
  stores, the two running rows by recursion on the point — and proves the body's obligation to the pipeline at
  every point from the two whole-body runs (first point; later points).
-/
import proofs.«130186_j80642305950442_1_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## What each case leaves in the outputs' buffers -/

/-- Case A's pieces for output 6 tile its block, so they cover it. -/
theorem cover0_A_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) (y : S2000x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S2000x256.size (by sl_kernel_rfl) y

/-- What case A leaves in output 6's staging buffer: its pieces read back. -/
def out0_A_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) : Vec F S2000x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- Case B's pieces for output 6 tile its block, so they cover it. -/
theorem cover0_B_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S2000x256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).1 S2000x256.size (by sl_kernel_rfl) y

/-- What case B leaves in output 6's staging buffer: its pieces read back. -/
def out0_B_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S2000x256 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xo7 xo8).1)

/-- Case A's pieces for output 7 tile its block, so they cover it. -/
theorem cover0_A_7 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S256.size (by sl_kernel_rfl) y

/-- What case A leaves in output 7's staging buffer: its pieces read back. -/
def out0_A_7 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- Case B's pieces for output 7 tile its block, so they cover it. -/
theorem cover0_B_7 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.1 S256.size (by sl_kernel_rfl) y

/-- What case B leaves in output 7's staging buffer: its pieces read back. -/
def out0_B_7 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xo7 xo8).2.1)

/-- Case A's pieces for output 8 tile its block, so they cover it. -/
theorem cover0_A_8 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.2.1 S256.size (by sl_kernel_rfl) y

/-- What case A leaves in output 8's staging buffer: its pieces read back. -/
def out0_A_8 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 x0 x1 x2 x3 x4 x5).2.2.1)

/-- Case B's pieces for output 8 tile its block, so they cover it. -/
theorem cover0_B_8 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.2.1 S256.size (by sl_kernel_rfl) y

/-- What case B leaves in output 8's staging buffer: its pieces read back. -/
def out0_B_8 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 x0 x1 x2 x3 x4 x5 xo7 xo8).2.2.1)

/-! ## The staging memrefs at a point -/
abbrev ms0_0 (t : Fin cfg0.N) : Memref sig .tc .vmem S2000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256 .f32 := win0_8.stage (cfg0.slots t 8)
abbrev hs0_8 (t : Fin cfg0.N) : (ms0_8 t).IsWhole := hstage0_8 ((cfg0.slots t 8).cast nbuf0_8)

/-! ## What the outputs hold after each point -/

/-- The three outputs' contents together: the block of results, the running column sums, the running column sums of squares. -/
abbrev O0 (F : FTy → Type) : Type := Vec F S2000x256 .f32 × Vec F S256 .f32 × Vec F S256 .f32

/-- The outputs after the first point: case A at the point's memrefs and input blocks. -/
def outs0_A (c : Dev nD) (t : Fin cfg0.N) (h0 : t.val % 25 = 0) : O0 F :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
   out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
   out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t))

/-- The outputs after a later point: case B at the point's memrefs and input blocks, the two running rows entering at `xo7`, `xo8`. -/
def outs0_B (c : Dev nD) (t : Fin cfg0.N) (h0 : ¬t.val % 25 = 0) (xo7 xo8 : Vec F S256 .f32) : O0 F :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) xo7 xo8,
   out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) xo7 xo8,
   out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) xo7 xo8)

/-- THE ACCUMULATION. What the outputs' staging buffers hold after the body at position `n`: case A at the first
    point; at a later point case B, the running rows entering at what the point before left (their buffers are not
    written back in between). -/
def outsAt0 (c : Dev nD) : (n : ℕ) → n < cfg0.N → O0 F
  | 0, hn => outs0_A V c ⟨0, hn⟩ (Nat.zero_mod _)
  | n + 1, hn =>
    if h0 : (n + 1) % 25 = 0 then outs0_A V c ⟨n + 1, hn⟩ h0
    else outs0_B V c ⟨n + 1, hn⟩ h0 (outsAt0 c n (Nat.lt_of_succ_lt hn)).2.1 (outsAt0 c n (Nat.lt_of_succ_lt hn)).2.2

/-- `outsAt0` at a point of case A. -/
theorem outsAt0_A (c : Dev nD) (t : Fin cfg0.N) (h0 : t.val % 25 = 0) :
    outsAt0 V c t.val t.isLt = outs0_A V c t h0 := by
  obtain ⟨n, hn⟩ := t
  cases n with
  | zero => exact rfl
  | succ n => exact (dif_pos h0).trans rfl

/-- `outsAt0` at a point of case B: over what the point before left. -/
theorem outsAt0_B (c : Dev nD) (t : Fin cfg0.N) (h0 : ¬t.val % 25 = 0) :
    outsAt0 V c t.val t.isLt = outs0_B V c t h0 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

theorem outsAt0_A_6 (c : Dev nD) (t : Fin cfg0.N) (h0 : t.val % 25 = 0) :
    (outsAt0 V c t.val t.isLt).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) :=
  by rw [outsAt0_A V c t h0]; unfold outs0_A; with_reducible rfl
theorem outsAt0_B_6 (c : Dev nD) (t : Fin cfg0.N) (h0 : ¬t.val % 25 = 0) :
    (outsAt0 V c t.val t.isLt).1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 :=
  by rw [outsAt0_B V c t h0]; unfold outs0_B; with_reducible rfl

theorem outsAt0_A_7 (c : Dev nD) (t : Fin cfg0.N) (h0 : t.val % 25 = 0) :
    (outsAt0 V c t.val t.isLt).2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) :=
  by rw [outsAt0_A V c t h0]; unfold outs0_A; with_reducible rfl
theorem outsAt0_B_7 (c : Dev nD) (t : Fin cfg0.N) (h0 : ¬t.val % 25 = 0) :
    (outsAt0 V c t.val t.isLt).2.1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 :=
  by rw [outsAt0_B V c t h0]; unfold outs0_B; with_reducible rfl

theorem outsAt0_A_8 (c : Dev nD) (t : Fin cfg0.N) (h0 : t.val % 25 = 0) :
    (outsAt0 V c t.val t.isLt).2.2 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) :=
  by rw [outsAt0_A V c t h0]; unfold outs0_A; with_reducible rfl
theorem outsAt0_B_8 (c : Dev nD) (t : Fin cfg0.N) (h0 : ¬t.val % 25 = 0) :
    (outsAt0 V c t.val t.isLt).2.2 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 :=
  by rw [outsAt0_B V c t h0]; unfold outs0_B; with_reducible rfl

/-! ## The pipeline's proof data -/

/-- The proof data of pipeline 0 on core `c`: the arrays as the region finds them; after the body at point `t` each
    input's buffer at its block and the outputs' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a point of case B output 7's current staging buffer holds what the body left at the point before: the point is
    not the first and the buffer was not written back in between (it is written back after the last point only). -/
theorem before0_7_B (c : Dev nD) (t : Fin cfg0.N) (h0 : ¬t.val % 25 = 0) (d) :
    (dat0 V c).before 7 t d = (outsAt0 V c (t.val - 1) (Nat.lt_of_le_of_lt (Nat.sub_le _ _) t.isLt)).2.1 := by
  have hN : t.val < 25 := lt_of_lt_of_eq t.isLt (show cfg0.N = 25 from N_0)
  rw [Dat.before_out_kept _ 7 rfl t (by omega) (Bool.eq_false_iff.mpr fun h => by have := (flush0_7 _).mp h; dsimp only at this; omega)
    (fun _ => rfl) (fun _ _ => rfl)]
  dsimp only [dat0]

/-- At a point of case B output 8's current staging buffer holds what the body left at the point before: the point is
    not the first and the buffer was not written back in between (it is written back after the last point only). -/
theorem before0_8_B (c : Dev nD) (t : Fin cfg0.N) (h0 : ¬t.val % 25 = 0) (d) :
    (dat0 V c).before 8 t d = (outsAt0 V c (t.val - 1) (Nat.lt_of_le_of_lt (Nat.sub_le _ _) t.isLt)).2.2 := by
  have hN : t.val < 25 := lt_of_lt_of_eq t.isLt (show cfg0.N = 25 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 1600000 in
/-- The body at any point: the inputs' buffers hold their blocks; the point is the first or a later one; at a later
    one the two running rows' buffers hold what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 25 := lt_of_lt_of_eq t.isLt (show cfg0.N = 25 from N_0)
  by_cases h0 : t.val % 25 = 0
  · rw [outsAt0_A_6 V c t h0, outsAt0_A_7 V c t h0, outsAt0_A_8 V c t h0]
    unfold out0_A_6 out0_A_7 out0_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _)
  · rw [outsAt0_B_6 V c t h0, outsAt0_B_7 V c t h0, outsAt0_B_8 V c t h0]
    simp only [before0_7_B V c t h0, before0_8_B V c t h0]
    unfold out0_B_6 out0_B_7 out0_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R2Defs.lean ====
/-
  Region 2 of the program: the second dense-and-statistics kernel on its 25 grid points. What the six input
  windows hold at a point (their blocks of the arrays as the region finds them), and the one branch of the
  body (the reset of the two accumulators), decided over the grid: it is taken at the first point only.
-/
import proofs.«130186_j80642305950442_1_alg».proof.Proof.Gen.Kernel.Launch
import proofs.«130186_j80642305950442_1_alg».proof.Proof.Gen.Kernel.Skeleton
import proofs.«130186_j80642305950442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is
    not fetched its block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is
    not fetched its block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is
    not fetched its block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is
    not fetched its block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is
    not fetched its block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it is
    not fetched its block index has not moved, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch -/

/-- The condition of the body's one conditional (the reset of the accumulators), from the grid coordinates. -/
abbrev cond2_0 (i : grid2.Coords) : Prop := (Scalar.cmpi .ne (Scalar.extui (Scalar.cmpi .eq (BitVec.ofNat 32 (i 0).val) 0#32)) 0#32) = 1#1
/-- It holds at the first point only: decided over the 25 points. -/
theorem hcond2_0 : ∀ t : Fin cfg2.N, cond2_0 (grid2.coords t) ↔ t.val % 25 = 0 :=
  (by decide +kernel : ∀ t : Fin grid2.N, cond2_0 (grid2.coords t) ↔ t.val % 25 = 0)

/-- One staging buffer of each output window, through which its contents are stated (the choice does not matter). -/
abbrev VO2_6 : View sig .tc .vmem S2000x256 .f32 := (Memref.whole cc2_stg6_0 : Memref sig .tc .vmem S2000x256 .f32).view
abbrev VO2_7 : View sig .tc .vmem S256 .f32 := (Memref.whole cc2_stg7_0 : Memref sig .tc .vmem S256 .f32).view
abbrev VO2_8 : View sig .tc .vmem S256 .f32 := (Memref.whole cc2_stg8_0 : Memref sig .tc .vmem S256 .f32).view

end Cert.Kernel.Hand

end
-- ==== Proof.K.R2RunA.lean ====
/-
  The whole body of region 2's kernel at the first grid point (the reset taken): on whole staging buffers, the six
  inputs at given contents and the three outputs at anything, it runs to the end leaving the inputs as they were
  and in each output's buffer the pieces its stores wrote (last first).
-/
import proofs.«130186_j80642305950442_1_alg».proof.Proof.K.R2Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case A (the first point): the pieces each output's buffer ends with, with the proof that the body runs to them. -/
noncomputable def kernelRun2_A (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.K.R2RunB.lean ====
/-
  The whole body of region 2's kernel at a later grid point (the reset not taken): as at the first point, but the
  two accumulators' buffers enter at their running contents, which the body reads before it writes them.
-/
import proofs.«130186_j80642305950442_1_alg».proof.Proof.K.R2RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case B (points 1 to 24): the pieces each output's buffer ends with, with the proof that the body runs to them. -/
noncomputable def kernelRun2_B (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.K.R2.lean ====
/-
  Region 2 of the program, the second dense-and-statistics kernel, as a pipeline over 25 grid points. Its body
  adds the aggregated neighbours to a block of 2000 rows, applies the two dense maps with their clamps, writes
  the block of results, and adds the block's column sums (of the results and of their squares) to two running
  rows, which are reset at the first point and written back after the last. This file states what every
  window's staging buffer holds after each point — the inputs their blocks, the result window what the body
  stores, the two running rows by recursion on the point — and proves the body's obligation to the pipeline at
  every point from the two whole-body runs (first point; later points).
-/
import proofs.«130186_j80642305950442_1_alg».proof.Proof.K.R2RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## What each case leaves in the outputs' buffers -/

/-- Case A's pieces for output 6 tile its block, so they cover it. -/
theorem cover2_A_6 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) (y : S2000x256.Idx) :
    ∃ pc ∈ (kernelRun2_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).1 S2000x256.size (by sl_kernel_rfl) y

/-- What case A leaves in output 6's staging buffer: its pieces read back. -/
def out2_A_6 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) : Vec F S2000x256 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 x0 x1 x2 x3 x4 x5).1)

/-- Case B's pieces for output 6 tile its block, so they cover it. -/
theorem cover2_B_6 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S2000x256.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).1 S2000x256.size (by sl_kernel_rfl) y

/-- What case B leaves in output 6's staging buffer: its pieces read back. -/
def out2_B_6 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S2000x256 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 x0 x1 x2 x3 x4 x5 xo7 xo8).1)

/-- Case A's pieces for output 7 tile its block, so they cover it. -/
theorem cover2_A_7 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.1 S256.size (by sl_kernel_rfl) y

/-- What case A leaves in output 7's staging buffer: its pieces read back. -/
def out2_A_7 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 hc0 x0 x1 x2 x3 x4 x5).2.1)

/-- Case B's pieces for output 7 tile its block, so they cover it. -/
theorem cover2_B_7 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.1 S256.size (by sl_kernel_rfl) y

/-- What case B leaves in output 7's staging buffer: its pieces read back. -/
def out2_B_7 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 hc0 x0 x1 x2 x3 x4 x5 xo7 xo8).2.1)

/-- Case A's pieces for output 8 tile its block, so they cover it. -/
theorem cover2_A_8 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.2.1 S256.size (by sl_kernel_rfl) y

/-- What case A leaves in output 8's staging buffer: its pieces read back. -/
def out2_A_8 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 hc0 x0 x1 x2 x3 x4 x5).2.2.1)

/-- Case B's pieces for output 8 tile its block, so they cover it. -/
theorem cover2_B_8 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.2.1 S256.size (by sl_kernel_rfl) y

/-- What case B leaves in output 8's staging buffer: its pieces read back. -/
def out2_B_8 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 hc0 x0 x1 x2 x3 x4 x5 xo7 xo8).2.2.1)

/-! ## The staging memrefs at a point -/
abbrev ms2_0 (t : Fin cfg2.N) : Memref sig .tc .vmem S2000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2000x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S256 .f32 := win2_8.stage (cfg2.slots t 8)
abbrev hs2_8 (t : Fin cfg2.N) : (ms2_8 t).IsWhole := hstage2_8 ((cfg2.slots t 8).cast nbuf2_8)

/-! ## What the outputs hold after each point -/

/-- The three outputs' contents together: the block of results, the running column sums, the running column sums of squares. -/
abbrev O2 (F : FTy → Type) : Type := Vec F S2000x256 .f32 × Vec F S256 .f32 × Vec F S256 .f32

/-- The outputs after the first point: case A at the point's memrefs and input blocks. -/
def outs2_A (c : Dev nD) (t : Fin cfg2.N) (h0 : t.val % 25 = 0) : O2 F :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
   out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
   out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t))

/-- The outputs after a later point: case B at the point's memrefs and input blocks, the two running rows entering at `xo7`, `xo8`. -/
def outs2_B (c : Dev nD) (t : Fin cfg2.N) (h0 : ¬t.val % 25 = 0) (xo7 xo8 : Vec F S256 .f32) : O2 F :=
  (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) xo7 xo8,
   out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) xo7 xo8,
   out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) xo7 xo8)

/-- THE ACCUMULATION. What the outputs' staging buffers hold after the body at position `n`: case A at the first
    point; at a later point case B, the running rows entering at what the point before left (their buffers are not
    written back in between). -/
def outsAt2 (c : Dev nD) : (n : ℕ) → n < cfg2.N → O2 F
  | 0, hn => outs2_A V c ⟨0, hn⟩ (Nat.zero_mod _)
  | n + 1, hn =>
    if h0 : (n + 1) % 25 = 0 then outs2_A V c ⟨n + 1, hn⟩ h0
    else outs2_B V c ⟨n + 1, hn⟩ h0 (outsAt2 c n (Nat.lt_of_succ_lt hn)).2.1 (outsAt2 c n (Nat.lt_of_succ_lt hn)).2.2

/-- `outsAt2` at a point of case A. -/
theorem outsAt2_A (c : Dev nD) (t : Fin cfg2.N) (h0 : t.val % 25 = 0) :
    outsAt2 V c t.val t.isLt = outs2_A V c t h0 := by
  obtain ⟨n, hn⟩ := t
  cases n with
  | zero => exact rfl
  | succ n => exact (dif_pos h0).trans rfl

/-- `outsAt2` at a point of case B: over what the point before left. -/
theorem outsAt2_B (c : Dev nD) (t : Fin cfg2.N) (h0 : ¬t.val % 25 = 0) :
    outsAt2 V c t.val t.isLt = outs2_B V c t h0 (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

theorem outsAt2_A_6 (c : Dev nD) (t : Fin cfg2.N) (h0 : t.val % 25 = 0) :
    (outsAt2 V c t.val t.isLt).1 = out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) :=
  by rw [outsAt2_A V c t h0]; unfold outs2_A; with_reducible rfl
theorem outsAt2_B_6 (c : Dev nD) (t : Fin cfg2.N) (h0 : ¬t.val % 25 = 0) :
    (outsAt2 V c t.val t.isLt).1 = out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 :=
  by rw [outsAt2_B V c t h0]; unfold outs2_B; with_reducible rfl

theorem outsAt2_A_7 (c : Dev nD) (t : Fin cfg2.N) (h0 : t.val % 25 = 0) :
    (outsAt2 V c t.val t.isLt).2.1 = out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) :=
  by rw [outsAt2_A V c t h0]; unfold outs2_A; with_reducible rfl
theorem outsAt2_B_7 (c : Dev nD) (t : Fin cfg2.N) (h0 : ¬t.val % 25 = 0) :
    (outsAt2 V c t.val t.isLt).2.1 = out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 :=
  by rw [outsAt2_B V c t h0]; unfold outs2_B; with_reducible rfl

theorem outsAt2_A_8 (c : Dev nD) (t : Fin cfg2.N) (h0 : t.val % 25 = 0) :
    (outsAt2 V c t.val t.isLt).2.2 = out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) :=
  by rw [outsAt2_A V c t h0]; unfold outs2_A; with_reducible rfl
theorem outsAt2_B_8 (c : Dev nD) (t : Fin cfg2.N) (h0 : ¬t.val % 25 = 0) :
    (outsAt2 V c t.val t.isLt).2.2 = out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 :=
  by rw [outsAt2_B V c t h0]; unfold outs2_B; with_reducible rfl

/-! ## The pipeline's proof data -/

/-- The proof data of pipeline 2 on core `c`: the arrays as the region finds them; after the body at point `t` each
    input's buffer at its block and the outputs' at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- At a point of case B output 7's current staging buffer holds what the body left at the point before: the point is
    not the first and the buffer was not written back in between (it is written back after the last point only). -/
theorem before2_7_B (c : Dev nD) (t : Fin cfg2.N) (h0 : ¬t.val % 25 = 0) (d) :
    (dat2 V c).before 7 t d = (outsAt2 V c (t.val - 1) (Nat.lt_of_le_of_lt (Nat.sub_le _ _) t.isLt)).2.1 := by
  have hN : t.val < 25 := lt_of_lt_of_eq t.isLt (show cfg2.N = 25 from N_2)
  rw [Dat.before_out_kept _ 7 rfl t (by omega) (Bool.eq_false_iff.mpr fun h => by have := (flush2_7 _).mp h; dsimp only at this; omega)
    (fun _ => rfl) (fun _ _ => rfl)]
  dsimp only [dat2]

/-- At a point of case B output 8's current staging buffer holds what the body left at the point before: the point is
    not the first and the buffer was not written back in between (it is written back after the last point only). -/
theorem before2_8_B (c : Dev nD) (t : Fin cfg2.N) (h0 : ¬t.val % 25 = 0) (d) :
    (dat2 V c).before 8 t d = (outsAt2 V c (t.val - 1) (Nat.lt_of_le_of_lt (Nat.sub_le _ _) t.isLt)).2.2 := by
  have hN : t.val < 25 := lt_of_lt_of_eq t.isLt (show cfg2.N = 25 from N_2)
  rw [Dat.before_out_kept _ 8 rfl t (by omega) (Bool.eq_false_iff.mpr fun h => by have := (flush2_8 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 1600000 in
/-- The body at any point: the inputs' buffers hold their blocks; the point is the first or a later one; at a later
    one the two running rows' buffers hold what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  have hN : t.val < 25 := lt_of_lt_of_eq t.isLt (show cfg2.N = 25 from N_2)
  by_cases h0 : t.val % 25 = 0
  · rw [outsAt2_A_6 V c t h0, outsAt2_A_7 V c t h0, outsAt2_A_8 V c t h0]
    unfold out2_A_6 out2_A_7 out2_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _)
    unfold owns; iexists _; isplitr
    swap; · iexact H8
    ipureintro; exact View.read_writes_of_cover _ _ _ _ _ (cover2_A_8 c _ _ _ _ _ _ _ _ _ _ _ _ _ _ _ _ _ _ _ _ _ _ _ _ _ _)
  · rw [outsAt2_B_6 V c t h0, outsAt2_B_7 V c t h0, outsAt2_B_8 V c t h0]
    simp only [before2_7_B V c t h0, before2_8_B V c t h0]
    unfold out2_B_6 out2_B_7 out2_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _)
    unfold owns; iexists _; isplitr
    swap; · iexact H8
    ipureintro; exact View.read_writes_of_cover _ _ _ _ _ (cover2_B_8 c _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R4Defs.lean ====
/-
  Region 4 of the program: the third dense-and-statistics kernel on its 25 grid points. What the six input
  windows hold at a point (their blocks of the arrays as the region finds them), and the one branch of the
  body (the reset of the two accumulators), decided over the grid: it is taken at the first point only.
-/
import proofs.«130186_j80642305950442_1_alg».proof.Proof.Gen.Kernel.Launch
import proofs.«130186_j80642305950442_1_alg».proof.Proof.Gen.Kernel.Skeleton
import proofs.«130186_j80642305950442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it is
    not fetched its block index has not moved, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: where it is
    not fetched its block index has not moved, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: where it is
    not fetched its block index has not moved, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not: where it is
    not fetched its block index has not moved, and the body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not: where it is
    not fetched its block index has not moved, and the body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not: where it is
    not fetched its block index has not moved, and the body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch -/

/-- The condition of the body's one conditional (the reset of the accumulators), from the grid coordinates. -/
abbrev cond4_0 (i : grid4.Coords) : Prop := (Scalar.cmpi .ne (Scalar.extui (Scalar.cmpi .eq (BitVec.ofNat 32 (i 0).val) 0#32)) 0#32) = 1#1
/-- It holds at the first point only: decided over the 25 points. -/
theorem hcond4_0 : ∀ t : Fin cfg4.N, cond4_0 (grid4.coords t) ↔ t.val % 25 = 0 :=
  (by decide +kernel : ∀ t : Fin grid4.N, cond4_0 (grid4.coords t) ↔ t.val % 25 = 0)

/-- One staging buffer of each output window, through which its contents are stated (the choice does not matter). -/
abbrev VO4_6 : View sig .tc .vmem S2000x256 .f32 := (Memref.whole cc4_stg6_0 : Memref sig .tc .vmem S2000x256 .f32).view
abbrev VO4_7 : View sig .tc .vmem S256 .f32 := (Memref.whole cc4_stg7_0 : Memref sig .tc .vmem S256 .f32).view
abbrev VO4_8 : View sig .tc .vmem S256 .f32 := (Memref.whole cc4_stg8_0 : Memref sig .tc .vmem S256 .f32).view

end Cert.Kernel.Hand

end
-- ==== Proof.K.R4RunA.lean ====
/-
  The whole body of region 4's kernel at the first grid point (the reset taken): on whole staging buffers, the six
  inputs at given contents and the three outputs at anything, it runs to the end leaving the inputs as they were
  and in each output's buffer the pieces its stores wrote (last first).
-/
import proofs.«130186_j80642305950442_1_alg».proof.Proof.K.R4Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case A (the first point): the pieces each output's buffer ends with, with the proof that the body runs to them. -/
noncomputable def kernelRun4_A (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.K.R4RunB.lean ====
/-
  The whole body of region 4's kernel at a later grid point (the reset not taken): as at the first point, but the
  two accumulators' buffers enter at their running contents, which the body reads before it writes them.
-/
import proofs.«130186_j80642305950442_1_alg».proof.Proof.K.R4RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case B (points 1 to 24): the pieces each output's buffer ends with, with the proof that the body runs to them. -/
noncomputable def kernelRun4_B (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.K.R4.lean ====
/-
  Region 4 of the program, the third dense-and-statistics kernel, as a pipeline over 25 grid points. Its body
  adds the aggregated neighbours to a block of 2000 rows, applies the two dense maps with their clamps, writes
  the block of results, and adds the block's column sums (of the results and of their squares) to two running
  rows, which are reset at the first point and written back after the last. This file states what every
  window's staging buffer holds after each point — the inputs their blocks, the result window what the body
  stores, the two running rows by recursion on the point — and proves the body's obligation to the pipeline at
  every point from the two whole-body runs (first point; later points).
-/
import proofs.«130186_j80642305950442_1_alg».proof.Proof.K.R4RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## What each case leaves in the outputs' buffers -/

/-- Case A's pieces for output 6 tile its block, so they cover it. -/
theorem cover4_A_6 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) (y : S2000x256.Idx) :
    ∃ pc ∈ (kernelRun4_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).1 S2000x256.size (by sl_kernel_rfl) y

/-- What case A leaves in output 6's staging buffer: its pieces read back. -/
def out4_A_6 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) : Vec F S2000x256 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 x0 x1 x2 x3 x4 x5).1)

/-- Case B's pieces for output 6 tile its block, so they cover it. -/
theorem cover4_B_6 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S2000x256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).1 S2000x256.size (by sl_kernel_rfl) y

/-- What case B leaves in output 6's staging buffer: its pieces read back. -/
def out4_B_6 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S2000x256 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 x0 x1 x2 x3 x4 x5 xo7 xo8).1)

/-- Case A's pieces for output 7 tile its block, so they cover it. -/
theorem cover4_A_7 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.1 S256.size (by sl_kernel_rfl) y

/-- What case A leaves in output 7's staging buffer: its pieces read back. -/
def out4_A_7 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 hc0 x0 x1 x2 x3 x4 x5).2.1)

/-- Case B's pieces for output 7 tile its block, so they cover it. -/
theorem cover4_B_7 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.1 S256.size (by sl_kernel_rfl) y

/-- What case B leaves in output 7's staging buffer: its pieces read back. -/
def out4_B_7 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 hc0 x0 x1 x2 x3 x4 x5 xo7 xo8).2.1)

/-- Case A's pieces for output 8 tile its block, so they cover it. -/
theorem cover4_A_8 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.2.1 S256.size (by sl_kernel_rfl) y

/-- What case A leaves in output 8's staging buffer: its pieces read back. -/
def out4_A_8 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 hc0 x0 x1 x2 x3 x4 x5).2.2.1)

/-- Case B's pieces for output 8 tile its block, so they cover it. -/
theorem cover4_B_8 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.2.1 S256.size (by sl_kernel_rfl) y

/-- What case B leaves in output 8's staging buffer: its pieces read back. -/
def out4_B_8 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 hc0 x0 x1 x2 x3 x4 x5 xo7 xo8).2.2.1)

/-! ## The staging memrefs at a point -/
abbrev ms4_0 (t : Fin cfg4.N) : Memref sig .tc .vmem S2000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S256 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S256 .f32 := win4_8.stage (cfg4.slots t 8)
abbrev hs4_8 (t : Fin cfg4.N) : (ms4_8 t).IsWhole := hstage4_8 ((cfg4.slots t 8).cast nbuf4_8)

/-! ## What the outputs hold after each point -/

/-- The three outputs' contents together: the block of results, the running column sums, the running column sums of squares. -/
abbrev O4 (F : FTy → Type) : Type := Vec F S2000x256 .f32 × Vec F S256 .f32 × Vec F S256 .f32

/-- The outputs after the first point: case A at the point's memrefs and input blocks. -/
def outs4_A (c : Dev nD) (t : Fin cfg4.N) (h0 : t.val % 25 = 0) : O4 F :=
  (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
   out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
   out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t))

/-- The outputs after a later point: case B at the point's memrefs and input blocks, the two running rows entering at `xo7`, `xo8`. -/
def outs4_B (c : Dev nD) (t : Fin cfg4.N) (h0 : ¬t.val % 25 = 0) (xo7 xo8 : Vec F S256 .f32) : O4 F :=
  (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) xo7 xo8,
   out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) xo7 xo8,
   out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) xo7 xo8)

/-- THE ACCUMULATION. What the outputs' staging buffers hold after the body at position `n`: case A at the first
    point; at a later point case B, the running rows entering at what the point before left (their buffers are not
    written back in between). -/
def outsAt4 (c : Dev nD) : (n : ℕ) → n < cfg4.N → O4 F
  | 0, hn => outs4_A V c ⟨0, hn⟩ (Nat.zero_mod _)
  | n + 1, hn =>
    if h0 : (n + 1) % 25 = 0 then outs4_A V c ⟨n + 1, hn⟩ h0
    else outs4_B V c ⟨n + 1, hn⟩ h0 (outsAt4 c n (Nat.lt_of_succ_lt hn)).2.1 (outsAt4 c n (Nat.lt_of_succ_lt hn)).2.2

/-- `outsAt4` at a point of case A. -/
theorem outsAt4_A (c : Dev nD) (t : Fin cfg4.N) (h0 : t.val % 25 = 0) :
    outsAt4 V c t.val t.isLt = outs4_A V c t h0 := by
  obtain ⟨n, hn⟩ := t
  cases n with
  | zero => exact rfl
  | succ n => exact (dif_pos h0).trans rfl

/-- `outsAt4` at a point of case B: over what the point before left. -/
theorem outsAt4_B (c : Dev nD) (t : Fin cfg4.N) (h0 : ¬t.val % 25 = 0) :
    outsAt4 V c t.val t.isLt = outs4_B V c t h0 (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

theorem outsAt4_A_6 (c : Dev nD) (t : Fin cfg4.N) (h0 : t.val % 25 = 0) :
    (outsAt4 V c t.val t.isLt).1 = out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t) :=
  by rw [outsAt4_A V c t h0]; unfold outs4_A; with_reducible rfl
theorem outsAt4_B_6 (c : Dev nD) (t : Fin cfg4.N) (h0 : ¬t.val % 25 = 0) :
    (outsAt4 V c t.val t.isLt).1 = out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 :=
  by rw [outsAt4_B V c t h0]; unfold outs4_B; with_reducible rfl

theorem outsAt4_A_7 (c : Dev nD) (t : Fin cfg4.N) (h0 : t.val % 25 = 0) :
    (outsAt4 V c t.val t.isLt).2.1 = out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t) :=
  by rw [outsAt4_A V c t h0]; unfold outs4_A; with_reducible rfl
theorem outsAt4_B_7 (c : Dev nD) (t : Fin cfg4.N) (h0 : ¬t.val % 25 = 0) :
    (outsAt4 V c t.val t.isLt).2.1 = out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 :=
  by rw [outsAt4_B V c t h0]; unfold outs4_B; with_reducible rfl

theorem outsAt4_A_8 (c : Dev nD) (t : Fin cfg4.N) (h0 : t.val % 25 = 0) :
    (outsAt4 V c t.val t.isLt).2.2 = out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t) :=
  by rw [outsAt4_A V c t h0]; unfold outs4_A; with_reducible rfl
theorem outsAt4_B_8 (c : Dev nD) (t : Fin cfg4.N) (h0 : ¬t.val % 25 = 0) :
    (outsAt4 V c t.val t.isLt).2.2 = out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 :=
  by rw [outsAt4_B V c t h0]; unfold outs4_B; with_reducible rfl

/-! ## The pipeline's proof data -/

/-- The proof data of pipeline 4 on core `c`: the arrays as the region finds them; after the body at point `t` each
    input's buffer at its block and the outputs' at `outsAt4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- At a point of case B output 7's current staging buffer holds what the body left at the point before: the point is
    not the first and the buffer was not written back in between (it is written back after the last point only). -/
theorem before4_7_B (c : Dev nD) (t : Fin cfg4.N) (h0 : ¬t.val % 25 = 0) (d) :
    (dat4 V c).before 7 t d = (outsAt4 V c (t.val - 1) (Nat.lt_of_le_of_lt (Nat.sub_le _ _) t.isLt)).2.1 := by
  have hN : t.val < 25 := lt_of_lt_of_eq t.isLt (show cfg4.N = 25 from N_4)
  rw [Dat.before_out_kept _ 7 rfl t (by omega) (Bool.eq_false_iff.mpr fun h => by have := (flush4_7 _).mp h; dsimp only at this; omega)
    (fun _ => rfl) (fun _ _ => rfl)]
  dsimp only [dat4]

/-- At a point of case B output 8's current staging buffer holds what the body left at the point before: the point is
    not the first and the buffer was not written back in between (it is written back after the last point only). -/
theorem before4_8_B (c : Dev nD) (t : Fin cfg4.N) (h0 : ¬t.val % 25 = 0) (d) :
    (dat4 V c).before 8 t d = (outsAt4 V c (t.val - 1) (Nat.lt_of_le_of_lt (Nat.sub_le _ _) t.isLt)).2.2 := by
  have hN : t.val < 25 := lt_of_lt_of_eq t.isLt (show cfg4.N = 25 from N_4)
  rw [Dat.before_out_kept _ 8 rfl t (by omega) (Bool.eq_false_iff.mpr fun h => by have := (flush4_8 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

set_option maxHeartbeats 1600000 in
/-- The body at any point: the inputs' buffers hold their blocks; the point is the first or a later one; at a later
    one the two running rows' buffers hold what the point before left; so the case's run applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  have hN : t.val < 25 := lt_of_lt_of_eq t.isLt (show cfg4.N = 25 from N_4)
  by_cases h0 : t.val % 25 = 0
  · rw [outsAt4_A_6 V c t h0, outsAt4_A_7 V c t h0, outsAt4_A_8 V c t h0]
    unfold out4_A_6 out4_A_7 out4_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) _ _ _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_A_7 c _ _ _ _ _ _ _ _ _ _ _ _ _ _ _ _ _ _ _ _ _ _ _ _ _ _)
    unfold owns; iexists _; isplitr
    swap; · iexact H8
    ipureintro; exact View.read_writes_of_cover _ _ _ _ _ (cover4_A_8 c _ _ _ _ _ _ _ _ _ _ _ _ _ _ _ _ _ _ _ _ _ _ _ _ _ _)
  · rw [outsAt4_B_6 V c t h0, outsAt4_B_7 V c t h0, outsAt4_B_8 V c t h0]
    simp only [before4_7_B V c t h0, before4_8_B V c t h0]
    unfold out4_B_6 out4_B_7 out4_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_B c (grid4.coords t) _ _ _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_B_7 c _ _ _ _ _ _ _ _ _ _ _ _ _ _ _ _ _ _ _ _ _ _ _ _ _ _ _ _)
    unfold owns; iexists _; isplitr
    swap; · iexact H8
    ipureintro; exact View.read_writes_of_cover _ _ _ _ _ (cover4_B_8 c _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The run of the kernel program from the launch to the return. @main is thirteen segments: seven stretches of host
  operations and, between them, six kernel regions (per layer one region that applies the two dense maps and
  accumulates the column sums, and one that normalises). The buffer contents at every segment boundary are
  a fold from the launch memory: a host stretch applies its operations; a region leaves each of its window
  arrays at what its write-backs leave and every other buffer untouched. Each region is entered with every
  unscoped buffer held at the boundary's contents; its arrays are split out for the pipeline and put back at
  the exit contents. At the return every unscoped buffer is read against the last boundary's contents, which
  gives both the frame (no segment writes an argument) and the value of the result buffer.
-/
import proofs.«130186_j80642305950442_1_alg».proof.Proof.K.A1
import proofs.«130186_j80642305950442_1_alg».proof.Proof.K.A3
import proofs.«130186_j80642305950442_1_alg».proof.Proof.K.A5
import proofs.«130186_j80642305950442_1_alg».proof.Proof.K.R0
import proofs.«130186_j80642305950442_1_alg».proof.Proof.K.R2
import proofs.«130186_j80642305950442_1_alg».proof.Proof.K.R4
import proofs.«130186_j80642305950442_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After host stretch 0: region 0's entry. -/
abbrev W1 : Dev nD → Valuation τ sig (Elt F) := fun c => StableHlo.after hostOps0 (W0 m ρ c)
/-- The same read at the TensorCore's references. -/
abbrev Vin0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)
/-- A host stretch leaves every reference it does not write. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- After host stretch 1: region 1's entry. -/
abbrev W3 : Dev nD → Valuation τ sig (Elt F) := fun c => StableHlo.after hostOps1 (W2 m ρ c)
/-- The same read at the TensorCore's references. -/
abbrev Vin1 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (Vin1 m ρ) c).arrAt w cfg1.N
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vout1 : (c : Dev nD) → (b : Ref sig .tc) → Buf (Elt F) ((c : Thread nD τ).loc b) := fun c b => W4 m ρ c b
theorem hF1 (c : Dev nD) (w : Fin cfg1.W) : (dat1 (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)
/-- A host stretch leaves every reference it does not write. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- After host stretch 2: region 2's entry. -/
abbrev W5 : Dev nD → Valuation τ sig (Elt F) := fun c => StableHlo.after hostOps2 (W4 m ρ c)
/-- The same read at the TensorCore's references. -/
abbrev Vin2 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (Vin2 m ρ) c).arrAt w cfg2.N
theorem W6_arr (c : Dev nD) (w : Fin cfg2.W) :
    W6 m ρ c (Proc.devRef .tc (Pipeline.arrRef spec2 w)) = (dat2 (Vin2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vout2 : (c : Dev nD) → (b : Ref sig .tc) → Buf (Elt F) ((c : Thread nD τ).loc b) := fun c b => W6 m ρ c b
theorem hF2 (c : Dev nD) (w : Fin cfg2.W) : (dat2 (Vin2 m ρ) c).arrAt w cfg2.N = Vout2 m ρ c (Pipeline.arrRef spec2 w) :=
  (W6_arr m ρ c w).symm
theorem hrest2 (c : Dev nD) : ∀ b, b ∉ Finset.univ.image (Pipeline.arrRef spec2) → Vout2 m ρ c b = Vin2 m ρ c b :=
  fun b hb => W6_of_ne m ρ c b fun w e => hb (Finset.mem_image.mpr ⟨w, Finset.mem_univ _, e⟩)
/-- A host stretch leaves every reference it does not write. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- After host stretch 3: region 3's entry. -/
abbrev W7 : Dev nD → Valuation τ sig (Elt F) := fun c => StableHlo.after hostOps3 (W6 m ρ c)
/-- The same read at the TensorCore's references. -/
abbrev Vin3 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (Vin3 m ρ) c).arrAt w cfg3.N
theorem W8_arr (c : Dev nD) (w : Fin cfg3.W) :
    W8 m ρ c (Proc.devRef .tc (Pipeline.arrRef spec3 w)) = (dat3 (Vin3 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Vout3 : (c : Dev nD) → (b : Ref sig .tc) → Buf (Elt F) ((c : Thread nD τ).loc b) := fun c b => W8 m ρ c b
theorem hF3 (c : Dev nD) (w : Fin cfg3.W) : (dat3 (Vin3 m ρ) c).arrAt w cfg3.N = Vout3 m ρ c (Pipeline.arrRef spec3 w) :=
  (W8_arr m ρ c w).symm
theorem hrest3 (c : Dev nD) : ∀ b, b ∉ Finset.univ.image (Pipeline.arrRef spec3) → Vout3 m ρ c b = Vin3 m ρ c b :=
  fun b hb => W8_of_ne m ρ c b fun w e => hb (Finset.mem_image.mpr ⟨w, Finset.mem_univ _, e⟩)
/-- A host stretch leaves every reference it does not write. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-- After host stretch 4: region 4's entry. -/
abbrev W9 : Dev nD → Valuation τ sig (Elt F) := fun c => StableHlo.after hostOps4 (W8 m ρ c)
/-- The same read at the TensorCore's references. -/
abbrev Vin4 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (Vin4 m ρ) c).arrAt w cfg4.N
theorem W10_arr (c : Dev nD) (w : Fin cfg4.W) :
    W10 m ρ c (Proc.devRef .tc (Pipeline.arrRef spec4 w)) = (dat4 (Vin4 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev Vout4 : (c : Dev nD) → (b : Ref sig .tc) → Buf (Elt F) ((c : Thread nD τ).loc b) := fun c b => W10 m ρ c b
theorem hF4 (c : Dev nD) (w : Fin cfg4.W) : (dat4 (Vin4 m ρ) c).arrAt w cfg4.N = Vout4 m ρ c (Pipeline.arrRef spec4 w) :=
  (W10_arr m ρ c w).symm
theorem hrest4 (c : Dev nD) : ∀ b, b ∉ Finset.univ.image (Pipeline.arrRef spec4) → Vout4 m ρ c b = Vin4 m ρ c b :=
  fun b hb => W10_of_ne m ρ c b fun w e => hb (Finset.mem_image.mpr ⟨w, Finset.mem_univ _, e⟩)
/-- A host stretch leaves every reference it does not write. -/
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h

/-- After host stretch 5: region 5's entry. -/
abbrev W11 : Dev nD → Valuation τ sig (Elt F) := fun c => StableHlo.after hostOps5 (W10 m ρ c)
/-- The same read at the TensorCore's references. -/
abbrev Vin5 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (Vin5 m ρ) c).arrAt w cfg5.N
theorem W12_arr (c : Dev nD) (w : Fin cfg5.W) :
    W12 m ρ c (Proc.devRef .tc (Pipeline.arrRef spec5 w)) = (dat5 (Vin5 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev Vout5 : (c : Dev nD) → (b : Ref sig .tc) → Buf (Elt F) ((c : Thread nD τ).loc b) := fun c b => W12 m ρ c b
theorem hF5 (c : Dev nD) (w : Fin cfg5.W) : (dat5 (Vin5 m ρ) c).arrAt w cfg5.N = Vout5 m ρ c (Pipeline.arrRef spec5 w) :=
  (W12_arr m ρ c w).symm
theorem hrest5 (c : Dev nD) : ∀ b, b ∉ Finset.univ.image (Pipeline.arrRef spec5) → Vout5 m ρ c b = Vin5 m ρ c b :=
  fun b hb => W12_of_ne m ρ c b fun w e => hb (Finset.mem_image.mpr ⟨w, Finset.mem_univ _, e⟩)
/-- A host stretch leaves every reference it does not write. -/
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h

/-- After the last host stretch: the contents at the return. -/
abbrev W13 : Dev nD → Valuation τ sig (Elt F) := fun c => StableHlo.after hostOps6 (W12 m ρ c)
theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h

/-! ## The arguments end as launched -/

/-- A reference that no host stretch writes and no region stages keeps its launch contents to the return. -/
theorem W13_untouched (c : Dev nD) (r : Ref sig .tc)
    (h0 : r ∉ hostOps0_W) (h1 : r ∉ hostOps1_W) (h2 : r ∉ hostOps2_W) (h3 : r ∉ hostOps3_W) (h4 : r ∉ hostOps4_W)
    (h5 : r ∉ hostOps5_W) (h6 : r ∉ hostOps6_W)
    (g0 : ∀ w, Pipeline.arrRef spec0 w ≠ r) (g1 : ∀ w, Pipeline.arrRef spec1 w ≠ r) (g2 : ∀ w, Pipeline.arrRef spec2 w ≠ r)
    (g3 : ∀ w, Pipeline.arrRef spec3 w ≠ r) (g4 : ∀ w, Pipeline.arrRef spec4 w ≠ r) (g5 : ∀ w, Pipeline.arrRef spec5 w ≠ r) :
    W13 m ρ c (Proc.devRef .tc r) = m ((c : Thread nD τ).loc r) :=
  calc W13 m ρ c (Proc.devRef .tc r)
    _ = W12 m ρ c (Proc.devRef .tc r) := W13_keep m ρ c r h6
    _ = W11 m ρ c (Proc.devRef .tc r) := W12_of_ne m ρ c r g5
    _ = W10 m ρ c (Proc.devRef .tc r) := W11_keep m ρ c r h5
    _ = W9 m ρ c (Proc.devRef .tc r) := W10_of_ne m ρ c r g4
    _ = W8 m ρ c (Proc.devRef .tc r) := W9_keep m ρ c r h4
    _ = W7 m ρ c (Proc.devRef .tc r) := W8_of_ne m ρ c r g3
    _ = W6 m ρ c (Proc.devRef .tc r) := W7_keep m ρ c r h3
    _ = W5 m ρ c (Proc.devRef .tc r) := W6_of_ne m ρ c r g2
    _ = W4 m ρ c (Proc.devRef .tc r) := W5_keep m ρ c r h2
    _ = W3 m ρ c (Proc.devRef .tc r) := W4_of_ne m ρ c r g1
    _ = W2 m ρ c (Proc.devRef .tc r) := W3_keep m ρ c r h1
    _ = W1 m ρ c (Proc.devRef .tc r) := W2_of_ne m ρ c r g0
    _ = W0 m ρ c (Proc.devRef .tc r) := W1_keep m ρ c r h0
    _ = m ((c : Thread nD τ).loc r) := rfl

/-- The node features are staged by region 0 as an input window, which the pipeline leaves as entered. -/
theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_keep m ρ c main_arg0 (by decide)
    _ = W11 m ρ c (Proc.devRef .tc main_arg0) := W12_of_ne m ρ c main_arg0 (by decide)
    _ = W10 m ρ c (Proc.devRef .tc main_arg0) := W11_keep m ρ c main_arg0 (by decide)
    _ = W9 m ρ c (Proc.devRef .tc main_arg0) := W10_of_ne m ρ c main_arg0 (by decide)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat0 (Vin0 m ρ) c).arrAt_in 0 rfl _).trans (A_eq0 (Vin0 m ρ) c 0))
    _ = W0 m ρ c (Proc.devRef .tc main_arg0) := W1_keep m ρ c main_arg0 (by decide)
    _ = m ((c : Thread nD τ).loc main_arg0) := rfl
theorem W13_main_arg1 (c : Dev nD) : W13 m ρ c (Proc.devRef .tc main_arg1) = m ((c : Thread nD τ).loc main_arg1) :=
  W13_untouched m ρ c main_arg1 (by decide) (by decide) (by decide) (by decide) (by decide) (by decide) (by decide)
    (by decide) (by decide) (by decide) (by decide) (by decide) (by decide)
theorem W13_main_arg2 (c : Dev nD) : W13 m ρ c (Proc.devRef .tc main_arg2) = m ((c : Thread nD τ).loc main_arg2) :=
  W13_untouched m ρ c main_arg2 (by decide) (by decide) (by decide) (by decide) (by decide) (by decide) (by decide)
    (by decide) (by decide) (by decide) (by decide) (by decide) (by decide)
theorem W13_main_arg3 (c : Dev nD) : W13 m ρ c (Proc.devRef .tc main_arg3) = m ((c : Thread nD τ).loc main_arg3) :=
  W13_untouched m ρ c main_arg3 (by decide) (by decide) (by decide) (by decide) (by decide) (by decide) (by decide)
    (by decide) (by decide) (by decide) (by decide) (by decide) (by decide)
theorem W13_main_arg4 (c : Dev nD) : W13 m ρ c (Proc.devRef .tc main_arg4) = m ((c : Thread nD τ).loc main_arg4) :=
  W13_untouched m ρ c main_arg4 (by decide) (by decide) (by decide) (by decide) (by decide) (by decide) (by decide)
    (by decide) (by decide) (by decide) (by decide) (by decide) (by decide)
theorem W13_main_arg5 (c : Dev nD) : W13 m ρ c (Proc.devRef .tc main_arg5) = m ((c : Thread nD τ).loc main_arg5) :=
  W13_untouched m ρ c main_arg5 (by decide) (by decide) (by decide) (by decide) (by decide) (by decide) (by decide)
    (by decide) (by decide) (by decide) (by decide) (by decide) (by decide)
theorem W13_main_arg6 (c : Dev nD) : W13 m ρ c (Proc.devRef .tc main_arg6) = m ((c : Thread nD τ).loc main_arg6) :=
  W13_untouched m ρ c main_arg6 (by decide) (by decide) (by decide) (by decide) (by decide) (by decide) (by decide)
    (by decide) (by decide) (by decide) (by decide) (by decide) (by decide)
theorem W13_main_arg7 (c : Dev nD) : W13 m ρ c (Proc.devRef .tc main_arg7) = m ((c : Thread nD τ).loc main_arg7) :=
  W13_untouched m ρ c main_arg7 (by decide) (by decide) (by decide) (by decide) (by decide) (by decide) (by decide)
    (by decide) (by decide) (by decide) (by decide) (by decide) (by decide)
theorem W13_main_arg8 (c : Dev nD) : W13 m ρ c (Proc.devRef .tc main_arg8) = m ((c : Thread nD τ).loc main_arg8) :=
  W13_untouched m ρ c main_arg8 (by decide) (by decide) (by decide) (by decide) (by decide) (by decide) (by decide)
    (by decide) (by decide) (by decide) (by decide) (by decide) (by decide)

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents at the return. -/
abbrev Tₙ (c : Dev nD) : sProp 𝕄 := StableHlo.held (c : Thread nD τ) (Pipeline.ucRefs τ sig) (W13 m ρ c)

/-! ## The regions as segments -/

set_option backward.isDefEq.respectTransparency.types false in
/-- Region 0 over the thread state: entered from every unscoped buffer at the contents before it, left at those
    after it. Its arrays are split out of the unscoped buffers and put back at the exit contents; the generator
    register goes into the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those
    after it. Its arrays are split out of the unscoped buffers and put back at the exit contents; the generator
    register goes into the pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those
    after it. Its arrays are split out of the unscoped buffers and put back at the exit contents; the generator
    register goes into the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at those
    after it. Its arrays are split out of the unscoped buffers and put back at the exit contents; the generator
    register goes into the pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at those
    after it. Its arrays are split out of the unscoped buffers and put back at the exit contents; the generator
    register goes into the pipeline's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (Vin4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vin4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vin4 m ρ c) (Vout4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at those
    after it. Its arrays are split out of the unscoped buffers and put back at the exit contents; the generator
    register goes into the pipeline's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (Vin5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vin5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vin5 m ρ c) (Vout5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds each unscoped buffer at the contents the fold computes for the return. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, -, HO⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      show iprop(StableHlo.held (c : Thread nD τ) (Pipeline.ucRefs τ sig) (W13 m ρ c) ∗ SI s') ⊢ _
      unfold StableHlo.held
      iintro ⟨Hh, HSI⟩
      imodintro
      iapply (pointsTo_read_all (Pipeline.ucRefs τ sig) (fun b => (((c : Thread nD τ)).1, b)) (W13 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c)⟩) (run_all m ρ)

end Cert.Kernel.Hand

end
-- ==== Proof.KI.A1.lean ====
import proofs.«130186_j80642305950442_1_alg».proof.Proof.Gen.KernelIdeal.Launch
import proofs.«130186_j80642305950442_1_alg».proof.Proof.Gen.KernelIdeal.Skeleton
import proofs.«130186_j80642305950442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 1: the elementwise normalisation ((z - mean) * rsqrt(var + eps)) * gamma + beta over blocks of 2000 rows -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not, for any proof data
    whose array is `V`'s (`hA`) and whose body leaves the block in place (`hafter`): where the window is not
    fetched its block index has not moved, so the block of the point before is the block of this point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not, for any proof data
    whose array is `V`'s (`hA`) and whose body leaves the block in place (`hafter`): where the window is not
    fetched its block index has not moved, so the block of the point before is the block of this point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not, for any proof data
    whose array is `V`'s (`hA`) and whose body leaves the block in place (`hafter`): where the window is not
    fetched its block index has not moved, so the block of the point before is the block of this point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not, for any proof data
    whose array is `V`'s (`hA`) and whose body leaves the block in place (`hafter`): where the window is not
    fetched its block index has not moved, so the block of the point before is the block of this point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not, for any proof data
    whose array is `V`'s (`hA`) and whose body leaves the block in place (`hafter`): where the window is not
    fetched its block index has not moved, so the block of the point before is the block of this point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: a whole row of 256 and a whole block of 2000 rows -/

abbrev r1_0 : Rect S256 := Rect.unit (s := S256) ![0] S256.size inb_S256_S256_0
abbrev r1_1 : Rect S2000x256 := Rect.unit (s := S2000x256) ![0, 0] S2000x256.size inb_S2000x256_S2000x256_0_0

/-! ## What the body leaves in the output window's buffer -/

/-- Window 5's staging buffer after the body, from the input windows' blocks `x0` (z), `x1` (mean), `x2`
    (variance), `x3` (scale), `x4` (shift): its one store, of the normalised block, over the whole buffer. -/
def out1_5 (x0 : Vec F S2000x256 .f32) (x1 : Vec F S256 .f32) (x2 : Vec F S256 .f32) (x3 : Vec F S256 .f32) (x4 : Vec F S256 .f32) : Vec F S2000x256 .f32 :=
  View.canon [⟨r1_1, k1_pay1 (View.ld x2 r1_0) (View.ld x0 r1_1) (View.ld x1 r1_0) (View.ld x3 r1_0) (View.ld x4 r1_0)⟩]

/-- The one store is of the whole buffer, so it covers it. -/
theorem cover1_5 (p0 : Vec F S2000x256 .f32) (y : S2000x256.Idx) :
    ∃ pc ∈ ([⟨r1_1, p0⟩] : List (View.Piece (Elt F) S2000x256 .f32)), y ∈ pc.1.set :=
  View.cover_of_tiled [⟨r1_1, p0⟩] S2000x256.size (by rfl) y

/-! ## The body's triple -/

set_option maxHeartbeats 1000000 in
/-- The body on whole staging memrefs, the five inputs' at read contents `x0 … x4` and the output's at anything,
    runs to the continuation holding the inputs' as they were and the output's at `out1_5` of the inputs'. -/
theorem sound_kernel1 (c : Dev nD) (E : Set ℕ) (i : grid1.Coords) (arg1 : Memref sig .tc .vmem S2000x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256 .f32) (x2 : Vec F S256 .f32) (x3 : Vec F S256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_apply_kernel i arg1 harg1 arg2 harg2 arg3 harg3 arg4 harg4 arg5 harg5 arg6 harg6) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.A3.lean ====
import proofs.«130186_j80642305950442_1_alg».proof.Proof.Gen.KernelIdeal.Launch
import proofs.«130186_j80642305950442_1_alg».proof.Proof.Gen.KernelIdeal.Skeleton
import proofs.«130186_j80642305950442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 3: the elementwise normalisation ((z - mean) * rsqrt(var + eps)) * gamma + beta over blocks of 2000 rows -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not, for any proof data
    whose array is `V`'s (`hA`) and whose body leaves the block in place (`hafter`): where the window is not
    fetched its block index has not moved, so the block of the point before is the block of this point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not, for any proof data
    whose array is `V`'s (`hA`) and whose body leaves the block in place (`hafter`): where the window is not
    fetched its block index has not moved, so the block of the point before is the block of this point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not, for any proof data
    whose array is `V`'s (`hA`) and whose body leaves the block in place (`hafter`): where the window is not
    fetched its block index has not moved, so the block of the point before is the block of this point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not, for any proof data
    whose array is `V`'s (`hA`) and whose body leaves the block in place (`hafter`): where the window is not
    fetched its block index has not moved, so the block of the point before is the block of this point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not, for any proof data
    whose array is `V`'s (`hA`) and whose body leaves the block in place (`hafter`): where the window is not
    fetched its block index has not moved, so the block of the point before is the block of this point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: a whole row of 256 and a whole block of 2000 rows -/

abbrev r3_0 : Rect S256 := Rect.unit (s := S256) ![0] S256.size inb_S256_S256_0
abbrev r3_1 : Rect S2000x256 := Rect.unit (s := S2000x256) ![0, 0] S2000x256.size inb_S2000x256_S2000x256_0_0

/-! ## What the body leaves in the output window's buffer -/

/-- Window 5's staging buffer after the body, from the input windows' blocks `x0` (z), `x1` (mean), `x2`
    (variance), `x3` (scale), `x4` (shift): its one store, of the normalised block, over the whole buffer. -/
def out3_5 (x0 : Vec F S2000x256 .f32) (x1 : Vec F S256 .f32) (x2 : Vec F S256 .f32) (x3 : Vec F S256 .f32) (x4 : Vec F S256 .f32) : Vec F S2000x256 .f32 :=
  View.canon [⟨r3_1, k3_pay1 (View.ld x2 r3_0) (View.ld x0 r3_1) (View.ld x1 r3_0) (View.ld x3 r3_0) (View.ld x4 r3_0)⟩]

/-- The one store is of the whole buffer, so it covers it. -/
theorem cover3_5 (p0 : Vec F S2000x256 .f32) (y : S2000x256.Idx) :
    ∃ pc ∈ ([⟨r3_1, p0⟩] : List (View.Piece (Elt F) S2000x256 .f32)), y ∈ pc.1.set :=
  View.cover_of_tiled [⟨r3_1, p0⟩] S2000x256.size (by rfl) y

/-! ## The body's triple -/

set_option maxHeartbeats 1000000 in
/-- The body on whole staging memrefs, the five inputs' at read contents `x0 … x4` and the output's at anything,
    runs to the continuation holding the inputs' as they were and the output's at `out3_5` of the inputs'. -/
theorem sound_kernel3 (c : Dev nD) (E : Set ℕ) (i : grid3.Coords) (arg1 : Memref sig .tc .vmem S2000x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256 .f32) (x2 : Vec F S256 .f32) (x3 : Vec F S256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_apply_kernel i arg1 harg1 arg2 harg2 arg3 harg3 arg4 harg4 arg5 harg5 arg6 harg6) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point
    `t` each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.A5.lean ====
import proofs.«130186_j80642305950442_1_alg».proof.Proof.Gen.KernelIdeal.Launch
import proofs.«130186_j80642305950442_1_alg».proof.Proof.Gen.KernelIdeal.Skeleton
import proofs.«130186_j80642305950442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! # Region 5: the elementwise normalisation ((z - mean) * rsqrt(var + eps)) * gamma + beta over blocks of 2000 rows -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not, for any proof data
    whose array is `V`'s (`hA`) and whose body leaves the block in place (`hafter`): where the window is not
    fetched its block index has not moved, so the block of the point before is the block of this point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not, for any proof data
    whose array is `V`'s (`hA`) and whose body leaves the block in place (`hafter`): where the window is not
    fetched its block index has not moved, so the block of the point before is the block of this point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not, for any proof data
    whose array is `V`'s (`hA`) and whose body leaves the block in place (`hafter`): where the window is not
    fetched its block index has not moved, so the block of the point before is the block of this point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not, for any proof data
    whose array is `V`'s (`hA`) and whose body leaves the block in place (`hafter`): where the window is not
    fetched its block index has not moved, so the block of the point before is the block of this point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not, for any proof data
    whose array is `V`'s (`hA`) and whose body leaves the block in place (`hafter`): where the window is not
    fetched its block index has not moved, so the block of the point before is the block of this point. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: a whole row of 256 and a whole block of 2000 rows -/

abbrev r5_0 : Rect S256 := Rect.unit (s := S256) ![0] S256.size inb_S256_S256_0
abbrev r5_1 : Rect S2000x256 := Rect.unit (s := S2000x256) ![0, 0] S2000x256.size inb_S2000x256_S2000x256_0_0

/-! ## What the body leaves in the output window's buffer -/

/-- Window 5's staging buffer after the body, from the input windows' blocks `x0` (z), `x1` (mean), `x2`
    (variance), `x3` (scale), `x4` (shift): its one store, of the normalised block, over the whole buffer. -/
def out5_5 (x0 : Vec F S2000x256 .f32) (x1 : Vec F S256 .f32) (x2 : Vec F S256 .f32) (x3 : Vec F S256 .f32) (x4 : Vec F S256 .f32) : Vec F S2000x256 .f32 :=
  View.canon [⟨r5_1, k5_pay1 (View.ld x2 r5_0) (View.ld x0 r5_1) (View.ld x1 r5_0) (View.ld x3 r5_0) (View.ld x4 r5_0)⟩]

/-- The one store is of the whole buffer, so it covers it. -/
theorem cover5_5 (p0 : Vec F S2000x256 .f32) (y : S2000x256.Idx) :
    ∃ pc ∈ ([⟨r5_1, p0⟩] : List (View.Piece (Elt F) S2000x256 .f32)), y ∈ pc.1.set :=
  View.cover_of_tiled [⟨r5_1, p0⟩] S2000x256.size (by rfl) y

/-! ## The body's triple -/

set_option maxHeartbeats 1000000 in
/-- The body on whole staging memrefs, the five inputs' at read contents `x0 … x4` and the output's at anything,
    runs to the continuation holding the inputs' as they were and the output's at `out5_5` of the inputs'. -/
theorem sound_kernel5 (c : Dev nD) (E : Set ℕ) (i : grid5.Coords) (arg1 : Memref sig .tc .vmem S2000x256 .f32) (harg1 : arg1.IsWhole) (arg2 : Memref sig .tc .vmem S256 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S2000x256 .f32) (harg6 : arg6.IsWhole)
    (x0 : Vec F S2000x256 .f32) (x1 : Vec F S256 .f32) (x2 : Vec F S256 .f32) (x3 : Vec F S256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point
    `t` each input's buffer at its block and the output's at `out5_5` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so `sound_kernel5` applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R0Defs.lean ====
/-
  Region 0 of the program: the first dense-and-statistics kernel on its 25 grid points. What the six input
  windows hold at a point (their blocks of the arrays as the region finds them), and the one branch of the
  body (the reset of the two accumulators), decided over the grid: it is taken at the first point only.
-/
import proofs.«130186_j80642305950442_1_alg».proof.Proof.Gen.KernelIdeal.Launch
import proofs.«130186_j80642305950442_1_alg».proof.Proof.Gen.KernelIdeal.Skeleton
import proofs.«130186_j80642305950442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is
    not fetched its block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched its block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is
    not fetched its block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is
    not fetched its block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is
    not fetched its block index has not moved, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is
    not fetched its block index has not moved, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch -/

/-- The condition of the body's one conditional (the reset of the accumulators), from the grid coordinates. -/
abbrev cond0_0 (i : grid0.Coords) : Prop := (Scalar.cmpi .ne (Scalar.extui (Scalar.cmpi .eq (BitVec.ofNat 32 (i 0).val) 0#32)) 0#32) = 1#1
/-- It holds at the first point only: decided over the 25 points. -/
theorem hcond0_0 : ∀ t : Fin cfg0.N, cond0_0 (grid0.coords t) ↔ t.val % 25 = 0 :=
  (by decide +kernel : ∀ t : Fin grid0.N, cond0_0 (grid0.coords t) ↔ t.val % 25 = 0)

/-- One staging buffer of each output window, through which its contents are stated (the choice does not matter). -/
abbrev VO0_6 : View sig .tc .vmem S2000x256 .f32 := (Memref.whole cc0_stg6_0 : Memref sig .tc .vmem S2000x256 .f32).view
abbrev VO0_7 : View sig .tc .vmem S256 .f32 := (Memref.whole cc0_stg7_0 : Memref sig .tc .vmem S256 .f32).view
abbrev VO0_8 : View sig .tc .vmem S256 .f32 := (Memref.whole cc0_stg8_0 : Memref sig .tc .vmem S256 .f32).view

end Cert.KernelIdeal.Hand

end
-- ==== Proof.KI.R0RunA.lean ====
/-
  The whole body of region 0's kernel at the first grid point (the reset taken): on whole staging buffers, the six
  inputs at given contents and the three outputs at anything, it runs to the end leaving the inputs as they were
  and in each output's buffer the pieces its stores wrote (last first).
-/
import proofs.«130186_j80642305950442_1_alg».proof.Proof.KI.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case A (the first point): the pieces each output's buffer ends with, with the proof that the body runs to them. -/
noncomputable def kernelRun0_A (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.KI.R0RunB.lean ====
/-
  The whole body of region 0's kernel at a later grid point (the reset not taken): as at the first point, but the
  two accumulators' buffers enter at their running contents, which the body reads before it writes them.
-/
import proofs.«130186_j80642305950442_1_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case B (points 1 to 24): the pieces each output's buffer ends with, with the proof that the body runs to them. -/
noncomputable def kernelRun0_B (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.KI.R0.lean ====
/-
  Region 0 of the program, the first dense-and-statistics kernel, as a pipeline over 25 grid points. Its body
  adds the aggregated neighbours to a block of 2000 rows, applies the two dense maps with their clamps, writes
  the block of results, and adds the block's column sums (of the results and of their squares) to two running
  rows, which are reset at the first point and written back after the last. This file states what every
  window's staging buffer holds after each point — the inputs their blocks, the result window what the body
  stores, the two running rows by recursion on the point — and proves the body's obligation to the pipeline at
  every point from the two whole-body runs (first point; later points).
-/
import proofs.«130186_j80642305950442_1_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## What each case leaves in the outputs' buffers -/

/-- Case A's pieces for output 6 tile its block, so they cover it. -/
theorem cover0_A_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) (y : S2000x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S2000x256.size (by sl_kernel_rfl) y

/-- What case A leaves in output 6's staging buffer: its pieces read back. -/
def out0_A_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) : Vec F S2000x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- Case B's pieces for output 6 tile its block, so they cover it. -/
theorem cover0_B_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S2000x256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).1 S2000x256.size (by sl_kernel_rfl) y

/-- What case B leaves in output 6's staging buffer: its pieces read back. -/
def out0_B_6 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S2000x256 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xo7 xo8).1)

/-- Case A's pieces for output 7 tile its block, so they cover it. -/
theorem cover0_A_7 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S256.size (by sl_kernel_rfl) y

/-- What case A leaves in output 7's staging buffer: its pieces read back. -/
def out0_A_7 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- Case B's pieces for output 7 tile its block, so they cover it. -/
theorem cover0_B_7 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.1 S256.size (by sl_kernel_rfl) y

/-- What case B leaves in output 7's staging buffer: its pieces read back. -/
def out0_B_7 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xo7 xo8).2.1)

/-- Case A's pieces for output 8 tile its block, so they cover it. -/
theorem cover0_A_8 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.2.1 S256.size (by sl_kernel_rfl) y

/-- What case A leaves in output 8's staging buffer: its pieces read back. -/
def out0_A_8 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond0_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 x0 x1 x2 x3 x4 x5).2.2.1)

/-- Case B's pieces for output 8 tile its block, so they cover it. -/
theorem cover0_B_8 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.2.1 S256.size (by sl_kernel_rfl) y

/-- What case B leaves in output 8's staging buffer: its pieces read back. -/
def out0_B_8 (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond0_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 x0 x1 x2 x3 x4 x5 xo7 xo8).2.2.1)

/-! ## The staging memrefs at a point -/
abbrev ms0_0 (t : Fin cfg0.N) : Memref sig .tc .vmem S2000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256 .f32 := win0_8.stage (cfg0.slots t 8)
abbrev hs0_8 (t : Fin cfg0.N) : (ms0_8 t).IsWhole := hstage0_8 ((cfg0.slots t 8).cast nbuf0_8)

/-! ## What the outputs hold after each point -/

/-- The three outputs' contents together: the block of results, the running column sums, the running column sums of squares. -/
abbrev O0 (F : FTy → Type) : Type := Vec F S2000x256 .f32 × Vec F S256 .f32 × Vec F S256 .f32

/-- The outputs after the first point: case A at the point's memrefs and input blocks. -/
def outs0_A (c : Dev nD) (t : Fin cfg0.N) (h0 : t.val % 25 = 0) : O0 F :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
   out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
   out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t))

/-- The outputs after a later point: case B at the point's memrefs and input blocks, the two running rows entering at `xo7`, `xo8`. -/
def outs0_B (c : Dev nD) (t : Fin cfg0.N) (h0 : ¬t.val % 25 = 0) (xo7 xo8 : Vec F S256 .f32) : O0 F :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) xo7 xo8,
   out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) xo7 xo8,
   out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) xo7 xo8)

/-- THE ACCUMULATION. What the outputs' staging buffers hold after the body at position `n`: case A at the first
    point; at a later point case B, the running rows entering at what the point before left (their buffers are not
    written back in between). -/
def outsAt0 (c : Dev nD) : (n : ℕ) → n < cfg0.N → O0 F
  | 0, hn => outs0_A V c ⟨0, hn⟩ (Nat.zero_mod _)
  | n + 1, hn =>
    if h0 : (n + 1) % 25 = 0 then outs0_A V c ⟨n + 1, hn⟩ h0
    else outs0_B V c ⟨n + 1, hn⟩ h0 (outsAt0 c n (Nat.lt_of_succ_lt hn)).2.1 (outsAt0 c n (Nat.lt_of_succ_lt hn)).2.2

/-- `outsAt0` at a point of case A. -/
theorem outsAt0_A (c : Dev nD) (t : Fin cfg0.N) (h0 : t.val % 25 = 0) :
    outsAt0 V c t.val t.isLt = outs0_A V c t h0 := by
  obtain ⟨n, hn⟩ := t
  cases n with
  | zero => exact rfl
  | succ n => exact (dif_pos h0).trans rfl

/-- `outsAt0` at a point of case B: over what the point before left. -/
theorem outsAt0_B (c : Dev nD) (t : Fin cfg0.N) (h0 : ¬t.val % 25 = 0) :
    outsAt0 V c t.val t.isLt = outs0_B V c t h0 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

theorem outsAt0_A_6 (c : Dev nD) (t : Fin cfg0.N) (h0 : t.val % 25 = 0) :
    (outsAt0 V c t.val t.isLt).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) :=
  by rw [outsAt0_A V c t h0]; unfold outs0_A; with_reducible rfl
theorem outsAt0_B_6 (c : Dev nD) (t : Fin cfg0.N) (h0 : ¬t.val % 25 = 0) :
    (outsAt0 V c t.val t.isLt).1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 :=
  by rw [outsAt0_B V c t h0]; unfold outs0_B; with_reducible rfl

theorem outsAt0_A_7 (c : Dev nD) (t : Fin cfg0.N) (h0 : t.val % 25 = 0) :
    (outsAt0 V c t.val t.isLt).2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) :=
  by rw [outsAt0_A V c t h0]; unfold outs0_A; with_reducible rfl
theorem outsAt0_B_7 (c : Dev nD) (t : Fin cfg0.N) (h0 : ¬t.val % 25 = 0) :
    (outsAt0 V c t.val t.isLt).2.1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 :=
  by rw [outsAt0_B V c t h0]; unfold outs0_B; with_reducible rfl

theorem outsAt0_A_8 (c : Dev nD) (t : Fin cfg0.N) (h0 : t.val % 25 = 0) :
    (outsAt0 V c t.val t.isLt).2.2 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) :=
  by rw [outsAt0_A V c t h0]; unfold outs0_A; with_reducible rfl
theorem outsAt0_B_8 (c : Dev nD) (t : Fin cfg0.N) (h0 : ¬t.val % 25 = 0) :
    (outsAt0 V c t.val t.isLt).2.2 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 :=
  by rw [outsAt0_B V c t h0]; unfold outs0_B; with_reducible rfl

/-! ## The pipeline's proof data -/

/-- The proof data of pipeline 0 on core `c`: the arrays as the region finds them; after the body at point `t` each
    input's buffer at its block and the outputs' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a point of case B output 7's current staging buffer holds what the body left at the point before: the point is
    not the first and the buffer was not written back in between (it is written back after the last point only). -/
theorem before0_7_B (c : Dev nD) (t : Fin cfg0.N) (h0 : ¬t.val % 25 = 0) (d) :
    (dat0 V c).before 7 t d = (outsAt0 V c (t.val - 1) (Nat.lt_of_le_of_lt (Nat.sub_le _ _) t.isLt)).2.1 := by
  have hN : t.val < 25 := lt_of_lt_of_eq t.isLt (show cfg0.N = 25 from N_0)
  rw [Dat.before_out_kept _ 7 rfl t (by omega) (Bool.eq_false_iff.mpr fun h => by have := (flush0_7 _).mp h; dsimp only at this; omega)
    (fun _ => rfl) (fun _ _ => rfl)]
  dsimp only [dat0]

/-- At a point of case B output 8's current staging buffer holds what the body left at the point before: the point is
    not the first and the buffer was not written back in between (it is written back after the last point only). -/
theorem before0_8_B (c : Dev nD) (t : Fin cfg0.N) (h0 : ¬t.val % 25 = 0) (d) :
    (dat0 V c).before 8 t d = (outsAt0 V c (t.val - 1) (Nat.lt_of_le_of_lt (Nat.sub_le _ _) t.isLt)).2.2 := by
  have hN : t.val < 25 := lt_of_lt_of_eq t.isLt (show cfg0.N = 25 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 1600000 in
/-- The body at any point: the inputs' buffers hold their blocks; the point is the first or a later one; at a later
    one the two running rows' buffers hold what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 25 := lt_of_lt_of_eq t.isLt (show cfg0.N = 25 from N_0)
  by_cases h0 : t.val % 25 = 0
  · rw [outsAt0_A_6 V c t h0, outsAt0_A_7 V c t h0, outsAt0_A_8 V c t h0]
    unfold out0_A_6 out0_A_7 out0_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _)
  · rw [outsAt0_B_6 V c t h0, outsAt0_B_7 V c t h0, outsAt0_B_8 V c t h0]
    simp only [before0_7_B V c t h0, before0_8_B V c t h0]
    unfold out0_B_6 out0_B_7 out0_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R2Defs.lean ====
/-
  Region 2 of the program: the second dense-and-statistics kernel on its 25 grid points. What the six input
  windows hold at a point (their blocks of the arrays as the region finds them), and the one branch of the
  body (the reset of the two accumulators), decided over the grid: it is taken at the first point only.
-/
import proofs.«130186_j80642305950442_1_alg».proof.Proof.Gen.KernelIdeal.Launch
import proofs.«130186_j80642305950442_1_alg».proof.Proof.Gen.KernelIdeal.Skeleton
import proofs.«130186_j80642305950442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is
    not fetched its block index has not moved, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is
    not fetched its block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is
    not fetched its block index has not moved, and the body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is
    not fetched its block index has not moved, and the body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is
    not fetched its block index has not moved, and the body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it is
    not fetched its block index has not moved, and the body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch -/

/-- The condition of the body's one conditional (the reset of the accumulators), from the grid coordinates. -/
abbrev cond2_0 (i : grid2.Coords) : Prop := (Scalar.cmpi .ne (Scalar.extui (Scalar.cmpi .eq (BitVec.ofNat 32 (i 0).val) 0#32)) 0#32) = 1#1
/-- It holds at the first point only: decided over the 25 points. -/
theorem hcond2_0 : ∀ t : Fin cfg2.N, cond2_0 (grid2.coords t) ↔ t.val % 25 = 0 :=
  (by decide +kernel : ∀ t : Fin grid2.N, cond2_0 (grid2.coords t) ↔ t.val % 25 = 0)

/-- One staging buffer of each output window, through which its contents are stated (the choice does not matter). -/
abbrev VO2_6 : View sig .tc .vmem S2000x256 .f32 := (Memref.whole cc2_stg6_0 : Memref sig .tc .vmem S2000x256 .f32).view
abbrev VO2_7 : View sig .tc .vmem S256 .f32 := (Memref.whole cc2_stg7_0 : Memref sig .tc .vmem S256 .f32).view
abbrev VO2_8 : View sig .tc .vmem S256 .f32 := (Memref.whole cc2_stg8_0 : Memref sig .tc .vmem S256 .f32).view

end Cert.KernelIdeal.Hand

end
-- ==== Proof.KI.R2RunA.lean ====
/-
  The whole body of region 2's kernel at the first grid point (the reset taken): on whole staging buffers, the six
  inputs at given contents and the three outputs at anything, it runs to the end leaving the inputs as they were
  and in each output's buffer the pieces its stores wrote (last first).
-/
import proofs.«130186_j80642305950442_1_alg».proof.Proof.KI.R2Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case A (the first point): the pieces each output's buffer ends with, with the proof that the body runs to them. -/
noncomputable def kernelRun2_A (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.KI.R2RunB.lean ====
/-
  The whole body of region 2's kernel at a later grid point (the reset not taken): as at the first point, but the
  two accumulators' buffers enter at their running contents, which the body reads before it writes them.
-/
import proofs.«130186_j80642305950442_1_alg».proof.Proof.KI.R2RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case B (points 1 to 24): the pieces each output's buffer ends with, with the proof that the body runs to them. -/
noncomputable def kernelRun2_B (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.KI.R2.lean ====
/-
  Region 2 of the program, the second dense-and-statistics kernel, as a pipeline over 25 grid points. Its body
  adds the aggregated neighbours to a block of 2000 rows, applies the two dense maps with their clamps, writes
  the block of results, and adds the block's column sums (of the results and of their squares) to two running
  rows, which are reset at the first point and written back after the last. This file states what every
  window's staging buffer holds after each point — the inputs their blocks, the result window what the body
  stores, the two running rows by recursion on the point — and proves the body's obligation to the pipeline at
  every point from the two whole-body runs (first point; later points).
-/
import proofs.«130186_j80642305950442_1_alg».proof.Proof.KI.R2RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## What each case leaves in the outputs' buffers -/

/-- Case A's pieces for output 6 tile its block, so they cover it. -/
theorem cover2_A_6 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) (y : S2000x256.Idx) :
    ∃ pc ∈ (kernelRun2_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).1 S2000x256.size (by sl_kernel_rfl) y

/-- What case A leaves in output 6's staging buffer: its pieces read back. -/
def out2_A_6 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) : Vec F S2000x256 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 x0 x1 x2 x3 x4 x5).1)

/-- Case B's pieces for output 6 tile its block, so they cover it. -/
theorem cover2_B_6 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S2000x256.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).1 S2000x256.size (by sl_kernel_rfl) y

/-- What case B leaves in output 6's staging buffer: its pieces read back. -/
def out2_B_6 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S2000x256 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 x0 x1 x2 x3 x4 x5 xo7 xo8).1)

/-- Case A's pieces for output 7 tile its block, so they cover it. -/
theorem cover2_A_7 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.1 S256.size (by sl_kernel_rfl) y

/-- What case A leaves in output 7's staging buffer: its pieces read back. -/
def out2_A_7 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 hc0 x0 x1 x2 x3 x4 x5).2.1)

/-- Case B's pieces for output 7 tile its block, so they cover it. -/
theorem cover2_B_7 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.1 S256.size (by sl_kernel_rfl) y

/-- What case B leaves in output 7's staging buffer: its pieces read back. -/
def out2_B_7 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 hc0 x0 x1 x2 x3 x4 x5 xo7 xo8).2.1)

/-- Case A's pieces for output 8 tile its block, so they cover it. -/
theorem cover2_A_8 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.2.1 S256.size (by sl_kernel_rfl) y

/-- What case A leaves in output 8's staging buffer: its pieces read back. -/
def out2_A_8 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond2_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 hc0 x0 x1 x2 x3 x4 x5).2.2.1)

/-- Case B's pieces for output 8 tile its block, so they cover it. -/
theorem cover2_B_8 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.2.1 S256.size (by sl_kernel_rfl) y

/-- What case B leaves in output 8's staging buffer: its pieces read back. -/
def out2_B_8 (c : Dev nD) (i : grid2.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond2_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 hc0 x0 x1 x2 x3 x4 x5 xo7 xo8).2.2.1)

/-! ## The staging memrefs at a point -/
abbrev ms2_0 (t : Fin cfg2.N) : Memref sig .tc .vmem S2000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2000x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S256 .f32 := win2_8.stage (cfg2.slots t 8)
abbrev hs2_8 (t : Fin cfg2.N) : (ms2_8 t).IsWhole := hstage2_8 ((cfg2.slots t 8).cast nbuf2_8)

/-! ## What the outputs hold after each point -/

/-- The three outputs' contents together: the block of results, the running column sums, the running column sums of squares. -/
abbrev O2 (F : FTy → Type) : Type := Vec F S2000x256 .f32 × Vec F S256 .f32 × Vec F S256 .f32

/-- The outputs after the first point: case A at the point's memrefs and input blocks. -/
def outs2_A (c : Dev nD) (t : Fin cfg2.N) (h0 : t.val % 25 = 0) : O2 F :=
  (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
   out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
   out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t))

/-- The outputs after a later point: case B at the point's memrefs and input blocks, the two running rows entering at `xo7`, `xo8`. -/
def outs2_B (c : Dev nD) (t : Fin cfg2.N) (h0 : ¬t.val % 25 = 0) (xo7 xo8 : Vec F S256 .f32) : O2 F :=
  (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) xo7 xo8,
   out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) xo7 xo8,
   out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) xo7 xo8)

/-- THE ACCUMULATION. What the outputs' staging buffers hold after the body at position `n`: case A at the first
    point; at a later point case B, the running rows entering at what the point before left (their buffers are not
    written back in between). -/
def outsAt2 (c : Dev nD) : (n : ℕ) → n < cfg2.N → O2 F
  | 0, hn => outs2_A V c ⟨0, hn⟩ (Nat.zero_mod _)
  | n + 1, hn =>
    if h0 : (n + 1) % 25 = 0 then outs2_A V c ⟨n + 1, hn⟩ h0
    else outs2_B V c ⟨n + 1, hn⟩ h0 (outsAt2 c n (Nat.lt_of_succ_lt hn)).2.1 (outsAt2 c n (Nat.lt_of_succ_lt hn)).2.2

/-- `outsAt2` at a point of case A. -/
theorem outsAt2_A (c : Dev nD) (t : Fin cfg2.N) (h0 : t.val % 25 = 0) :
    outsAt2 V c t.val t.isLt = outs2_A V c t h0 := by
  obtain ⟨n, hn⟩ := t
  cases n with
  | zero => exact rfl
  | succ n => exact (dif_pos h0).trans rfl

/-- `outsAt2` at a point of case B: over what the point before left. -/
theorem outsAt2_B (c : Dev nD) (t : Fin cfg2.N) (h0 : ¬t.val % 25 = 0) :
    outsAt2 V c t.val t.isLt = outs2_B V c t h0 (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

theorem outsAt2_A_6 (c : Dev nD) (t : Fin cfg2.N) (h0 : t.val % 25 = 0) :
    (outsAt2 V c t.val t.isLt).1 = out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) :=
  by rw [outsAt2_A V c t h0]; unfold outs2_A; with_reducible rfl
theorem outsAt2_B_6 (c : Dev nD) (t : Fin cfg2.N) (h0 : ¬t.val % 25 = 0) :
    (outsAt2 V c t.val t.isLt).1 = out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 :=
  by rw [outsAt2_B V c t h0]; unfold outs2_B; with_reducible rfl

theorem outsAt2_A_7 (c : Dev nD) (t : Fin cfg2.N) (h0 : t.val % 25 = 0) :
    (outsAt2 V c t.val t.isLt).2.1 = out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) :=
  by rw [outsAt2_A V c t h0]; unfold outs2_A; with_reducible rfl
theorem outsAt2_B_7 (c : Dev nD) (t : Fin cfg2.N) (h0 : ¬t.val % 25 = 0) :
    (outsAt2 V c t.val t.isLt).2.1 = out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 :=
  by rw [outsAt2_B V c t h0]; unfold outs2_B; with_reducible rfl

theorem outsAt2_A_8 (c : Dev nD) (t : Fin cfg2.N) (h0 : t.val % 25 = 0) :
    (outsAt2 V c t.val t.isLt).2.2 = out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) :=
  by rw [outsAt2_A V c t h0]; unfold outs2_A; with_reducible rfl
theorem outsAt2_B_8 (c : Dev nD) (t : Fin cfg2.N) (h0 : ¬t.val % 25 = 0) :
    (outsAt2 V c t.val t.isLt).2.2 = out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 :=
  by rw [outsAt2_B V c t h0]; unfold outs2_B; with_reducible rfl

/-! ## The pipeline's proof data -/

/-- The proof data of pipeline 2 on core `c`: the arrays as the region finds them; after the body at point `t` each
    input's buffer at its block and the outputs' at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- At a point of case B output 7's current staging buffer holds what the body left at the point before: the point is
    not the first and the buffer was not written back in between (it is written back after the last point only). -/
theorem before2_7_B (c : Dev nD) (t : Fin cfg2.N) (h0 : ¬t.val % 25 = 0) (d) :
    (dat2 V c).before 7 t d = (outsAt2 V c (t.val - 1) (Nat.lt_of_le_of_lt (Nat.sub_le _ _) t.isLt)).2.1 := by
  have hN : t.val < 25 := lt_of_lt_of_eq t.isLt (show cfg2.N = 25 from N_2)
  rw [Dat.before_out_kept _ 7 rfl t (by omega) (Bool.eq_false_iff.mpr fun h => by have := (flush2_7 _).mp h; dsimp only at this; omega)
    (fun _ => rfl) (fun _ _ => rfl)]
  dsimp only [dat2]

/-- At a point of case B output 8's current staging buffer holds what the body left at the point before: the point is
    not the first and the buffer was not written back in between (it is written back after the last point only). -/
theorem before2_8_B (c : Dev nD) (t : Fin cfg2.N) (h0 : ¬t.val % 25 = 0) (d) :
    (dat2 V c).before 8 t d = (outsAt2 V c (t.val - 1) (Nat.lt_of_le_of_lt (Nat.sub_le _ _) t.isLt)).2.2 := by
  have hN : t.val < 25 := lt_of_lt_of_eq t.isLt (show cfg2.N = 25 from N_2)
  rw [Dat.before_out_kept _ 8 rfl t (by omega) (Bool.eq_false_iff.mpr fun h => by have := (flush2_8 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 1600000 in
/-- The body at any point: the inputs' buffers hold their blocks; the point is the first or a later one; at a later
    one the two running rows' buffers hold what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  have hN : t.val < 25 := lt_of_lt_of_eq t.isLt (show cfg2.N = 25 from N_2)
  by_cases h0 : t.val % 25 = 0
  · rw [outsAt2_A_6 V c t h0, outsAt2_A_7 V c t h0, outsAt2_A_8 V c t h0]
    unfold out2_A_6 out2_A_7 out2_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _)
    unfold owns; iexists _; isplitr
    swap; · iexact H8
    ipureintro; exact View.read_writes_of_cover _ _ _ _ _ (cover2_A_8 c _ _ _ _ _ _ _ _ _ _ _ _ _ _ _ _ _ _ _ _ _ _ _ _ _ _)
  · rw [outsAt2_B_6 V c t h0, outsAt2_B_7 V c t h0, outsAt2_B_8 V c t h0]
    simp only [before2_7_B V c t h0, before2_8_B V c t h0]
    unfold out2_B_6 out2_B_7 out2_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _)
    unfold owns; iexists _; isplitr
    swap; · iexact H8
    ipureintro; exact View.read_writes_of_cover _ _ _ _ _ (cover2_B_8 c _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R4Defs.lean ====
/-
  Region 4 of the program: the third dense-and-statistics kernel on its 25 grid points. What the six input
  windows hold at a point (their blocks of the arrays as the region finds them), and the one branch of the
  body (the reset of the two accumulators), decided over the grid: it is taken at the first point only.
-/
import proofs.«130186_j80642305950442_1_alg».proof.Proof.Gen.KernelIdeal.Launch
import proofs.«130186_j80642305950442_1_alg».proof.Proof.Gen.KernelIdeal.Skeleton
import proofs.«130186_j80642305950442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it is
    not fetched its block index has not moved, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: where it is
    not fetched its block index has not moved, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: where it is
    not fetched its block index has not moved, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not: where it is
    not fetched its block index has not moved, and the body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not: where it is
    not fetched its block index has not moved, and the body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not: where it is
    not fetched its block index has not moved, and the body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch -/

/-- The condition of the body's one conditional (the reset of the accumulators), from the grid coordinates. -/
abbrev cond4_0 (i : grid4.Coords) : Prop := (Scalar.cmpi .ne (Scalar.extui (Scalar.cmpi .eq (BitVec.ofNat 32 (i 0).val) 0#32)) 0#32) = 1#1
/-- It holds at the first point only: decided over the 25 points. -/
theorem hcond4_0 : ∀ t : Fin cfg4.N, cond4_0 (grid4.coords t) ↔ t.val % 25 = 0 :=
  (by decide +kernel : ∀ t : Fin grid4.N, cond4_0 (grid4.coords t) ↔ t.val % 25 = 0)

/-- One staging buffer of each output window, through which its contents are stated (the choice does not matter). -/
abbrev VO4_6 : View sig .tc .vmem S2000x256 .f32 := (Memref.whole cc4_stg6_0 : Memref sig .tc .vmem S2000x256 .f32).view
abbrev VO4_7 : View sig .tc .vmem S256 .f32 := (Memref.whole cc4_stg7_0 : Memref sig .tc .vmem S256 .f32).view
abbrev VO4_8 : View sig .tc .vmem S256 .f32 := (Memref.whole cc4_stg8_0 : Memref sig .tc .vmem S256 .f32).view

end Cert.KernelIdeal.Hand

end
-- ==== Proof.KI.R4RunA.lean ====
/-
  The whole body of region 4's kernel at the first grid point (the reset taken): on whole staging buffers, the six
  inputs at given contents and the three outputs at anything, it runs to the end leaving the inputs as they were
  and in each output's buffer the pieces its stores wrote (last first).
-/
import proofs.«130186_j80642305950442_1_alg».proof.Proof.KI.R4Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case A (the first point): the pieces each output's buffer ends with, with the proof that the body runs to them. -/
noncomputable def kernelRun4_A (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.KI.R4RunB.lean ====
/-
  The whole body of region 4's kernel at a later grid point (the reset not taken): as at the first point, but the
  two accumulators' buffers enter at their running contents, which the body reads before it writes them.
-/
import proofs.«130186_j80642305950442_1_alg».proof.Proof.KI.R4RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

set_option maxHeartbeats 4000000 in
/-- Case B (points 1 to 24): the pieces each output's buffer ends with, with the proof that the body runs to them. -/
noncomputable def kernelRun4_B (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) :
    Σ' (L6 : List (View.Piece (Elt F) S2000x256 .f32)), Σ' (L7 : List (View.Piece (Elt F) S256 .f32)), { L8 : List (View.Piece (Elt F) S256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_stats_kernel_eq_skeleton]; unfold cc4__mlp_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.KI.R4.lean ====
/-
  Region 4 of the program, the third dense-and-statistics kernel, as a pipeline over 25 grid points. Its body
  adds the aggregated neighbours to a block of 2000 rows, applies the two dense maps with their clamps, writes
  the block of results, and adds the block's column sums (of the results and of their squares) to two running
  rows, which are reset at the first point and written back after the last. This file states what every
  window's staging buffer holds after each point — the inputs their blocks, the result window what the body
  stores, the two running rows by recursion on the point — and proves the body's obligation to the pipeline at
  every point from the two whole-body runs (first point; later points).
-/
import proofs.«130186_j80642305950442_1_alg».proof.Proof.KI.R4RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## What each case leaves in the outputs' buffers -/

/-- Case A's pieces for output 6 tile its block, so they cover it. -/
theorem cover4_A_6 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) (y : S2000x256.Idx) :
    ∃ pc ∈ (kernelRun4_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).1 S2000x256.size (by sl_kernel_rfl) y

/-- What case A leaves in output 6's staging buffer: its pieces read back. -/
def out4_A_6 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) : Vec F S2000x256 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 x0 x1 x2 x3 x4 x5).1)

/-- Case B's pieces for output 6 tile its block, so they cover it. -/
theorem cover4_B_6 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S2000x256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).1 S2000x256.size (by sl_kernel_rfl) y

/-- What case B leaves in output 6's staging buffer: its pieces read back. -/
def out4_B_6 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S2000x256 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 x0 x1 x2 x3 x4 x5 xo7 xo8).1)

/-- Case A's pieces for output 7 tile its block, so they cover it. -/
theorem cover4_A_7 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.1 S256.size (by sl_kernel_rfl) y

/-- What case A leaves in output 7's staging buffer: its pieces read back. -/
def out4_A_7 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 hc0 x0 x1 x2 x3 x4 x5).2.1)

/-- Case B's pieces for output 7 tile its block, so they cover it. -/
theorem cover4_B_7 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.1 S256.size (by sl_kernel_rfl) y

/-- What case B leaves in output 7's staging buffer: its pieces read back. -/
def out4_B_7 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 hc0 x0 x1 x2 x3 x4 x5 xo7 xo8).2.1)

/-- Case A's pieces for output 8 tile its block, so they cover it. -/
theorem cover4_A_8 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) (y : S256.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.2.1 S256.size (by sl_kernel_rfl) y

/-- What case A leaves in output 8's staging buffer: its pieces read back. -/
def out4_A_8 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : cond4_0 i)
    (x0 : Vec F S2000x256 .f32) (x1 : Vec F S2000x256 .f32) (x2 : Vec F S256x256 .f32) (x3 : Vec F S256 .f32) (x4 : Vec F S256x256 .f32) (x5 : Vec F S256 .f32) : Vec F S256 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 hc0 x0 x1 x2 x3 x4 x5).2.2.1)

/-- Case B's pieces for output 8 tile its block, so they cover it. -/
theorem cover4_B_8 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) (y : S256.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.2.1 S256.size (by sl_kernel_rfl) y

/-- What case B leaves in output 8's staging buffer: its pieces read back. -/
def out4_B_8 (c : Dev nD) (i : grid4.Coords) (arg1 : Memref sig .tc .vmem S2000x256 .f32) (harg1 : arg1.IsWhole) (arg2 : Memref sig .tc .vmem S2000x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S2000x256 .f32) (harg7 : arg7.IsWhole) (arg8 : Memref sig .tc .vmem S256 .f32) (harg8 : arg8.IsWhole) (arg9 : Memref sig .tc .vmem S256 .f32) (harg9 : arg9.IsWhole) (hc0 : ¬cond4_0 i)
    (x0 : Vec F S2000x256 .f32) (x1 : Vec F S2000x256 .f32) (x2 : Vec F S256x256 .f32) (x3 : Vec F S256 .f32) (x4 : Vec F S256x256 .f32) (x5 : Vec F S256 .f32) (xo7 : Vec F S256 .f32) (xo8 : Vec F S256 .f32) : Vec F S256 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 hc0 x0 x1 x2 x3 x4 x5 xo7 xo8).2.2.1)

/-! ## The staging memrefs at a point -/
abbrev ms4_0 (t : Fin cfg4.N) : Memref sig .tc .vmem S2000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x256 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S256 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S256 .f32 := win4_8.stage (cfg4.slots t 8)
abbrev hs4_8 (t : Fin cfg4.N) : (ms4_8 t).IsWhole := hstage4_8 ((cfg4.slots t 8).cast nbuf4_8)

/-! ## What the outputs hold after each point -/

/-- The three outputs' contents together: the block of results, the running column sums, the running column sums of squares. -/
abbrev O4 (F : FTy → Type) : Type := Vec F S2000x256 .f32 × Vec F S256 .f32 × Vec F S256 .f32

/-- The outputs after the first point: case A at the point's memrefs and input blocks. -/
def outs4_A (c : Dev nD) (t : Fin cfg4.N) (h0 : t.val % 25 = 0) : O4 F :=
  (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
   out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
   out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t))

/-- The outputs after a later point: case B at the point's memrefs and input blocks, the two running rows entering at `xo7`, `xo8`. -/
def outs4_B (c : Dev nD) (t : Fin cfg4.N) (h0 : ¬t.val % 25 = 0) (xo7 xo8 : Vec F S256 .f32) : O4 F :=
  (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) xo7 xo8,
   out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) xo7 xo8,
   out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) xo7 xo8)

/-- THE ACCUMULATION. What the outputs' staging buffers hold after the body at position `n`: case A at the first
    point; at a later point case B, the running rows entering at what the point before left (their buffers are not
    written back in between). -/
def outsAt4 (c : Dev nD) : (n : ℕ) → n < cfg4.N → O4 F
  | 0, hn => outs4_A V c ⟨0, hn⟩ (Nat.zero_mod _)
  | n + 1, hn =>
    if h0 : (n + 1) % 25 = 0 then outs4_A V c ⟨n + 1, hn⟩ h0
    else outs4_B V c ⟨n + 1, hn⟩ h0 (outsAt4 c n (Nat.lt_of_succ_lt hn)).2.1 (outsAt4 c n (Nat.lt_of_succ_lt hn)).2.2

/-- `outsAt4` at a point of case A. -/
theorem outsAt4_A (c : Dev nD) (t : Fin cfg4.N) (h0 : t.val % 25 = 0) :
    outsAt4 V c t.val t.isLt = outs4_A V c t h0 := by
  obtain ⟨n, hn⟩ := t
  cases n with
  | zero => exact rfl
  | succ n => exact (dif_pos h0).trans rfl

/-- `outsAt4` at a point of case B: over what the point before left. -/
theorem outsAt4_B (c : Dev nD) (t : Fin cfg4.N) (h0 : ¬t.val % 25 = 0) :
    outsAt4 V c t.val t.isLt = outs4_B V c t h0 (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

theorem outsAt4_A_6 (c : Dev nD) (t : Fin cfg4.N) (h0 : t.val % 25 = 0) :
    (outsAt4 V c t.val t.isLt).1 = out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t) :=
  by rw [outsAt4_A V c t h0]; unfold outs4_A; with_reducible rfl
theorem outsAt4_B_6 (c : Dev nD) (t : Fin cfg4.N) (h0 : ¬t.val % 25 = 0) :
    (outsAt4 V c t.val t.isLt).1 = out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 :=
  by rw [outsAt4_B V c t h0]; unfold outs4_B; with_reducible rfl

theorem outsAt4_A_7 (c : Dev nD) (t : Fin cfg4.N) (h0 : t.val % 25 = 0) :
    (outsAt4 V c t.val t.isLt).2.1 = out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t) :=
  by rw [outsAt4_A V c t h0]; unfold outs4_A; with_reducible rfl
theorem outsAt4_B_7 (c : Dev nD) (t : Fin cfg4.N) (h0 : ¬t.val % 25 = 0) :
    (outsAt4 V c t.val t.isLt).2.1 = out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 :=
  by rw [outsAt4_B V c t h0]; unfold outs4_B; with_reducible rfl

theorem outsAt4_A_8 (c : Dev nD) (t : Fin cfg4.N) (h0 : t.val % 25 = 0) :
    (outsAt4 V c t.val t.isLt).2.2 = out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t) :=
  by rw [outsAt4_A V c t h0]; unfold outs4_A; with_reducible rfl
theorem outsAt4_B_8 (c : Dev nD) (t : Fin cfg4.N) (h0 : ¬t.val % 25 = 0) :
    (outsAt4 V c t.val t.isLt).2.2 = out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 :=
  by rw [outsAt4_B V c t h0]; unfold outs4_B; with_reducible rfl

/-! ## The pipeline's proof data -/

/-- The proof data of pipeline 4 on core `c`: the arrays as the region finds them; after the body at point `t` each
    input's buffer at its block and the outputs' at `outsAt4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- At a point of case B output 7's current staging buffer holds what the body left at the point before: the point is
    not the first and the buffer was not written back in between (it is written back after the last point only). -/
theorem before4_7_B (c : Dev nD) (t : Fin cfg4.N) (h0 : ¬t.val % 25 = 0) (d) :
    (dat4 V c).before 7 t d = (outsAt4 V c (t.val - 1) (Nat.lt_of_le_of_lt (Nat.sub_le _ _) t.isLt)).2.1 := by
  have hN : t.val < 25 := lt_of_lt_of_eq t.isLt (show cfg4.N = 25 from N_4)
  rw [Dat.before_out_kept _ 7 rfl t (by omega) (Bool.eq_false_iff.mpr fun h => by have := (flush4_7 _).mp h; dsimp only at this; omega)
    (fun _ => rfl) (fun _ _ => rfl)]
  dsimp only [dat4]

/-- At a point of case B output 8's current staging buffer holds what the body left at the point before: the point is
    not the first and the buffer was not written back in between (it is written back after the last point only). -/
theorem before4_8_B (c : Dev nD) (t : Fin cfg4.N) (h0 : ¬t.val % 25 = 0) (d) :
    (dat4 V c).before 8 t d = (outsAt4 V c (t.val - 1) (Nat.lt_of_le_of_lt (Nat.sub_le _ _) t.isLt)).2.2 := by
  have hN : t.val < 25 := lt_of_lt_of_eq t.isLt (show cfg4.N = 25 from N_4)
  rw [Dat.before_out_kept _ 8 rfl t (by omega) (Bool.eq_false_iff.mpr fun h => by have := (flush4_8 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

set_option maxHeartbeats 1600000 in
/-- The body at any point: the inputs' buffers hold their blocks; the point is the first or a later one; at a later
    one the two running rows' buffers hold what the point before left; so the case's run applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  have hN : t.val < 25 := lt_of_lt_of_eq t.isLt (show cfg4.N = 25 from N_4)
  by_cases h0 : t.val % 25 = 0
  · rw [outsAt4_A_6 V c t h0, outsAt4_A_7 V c t h0, outsAt4_A_8 V c t h0]
    unfold out4_A_6 out4_A_7 out4_A_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) _ _ _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_A_7 c _ _ _ _ _ _ _ _ _ _ _ _ _ _ _ _ _ _ _ _ _ _ _ _ _ _)
    unfold owns; iexists _; isplitr
    swap; · iexact H8
    ipureintro; exact View.read_writes_of_cover _ _ _ _ _ (cover4_A_8 c _ _ _ _ _ _ _ _ _ _ _ _ _ _ _ _ _ _ _ _ _ _ _ _ _ _)
  · rw [outsAt4_B_6 V c t h0, outsAt4_B_7 V c t h0, outsAt4_B_8 V c t h0]
    simp only [before4_7_B V c t h0, before4_8_B V c t h0]
    unfold out4_B_6 out4_B_7 out4_B_8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_B c (grid4.coords t) _ _ _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_B_7 c _ _ _ _ _ _ _ _ _ _ _ _ _ _ _ _ _ _ _ _ _ _ _ _ _ _ _ _)
    unfold owns; iexists _; isplitr
    swap; · iexact H8
    ipureintro; exact View.read_writes_of_cover _ _ _ _ _ (cover4_B_8 c _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of the kernel program from the launch to the return. @main is thirteen segments: seven stretches of host
  operations and, between them, six kernel regions (per layer one region that applies the two dense maps and
  accumulates the column sums, and one that normalises). The buffer contents at every segment boundary are
  a fold from the launch memory: a host stretch applies its operations; a region leaves each of its window
  arrays at what its write-backs leave and every other buffer untouched. Each region is entered with every
  unscoped buffer held at the boundary's contents; its arrays are split out for the pipeline and put back at
  the exit contents. At the return every unscoped buffer is read against the last boundary's contents, which
  gives both the frame (no segment writes an argument) and the value of the result buffer.
-/
import proofs.«130186_j80642305950442_1_alg».proof.Proof.KI.A1
import proofs.«130186_j80642305950442_1_alg».proof.Proof.KI.A3
import proofs.«130186_j80642305950442_1_alg».proof.Proof.KI.A5
import proofs.«130186_j80642305950442_1_alg».proof.Proof.KI.R0
import proofs.«130186_j80642305950442_1_alg».proof.Proof.KI.R2
import proofs.«130186_j80642305950442_1_alg».proof.Proof.KI.R4
import proofs.«130186_j80642305950442_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After host stretch 0: region 0's entry. -/
abbrev W1 : Dev nD → Valuation τ sig (Elt F) := fun c => StableHlo.after hostOps0 (W0 m ρ c)
/-- The same read at the TensorCore's references. -/
abbrev Vin0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)
/-- A host stretch leaves every reference it does not write. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- After host stretch 1: region 1's entry. -/
abbrev W3 : Dev nD → Valuation τ sig (Elt F) := fun c => StableHlo.after hostOps1 (W2 m ρ c)
/-- The same read at the TensorCore's references. -/
abbrev Vin1 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (Vin1 m ρ) c).arrAt w cfg1.N
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vout1 : (c : Dev nD) → (b : Ref sig .tc) → Buf (Elt F) ((c : Thread nD τ).loc b) := fun c b => W4 m ρ c b
theorem hF1 (c : Dev nD) (w : Fin cfg1.W) : (dat1 (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)
/-- A host stretch leaves every reference it does not write. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- After host stretch 2: region 2's entry. -/
abbrev W5 : Dev nD → Valuation τ sig (Elt F) := fun c => StableHlo.after hostOps2 (W4 m ρ c)
/-- The same read at the TensorCore's references. -/
abbrev Vin2 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (Vin2 m ρ) c).arrAt w cfg2.N
theorem W6_arr (c : Dev nD) (w : Fin cfg2.W) :
    W6 m ρ c (Proc.devRef .tc (Pipeline.arrRef spec2 w)) = (dat2 (Vin2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vout2 : (c : Dev nD) → (b : Ref sig .tc) → Buf (Elt F) ((c : Thread nD τ).loc b) := fun c b => W6 m ρ c b
theorem hF2 (c : Dev nD) (w : Fin cfg2.W) : (dat2 (Vin2 m ρ) c).arrAt w cfg2.N = Vout2 m ρ c (Pipeline.arrRef spec2 w) :=
  (W6_arr m ρ c w).symm
theorem hrest2 (c : Dev nD) : ∀ b, b ∉ Finset.univ.image (Pipeline.arrRef spec2) → Vout2 m ρ c b = Vin2 m ρ c b :=
  fun b hb => W6_of_ne m ρ c b fun w e => hb (Finset.mem_image.mpr ⟨w, Finset.mem_univ _, e⟩)
/-- A host stretch leaves every reference it does not write. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- After host stretch 3: region 3's entry. -/
abbrev W7 : Dev nD → Valuation τ sig (Elt F) := fun c => StableHlo.after hostOps3 (W6 m ρ c)
/-- The same read at the TensorCore's references. -/
abbrev Vin3 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (Vin3 m ρ) c).arrAt w cfg3.N
theorem W8_arr (c : Dev nD) (w : Fin cfg3.W) :
    W8 m ρ c (Proc.devRef .tc (Pipeline.arrRef spec3 w)) = (dat3 (Vin3 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Vout3 : (c : Dev nD) → (b : Ref sig .tc) → Buf (Elt F) ((c : Thread nD τ).loc b) := fun c b => W8 m ρ c b
theorem hF3 (c : Dev nD) (w : Fin cfg3.W) : (dat3 (Vin3 m ρ) c).arrAt w cfg3.N = Vout3 m ρ c (Pipeline.arrRef spec3 w) :=
  (W8_arr m ρ c w).symm
theorem hrest3 (c : Dev nD) : ∀ b, b ∉ Finset.univ.image (Pipeline.arrRef spec3) → Vout3 m ρ c b = Vin3 m ρ c b :=
  fun b hb => W8_of_ne m ρ c b fun w e => hb (Finset.mem_image.mpr ⟨w, Finset.mem_univ _, e⟩)
/-- A host stretch leaves every reference it does not write. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-- After host stretch 4: region 4's entry. -/
abbrev W9 : Dev nD → Valuation τ sig (Elt F) := fun c => StableHlo.after hostOps4 (W8 m ρ c)
/-- The same read at the TensorCore's references. -/
abbrev Vin4 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (Vin4 m ρ) c).arrAt w cfg4.N
theorem W10_arr (c : Dev nD) (w : Fin cfg4.W) :
    W10 m ρ c (Proc.devRef .tc (Pipeline.arrRef spec4 w)) = (dat4 (Vin4 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev Vout4 : (c : Dev nD) → (b : Ref sig .tc) → Buf (Elt F) ((c : Thread nD τ).loc b) := fun c b => W10 m ρ c b
theorem hF4 (c : Dev nD) (w : Fin cfg4.W) : (dat4 (Vin4 m ρ) c).arrAt w cfg4.N = Vout4 m ρ c (Pipeline.arrRef spec4 w) :=
  (W10_arr m ρ c w).symm
theorem hrest4 (c : Dev nD) : ∀ b, b ∉ Finset.univ.image (Pipeline.arrRef spec4) → Vout4 m ρ c b = Vin4 m ρ c b :=
  fun b hb => W10_of_ne m ρ c b fun w e => hb (Finset.mem_image.mpr ⟨w, Finset.mem_univ _, e⟩)
/-- A host stretch leaves every reference it does not write. -/
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h

/-- After host stretch 5: region 5's entry. -/
abbrev W11 : Dev nD → Valuation τ sig (Elt F) := fun c => StableHlo.after hostOps5 (W10 m ρ c)
/-- The same read at the TensorCore's references. -/
abbrev Vin5 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (Vin5 m ρ) c).arrAt w cfg5.N
theorem W12_arr (c : Dev nD) (w : Fin cfg5.W) :
    W12 m ρ c (Proc.devRef .tc (Pipeline.arrRef spec5 w)) = (dat5 (Vin5 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev Vout5 : (c : Dev nD) → (b : Ref sig .tc) → Buf (Elt F) ((c : Thread nD τ).loc b) := fun c b => W12 m ρ c b
theorem hF5 (c : Dev nD) (w : Fin cfg5.W) : (dat5 (Vin5 m ρ) c).arrAt w cfg5.N = Vout5 m ρ c (Pipeline.arrRef spec5 w) :=
  (W12_arr m ρ c w).symm
theorem hrest5 (c : Dev nD) : ∀ b, b ∉ Finset.univ.image (Pipeline.arrRef spec5) → Vout5 m ρ c b = Vin5 m ρ c b :=
  fun b hb => W12_of_ne m ρ c b fun w e => hb (Finset.mem_image.mpr ⟨w, Finset.mem_univ _, e⟩)
/-- A host stretch leaves every reference it does not write. -/
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h

/-- After the last host stretch: the contents at the return. -/
abbrev W13 : Dev nD → Valuation τ sig (Elt F) := fun c => StableHlo.after hostOps6 (W12 m ρ c)
theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h

/-! ## The arguments end as launched -/

/-- A reference that no host stretch writes and no region stages keeps its launch contents to the return. -/
theorem W13_untouched (c : Dev nD) (r : Ref sig .tc)
    (h0 : r ∉ hostOps0_W) (h1 : r ∉ hostOps1_W) (h2 : r ∉ hostOps2_W) (h3 : r ∉ hostOps3_W) (h4 : r ∉ hostOps4_W)
    (h5 : r ∉ hostOps5_W) (h6 : r ∉ hostOps6_W)
    (g0 : ∀ w, Pipeline.arrRef spec0 w ≠ r) (g1 : ∀ w, Pipeline.arrRef spec1 w ≠ r) (g2 : ∀ w, Pipeline.arrRef spec2 w ≠ r)
    (g3 : ∀ w, Pipeline.arrRef spec3 w ≠ r) (g4 : ∀ w, Pipeline.arrRef spec4 w ≠ r) (g5 : ∀ w, Pipeline.arrRef spec5 w ≠ r) :
    W13 m ρ c (Proc.devRef .tc r) = m ((c : Thread nD τ).loc r) :=
  calc W13 m ρ c (Proc.devRef .tc r)
    _ = W12 m ρ c (Proc.devRef .tc r) := W13_keep m ρ c r h6
    _ = W11 m ρ c (Proc.devRef .tc r) := W12_of_ne m ρ c r g5
    _ = W10 m ρ c (Proc.devRef .tc r) := W11_keep m ρ c r h5
    _ = W9 m ρ c (Proc.devRef .tc r) := W10_of_ne m ρ c r g4
    _ = W8 m ρ c (Proc.devRef .tc r) := W9_keep m ρ c r h4
    _ = W7 m ρ c (Proc.devRef .tc r) := W8_of_ne m ρ c r g3
    _ = W6 m ρ c (Proc.devRef .tc r) := W7_keep m ρ c r h3
    _ = W5 m ρ c (Proc.devRef .tc r) := W6_of_ne m ρ c r g2
    _ = W4 m ρ c (Proc.devRef .tc r) := W5_keep m ρ c r h2
    _ = W3 m ρ c (Proc.devRef .tc r) := W4_of_ne m ρ c r g1
    _ = W2 m ρ c (Proc.devRef .tc r) := W3_keep m ρ c r h1
    _ = W1 m ρ c (Proc.devRef .tc r) := W2_of_ne m ρ c r g0
    _ = W0 m ρ c (Proc.devRef .tc r) := W1_keep m ρ c r h0
    _ = m ((c : Thread nD τ).loc r) := rfl

/-- The node features are staged by region 0 as an input window, which the pipeline leaves as entered. -/
theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_keep m ρ c main_arg0 (by decide)
    _ = W11 m ρ c (Proc.devRef .tc main_arg0) := W12_of_ne m ρ c main_arg0 (by decide)
    _ = W10 m ρ c (Proc.devRef .tc main_arg0) := W11_keep m ρ c main_arg0 (by decide)
    _ = W9 m ρ c (Proc.devRef .tc main_arg0) := W10_of_ne m ρ c main_arg0 (by decide)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := (W2_arr m ρ c 0).trans (((dat0 (Vin0 m ρ) c).arrAt_in 0 rfl _).trans (A_eq0 (Vin0 m ρ) c 0))
    _ = W0 m ρ c (Proc.devRef .tc main_arg0) := W1_keep m ρ c main_arg0 (by decide)
    _ = m ((c : Thread nD τ).loc main_arg0) := rfl
theorem W13_main_arg1 (c : Dev nD) : W13 m ρ c (Proc.devRef .tc main_arg1) = m ((c : Thread nD τ).loc main_arg1) :=
  W13_untouched m ρ c main_arg1 (by decide) (by decide) (by decide) (by decide) (by decide) (by decide) (by decide)
    (by decide) (by decide) (by decide) (by decide) (by decide) (by decide)
theorem W13_main_arg2 (c : Dev nD) : W13 m ρ c (Proc.devRef .tc main_arg2) = m ((c : Thread nD τ).loc main_arg2) :=
  W13_untouched m ρ c main_arg2 (by decide) (by decide) (by decide) (by decide) (by decide) (by decide) (by decide)
    (by decide) (by decide) (by decide) (by decide) (by decide) (by decide)
theorem W13_main_arg3 (c : Dev nD) : W13 m ρ c (Proc.devRef .tc main_arg3) = m ((c : Thread nD τ).loc main_arg3) :=
  W13_untouched m ρ c main_arg3 (by decide) (by decide) (by decide) (by decide) (by decide) (by decide) (by decide)
    (by decide) (by decide) (by decide) (by decide) (by decide) (by decide)
theorem W13_main_arg4 (c : Dev nD) : W13 m ρ c (Proc.devRef .tc main_arg4) = m ((c : Thread nD τ).loc main_arg4) :=
  W13_untouched m ρ c main_arg4 (by decide) (by decide) (by decide) (by decide) (by decide) (by decide) (by decide)
    (by decide) (by decide) (by decide) (by decide) (by decide) (by decide)
theorem W13_main_arg5 (c : Dev nD) : W13 m ρ c (Proc.devRef .tc main_arg5) = m ((c : Thread nD τ).loc main_arg5) :=
  W13_untouched m ρ c main_arg5 (by decide) (by decide) (by decide) (by decide) (by decide) (by decide) (by decide)
    (by decide) (by decide) (by decide) (by decide) (by decide) (by decide)
theorem W13_main_arg6 (c : Dev nD) : W13 m ρ c (Proc.devRef .tc main_arg6) = m ((c : Thread nD τ).loc main_arg6) :=
  W13_untouched m ρ c main_arg6 (by decide) (by decide) (by decide) (by decide) (by decide) (by decide) (by decide)
    (by decide) (by decide) (by decide) (by decide) (by decide) (by decide)
theorem W13_main_arg7 (c : Dev nD) : W13 m ρ c (Proc.devRef .tc main_arg7) = m ((c : Thread nD τ).loc main_arg7) :=
  W13_untouched m ρ c main_arg7 (by decide) (by decide) (by decide) (by decide) (by decide) (by decide) (by decide)
    (by decide) (by decide) (by decide) (by decide) (by decide) (by decide)
theorem W13_main_arg8 (c : Dev nD) : W13 m ρ c (Proc.devRef .tc main_arg8) = m ((c : Thread nD τ).loc main_arg8) :=
  W13_untouched m ρ c main_arg8 (by decide) (by decide) (by decide) (by decide) (by decide) (by decide) (by decide)
    (by decide) (by decide) (by decide) (by decide) (by decide) (by decide)

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents at the return. -/
abbrev Tₙ (c : Dev nD) : sProp 𝕄 := StableHlo.held (c : Thread nD τ) (Pipeline.ucRefs τ sig) (W13 m ρ c)

/-! ## The regions as segments -/

set_option backward.isDefEq.respectTransparency.types false in
/-- Region 0 over the thread state: entered from every unscoped buffer at the contents before it, left at those
    after it. Its arrays are split out of the unscoped buffers and put back at the exit contents; the generator
    register goes into the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those
    after it. Its arrays are split out of the unscoped buffers and put back at the exit contents; the generator
    register goes into the pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those
    after it. Its arrays are split out of the unscoped buffers and put back at the exit contents; the generator
    register goes into the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at those
    after it. Its arrays are split out of the unscoped buffers and put back at the exit contents; the generator
    register goes into the pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents before it, left at those
    after it. Its arrays are split out of the unscoped buffers and put back at the exit contents; the generator
    register goes into the pipeline's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (Vin4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vin4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vin4 m ρ c) (Vout4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at those
    after it. Its arrays are split out of the unscoped buffers and put back at the exit contents; the generator
    register goes into the pipeline's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (Vin5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vin5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vin5 m ρ c) (Vout5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds each unscoped buffer at the contents the fold computes for the return. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, -, HO⟩
        isplitl [Hh]; · iexact Hh
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      show iprop(StableHlo.held (c : Thread nD τ) (Pipeline.ucRefs τ sig) (W13 m ρ c) ∗ SI s') ⊢ _
      unfold StableHlo.held
      iintro ⟨Hh, HSI⟩
      imodintro
      iapply (pointsTo_read_all (Pipeline.ucRefs τ sig) (fun b => (((c : Thread nD τ)).1, b)) (W13 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c)⟩) (run_all m ρ)

end Cert.KernelIdeal.Hand

end
-- ==== Proof.KI.Glue.lean ====
/-
  The host operations around the kernel regions, as named pure functions of whole arrays, and each host stretch's
  results at the buffers the regions and the later stretches read. Senders and targets are the two rows of the
  edge list (a negative sender wrapped by the number of nodes); the aggregation gathers the senders' rows and
  scatter-adds them at the targets into zeros; a layer's parameters are slices of the stacked arrays; the column
  mean is the column sum divided by the number of rows and the one-pass variance is the mean of squares minus the
  squared mean; each layer's output is pooled by a scatter-add over the graph index and the three pooled arrays
  are concatenated along the columns. The gather, the scatter-adds and the concatenation are never opened.
-/
import proofs.«130186_j80642305950442_1_alg».proof.Proof.Gen.KernelIdeal.Launch
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The senders: row 0 of the edge list. -/
def srcOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
/-- The targets: row 1 of the edge list. -/
def dstOf (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000
/-- The sum, at each target row, of the senders' rows (a negative sender index wrapped by 50000). -/
def aggOf (s d : (⟨S800000, .i32⟩ : BufTy).Contents (Elt F)) (h : (⟨S50000x256, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))
/-- Layer L's slice of a stacked weight array. -/
def wSl0 (w : (⟨S3x256x256, .f32⟩ : BufTy).Contents (Elt F)) : (⟨S256x256, .f32⟩ : BufTy).Contents (Elt F) :=
  shapeCast S256x256 (extractStridedSlice S1x256x256 ![0, 0, 0] w slices_S3x256x256_S1x256x256_0_0_0) shapeCasts_S1x256x256_S256x256
def wSl1 (w : (⟨S3x256x256, .f32⟩ : BufTy).Contents (Elt F)) : (⟨S256x256, .f32⟩ : BufTy).Contents (Elt F) :=
  shapeCast S256x256 (extractStridedSlice S1x256x256 ![1, 0, 0] w slices_S3x256x256_S1x256x256_1_0_0) shapeCasts_S1x256x256_S256x256
def wSl2 (w : (⟨S3x256x256, .f32⟩ : BufTy).Contents (Elt F)) : (⟨S256x256, .f32⟩ : BufTy).Contents (Elt F) :=
  shapeCast S256x256 (extractStridedSlice S1x256x256 ![2, 0, 0] w slices_S3x256x256_S1x256x256_2_0_0) shapeCasts_S1x256x256_S256x256
/-- Layer L's row of a stacked row array. -/
def rSl0 (b : (⟨S3x256, .f32⟩ : BufTy).Contents (Elt F)) : (⟨S256, .f32⟩ : BufTy).Contents (Elt F) :=
  shapeCast S256 (extractStridedSlice S1x256 ![0, 0] b slices_S3x256_S1x256_0_0) shapeCasts_S1x256_S256
def rSl1 (b : (⟨S3x256, .f32⟩ : BufTy).Contents (Elt F)) : (⟨S256, .f32⟩ : BufTy).Contents (Elt F) :=
  shapeCast S256 (extractStridedSlice S1x256 ![1, 0] b slices_S3x256_S1x256_1_0) shapeCasts_S1x256_S256
def rSl2 (b : (⟨S3x256, .f32⟩ : BufTy).Contents (Elt F)) : (⟨S256, .f32⟩ : BufTy).Contents (Elt F) :=
  shapeCast S256 (extractStridedSlice S1x256 ![2, 0] b slices_S3x256_S1x256_2_0) shapeCasts_S1x256_S256
/-- A column statistic divided by the number of rows. -/
def meanH (s : (⟨S256, .f32⟩ : BufTy).Contents (Elt F)) : (⟨S256, .f32⟩ : BufTy).Contents (Elt F) :=
  Host.divf s (broadcastInDim S256 ![] bcast_S_S256 (constant S_ .f32 0x47435000#32))
/-- The one-pass variance from the column sums of z and of z squared. -/
def varH (s ssq : (⟨S256, .f32⟩ : BufTy).Contents (Elt F)) : (⟨S256, .f32⟩ : BufTy).Contents (Elt F) :=
  subf (meanH ssq) (mulf (meanH s) (meanH s))
/-- The rows of z summed per graph. -/
def poolOf (bt : (⟨S50000, .i32⟩ : BufTy).Contents (Elt F)) (z : (⟨S50000x256, .f32⟩ : BufTy).Contents (Elt F)) : (⟨S256x256, .f32⟩ : BufTy).Contents (Elt F) :=
  Host.scatterAdd scatter_S256x256_S50000x1_S50000x256_1_0_0_1
    (broadcastInDim S256x256 ![] bcast_S_S256x256 (constant S_ .f32 0x00000000#32))
    (broadcastInDim S50000x1 ![0] bcast_S50000_S50000x1_0 bt) z
/-- The three pooled arrays side by side. -/
def catOf (a b c : (⟨S256x256, .f32⟩ : BufTy).Contents (Elt F)) : (⟨S256x768, .f32⟩ : BufTy).Contents (Elt F) :=
  concatenate S256x768 1 [⟨S256x256, a⟩, ⟨S256x256, b⟩, ⟨S256x256, c⟩] concatenates_S256x256_S256x256_S256x256_S256x768_d1

variable (V : Valuation τ sig (Elt F))

/-! ## Stretch 0: the index vectors, the first aggregation, the first layer's dense parameters -/
theorem g0_v1 : after hostOps0 V (main_v1 : DevRef τ sig) = srcOf (V (main_arg1 : DevRef τ sig)) := by unfold srcOf; after_results_simp <;> rfl
theorem g0_v3 : after hostOps0 V (main_v3 : DevRef τ sig) = dstOf (V (main_arg1 : DevRef τ sig)) := by unfold dstOf; after_results_simp <;> rfl
theorem g0_v13 : after hostOps0 V (main_v13 : DevRef τ sig)
    = aggOf (srcOf (V (main_arg1 : DevRef τ sig))) (dstOf (V (main_arg1 : DevRef τ sig))) (V (main_arg0 : DevRef τ sig)) := by
  unfold aggOf srcOf dstOf; after_results_simp <;> rfl
theorem g0_v15 : after hostOps0 V (main_v15 : DevRef τ sig) = wSl0 (V (main_arg3 : DevRef τ sig)) := by unfold wSl0; after_results_simp <;> rfl
theorem g0_v17 : after hostOps0 V (main_v17 : DevRef τ sig) = rSl0 (V (main_arg4 : DevRef τ sig)) := by unfold rSl0; after_results_simp <;> rfl
theorem g0_v19 : after hostOps0 V (main_v19 : DevRef τ sig) = wSl0 (V (main_arg5 : DevRef τ sig)) := by unfold wSl0; after_results_simp <;> rfl
theorem g0_v21 : after hostOps0 V (main_v21 : DevRef τ sig) = rSl0 (V (main_arg6 : DevRef τ sig)) := by unfold rSl0; after_results_simp <;> rfl

/-! ## Stretches 1, 3, 5: the statistics and the scale and shift rows -/
theorem g1_v24 : after hostOps1 V (main_v24 : DevRef τ sig) = meanH (V (main_v22_1 : DevRef τ sig)) := by unfold meanH; after_results_simp <;> rfl
theorem g1_v28 : after hostOps1 V (main_v28 : DevRef τ sig) = varH (V (main_v22_1 : DevRef τ sig)) (V (main_v22_2 : DevRef τ sig)) := by
  unfold varH meanH; after_results_simp <;> rfl
theorem g1_v30 : after hostOps1 V (main_v30 : DevRef τ sig) = rSl0 (V (main_arg7 : DevRef τ sig)) := by unfold rSl0; after_results_simp <;> rfl
theorem g1_v32 : after hostOps1 V (main_v32 : DevRef τ sig) = rSl0 (V (main_arg8 : DevRef τ sig)) := by unfold rSl0; after_results_simp <;> rfl
theorem g3_v54 : after hostOps3 V (main_v54 : DevRef τ sig) = meanH (V (main_v52_1 : DevRef τ sig)) := by unfold meanH; after_results_simp <;> rfl
theorem g3_v58 : after hostOps3 V (main_v58 : DevRef τ sig) = varH (V (main_v52_1 : DevRef τ sig)) (V (main_v52_2 : DevRef τ sig)) := by
  unfold varH meanH; after_results_simp <;> rfl
theorem g3_v60 : after hostOps3 V (main_v60 : DevRef τ sig) = rSl1 (V (main_arg7 : DevRef τ sig)) := by unfold rSl1; after_results_simp <;> rfl
theorem g3_v62 : after hostOps3 V (main_v62 : DevRef τ sig) = rSl1 (V (main_arg8 : DevRef τ sig)) := by unfold rSl1; after_results_simp <;> rfl
theorem g5_v84 : after hostOps5 V (main_v84 : DevRef τ sig) = meanH (V (main_v82_1 : DevRef τ sig)) := by unfold meanH; after_results_simp <;> rfl
theorem g5_v88 : after hostOps5 V (main_v88 : DevRef τ sig) = varH (V (main_v82_1 : DevRef τ sig)) (V (main_v82_2 : DevRef τ sig)) := by
  unfold varH meanH; after_results_simp <;> rfl
theorem g5_v90 : after hostOps5 V (main_v90 : DevRef τ sig) = rSl2 (V (main_arg7 : DevRef τ sig)) := by unfold rSl2; after_results_simp <;> rfl
theorem g5_v92 : after hostOps5 V (main_v92 : DevRef τ sig) = rSl2 (V (main_arg8 : DevRef τ sig)) := by unfold rSl2; after_results_simp <;> rfl

/-! ## Stretches 2, 4: the next aggregation and dense parameters -/
theorem g2_v43 : after hostOps2 V (main_v43 : DevRef τ sig)
    = aggOf (V (main_v1 : DevRef τ sig)) (V (main_v3 : DevRef τ sig)) (V (main_v33 : DevRef τ sig)) := by unfold aggOf; after_results_simp <;> rfl
theorem g2_v45 : after hostOps2 V (main_v45 : DevRef τ sig) = wSl1 (V (main_arg3 : DevRef τ sig)) := by unfold wSl1; after_results_simp <;> rfl
theorem g2_v47 : after hostOps2 V (main_v47 : DevRef τ sig) = rSl1 (V (main_arg4 : DevRef τ sig)) := by unfold rSl1; after_results_simp <;> rfl
theorem g2_v49 : after hostOps2 V (main_v49 : DevRef τ sig) = wSl1 (V (main_arg5 : DevRef τ sig)) := by unfold wSl1; after_results_simp <;> rfl
theorem g2_v51 : after hostOps2 V (main_v51 : DevRef τ sig) = rSl1 (V (main_arg6 : DevRef τ sig)) := by unfold rSl1; after_results_simp <;> rfl
theorem g4_v73 : after hostOps4 V (main_v73 : DevRef τ sig)
    = aggOf (V (main_v1 : DevRef τ sig)) (V (main_v3 : DevRef τ sig)) (V (main_v63 : DevRef τ sig)) := by unfold aggOf; after_results_simp <;> rfl
theorem g4_v75 : after hostOps4 V (main_v75 : DevRef τ sig) = wSl2 (V (main_arg3 : DevRef τ sig)) := by unfold wSl2; after_results_simp <;> rfl
theorem g4_v77 : after hostOps4 V (main_v77 : DevRef τ sig) = rSl2 (V (main_arg4 : DevRef τ sig)) := by unfold rSl2; after_results_simp <;> rfl
theorem g4_v79 : after hostOps4 V (main_v79 : DevRef τ sig) = wSl2 (V (main_arg5 : DevRef τ sig)) := by unfold wSl2; after_results_simp <;> rfl
theorem g4_v81 : after hostOps4 V (main_v81 : DevRef τ sig) = rSl2 (V (main_arg6 : DevRef τ sig)) := by unfold rSl2; after_results_simp <;> rfl

/-! ## Stretch 6: the pooled layers side by side -/
theorem g6_v103 : after hostOps6 V (main_v103 : DevRef τ sig)
    = catOf (poolOf (V (main_arg2 : DevRef τ sig)) (V (main_v33 : DevRef τ sig)))
        (poolOf (V (main_arg2 : DevRef τ sig)) (V (main_v63 : DevRef τ sig)))
        (poolOf (V (main_arg2 : DevRef τ sig)) (V (main_v93 : DevRef τ sig))) := by
  unfold catOf poolOf; after_results_simp <;> rfl

end Cert.KernelIdeal.Hand

end
-- ==== Proof.Math.Spec.lean ====
/-
  The mathematics of one message-passing layer with batch normalisation, as functions of whole arrays on the
  extended reals, entry by entry. A layer takes node features h (50000 rows of 256), adds to each row the
  sum of its neighbours' rows (the aggregation, kept here as an opaque function of h: both programs spell it
  with the same host gather and scatter-add), applies two dense maps each followed by a clamp at zero, and
  normalises every column by its batch mean and variance over the 50000 rows.
  Two spellings of the variance are stated: the one-pass form E[z^2] - E[z]^2 from the column sums of z and
  of z^2, and the two-pass form E[(z - E z)^2]. They agree when every entry of z is a real number.
-/
import Idealize.ShloMosaic.PureOps.Ideal
import Idealize.ShloMosaic.Lib.ValueIdx

noncomputable section

namespace Cert.Spec

open Idealize.ShloMosaic Idealize.ShloMosaic.ValueIdx

/-- Node features: 50000 rows of 256. -/
abbrev SN : Shape := ⟨2, ![50000, 256]⟩
/-- A weight matrix. -/
abbrev SW : Shape := ⟨2, ![256, 256]⟩
/-- A row of 256 (bias, scale, shift, column statistics). -/
abbrev SR : Shape := ⟨1, ![256]⟩

abbrev Arr := SN.Idx → EReal
abbrev Wt := SW.Idx → EReal
abbrev Row := SR.Idx → EReal

/-- The three float literals the programs share, as their exact binary values. -/
def zeroW : EReal := Ideal.ofBits .f32 0x00000000#32
def epsW : EReal := Ideal.ofBits .f32 0x3727C5AC#32
def nW : EReal := Ideal.ofBits .f32 0x47435000#32

/-- First dense map and clamp: entry (p, k) of max(a · w1 + b1, 0). -/
def hiddenAt (a : Arr) (w1 : Wt) (b1 : Row) (p : Fin 50000) (k : Fin 256) : EReal :=
  max ((∑ l : Fin 256, a (ix2 p l) * w1 (ix2 l k)) + b1 (ix1 k)) zeroW

/-- Second dense map and clamp: entry (p, q) of max(hidden · w2 + b2, 0). -/
def mlpAt (a : Arr) (w1 : Wt) (b1 : Row) (w2 : Wt) (b2 : Row) (p : Fin 50000) (q : Fin 256) : EReal :=
  max ((∑ k : Fin 256, hiddenAt a w1 b1 p k * w2 (ix2 k q)) + b2 (ix1 q)) zeroW

/-- The two dense maps on every row. -/
def mlp (a : Arr) (w1 : Wt) (b1 : Row) (w2 : Wt) (b2 : Row) : Arr :=
  fun i => mlpAt a w1 b1 w2 b2 (i 0) (i 1)

/-- Column sums over the 50000 rows, of z and of z squared. -/
def colSum (z : Arr) : Row := fun j => ∑ p : Fin 50000, z (ix2 p (j 0))
def colSumSq (z : Arr) : Row := fun j => ∑ p : Fin 50000, z (ix2 p (j 0)) * z (ix2 p (j 0))

/-- Column mean: the column sum divided by the literal 50000. -/
def mean (z : Arr) : Row := fun j => Ideal.div (colSum z j) nW

/-- One-pass variance: E[z^2] - E[z]^2. -/
def varOne (z : Arr) : Row := fun j => Ideal.div (colSumSq z j) nW - mean z j * mean z j

/-- Two-pass variance: the mean of the squared deviations from the mean. -/
def varTwo (z : Arr) : Row :=
  fun j => Ideal.div (∑ p : Fin 50000, (z (ix2 p (j 0)) - mean z j) * (z (ix2 p (j 0)) - mean z j)) nW

/-- Normalise, scale and shift: ((z - mean) * rsqrt(var + eps)) * gamma + beta, column by column. -/
def bn (z : Arr) (mu var gamma beta : Row) : Arr :=
  fun i => ((z i - mu (ix1 (i 1))) * Ideal.rsqrt (var (ix1 (i 1)) + epsW)) * gamma (ix1 (i 1)) + beta (ix1 (i 1))

/-- The input of the dense maps: every row plus its aggregated neighbours. -/
def pre (agg : Arr → Arr) (h : Arr) : Arr := fun i => h i + agg h i

/-- A layer with the one-pass variance. -/
def layerOne (agg : Arr → Arr) (h : Arr) (w1 : Wt) (b1 : Row) (w2 : Wt) (b2 gamma beta : Row) : Arr :=
  bn (mlp (pre agg h) w1 b1 w2 b2) (mean (mlp (pre agg h) w1 b1 w2 b2)) (varOne (mlp (pre agg h) w1 b1 w2 b2)) gamma beta

/-- A layer with the two-pass variance. -/
def layerTwo (agg : Arr → Arr) (h : Arr) (w1 : Wt) (b1 : Row) (w2 : Wt) (b2 gamma beta : Row) : Arr :=
  bn (mlp (pre agg h) w1 b1 w2 b2) (mean (mlp (pre agg h) w1 b1 w2 b2)) (varTwo (mlp (pre agg h) w1 b1 w2 b2)) gamma beta

/-- Every entry is a real number. -/
def AllReal {S : Shape} (x : S.Idx → EReal) : Prop := ∀ i, ∃ r : ℝ, x i = (r : EReal)

end Cert.Spec

end
-- ==== Proof.KI.Net.lean ====
/-
  The network as the kernel program computes it, as one function of the launch contents of its arguments: the
  aggregation over the launch edge list, then three layers, each the clamped dense maps of every row plus its
  aggregated neighbours normalised with the ONE-PASS batch variance.
-/
import proofs.«130186_j80642305950442_1_alg».proof.Proof.KI.Glue
import proofs.«130186_j80642305950442_1_alg».proof.Proof.Math.Spec

noncomputable section

namespace Cert.KernelIdeal.Hand

open Idealize.ShloMosaic Idealize.ShloMosaic.TcCoe Idealize.SL.Sem Idealize.ShloMosaic.StableHlo
open Cert.KernelIdeal Cert.KernelIdeal.Gen
open Cert.Spec (Arr Wt Row)

variable (m : (ℓ : Loc nD τ sig) → Buf (Elt Ideal) ℓ) (c : Dev nD)

/-! ## The network as the kernel program computes it -/

/-- The senders and targets read off the edge list at launch. -/
def sK : (⟨S800000, .i32⟩ : BufTy).Contents (Elt Ideal) := srcOf (m ((c : Thread nD τ).loc main_arg1))
def dK : (⟨S800000, .i32⟩ : BufTy).Contents (Elt Ideal) := dstOf (m ((c : Thread nD τ).loc main_arg1))
/-- The aggregation over the launch edge list. -/
def aggK : Arr → Arr := fun h => aggOf (F := Ideal) (sK m c) (dK m c) h
/-- The three layers, each normalised with the one-pass variance. -/
def k1 : Arr := Cert.Spec.layerOne (aggK m c) (m ((c : Thread nD τ).loc main_arg0))
  (wSl0 (m ((c : Thread nD τ).loc main_arg3))) (rSl0 (m ((c : Thread nD τ).loc main_arg4)))
  (wSl0 (m ((c : Thread nD τ).loc main_arg5))) (rSl0 (m ((c : Thread nD τ).loc main_arg6)))
  (rSl0 (m ((c : Thread nD τ).loc main_arg7))) (rSl0 (m ((c : Thread nD τ).loc main_arg8)))
def k2 : Arr := Cert.Spec.layerOne (aggK m c) (k1 m c)
  (wSl1 (m ((c : Thread nD τ).loc main_arg3))) (rSl1 (m ((c : Thread nD τ).loc main_arg4)))
  (wSl1 (m ((c : Thread nD τ).loc main_arg5))) (rSl1 (m ((c : Thread nD τ).loc main_arg6)))
  (rSl1 (m ((c : Thread nD τ).loc main_arg7))) (rSl1 (m ((c : Thread nD τ).loc main_arg8)))
def k3 : Arr := Cert.Spec.layerOne (aggK m c) (k2 m c)
  (wSl2 (m ((c : Thread nD τ).loc main_arg3))) (rSl2 (m ((c : Thread nD τ).loc main_arg4)))
  (wSl2 (m ((c : Thread nD τ).loc main_arg5))) (rSl2 (m ((c : Thread nD τ).loc main_arg6)))
  (rSl2 (m ((c : Thread nD τ).loc main_arg7))) (rSl2 (m ((c : Thread nD τ).loc main_arg8)))

end Cert.KernelIdeal.Hand

end
-- ==== Proof.KI.ValA1.lean ====
import proofs.«130186_j80642305950442_1_alg».proof.Proof.KI.A1
import proofs.«130186_j80642305950442_1_alg».proof.Proof.Math.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! # The value of region 1: the output array is the normalisation of the arrays the region finds -/

/-! ## The stored value at an entry -/

/-- One row of 256 laid over 2000 rows reads, at (p, q), the row's entry q. -/
theorem row1_apply {α : Type} (w : S256.Idx → α) (p : Fin 2000) (q : Fin 256) :
    broadcastTo S2000x256 (shapeCast S1x256 w shapeCasts_S256_S1x256) broadcasts_S1x256_S2000x256 (ix2 p q) = w (ix1 q) :=
  (broadcastTo_1b_ab_apply _ broadcasts_S1x256_S2000x256 p q).trans (shapeCast_a_1a_apply w shapeCasts_S256_S1x256 0 q)

/-- The stored value at (p, q): ((z - mean) * rsqrt(var + eps)) * gamma + beta, z at (p, q) and the four
    statistics at column q. -/
theorem pay1_apply (v0 : Vec Ideal S256 .f32) (v5 : Vec Ideal S2000x256 .f32) (v7 v15 v20 : Vec Ideal S256 .f32) (p : Fin 2000) (q : Fin 256) :
    k1_pay1 (F := Ideal) v0 v5 v7 v15 v20 (ix2 p q)
      = ((v5 (ix2 p q) - v7 (ix1 q)) * Ideal.rsqrt (v0 (ix1 q) + Cert.Spec.epsW)) * v15 (ix1 q) + v20 (ix1 q) := by
  unfold k1_pay1
  rw [addf_apply, mulf_apply, mulf_apply, subf_apply, row1_apply, row1_apply, row1_apply, row1_apply]
  simp only [shapeCast_self]
  rfl

/-- The same at any entry y of the block, against the normalisation of whole arrays at an entry i: it is enough
    that the block of z at y is z at i and that each statistic's block at y's column is the statistic at i's column. -/
theorem bn1_at (x0 : Vec Ideal S2000x256 .f32) (x1 x2 x3 x4 : Vec Ideal S256 .f32)
    (z : Cert.Spec.Arr) (mu var gamma beta : Cert.Spec.Row) (y : S2000x256.Idx) (i : Cert.Spec.SN.Idx)
    (h0 : x0 y = z i) (h1 : x1 (ix1 (y 1)) = mu (ix1 (i 1))) (h2 : x2 (ix1 (y 1)) = var (ix1 (i 1)))
    (h3 : x3 (ix1 (y 1)) = gamma (ix1 (i 1))) (h4 : x4 (ix1 (y 1)) = beta (ix1 (i 1))) :
    k1_pay1 (F := Ideal) x2 x0 x1 x3 x4 y = Cert.Spec.bn z mu var gamma beta i := by
  obtain ⟨p, q, rfl⟩ : ∃ (p : Fin 2000) (q : Fin 256), y = ix2 p q := ⟨y 0, y 1, eq_ix2 y⟩
  have h1' : x1 (ix1 q) = mu (ix1 (i 1)) := h1
  have h2' : x2 (ix1 q) = var (ix1 (i 1)) := h2
  have h3' : x3 (ix1 q) = gamma (ix1 (i 1)) := h3
  have h4' : x4 (ix1 q) = beta (ix1 (i 1)) := h4
  rw [pay1_apply, h0, h1', h2', h3', h4']
  rfl

/-! ## From blocks to the array -/

theorem hz1_2 : (![0, 0] : Fin 2 → Nat) = fun _ => 0 := funext fun a => by fin_cases a <;> rfl
theorem hz1_1 : (![0] : Fin 1 → Nat) = fun _ => 0 := funext fun a => by fin_cases a <;> rfl

/-- The index maps over the grid: at point t the block of z and the block of the output are block t of 25 along
    the rows and the only block along the columns; the four statistics are always at their only block. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 1) = 0 ∧ win1_2.index t (0 : Fin 1) = 0
    ∧ win1_3.index t (0 : Fin 1) = 0 ∧ win1_4.index t (0 : Fin 1) = 0 :=
  (by decide +kernel : ∀ t : Fin grid1.N, _)

/-- What point t writes back is block t of the normalisation of the arrays the region finds. -/
theorem flushed1_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (Cert.Spec.bn (V c main_v22_0) (V c main_v24) (V c main_v28) (V c main_v30) (V c main_v32)) := by
  show (cfg1.win 5).cut (grid1.coords t) ((dat1 V c).after 5 t) = _
  rw [after1_5]
  unfold out1_5
  rw [View.canon_unit_zero hz1_2]
  simp only [View.ld_unit_zero (S := S2000x256) hz1_2, View.ld_unit_zero (S := S256) hz1_1]
  obtain ⟨e0, e1, e2, e3, e4, e5, e6, e7⟩ := idx_facts1 t
  funext j
  have hj0 : (j 0).val < 2000 := (j 0).isLt
  have hj1 : (j 1).val < 256 := (j 1).isLt
  refine bn1_at _ _ _ _ _ _ _ _ _ _ j (((cfg1.win 5).blk t).view.emb j) ?_ ?_ ?_ ?_ ?_
  · show V c main_v22_0 (((cfg1.win 0).blk t).view.emb j) = V c main_v22_0 (((cfg1.win 5).blk t).view.emb j)
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * (j 1).val = win1_5.index t (1 : Fin 2) * 256 + 1 * (j 1).val; omega
  · show V c main_v24 (((cfg1.win 1).blk t).view.emb (ix1 (j 1))) = V c main_v24 (ix1 ((((cfg1.win 5).blk t).view.emb j) 1))
    refine congrArg _ (funext fun a => Fin.ext ?_)
    match a with
    | ⟨0, _⟩ => show win1_1.index t (0 : Fin 1) * 256 + 1 * (j 1).val = win1_5.index t (1 : Fin 2) * 256 + 1 * (j 1).val; omega
  · show V c main_v28 (((cfg1.win 2).blk t).view.emb (ix1 (j 1))) = V c main_v28 (ix1 ((((cfg1.win 5).blk t).view.emb j) 1))
    refine congrArg _ (funext fun a => Fin.ext ?_)
    match a with
    | ⟨0, _⟩ => show win1_2.index t (0 : Fin 1) * 256 + 1 * (j 1).val = win1_5.index t (1 : Fin 2) * 256 + 1 * (j 1).val; omega
  · show V c main_v30 (((cfg1.win 3).blk t).view.emb (ix1 (j 1))) = V c main_v30 (ix1 ((((cfg1.win 5).blk t).view.emb j) 1))
    refine congrArg _ (funext fun a => Fin.ext ?_)
    match a with
    | ⟨0, _⟩ => show win1_3.index t (0 : Fin 1) * 256 + 1 * (j 1).val = win1_5.index t (1 : Fin 2) * 256 + 1 * (j 1).val; omega
  · show V c main_v32 (((cfg1.win 4).blk t).view.emb (ix1 (j 1))) = V c main_v32 (ix1 ((((cfg1.win 5).blk t).view.emb j) 1))
    refine congrArg _ (funext fun a => Fin.ext ?_)
    match a with
    | ⟨0, _⟩ => show win1_4.index t (0 : Fin 1) * 256 + 1 * (j 1).val = win1_5.index t (1 : Fin 2) * 256 + 1 * (j 1).val; omega

/-- An entry of the array is in point t's block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v33).slice (win1_5.rect t)).set ↔ _
  rw [View.set_slice_whole, Rect.mem_set_unit]
  exact Iff.rfl

/-- Every entry is in some point's block: row r is in the block of point r / 2000. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_5 _, ?_⟩
  obtain ⟨e0, e1, e2, e3, e4, e5, e6, e7⟩ := idx_facts1 ⟨(i 0).val / 2000, by rw [hN]; omega⟩
  rw [mem_blk1]
  intro a
  match a with
  | ⟨0, _⟩ => show win1_5.index _ (0 : Fin 2) * 2000 ≤ (i 0).val ∧ (i 0).val < win1_5.index _ (0 : Fin 2) * 2000 + 2000; rw [e2]; show (i 0).val / 2000 * 2000 ≤ (i 0).val ∧ (i 0).val < (i 0).val / 2000 * 2000 + 2000; omega
  | ⟨1, _⟩ => show win1_5.index _ (1 : Fin 2) * 256 ≤ (i 1).val ∧ (i 1).val < win1_5.index _ (1 : Fin 2) * 256 + 256; rw [e3]; omega

/-- The output array after the region is the normalisation of the arrays the region finds. -/
theorem final1 (V : (c : Dev nD) → (b : Ref sig .tc) → Buf (Elt Ideal) ((c : Thread nD τ).loc b)) (c : Dev nD) :
    ((dat1 (F := Ideal) V c).arrAt 5 cfg1.N : Cert.Spec.Arr)
      = Cert.Spec.bn (V c main_v22_0) (V c main_v24) (V c main_v28) (V c main_v30) (V c main_v32) :=
  (dat1 (F := Ideal) V c).arrAt_eq_of_cover 5 _ (fun t _ => flushed1_eq V c t) cover1

end Cert.KernelIdeal.Hand

end
-- ==== Proof.KI.ValA3.lean ====
import proofs.«130186_j80642305950442_1_alg».proof.Proof.KI.A3
import proofs.«130186_j80642305950442_1_alg».proof.Proof.Math.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! # The value of region 3: the output array is the normalisation of the arrays the region finds -/

/-! ## The stored value at an entry -/

/-- One row of 256 laid over 2000 rows reads, at (p, q), the row's entry q. -/
theorem row3_apply {α : Type} (w : S256.Idx → α) (p : Fin 2000) (q : Fin 256) :
    broadcastTo S2000x256 (shapeCast S1x256 w shapeCasts_S256_S1x256) broadcasts_S1x256_S2000x256 (ix2 p q) = w (ix1 q) :=
  (broadcastTo_1b_ab_apply _ broadcasts_S1x256_S2000x256 p q).trans (shapeCast_a_1a_apply w shapeCasts_S256_S1x256 0 q)

/-- The stored value at (p, q): ((z - mean) * rsqrt(var + eps)) * gamma + beta, z at (p, q) and the four
    statistics at column q. -/
theorem pay3_apply (v0 : Vec Ideal S256 .f32) (v5 : Vec Ideal S2000x256 .f32) (v7 v15 v20 : Vec Ideal S256 .f32) (p : Fin 2000) (q : Fin 256) :
    k3_pay1 (F := Ideal) v0 v5 v7 v15 v20 (ix2 p q)
      = ((v5 (ix2 p q) - v7 (ix1 q)) * Ideal.rsqrt (v0 (ix1 q) + Cert.Spec.epsW)) * v15 (ix1 q) + v20 (ix1 q) := by
  unfold k3_pay1
  rw [addf_apply, mulf_apply, mulf_apply, subf_apply, row3_apply, row3_apply, row3_apply, row3_apply]
  simp only [shapeCast_self]
  rfl

/-- The same at any entry y of the block, against the normalisation of whole arrays at an entry i: it is enough
    that the block of z at y is z at i and that each statistic's block at y's column is the statistic at i's column. -/
theorem bn3_at (x0 : Vec Ideal S2000x256 .f32) (x1 x2 x3 x4 : Vec Ideal S256 .f32)
    (z : Cert.Spec.Arr) (mu var gamma beta : Cert.Spec.Row) (y : S2000x256.Idx) (i : Cert.Spec.SN.Idx)
    (h0 : x0 y = z i) (h1 : x1 (ix1 (y 1)) = mu (ix1 (i 1))) (h2 : x2 (ix1 (y 1)) = var (ix1 (i 1)))
    (h3 : x3 (ix1 (y 1)) = gamma (ix1 (i 1))) (h4 : x4 (ix1 (y 1)) = beta (ix1 (i 1))) :
    k3_pay1 (F := Ideal) x2 x0 x1 x3 x4 y = Cert.Spec.bn z mu var gamma beta i := by
  obtain ⟨p, q, rfl⟩ : ∃ (p : Fin 2000) (q : Fin 256), y = ix2 p q := ⟨y 0, y 1, eq_ix2 y⟩
  have h1' : x1 (ix1 q) = mu (ix1 (i 1)) := h1
  have h2' : x2 (ix1 q) = var (ix1 (i 1)) := h2
  have h3' : x3 (ix1 q) = gamma (ix1 (i 1)) := h3
  have h4' : x4 (ix1 q) = beta (ix1 (i 1)) := h4
  rw [pay3_apply, h0, h1', h2', h3', h4']
  rfl

/-! ## From blocks to the array -/

theorem hz3_2 : (![0, 0] : Fin 2 → Nat) = fun _ => 0 := funext fun a => by fin_cases a <;> rfl
theorem hz3_1 : (![0] : Fin 1 → Nat) = fun _ => 0 := funext fun a => by fin_cases a <;> rfl

/-- The index maps over the grid: at point t the block of z and the block of the output are block t of 25 along
    the rows and the only block along the columns; the four statistics are always at their only block. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 1) = 0 ∧ win3_2.index t (0 : Fin 1) = 0
    ∧ win3_3.index t (0 : Fin 1) = 0 ∧ win3_4.index t (0 : Fin 1) = 0 :=
  (by decide +kernel : ∀ t : Fin grid3.N, _)

/-- What point t writes back is block t of the normalisation of the arrays the region finds. -/
theorem flushed3_eq (V : (c : Dev nD) → (b : Ref sig .tc) → Buf (Elt Ideal) ((c : Thread nD τ).loc b)) (c : Dev nD) (t : Fin cfg3.N) :
    (dat3 (F := Ideal) V c).flushed 5 t = ((cfg3.win 5).blk t).view.read (Elt Ideal)
      (Cert.Spec.bn (V c main_v52_0) (V c main_v54) (V c main_v58) (V c main_v60) (V c main_v62)) := by
  show (cfg3.win 5).cut (grid3.coords t) ((dat3 V c).after 5 t) = _
  rw [after3_5]
  unfold out3_5
  rw [View.canon_unit_zero hz3_2]
  simp only [View.ld_unit_zero (S := S2000x256) hz3_2, View.ld_unit_zero (S := S256) hz3_1]
  obtain ⟨e0, e1, e2, e3, e4, e5, e6, e7⟩ := idx_facts3 t
  funext j
  have hj0 : (j 0).val < 2000 := (j 0).isLt
  have hj1 : (j 1).val < 256 := (j 1).isLt
  refine bn3_at _ _ _ _ _ _ _ _ _ _ j (((cfg3.win 5).blk t).view.emb j) ?_ ?_ ?_ ?_ ?_
  · show V c main_v52_0 (((cfg3.win 0).blk t).view.emb j) = V c main_v52_0 (((cfg3.win 5).blk t).view.emb j)
    refine congrArg _ (funext fun a => Fin.ext ?_)
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 256 + 1 * (j 1).val = win3_5.index t (1 : Fin 2) * 256 + 1 * (j 1).val; omega
  · show V c main_v54 (((cfg3.win 1).blk t).view.emb (ix1 (j 1))) = V c main_v54 (ix1 ((((cfg3.win 5).blk t).view.emb j) 1))
    refine congrArg _ (funext fun a => Fin.ext ?_)
    match a with
    | ⟨0, _⟩ => show win3_1.index t (0 : Fin 1) * 256 + 1 * (j 1).val = win3_5.index t (1 : Fin 2) * 256 + 1 * (j 1).val; omega
  · show V c main_v58 (((cfg3.win 2).blk t).view.emb (ix1 (j 1))) = V c main_v58 (ix1 ((((cfg3.win 5).blk t).view.emb j) 1))
    refine congrArg _ (funext fun a => Fin.ext ?_)
    match a with
    | ⟨0, _⟩ => show win3_2.index t (0 : Fin 1) * 256 + 1 * (j 1).val = win3_5.index t (1 : Fin 2) * 256 + 1 * (j 1).val; omega
  · show V c main_v60 (((cfg3.win 3).blk t).view.emb (ix1 (j 1))) = V c main_v60 (ix1 ((((cfg3.win 5).blk t).view.emb j) 1))
    refine congrArg _ (funext fun a => Fin.ext ?_)
    match a with
    | ⟨0, _⟩ => show win3_3.index t (0 : Fin 1) * 256 + 1 * (j 1).val = win3_5.index t (1 : Fin 2) * 256 + 1 * (j 1).val; omega
  · show V c main_v62 (((cfg3.win 4).blk t).view.emb (ix1 (j 1))) = V c main_v62 (ix1 ((((cfg3.win 5).blk t).view.emb j) 1))
    refine congrArg _ (funext fun a => Fin.ext ?_)
    match a with
    | ⟨0, _⟩ => show win3_4.index t (0 : Fin 1) * 256 + 1 * (j 1).val = win3_5.index t (1 : Fin 2) * 256 + 1 * (j 1).val; omega

/-- An entry of the array is in point t's block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v63).slice (win3_5.rect t)).set ↔ _
  rw [View.set_slice_whole, Rect.mem_set_unit]
  exact Iff.rfl

/-- Every entry is in some point's block: row r is in the block of point r / 2000. -/
theorem cover3 (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 25 := N_3
  refine ⟨⟨(i 0).val / 2000, by rw [hN]; omega⟩, flush3_5 _, ?_⟩
  obtain ⟨e0, e1, e2, e3, e4, e5, e6, e7⟩ := idx_facts3 ⟨(i 0).val / 2000, by rw [hN]; omega⟩
  rw [mem_blk3]
  intro a
  match a with
  | ⟨0, _⟩ => show win3_5.index _ (0 : Fin 2) * 2000 ≤ (i 0).val ∧ (i 0).val < win3_5.index _ (0 : Fin 2) * 2000 + 2000; rw [e2]; show (i 0).val / 2000 * 2000 ≤ (i 0).val ∧ (i 0).val < (i 0).val / 2000 * 2000 + 2000; omega
  | ⟨1, _⟩ => show win3_5.index _ (1 : Fin 2) * 256 ≤ (i 1).val ∧ (i 1).val < win3_5.index _ (1 : Fin 2) * 256 + 256; rw [e3]; omega

/-- The output array after the region is the normalisation of the arrays the region finds. -/
theorem final3 (V : (c : Dev nD) → (b : Ref sig .tc) → Buf (Elt Ideal) ((c : Thread nD τ).loc b)) (c : Dev nD) :
    ((dat3 (F := Ideal) V c).arrAt 5 cfg3.N : Cert.Spec.Arr)
      = Cert.Spec.bn (V c main_v52_0) (V c main_v54) (V c main_v58) (V c main_v60) (V c main_v62) :=
  (dat3 (F := Ideal) V c).arrAt_eq_of_cover 5 _ (fun t _ => flushed3_eq V c t) cover3

end Cert.KernelIdeal.Hand

end
-- ==== Proof.KI.ValA5.lean ====
import proofs.«130186_j80642305950442_1_alg».proof.Proof.KI.A5
import proofs.«130186_j80642305950442_1_alg».proof.Proof.Math.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! # The value of region 5: the output array is the normalisation of the arrays the region finds -/

/-! ## The stored value at an entry -/

/-- One row of 256 laid over 2000 rows reads, at (p, q), the row's entry q. -/
theorem row5_apply {α : Type} (w : S256.Idx → α) (p : Fin 2000) (q : Fin 256) :
    broadcastTo S2000x256 (shapeCast S1x256 w shapeCasts_S256_S1x256) broadcasts_S1x256_S2000x256 (ix2 p q) = w (ix1 q) :=
  (broadcastTo_1b_ab_apply _ broadcasts_S1x256_S2000x256 p q).trans (shapeCast_a_1a_apply w shapeCasts_S256_S1x256 0 q)

/-- The stored value at (p, q): ((z - mean) * rsqrt(var + eps)) * gamma + beta, z at (p, q) and the four
    statistics at column q. -/
theorem pay5_apply (v0 : Vec Ideal S256 .f32) (v5 : Vec Ideal S2000x256 .f32) (v7 v15 v20 : Vec Ideal S256 .f32) (p : Fin 2000) (q : Fin 256) :
    k5_pay1 (F := Ideal) v0 v5 v7 v15 v20 (ix2 p q)
      = ((v5 (ix2 p q) - v7 (ix1 q)) * Ideal.rsqrt (v0 (ix1 q) + Cert.Spec.epsW)) * v15 (ix1 q) + v20 (ix1 q) := by
  unfold k5_pay1
  rw [addf_apply, mulf_apply, mulf_apply, subf_apply, row5_apply, row5_apply, row5_apply, row5_apply]
  simp only [shapeCast_self]
  rfl

/-- The same at any entry y of the block, against the normalisation of whole arrays at an entry i: it is enough
    that the block of z at y is z at i and that each statistic's block at y's column is the statistic at i's column. -/
theorem bn5_at (x0 : Vec Ideal S2000x256 .f32) (x1 x2 x3 x4 : Vec Ideal S256 .f32)
    (z : Cert.Spec.Arr) (mu var gamma beta : Cert.Spec.Row) (y : S2000x256.Idx) (i : Cert.Spec.SN.Idx)
    (h0 : x0 y = z i) (h1 : x1 (ix1 (y 1)) = mu (ix1 (i 1))) (h2 : x2 (ix1 (y 1)) = var (ix1 (i 1)))
    (h3 : x3 (ix1 (y 1)) = gamma (ix1 (i 1))) (h4 : x4 (ix1 (y 1)) = beta (ix1 (i 1))) :
    k5_pay1 (F := Ideal) x2 x0 x1 x3 x4 y = Cert.Spec.bn z mu var gamma beta i := by
  obtain ⟨p, q, rfl⟩ : ∃ (p : Fin 2000) (q : Fin 256), y = ix2 p q := ⟨y 0, y 1, eq_ix2 y⟩
  have h1' : x1 (ix1 q) = mu (ix1 (i 1)) := h1
  have h2' : x2 (ix1 q) = var (ix1 (i 1)) := h2
  have h3' : x3 (ix1 q) = gamma (ix1 (i 1)) := h3
  have h4' : x4 (ix1 q) = beta (ix1 (i 1)) := h4
  rw [pay5_apply, h0, h1', h2', h3', h4']
  rfl

/-! ## From blocks to the array -/

theorem hz5_2 : (![0, 0] : Fin 2 → Nat) = fun _ => 0 := funext fun a => by fin_cases a <;> rfl
theorem hz5_1 : (![0] : Fin 1 → Nat) = fun _ => 0 := funext fun a => by fin_cases a <;> rfl

/-- The index maps over the grid: at point t the block of z and the block of the output are block t of 25 along
    the rows and the only block along the columns; the four statistics are always at their only block. -/
theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 1) = 0 ∧ win5_2.index t (0 : Fin 1) = 0
    ∧ win5_3.index t (0 : Fin 1) = 0 ∧ win5_4.index t (0 : Fin 1) = 0 :=
  (by decide +kernel : ∀ t : Fin grid5.N, _)

/-- What point t writes back is block t of the normalisation of the arrays the region finds. -/
theorem flushed5_eq (V : (c : Dev nD) → (b : Ref sig .tc) → Buf (Elt Ideal) ((c : Thread nD τ).loc b)) (c : Dev nD) (t : Fin cfg5.N) :
    (dat5 (F := Ideal) V c).flushed 5 t = ((cfg5.win 5).blk t).view.read (Elt Ideal)
      (Cert.Spec.bn (V c main_v82_0) (V c main_v84) (V c main_v88) (V c main_v90) (V c main_v92)) := by
  show (cfg5.win 5).cut (grid5.coords t) ((dat5 V c).after 5 t) = _
  rw [after5_5]
  unfold out5_5
  rw [View.canon_unit_zero hz5_2]
  simp only [View.ld_unit_zero (S := S2000x256) hz5_2, View.ld_unit_zero (S := S256) hz5_1]
  obtain ⟨e0, e1, e2, e3, e4, e5, e6, e7⟩ := idx_facts5 t
  funext j
  have hj0 : (j 0).val < 2000 := (j 0).isLt
  have hj1 : (j 1).val < 256 := (j 1).isLt
  refine bn5_at _ _ _ _ _ _ _ _ _ _ j (((cfg5.win 5).blk t).view.emb j) ?_ ?_ ?_ ?_ ?_
  · show V c main_v82_0 (((cfg5.win 0).blk t).view.emb j) = V c main_v82_0 (((cfg5.win 5).blk t).view.emb j)
    refine congrArg _ (funext fun a => Fin.ext ?_)
    match a with
    | ⟨0, _⟩ => show win5_0.index t (0 : Fin 2) * 2000 + 1 * (j 0).val = win5_5.index t (0 : Fin 2) * 2000 + 1 * (j 0).val; omega
    | ⟨1, _⟩ => show win5_0.index t (1 : Fin 2) * 256 + 1 * (j 1).val = win5_5.index t (1 : Fin 2) * 256 + 1 * (j 1).val; omega
  · show V c main_v84 (((cfg5.win 1).blk t).view.emb (ix1 (j 1))) = V c main_v84 (ix1 ((((cfg5.win 5).blk t).view.emb j) 1))
    refine congrArg _ (funext fun a => Fin.ext ?_)
    match a with
    | ⟨0, _⟩ => show win5_1.index t (0 : Fin 1) * 256 + 1 * (j 1).val = win5_5.index t (1 : Fin 2) * 256 + 1 * (j 1).val; omega
  · show V c main_v88 (((cfg5.win 2).blk t).view.emb (ix1 (j 1))) = V c main_v88 (ix1 ((((cfg5.win 5).blk t).view.emb j) 1))
    refine congrArg _ (funext fun a => Fin.ext ?_)
    match a with
    | ⟨0, _⟩ => show win5_2.index t (0 : Fin 1) * 256 + 1 * (j 1).val = win5_5.index t (1 : Fin 2) * 256 + 1 * (j 1).val; omega
  · show V c main_v90 (((cfg5.win 3).blk t).view.emb (ix1 (j 1))) = V c main_v90 (ix1 ((((cfg5.win 5).blk t).view.emb j) 1))
    refine congrArg _ (funext fun a => Fin.ext ?_)
    match a with
    | ⟨0, _⟩ => show win5_3.index t (0 : Fin 1) * 256 + 1 * (j 1).val = win5_5.index t (1 : Fin 2) * 256 + 1 * (j 1).val; omega
  · show V c main_v92 (((cfg5.win 4).blk t).view.emb (ix1 (j 1))) = V c main_v92 (ix1 ((((cfg5.win 5).blk t).view.emb j) 1))
    refine congrArg _ (funext fun a => Fin.ext ?_)
    match a with
    | ⟨0, _⟩ => show win5_4.index t (0 : Fin 1) * 256 + 1 * (j 1).val = win5_5.index t (1 : Fin 2) * 256 + 1 * (j 1).val; omega

/-- An entry of the array is in point t's block iff each coordinate is in the block's range on its axis. -/
theorem mem_blk5 (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v93).slice (win5_5.rect t)).set ↔ _
  rw [View.set_slice_whole, Rect.mem_set_unit]
  exact Iff.rfl

/-- Every entry is in some point's block: row r is in the block of point r / 2000. -/
theorem cover5 (i : S50000x256.Idx) : ∃ t : Fin cfg5.N, (cfg5.win 5).flush t = true ∧ i ∈ ((cfg5.win 5).blk t).view.set := by
  have hi0 : (i 0).val < 50000 := (i 0).isLt
  have hi1 : (i 1).val < 256 := (i 1).isLt
  have hN : cfg5.N = 25 := N_5
  refine ⟨⟨(i 0).val / 2000, by rw [hN]; omega⟩, flush5_5 _, ?_⟩
  obtain ⟨e0, e1, e2, e3, e4, e5, e6, e7⟩ := idx_facts5 ⟨(i 0).val / 2000, by rw [hN]; omega⟩
  rw [mem_blk5]
  intro a
  match a with
  | ⟨0, _⟩ => show win5_5.index _ (0 : Fin 2) * 2000 ≤ (i 0).val ∧ (i 0).val < win5_5.index _ (0 : Fin 2) * 2000 + 2000; rw [e2]; show (i 0).val / 2000 * 2000 ≤ (i 0).val ∧ (i 0).val < (i 0).val / 2000 * 2000 + 2000; omega
  | ⟨1, _⟩ => show win5_5.index _ (1 : Fin 2) * 256 ≤ (i 1).val ∧ (i 1).val < win5_5.index _ (1 : Fin 2) * 256 + 256; rw [e3]; omega

/-- The output array after the region is the normalisation of the arrays the region finds. -/
theorem final5 (V : (c : Dev nD) → (b : Ref sig .tc) → Buf (Elt Ideal) ((c : Thread nD τ).loc b)) (c : Dev nD) :
    ((dat5 (F := Ideal) V c).arrAt 5 cfg5.N : Cert.Spec.Arr)
      = Cert.Spec.bn (V c main_v82_0) (V c main_v84) (V c main_v88) (V c main_v90) (V c main_v92) :=
  (dat5 (F := Ideal) V c).arrAt_eq_of_cover 5 _ (fun t _ => flushed5_eq V c t) cover5

end Cert.KernelIdeal.Hand

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.KI.ValR0Pay.lean ====
import proofs.«130186_j80642305950442_1_alg».proof.Proof.Gen.KernelIdeal.Skeleton
import proofs.«130186_j80642305950442_1_alg».proof.Proof.Math.Spec
import proofs.«130186_j80642305950442_1_alg».proof.Proof.LibMatRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! # The values region 0's body stores, entry by entry

  The block of results is the two dense maps with their clamps applied to the block of rows plus the block of
  aggregated neighbours; the two running rows get the block's column sums and column sums of squares added. -/

/-- The body's products are plain [2000, 256] by [256, 256] products. -/
theorem dot0_eq : dot_S2000x256_S256x256_S2000x256_1_0_0_1_n_n = DotDims.plain 2000 256 256 := rfl

/-- One row of 256 laid over 2000 rows reads, at (p, q), the row's entry q. -/
theorem row0_apply {α : Type} (w : S256.Idx → α) (p : Fin 2000) (q : Fin 256) :
    broadcastTo S2000x256 (shapeCast S1x256 w shapeCasts_S256_S1x256) broadcasts_S1x256_S2000x256 (ix2 p q) = w (ix1 q) :=
  (broadcastTo_1b_ab_apply _ broadcasts_S1x256_S2000x256 p q).trans (shapeCast_a_1a_apply w shapeCasts_S256_S1x256 0 q)

/-- Summing a block over its rows: the row coordinate r inserted before column q is the entry (r, q). -/
theorem lift0_eq (r : Fin 2000) (q : Fin 256) : reduces_S2000x256_S256.lift (ix1 q) r = ix2 r q := by
  funext a
  refine Fin.ext ?_
  match a with
  | ⟨0, _⟩ => rfl
  | ⟨1, _⟩ => rfl

/-- The column sums of a block: at column q, the sum over the 2000 rows. -/
theorem colsum0_apply (src : FVec Ideal S2000x256 .f32) (hφ : FKind.Formats .f32)
    (hacc : (0x00000000#32 : BitVec 32) = FKind.add.neutral .f32 hφ) (q : Fin 256) :
    multiReduction .add [0] S256 src 0x00000000#32 reduces_S2000x256_S256 hφ hacc (ix1 q) = ∑ r : Fin 2000, src (ix2 r q) :=
  (Ideal.multiReduction_add_single src 0x00000000#32 reduces_S2000x256_S256 hφ hacc (ix1 q)).trans
    (Finset.sum_congr rfl fun r _ => congrArg src (lift0_eq r q))

/-- The block of results at (p, q): the second dense map and clamp of the first dense map and clamp of row p of
    the block of rows plus the block of aggregated neighbours. -/
theorem pay0_4_apply (v3 v4 : Vec Ideal S2000x256 .f32) (v8 : Vec Ideal S256x256 .f32) (v12 : Vec Ideal S256 .f32)
    (v20 : Vec Ideal S256x256 .f32) (v24 : Vec Ideal S256 .f32) (p : Fin 2000) (q : Fin 256) :
    k0_pay4 (F := Ideal) v3 v4 v8 v12 v20 v24 (ix2 p q)
      = max ((∑ k : Fin 256, max ((∑ l : Fin 256, (v3 (ix2 p l) + v4 (ix2 p l)) * v8 (ix2 l k)) + v12 (ix1 k)) Cert.Spec.zeroW
          * v20 (ix2 k q)) + v24 (ix1 q)) Cert.Spec.zeroW := by
  unfold k0_pay4
  rw [maximumf_apply, addf_apply, row0_apply, dot0_eq]
  refine congrArg₂ max (congrArg₂ (· + ·) ?_ ?_) rfl
  · refine (MatRows.matmul_plain_apply none _ _ p q).trans (Finset.sum_congr rfl fun k _ => ?_)
    rw [truncf_apply, truncf_apply, shapeCast_self v20, maximumf_apply, addf_apply, row0_apply, shapeCast_self v12]
    refine congrArg₂ (· * ·) (congrArg₂ max (congrArg₂ (· + ·) ?_ rfl) rfl) rfl
    refine (MatRows.matmul_plain_apply none _ _ p k).trans (Finset.sum_congr rfl fun l _ => ?_)
    rw [truncf_apply, truncf_apply, shapeCast_self v8, addf_apply, shapeCast_self v4]
  · rw [shapeCast_self v24]

/-- The running column sums after the body, at column q: what they were plus the block's column sum. -/
theorem pay0_5_apply (v3 v4 : Vec Ideal S2000x256 .f32) (v8 : Vec Ideal S256x256 .f32) (v12 : Vec Ideal S256 .f32)
    (v20 : Vec Ideal S256x256 .f32) (v24 : Vec Ideal S256 .f32) (v32 : Vec Ideal S256 .f32) (q : Fin 256) :
    k0_pay5 (F := Ideal) v3 v4 v8 v12 v20 v24 v32 (ix1 q)
      = v32 (ix1 q) + ∑ r : Fin 2000, k0_pay4 (F := Ideal) v3 v4 v8 v12 v20 v24 (ix2 r q) := by
  unfold k0_pay5
  rw [addf_apply, shapeCast_self]
  exact congrArg (v32 (ix1 q) + ·) (colsum0_apply _ _ _ q)

/-- The running column sums of squares after the body, at column q: what they were plus the block's. -/
theorem pay0_1_apply (v30 : FVec Ideal S2000x256 .f32) (v37 : Vec Ideal S256 .f32) (q : Fin 256) :
    k0_pay1 (F := Ideal) v30 v37 (ix1 q) = v37 (ix1 q) + ∑ r : Fin 2000, v30 (ix2 r q) * v30 (ix2 r q) := by
  unfold k0_pay1
  rw [addf_apply, shapeCast_self]
  exact congrArg (v37 (ix1 q) + ·) (colsum0_apply _ _ _ q)

/-- The rows the reset stores are zero. -/
theorem pay0_2_apply (j : S256.Idx) : k0_pay2 (F := Ideal) j = 0 := Ideal.ofBits_zero_f32
theorem pay0_3_apply (j : S256.Idx) : k0_pay3 (F := Ideal) j = 0 := Ideal.ofBits_zero_f32

end Cert.KernelIdeal.Hand

end
-- ==== Proof.KI.ValR0z.lean ====
import proofs.«130186_j80642305950442_1_alg».proof.Proof.KI.R0
import proofs.«130186_j80642305950442_1_alg».proof.Proof.Math.Spec
import proofs.«130186_j80642305950442_1_alg».proof.Proof.KI.ValR0Pay
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem
open Idealize.ShloMosaic.Pipeline (Dat)
open Idealize.ShloMosaic.ValueIdx

/-! # The value of region 0's first output: the two dense maps of input plus aggregation, block by block -/

section Pieces

variable {F : FTy → Type} [FloatOps F]

theorem hz0_2 : (![0, 0] : Fin 2 → Nat) = fun _ => 0 := funext fun a => by fin_cases a <;> rfl
theorem hz0_1 : (![0] : Fin 1 → Nat) = fun _ => 0 := funext fun a => by fin_cases a <;> rfl

/-- At the first point the body leaves in the first output's buffer its one whole-block store: the stored value of the
    six input blocks. -/
theorem out0_A_6_eq (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : cond0_0 i)
    (x0 x1 : Vec F S2000x256 .f32) (x2 : Vec F S256x256 .f32) (x3 : Vec F S256 .f32) (x4 : Vec F S256x256 .f32) (x5 : Vec F S256 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  rw [View.canon_unit_zero hz0_2]
  simp only [View.readAt_eq_ld, h1.read_unread, h2.read_unread, h3.read_unread, h4.read_unread, h5.read_unread, h6.read_unread,
    View.ld_unit_zero (S := S2000x256) hz0_2, View.ld_unit_zero (S := S256x256) hz0_2, View.ld_unit_zero (S := S256) hz0_1]

/-- At a later point the same: the running rows entering do not reach the first output. -/
theorem out0_B_6_eq (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : ¬cond0_0 i)
    (x0 x1 : Vec F S2000x256 .f32) (x2 : Vec F S256x256 .f32) (x3 : Vec F S256 .f32) (x4 : Vec F S256x256 .f32) (x5 : Vec F S256 .f32) (xo7 xo8 : Vec F S256 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  rw [View.canon_unit_zero hz0_2]
  simp only [View.readAt_eq_ld, h1.read_unread, h2.read_unread, h3.read_unread, h4.read_unread, h5.read_unread, h6.read_unread,
    View.ld_unit_zero (S := S2000x256) hz0_2, View.ld_unit_zero (S := S256x256) hz0_2, View.ld_unit_zero (S := S256) hz0_1]

/-- After every point the first output's buffer holds the stored value of that point's six input blocks. -/
theorem pay0_eq (V : (c : Dev nD) → (b : Ref sig .tc) → Buf (Elt F) ((c : Thread nD τ).loc b)) (c : Dev nD) (t : Fin cfg0.N) :
    (outsAt0 V c t.val t.isLt).1 = k0_pay4 (iblk0 V c 0 t) (iblk0 V c 1 t) (iblk0 V c 2 t) (iblk0 V c 3 t) (iblk0 V c 4 t) (iblk0 V c 5 t) := by
  by_cases h0 : t.val % 25 = 0
  · rw [outsAt0_A_6 V c t h0]
    exact out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B_6 V c t h0]
    exact out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

end Pieces

/-! ## The stored value against the specification, at an entry -/

/-- Addition of two extended reals, written so that its operands may be entries of buffers. -/
local notation:65 x:65 " +ₑ " y:66 => HAdd.hAdd (α := EReal) (β := EReal) (γ := EReal) x y

/-- The pre-norm activations of the arrays the region finds: the two dense maps of input plus aggregation. -/
abbrev z0 (V : (c : Dev nD) → (b : Ref sig .tc) → Buf (Elt Ideal) ((c : Thread nD τ).loc b)) (c : Dev nD) : Cert.Spec.Arr :=
  Cert.Spec.mlp (fun i => V c main_arg0 i +ₑ V c main_v13 i) (V c main_v15) (V c main_v17) (V c main_v19) (V c main_v21)

/-- The stored value at (p, q) is the specification's entry (P, q) once row p of the two row blocks sums to row P of
    the input and the parameter blocks are the parameters. -/
theorem mlp0_at (x0 x1 : Vec Ideal S2000x256 .f32) (x2 : Vec Ideal S256x256 .f32) (x3 : Vec Ideal S256 .f32)
    (x4 : Vec Ideal S256x256 .f32) (x5 : Vec Ideal S256 .f32)
    (a : Cert.Spec.Arr) (w1 : Cert.Spec.Wt) (b1 : Cert.Spec.Row) (w2 : Cert.Spec.Wt) (b2 : Cert.Spec.Row)
    (p : Fin 2000) (q : Fin 256) (P : Fin 50000)
    (h0 : ∀ l : Fin 256, x0 (ix2 p l) + x1 (ix2 p l) = a (ix2 P l))
    (h2 : ∀ l k : Fin 256, x2 (ix2 l k) = w1 (ix2 l k)) (h3 : ∀ k : Fin 256, x3 (ix1 k) = b1 (ix1 k))
    (h4 : ∀ l k : Fin 256, x4 (ix2 l k) = w2 (ix2 l k)) (h5 : ∀ k : Fin 256, x5 (ix1 k) = b2 (ix1 k)) :
    k0_pay4 (F := Ideal) x0 x1 x2 x3 x4 x5 (ix2 p q) = Cert.Spec.mlpAt a w1 b1 w2 b2 P q := by
  rw [pay0_4_apply]
  unfold Cert.Spec.mlpAt Cert.Spec.hiddenAt
  simp only [h0, h2, h3, h4, h5]

/-- The index maps over the grid: at point t the two row blocks and the output block are block t of 25 along the
    rows and the only block along the columns; the four parameter windows are always at their only block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = t.val ∧ win0_6.index t (1 : Fin 2) = 0 :=
  (by decide +kernel : ∀ t : Fin grid0.N, _)

/-- The block of results at point t is the pre-norm activations on rows t * 2000 + r. -/
theorem blk0_at (V : (c : Dev nD) → (b : Ref sig .tc) → Buf (Elt Ideal) ((c : Thread nD τ).loc b)) (c : Dev nD) (t : Fin cfg0.N) (r : Fin 2000) (q : Fin 256) (hr : t.val * 2000 + r.val < 50000) :
    k0_pay4 (F := Ideal) (iblk0 V c 0 t) (iblk0 V c 1 t) (iblk0 V c 2 t) (iblk0 V c 3 t) (iblk0 V c 4 t) (iblk0 V c 5 t) (ix2 r q) = z0 V c (ix2 ⟨t.val * 2000 + r.val, hr⟩ q) := by
  obtain ⟨e0, e1, e2, e3, e4, e5, e6, e7, e8, e9, e10, e11⟩ := idx_facts0 t
  refine (mlp0_at _ _ _ _ _ _ (fun i => V c main_arg0 i +ₑ V c main_v13 i) (V c main_v15) (V c main_v17) (V c main_v19) (V c main_v21) r q ⟨t.val * 2000 + r.val, hr⟩ ?_ ?_ ?_ ?_ ?_).trans rfl
  · intro l
    show V c main_arg0 (((cfg0.win 0).blk t).view.emb (ix2 r l)) +ₑ V c main_v13 (((cfg0.win 1).blk t).view.emb (ix2 r l))
      = V c main_arg0 (ix2 ⟨t.val * 2000 + r.val, hr⟩ l) +ₑ V c main_v13 (ix2 ⟨t.val * 2000 + r.val, hr⟩ l)
    have ea : ((cfg0.win 0).blk t).view.emb (ix2 r l) = ix2 ⟨t.val * 2000 + r.val, hr⟩ l := by
      refine funext fun a => Fin.ext ?_
      match a with
      | ⟨0, _⟩ => show win0_0.index t (0 : Fin 2) * 2000 + 1 * r.val = t.val * 2000 + r.val; omega
      | ⟨1, _⟩ => show win0_0.index t (1 : Fin 2) * 256 + 1 * l.val = l.val; omega
    have eb : ((cfg0.win 1).blk t).view.emb (ix2 r l) = ix2 ⟨t.val * 2000 + r.val, hr⟩ l := by
      refine funext fun a => Fin.ext ?_
      match a with
      | ⟨0, _⟩ => show win0_1.index t (0 : Fin 2) * 2000 + 1 * r.val = t.val * 2000 + r.val; omega
      | ⟨1, _⟩ => show win0_1.index t (1 : Fin 2) * 256 + 1 * l.val = l.val; omega
    rw [ea, eb]
  · intro l k
    show V c main_v15 (((cfg0.win 2).blk t).view.emb (ix2 l k)) = V c main_v15 (ix2 l k)
    refine congrArg _ (funext fun a => Fin.ext ?_)
    match a with
    | ⟨0, _⟩ => show win0_2.index t (0 : Fin 2) * 256 + 1 * l.val = l.val; omega
    | ⟨1, _⟩ => show win0_2.index t (1 : Fin 2) * 256 + 1 * k.val = k.val; omega
  · intro k
    show V c main_v17 (((cfg0.win 3).blk t).view.emb (ix1 k)) = V c main_v17 (ix1 k)
    refine congrArg _ (funext fun a => Fin.ext ?_)
    match a with
    | ⟨0, _⟩ => show win0_3.index t (0 : Fin 1) * 256 + 1 * k.val = k.val; omega
  · intro l k
    show V c main_v19 (((cfg0.win 4).blk t).view.emb (ix2 l k)) = V c main_v19 (ix2 l k)
    refine congrArg _ (funext fun a => Fin.ext ?_)
    match a with
    | ⟨0, _⟩ => show win0_4.index t (0 : Fin 2) * 256 + 1 * l.val = l.val; omega
    | ⟨1, _⟩ => show win0_4.index t (1 : Fin 2) * 256 + 1 * k.val = k.val; omega
  · intro k
    show V c main_v21 (((cfg0.win 5).blk t).view.emb (ix1 k)) = V c main_v21 (ix1 k)
    refine congrArg _ (funext fun a => Fin.ext ?_)
    match a with
    | ⟨0, _⟩ => show win0_5.index t (0 : Fin 1) * 256 + 1 * k.val = k.val; omega

/-! ## From blocks to the array -/

/-- What point t writes back is block t of the pre-norm activations. -/
theorem flushed0_6_eq (V : (c : Dev nD) → (b : Ref sig .tc) → Buf (Elt Ideal) ((c : Thread nD τ).loc b)) (c : Dev nD) (t : Fin cfg0.N) :
    (dat0 (F := Ideal) V c).flushed 6 t = ((cfg0.win 6).blk t).view.read (Elt Ideal) (z0 V c) := by
  show (cfg0.win 6).cut (grid0.coords t) ((dat0 V c).after 6 t) = _
  rw [after0_6, pay0_eq]
  obtain ⟨e0, e1, e2, e3, e4, e5, e6, e7, e8, e9, e10, e11⟩ := idx_facts0 t
  funext j
  obtain ⟨r, q, rfl⟩ : ∃ (r : Fin 2000) (q : Fin 256), j = ix2 r q := ⟨j 0, j 1, eq_ix2 j⟩
  have hN : cfg0.N = 25 := N_0
  have hr : t.val * 2000 + r.val < 50000 := by have := t.isLt; have := r.isLt; omega
  refine (blk0_at V c t r q hr).trans ?_
  show z0 V c (ix2 ⟨t.val * 2000 + r.val, hr⟩ q) = z0 V c (((cfg0.win 6).blk t).view.emb (ix2 r q))
  refine congrArg _ (funext fun a => Fin.ext ?_)
  match a with
  | ⟨0, _⟩ => show t.val * 2000 + r.val = win0_6.index t (0 : Fin 2) * 2000 + 1 * r.val; omega
  | ⟨1, _⟩ => show q.val = win0_6.index t (1 : Fin 2) * 256 + 1 * q.val; omega

/-- An entry of the array is in point t's block iff each coordinate is in the block's range on its axis. -/
theorem mem_blk0_6 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v22_0).slice (win0_6.rect t)).set ↔ _
  rw [View.set_slice_whole, Rect.mem_set_unit]
  exact Iff.rfl

/-- Every entry is in some point's block: row r is in the block of point r / 2000. -/
theorem cover0_6 (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_6 _, ?_⟩
  obtain ⟨e0, e1, e2, e3, e4, e5, e6, e7, e8, e9, e10, e11⟩ := idx_facts0 ⟨(i 0).val / 2000, by rw [hN]; omega⟩
  rw [mem_blk0_6]
  intro a
  match a with
  | ⟨0, _⟩ => show win0_6.index _ (0 : Fin 2) * 2000 ≤ (i 0).val ∧ (i 0).val < win0_6.index _ (0 : Fin 2) * 2000 + 2000; rw [e10]; show (i 0).val / 2000 * 2000 ≤ (i 0).val ∧ (i 0).val < (i 0).val / 2000 * 2000 + 2000; omega
  | ⟨1, _⟩ => show win0_6.index _ (1 : Fin 2) * 256 ≤ (i 1).val ∧ (i 1).val < win0_6.index _ (1 : Fin 2) * 256 + 256; rw [e11]; omega

/-- The first output array after the region is the pre-norm activations of the arrays the region finds. -/
theorem final0_6 (V : (c : Dev nD) → (b : Ref sig .tc) → Buf (Elt Ideal) ((c : Thread nD τ).loc b)) (c : Dev nD) :
    ((dat0 (F := Ideal) V c).arrAt 6 cfg0.N : Cert.Spec.Arr) = z0 V c :=
  (dat0 (F := Ideal) V c).arrAt_eq_of_cover 6 _ (fun t _ => flushed0_6_eq V c t) cover0_6

end Cert.KernelIdeal.Hand

end
-- ==== Proof.Math.Blocks.lean ====
/-
  A sum over 50000 rows regrouped as 25 blocks of 2000 rows, and the partial sums over the first blocks.
  Row p = 2000 t + r with t < 25 and r < 2000, uniquely; so the sum over all rows is the double sum over (t, r),
  the sum over the first n + 1 blocks is the sum over the rows below 2000 (n + 1), and for n = 24 that is every row.
  A sequence that starts at 0 + s 0 and adds s (n + 1) at each step is the sequence of partial sums of s.
  Everything is stated in a commutative additive monoid; no entry needs to be finite.
-/
import proofs.«130186_j80642305950442_1_alg».proof.Proof.Math.Spec
import Mathlib.Algebra.BigOperators.Fin
import Mathlib.Logic.Equiv.Fin.Basic

noncomputable section

namespace Cert.Spec

open scoped BigOperators

/-- A sum over a b indices is the double sum over a blocks of b consecutive indices. -/
theorem sum_blocks {M : Type} [AddCommMonoid M] (a b : ℕ) (f : Fin (a * b) → M) :
    (∑ p : Fin (a * b), f p)
      = ∑ t : Fin a, ∑ r : Fin b, f ⟨t.val * b + r.val, by
          have ht := t.isLt; have hr := r.isLt
          calc t.val * b + r.val < t.val * b + b := by omega
            _ = (t.val + 1) * b := by ring
            _ ≤ a * b := Nat.mul_le_mul_right b ht⟩ := by
  rw [← (finProdFinEquiv (m := a) (n := b)).sum_comp f, Fintype.sum_prod_type]
  refine Finset.sum_congr rfl fun t _ => Finset.sum_congr rfl fun r _ => congrArg f (Fin.ext ?_)
  show r.val + b * t.val = t.val * b + r.val
  ring

/-- The 50000 rows as 25 blocks of 2000. -/
theorem sum_rows_blocks {M : Type} [AddCommMonoid M] (f : Fin 50000 → M) :
    (∑ p : Fin 50000, f p)
      = ∑ t : Fin 25, ∑ r : Fin 2000, f ⟨t.val * 2000 + r.val, by have := t.isLt; have := r.isLt; omega⟩ :=
  sum_blocks 25 2000 f

/-- The sum of block t (rows 2000 t … 2000 t + 1999), rows at or beyond 50000 counting 0. -/
def blockSum {M : Type} [AddCommMonoid M] (f : Fin 50000 → M) (t : ℕ) : M :=
  ∑ r : Fin 2000, (if h : t * 2000 + r.val < 50000 then f ⟨t * 2000 + r.val, h⟩ else 0)

/-- For a block below 25 every row of it is a row. -/
theorem blockSum_eq {M : Type} [AddCommMonoid M] (f : Fin 50000 → M) (t : Fin 25) :
    blockSum f t.val = ∑ r : Fin 2000, f ⟨t.val * 2000 + r.val, by have := t.isLt; have := r.isLt; omega⟩ := by
  unfold blockSum
  refine Finset.sum_congr rfl fun r _ => ?_
  rw [dif_pos]

/-- The first n + 1 blocks together are the rows below 2000 (n + 1). -/
theorem sum_range_blocks {M : Type} [AddCommMonoid M] (f : Fin 50000 → M) (n : ℕ) (hn : n < 25) :
    (∑ t ∈ Finset.range (n + 1), ∑ r : Fin 2000, (if h : t * 2000 + r.val < 50000 then f ⟨t * 2000 + r.val, h⟩ else 0))
      = ∑ p : Fin 50000, (if p.val < 2000 * (n + 1) then f p else 0) := by
  rw [sum_rows_blocks (fun p : Fin 50000 => if p.val < 2000 * (n + 1) then f p else 0)]
  have inner : ∀ t : Fin 25,
      (∑ r : Fin 2000, (if (⟨t.val * 2000 + r.val, by have := t.isLt; have := r.isLt; omega⟩ : Fin 50000).val < 2000 * (n + 1)
          then f ⟨t.val * 2000 + r.val, by have := t.isLt; have := r.isLt; omega⟩ else 0))
        = (fun k : ℕ => if k < n + 1 then blockSum f k else 0) t.val := by
    intro t
    show _ = if t.val < n + 1 then blockSum f t.val else 0
    by_cases ht : t.val < n + 1
    · rw [if_pos ht, blockSum_eq]
      refine Finset.sum_congr rfl fun r _ => ?_
      rw [if_pos]
      show t.val * 2000 + r.val < 2000 * (n + 1)
      have := r.isLt; omega
    · rw [if_neg ht]
      refine Finset.sum_eq_zero fun r _ => ?_
      rw [if_neg]
      show ¬ t.val * 2000 + r.val < 2000 * (n + 1)
      omega
  rw [Finset.sum_congr rfl fun t _ => inner t, Fin.sum_univ_eq_sum_range (fun k : ℕ => if k < n + 1 then blockSum f k else 0) 25,
    ← Finset.sum_filter]
  have hset : (Finset.range 25).filter (fun k => k < n + 1) = Finset.range (n + 1) := by
    ext k
    simp only [Finset.mem_filter, Finset.mem_range]
    omega
  rw [hset]
  rfl

/-- The same with the block sums named. -/
theorem sum_range_blockSum {M : Type} [AddCommMonoid M] (f : Fin 50000 → M) (n : ℕ) (hn : n < 25) :
    (∑ t ∈ Finset.range (n + 1), blockSum f t) = ∑ p : Fin 50000, (if p.val < 2000 * (n + 1) then f p else 0) :=
  sum_range_blocks f n hn

/-- All 25 blocks together are all the rows. -/
theorem sum_all_blocks {M : Type} [AddCommMonoid M] (f : Fin 50000 → M) :
    (∑ t ∈ Finset.range 25, ∑ r : Fin 2000, (if h : t * 2000 + r.val < 50000 then f ⟨t * 2000 + r.val, h⟩ else 0))
      = ∑ p : Fin 50000, f p := by
  rw [sum_range_blocks f 24 (by omega)]
  refine Finset.sum_congr rfl fun p _ => ?_
  rw [if_pos]
  have := p.isLt; omega

/-- A running accumulator is the partial sum of what was added. -/
theorem acc_eq_sum {M : Type} [AddCommMonoid M] (s acc : ℕ → M) (h0 : acc 0 = 0 + s 0)
    (hs : ∀ n, acc (n + 1) = acc n + s (n + 1)) (n : ℕ) : acc n = ∑ t ∈ Finset.range (n + 1), s t := by
  induction n with
  | zero => rw [h0, zero_add, Finset.sum_range_one]
  | succ n ih => rw [hs, ih, Finset.sum_range_succ (fun t => s t) (n + 1)]

end Cert.Spec

end
-- ==== Proof.KI.ValR0s.lean ====
/-
  The two statistics arrays of region 0 at the ideal instance. The kernel keeps two running rows across its 25 grid
  points: zeroed at the first point, and at every point increased by the column sums, respectively the column sums
  of squares, of the block of 2000 result rows computed there; they are written back once, after the last point.
  So after point n they hold the sums over the first 2000 (n + 1) rows, and what is written back is the column sums
  and the column sums of squares over all 50000 rows of the array whose blocks are the blocks of results.
-/
import proofs.«130186_j80642305950442_1_alg».proof.Proof.KI.R0
import proofs.«130186_j80642305950442_1_alg».proof.Proof.KI.ValR0Pay
import proofs.«130186_j80642305950442_1_alg».proof.Proof.KI.ValR0z
import proofs.«130186_j80642305950442_1_alg».proof.Proof.Math.Blocks
import proofs.«130186_j80642305950442_1_alg».proof.Proof.Math.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Tactic
open Idealize.ShloMosaic.Pipeline (Dat)
open Idealize.ShloMosaic.ValueIdx

variable {F : FTy → Type} [FloatOps F]

/-! ## What the body leaves in the two running rows -/

/-- At a later point the running column sums end at the body's sum of what they held and the block's column sums. -/
theorem out0_B_7_eq (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : ¬cond0_0 i) (x0 : Vec F S2000x256 .f32) (x1 : Vec F S2000x256 .f32) (x2 : Vec F S256x256 .f32) (x3 : Vec F S256 .f32) (x4 : Vec F S256x256 .f32) (x5 : Vec F S256 .f32) (xo7 xo8 : Vec F S256 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz0_1]
  simp only [View.readAt_eq_ld, h1.read_unread, h2.read_unread, h3.read_unread, h4.read_unread, h5.read_unread, h6.read_unread, h8.read_unread, h9.read_unread,
    View.ld_unit_zero (S := S2000x256) hz0_2, View.ld_unit_zero (S := S256x256) hz0_2, View.ld_unit_zero (S := S256) hz0_1]

/-- At a later point the running column sums of squares likewise, of the block of results. -/
theorem out0_B_8_eq (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : ¬cond0_0 i) (x0 : Vec F S2000x256 .f32) (x1 : Vec F S2000x256 .f32) (x2 : Vec F S256x256 .f32) (x3 : Vec F S256 .f32) (x4 : Vec F S256x256 .f32) (x5 : Vec F S256 .f32) (xo7 xo8 : Vec F S256 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz0_1]
  simp only [View.readAt_eq_ld, h1.read_unread, h2.read_unread, h3.read_unread, h4.read_unread, h5.read_unread, h6.read_unread, h8.read_unread, h9.read_unread,
    View.ld_unit_zero (S := S2000x256) hz0_2, View.ld_unit_zero (S := S256x256) hz0_2, View.ld_unit_zero (S := S256) hz0_1]

/-- At the first point the running column sums are reset to zeros first. -/
theorem out0_A_7_eq (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : cond0_0 i) (x0 : Vec F S2000x256 .f32) (x1 : Vec F S2000x256 .f32) (x2 : Vec F S256x256 .f32) (x3 : Vec F S256 .f32) (x4 : Vec F S256x256 .f32) (x5 : Vec F S256 .f32) :
    out0_A_7 c i a1 h1 a2 h2 a3 h3 a4 h4 a5 h5 a6 h6 a7 h7 a8 h8 a9 h9 hc x0 x1 x2 x3 x4 x5 = k0_pay5 x0 x1 x2 x3 x4 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S256) hz0_1, View.readCov_unit_zero (S := S256) _ hz0_1]
  simp only [View.readAt_eq_ld, h1.read_unread, h2.read_unread, h3.read_unread, h4.read_unread, h5.read_unread, h6.read_unread, h8.read_unread, h9.read_unread,
    View.ld_unit_zero (S := S2000x256) hz0_2, View.ld_unit_zero (S := S256x256) hz0_2, View.ld_unit_zero (S := S256) hz0_1]

/-- At the first point the running column sums of squares are reset to zeros first. -/
theorem out0_A_8_eq (c : Dev nD) (i : grid0.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : cond0_0 i) (x0 : Vec F S2000x256 .f32) (x1 : Vec F S2000x256 .f32) (x2 : Vec F S256x256 .f32) (x3 : Vec F S256 .f32) (x4 : Vec F S256x256 .f32) (x5 : Vec F S256 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) k0_pay3 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S256) hz0_1, View.readCov_unit_zero (S := S256) _ hz0_1]
  simp only [View.readAt_eq_ld, h1.read_unread, h2.read_unread, h3.read_unread, h4.read_unread, h5.read_unread, h6.read_unread, h8.read_unread, h9.read_unread,
    View.ld_unit_zero (S := S2000x256) hz0_2, View.ld_unit_zero (S := S256x256) hz0_2, View.ld_unit_zero (S := S256) hz0_1]

/-! ## The running rows after each point, and the arrays after the region

  Stated for any array Z whose rows 2000 t … 2000 t + 1999 are the block of results at point t: after point n
  the running column sums hold, at column q, the sum of Z over the rows of the first n + 1 blocks, and the running
  column sums of squares the sum of the squares; the one write-back, after the last point, leaves the column sums
  of Z over all 50000 rows. -/

section Acc
variable (V : (c : Dev nD) → (b : Ref sig .tc) → Buf (Elt Ideal) ((c : Thread nD τ).loc b)) (c : Dev nD)

/-- The block of results at point t: the body's stored value of the six input blocks there. -/
abbrev blk0 (t : Fin cfg0.N) : Vec Ideal S2000x256 .f32 :=
  k0_pay4 (F := Ideal) (iblk0 V c 0 t) (iblk0 V c 1 t) (iblk0 V c 2 t) (iblk0 V c 3 t) (iblk0 V c 4 t) (iblk0 V c 5 t)

/-- Z restricted to the rows of block t is the block of results at point t. -/
def IsBlocks0 (Z : Cert.Spec.Arr) : Prop :=
  ∀ (t : Fin cfg0.N) (r : Fin 2000) (q : Fin 256) (h : t.val * 2000 + r.val < 50000), blk0 V c t (ix2 r q) = Z (ix2 ⟨t.val * 2000 + r.val, h⟩ q)

variable {V c}

/-- The column sum of the block of results at point t is the sum of Z over block t's rows. -/
theorem blockSum0_7 {Z : Cert.Spec.Arr} (hZ : IsBlocks0 V c Z) (t : Fin cfg0.N) (q : Fin 256) :
    (∑ r : Fin 2000, blk0 V c t (ix2 r q)) = Cert.Spec.blockSum (fun p => Z (ix2 p q)) t.val := by
  have hN : cfg0.N = 25 := N_0
  have ht : t.val < 25 := lt_of_lt_of_eq t.isLt hN
  unfold Cert.Spec.blockSum
  refine Finset.sum_congr rfl fun r _ => ?_
  have hr := r.isLt
  rw [dif_pos (by omega : t.val * 2000 + r.val < 50000)]
  exact hZ t r q _

/-- The column sum of squares likewise. -/
theorem blockSum0_8 {Z : Cert.Spec.Arr} (hZ : IsBlocks0 V c Z) (t : Fin cfg0.N) (q : Fin 256) :
    (∑ r : Fin 2000, blk0 V c t (ix2 r q) * blk0 V c t (ix2 r q))
      = Cert.Spec.blockSum (fun p => Z (ix2 p q) * Z (ix2 p q)) t.val := by
  have hN : cfg0.N = 25 := N_0
  have ht : t.val < 25 := lt_of_lt_of_eq t.isLt hN
  unfold Cert.Spec.blockSum
  refine Finset.sum_congr rfl fun r _ => ?_
  have hr := r.isLt
  rw [dif_pos (by omega : t.val * 2000 + r.val < 50000), hZ t r q _]

/-- After point n the running column sums hold the sums over the first n + 1 blocks: by induction on the point. -/
theorem acc0_7 {Z : Cert.Spec.Arr} (hZ : IsBlocks0 V c Z) (q : Fin 256) : ∀ (n : ℕ) (hn : n < cfg0.N),
    (outsAt0 (F := Ideal) V c n hn).2.1 (ix1 q) = ∑ t ∈ Finset.range (n + 1), Cert.Spec.blockSum (fun p => Z (ix2 p q)) t
  | 0, hn => by
    refine (congrFun (outsAt0_A_7 V c ⟨0, hn⟩ rfl) (ix1 q)).trans ?_
    rw [out0_A_7_eq, pay0_5_apply, pay0_2_apply, zero_add, Finset.sum_range_one]
    exact blockSum0_7 hZ ⟨0, hn⟩ q
  | n + 1, hn => by
    have hN : cfg0.N = 25 := N_0
    have hB : ¬(⟨n + 1, hn⟩ : Fin cfg0.N).val % 25 = 0 := by dsimp only; omega
    refine (congrFun (outsAt0_B_7 V c ⟨n + 1, hn⟩ hB) (ix1 q)).trans ?_
    rw [out0_B_7_eq, pay0_5_apply, Finset.sum_range_succ]
    exact congrArg₂ (· + ·) (acc0_7 hZ q n _) (blockSum0_7 hZ ⟨n + 1, hn⟩ q)

/-- After point n the running column sums of squares hold the sums of squares over the first n + 1 blocks. -/
theorem acc0_8 {Z : Cert.Spec.Arr} (hZ : IsBlocks0 V c Z) (q : Fin 256) : ∀ (n : ℕ) (hn : n < cfg0.N),
    (outsAt0 (F := Ideal) V c n hn).2.2 (ix1 q)
      = ∑ t ∈ Finset.range (n + 1), Cert.Spec.blockSum (fun p => Z (ix2 p q) * Z (ix2 p q)) t
  | 0, hn => by
    refine (congrFun (outsAt0_A_8 V c ⟨0, hn⟩ rfl) (ix1 q)).trans ?_
    rw [out0_A_8_eq, pay0_1_apply, pay0_3_apply, zero_add, Finset.sum_range_one]
    exact blockSum0_8 hZ ⟨0, hn⟩ q
  | n + 1, hn => by
    have hN : cfg0.N = 25 := N_0
    have hB : ¬(⟨n + 1, hn⟩ : Fin cfg0.N).val % 25 = 0 := by dsimp only; omega
    refine (congrFun (outsAt0_B_8 V c ⟨n + 1, hn⟩ hB) (ix1 q)).trans ?_
    rw [out0_B_8_eq, pay0_1_apply, Finset.sum_range_succ]
    exact congrArg₂ (· + ·) (acc0_8 hZ q n _) (blockSum0_8 hZ ⟨n + 1, hn⟩ q)

/-- All 25 blocks together are all the rows. -/
theorem sum_blockSum_all0 (f : Fin 50000 → EReal) : (∑ t ∈ Finset.range 25, Cert.Spec.blockSum f t) = ∑ p : Fin 50000, f p :=
  Cert.Spec.sum_all_blocks f

/-- After the last point the running column sums are the column sums of Z. -/
theorem last0_7 {Z : Cert.Spec.Arr} (hZ : IsBlocks0 V c Z) (t : Fin cfg0.N) (h24 : t.val = 24) (y : S256.Idx)
    (i : Cert.Spec.SR.Idx) (hi : (i 0).val = (y 0).val) :
    (outsAt0 (F := Ideal) V c t.val t.isLt).2.1 y = Cert.Spec.colSum Z i := by
  obtain ⟨q, rfl⟩ : ∃ q : Fin 256, y = ix1 q := ⟨y 0, eq_ix1 y⟩
  have hq : i 0 = q := Fin.ext hi
  obtain ⟨n, hn⟩ := t
  dsimp only at h24
  subst h24
  rw [acc0_7 hZ q 24 hn, sum_blockSum_all0]
  unfold Cert.Spec.colSum
  rw [hq]

/-- After the last point the running column sums of squares are the column sums of squares of Z. -/
theorem last0_8 {Z : Cert.Spec.Arr} (hZ : IsBlocks0 V c Z) (t : Fin cfg0.N) (h24 : t.val = 24) (y : S256.Idx)
    (i : Cert.Spec.SR.Idx) (hi : (i 0).val = (y 0).val) :
    (outsAt0 (F := Ideal) V c t.val t.isLt).2.2 y = Cert.Spec.colSumSq Z i := by
  obtain ⟨q, rfl⟩ : ∃ q : Fin 256, y = ix1 q := ⟨y 0, eq_ix1 y⟩
  have hq : i 0 = q := Fin.ext hi
  obtain ⟨n, hn⟩ := t
  dsimp only at h24
  subst h24
  rw [acc0_8 hZ q 24 hn, sum_blockSum_all0]
  unfold Cert.Spec.colSumSq
  rw [hq]

/-- The two running rows' windows always sit at their only block. -/
theorem idx_facts0_78 : ∀ t : Fin cfg0.N, win0_7.index t (0 : Fin 1) = 0 ∧ win0_8.index t (0 : Fin 1) = 0 :=
  (by decide +kernel : ∀ t : Fin grid0.N, _)

/-- What the last point writes back of the running column sums is the column sums of Z, whole. -/
theorem flushed0_7_eq {Z : Cert.Spec.Arr} (hZ : IsBlocks0 V c Z) (t : Fin cfg0.N) (hf : (cfg0.win 7).flush t = true) :
    (dat0 (F := Ideal) V c).flushed 7 t = ((cfg0.win 7).blk t).view.read (Elt Ideal) (Cert.Spec.colSum Z) := by
  have hN : cfg0.N = 25 := N_0
  have h24 : t.val = 24 := by have := (flush0_7 t).mp hf; have := t.isLt; omega
  show (cfg0.win 7).cut (grid0.coords t) ((dat0 V c).after 7 t) = _
  rw [after0_7]
  obtain ⟨e7, e8⟩ := idx_facts0_78 t
  generalize hG : Cert.Spec.colSum Z = G
  funext j
  show (outsAt0 (F := Ideal) V c t.val t.isLt).2.1 j = G (((cfg0.win 7).blk t).view.emb j)
  rw [← hG]
  refine last0_7 hZ t h24 j (((cfg0.win 7).blk t).view.emb j) ?_
  show win0_7.index t (0 : Fin 1) * 256 + 1 * (j 0).val = (j 0).val
  omega

theorem flushed0_8_eq {Z : Cert.Spec.Arr} (hZ : IsBlocks0 V c Z) (t : Fin cfg0.N) (hf : (cfg0.win 8).flush t = true) :
    (dat0 (F := Ideal) V c).flushed 8 t = ((cfg0.win 8).blk t).view.read (Elt Ideal) (Cert.Spec.colSumSq Z) := by
  have hN : cfg0.N = 25 := N_0
  have h24 : t.val = 24 := by have := (flush0_8 t).mp hf; have := t.isLt; omega
  show (cfg0.win 8).cut (grid0.coords t) ((dat0 V c).after 8 t) = _
  rw [after0_8]
  obtain ⟨e7, e8⟩ := idx_facts0_78 t
  generalize hG : Cert.Spec.colSumSq Z = G
  funext j
  show (outsAt0 (F := Ideal) V c t.val t.isLt).2.2 j = G (((cfg0.win 8).blk t).view.emb j)
  rw [← hG]
  refine last0_8 hZ t h24 j (((cfg0.win 8).blk t).view.emb j) ?_
  show win0_8.index t (0 : Fin 1) * 256 + 1 * (j 0).val = (j 0).val
  omega

/-- An entry of a row array is in point t's block iff its coordinate is in the block's range. -/
theorem mem_blk0_7 (t : Fin cfg0.N) (i : S256.Idx) :
    i ∈ ((cfg0.win 7).blk t).view.set ↔ ∀ a : Fin 1, win0_7.index t a * S256.size a ≤ (i a).val ∧ (i a).val < win0_7.index t a * S256.size a + S256.size a := by
  show i ∈ ((View.whole main_v22_1).slice (win0_7.rect t)).set ↔ _
  rw [View.set_slice_whole, Rect.mem_set_unit]
  exact Iff.rfl
theorem mem_blk0_8 (t : Fin cfg0.N) (i : S256.Idx) :
    i ∈ ((cfg0.win 8).blk t).view.set ↔ ∀ a : Fin 1, win0_8.index t a * S256.size a ≤ (i a).val ∧ (i a).val < win0_8.index t a * S256.size a + S256.size a := by
  show i ∈ ((View.whole main_v22_2).slice (win0_8.rect t)).set ↔ _
  rw [View.set_slice_whole, Rect.mem_set_unit]
  exact Iff.rfl

/-- The last point's block is the whole row array. -/
theorem cover0_7 (i : S256.Idx) : ∃ t : Fin cfg0.N, (cfg0.win 7).flush t = true ∧ i ∈ ((cfg0.win 7).blk t).view.set := by
  have hi0 : (i 0).val < 256 := (i 0).isLt
  have hN : cfg0.N = 25 := N_0
  refine ⟨⟨24, by rw [hN]; omega⟩, (flush0_7 _).mpr rfl, ?_⟩
  obtain ⟨e7, e8⟩ := idx_facts0_78 ⟨24, by rw [hN]; omega⟩
  rw [mem_blk0_7]
  intro a
  match a with
  | ⟨0, _⟩ => show win0_7.index _ (0 : Fin 1) * 256 ≤ (i 0).val ∧ (i 0).val < win0_7.index _ (0 : Fin 1) * 256 + 256; rw [e7]; omega
theorem cover0_8 (i : S256.Idx) : ∃ t : Fin cfg0.N, (cfg0.win 8).flush t = true ∧ i ∈ ((cfg0.win 8).blk t).view.set := by
  have hi0 : (i 0).val < 256 := (i 0).isLt
  have hN : cfg0.N = 25 := N_0
  refine ⟨⟨24, by rw [hN]; omega⟩, (flush0_8 _).mpr rfl, ?_⟩
  obtain ⟨e7, e8⟩ := idx_facts0_78 ⟨24, by rw [hN]; omega⟩
  rw [mem_blk0_8]
  intro a
  match a with
  | ⟨0, _⟩ => show win0_8.index _ (0 : Fin 1) * 256 ≤ (i 0).val ∧ (i 0).val < win0_8.index _ (0 : Fin 1) * 256 + 256; rw [e8]; omega

/-- The column-sum array after the region is the column sums of Z. -/
theorem arr0_7 {Z : Cert.Spec.Arr} (hZ : IsBlocks0 V c Z) :
    ((dat0 (F := Ideal) V c).arrAt 7 cfg0.N : Cert.Spec.Row) = Cert.Spec.colSum Z :=
  (dat0 (F := Ideal) V c).arrAt_eq_of_cover 7 _ (fun t hf => flushed0_7_eq hZ t hf) cover0_7

/-- The column-sum-of-squares array after the region is the column sums of squares of Z. -/
theorem arr0_8 {Z : Cert.Spec.Arr} (hZ : IsBlocks0 V c Z) :
    ((dat0 (F := Ideal) V c).arrAt 8 cfg0.N : Cert.Spec.Row) = Cert.Spec.colSumSq Z :=
  (dat0 (F := Ideal) V c).arrAt_eq_of_cover 8 _ (fun t hf => flushed0_8_eq hZ t hf) cover0_8

end Acc

/-! ## The two statistics arrays of region 0 -/

/-- The rows of block t of the dense maps' result are the block of results at point t. -/
theorem isBlocks0_z0 (V : (c : Dev nD) → (b : Ref sig .tc) → Buf (Elt Ideal) ((c : Thread nD τ).loc b)) (c : Dev nD) :
    IsBlocks0 V c (z0 V c) := fun t r q h => blk0_at V c t r q h

/-- The column-sum array after the region is the column sums of the dense maps' result. -/
theorem final0_7 (V : (c : Dev nD) → (b : Ref sig .tc) → Buf (Elt Ideal) ((c : Thread nD τ).loc b)) (c : Dev nD) :
    ((dat0 (F := Ideal) V c).arrAt 7 cfg0.N : Cert.Spec.Row) = Cert.Spec.colSum (z0 V c) :=
  arr0_7 (isBlocks0_z0 V c)

/-- The column-sum-of-squares array after the region is the column sums of squares of the dense maps' result. -/
theorem final0_8 (V : (c : Dev nD) → (b : Ref sig .tc) → Buf (Elt Ideal) ((c : Thread nD τ).loc b)) (c : Dev nD) :
    ((dat0 (F := Ideal) V c).arrAt 8 cfg0.N : Cert.Spec.Row) = Cert.Spec.colSumSq (z0 V c) :=
  arr0_8 (isBlocks0_z0 V c)

end Cert.KernelIdeal.Hand

end
-- ==== Proof.KI.ValR0.lean ====
/-
  The three arrays region 0 (the first dense-and-statistics kernel) writes, at the ideal instance. The first
  holds, row by row, the two dense maps with their clamps applied to the region's input rows plus the aggregated
  neighbours' rows; the second holds that array's column sums over the 50000 rows; the third the column sums of
  its squares.
-/
import proofs.«130186_j80642305950442_1_alg».proof.Proof.KI.ValR0Pay
import proofs.«130186_j80642305950442_1_alg».proof.Proof.KI.ValR0z
import proofs.«130186_j80642305950442_1_alg».proof.Proof.KI.ValR0s
-- ==== Proof.KI.ValR2Pay.lean ====
import proofs.«130186_j80642305950442_1_alg».proof.Proof.Gen.KernelIdeal.Skeleton
import proofs.«130186_j80642305950442_1_alg».proof.Proof.Math.Spec
import proofs.«130186_j80642305950442_1_alg».proof.Proof.LibMatRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! # The values region 2's body stores, entry by entry

  The block of results is the two dense maps with their clamps applied to the block of rows plus the block of
  aggregated neighbours; the two running rows get the block's column sums and column sums of squares added. -/

/-- The body's products are plain [2000, 256] by [256, 256] products. -/
theorem dot2_eq : dot_S2000x256_S256x256_S2000x256_1_0_0_1_n_n = DotDims.plain 2000 256 256 := rfl

/-- One row of 256 laid over 2000 rows reads, at (p, q), the row's entry q. -/
theorem row2_apply {α : Type} (w : S256.Idx → α) (p : Fin 2000) (q : Fin 256) :
    broadcastTo S2000x256 (shapeCast S1x256 w shapeCasts_S256_S1x256) broadcasts_S1x256_S2000x256 (ix2 p q) = w (ix1 q) :=
  (broadcastTo_1b_ab_apply _ broadcasts_S1x256_S2000x256 p q).trans (shapeCast_a_1a_apply w shapeCasts_S256_S1x256 0 q)

/-- Summing a block over its rows: the row coordinate r inserted before column q is the entry (r, q). -/
theorem lift2_eq (r : Fin 2000) (q : Fin 256) : reduces_S2000x256_S256.lift (ix1 q) r = ix2 r q := by
  funext a
  refine Fin.ext ?_
  match a with
  | ⟨0, _⟩ => rfl
  | ⟨1, _⟩ => rfl

/-- The column sums of a block: at column q, the sum over the 2000 rows. -/
theorem colsum2_apply (src : FVec Ideal S2000x256 .f32) (hφ : FKind.Formats .f32)
    (hacc : (0x00000000#32 : BitVec 32) = FKind.add.neutral .f32 hφ) (q : Fin 256) :
    multiReduction .add [0] S256 src 0x00000000#32 reduces_S2000x256_S256 hφ hacc (ix1 q) = ∑ r : Fin 2000, src (ix2 r q) :=
  (Ideal.multiReduction_add_single src 0x00000000#32 reduces_S2000x256_S256 hφ hacc (ix1 q)).trans
    (Finset.sum_congr rfl fun r _ => congrArg src (lift2_eq r q))

/-- The block of results at (p, q): the second dense map and clamp of the first dense map and clamp of row p of
    the block of rows plus the block of aggregated neighbours. -/
theorem pay2_4_apply (v3 v4 : Vec Ideal S2000x256 .f32) (v8 : Vec Ideal S256x256 .f32) (v12 : Vec Ideal S256 .f32)
    (v20 : Vec Ideal S256x256 .f32) (v24 : Vec Ideal S256 .f32) (p : Fin 2000) (q : Fin 256) :
    k2_pay4 (F := Ideal) v3 v4 v8 v12 v20 v24 (ix2 p q)
      = max ((∑ k : Fin 256, max ((∑ l : Fin 256, (v3 (ix2 p l) + v4 (ix2 p l)) * v8 (ix2 l k)) + v12 (ix1 k)) Cert.Spec.zeroW
          * v20 (ix2 k q)) + v24 (ix1 q)) Cert.Spec.zeroW := by
  unfold k2_pay4
  rw [maximumf_apply, addf_apply, row2_apply, dot2_eq]
  refine congrArg₂ max (congrArg₂ (· + ·) ?_ ?_) rfl
  · refine (MatRows.matmul_plain_apply none _ _ p q).trans (Finset.sum_congr rfl fun k _ => ?_)
    rw [truncf_apply, truncf_apply, shapeCast_self v20, maximumf_apply, addf_apply, row2_apply, shapeCast_self v12]
    refine congrArg₂ (· * ·) (congrArg₂ max (congrArg₂ (· + ·) ?_ rfl) rfl) rfl
    refine (MatRows.matmul_plain_apply none _ _ p k).trans (Finset.sum_congr rfl fun l _ => ?_)
    rw [truncf_apply, truncf_apply, shapeCast_self v8, addf_apply, shapeCast_self v4, shapeCast_self v3]
  · rw [shapeCast_self v24]

/-- The running column sums after the body, at column q: what they were plus the block's column sum. -/
theorem pay2_5_apply (v3 v4 : Vec Ideal S2000x256 .f32) (v8 : Vec Ideal S256x256 .f32) (v12 : Vec Ideal S256 .f32)
    (v20 : Vec Ideal S256x256 .f32) (v24 : Vec Ideal S256 .f32) (v32 : Vec Ideal S256 .f32) (q : Fin 256) :
    k2_pay5 (F := Ideal) v3 v4 v8 v12 v20 v24 v32 (ix1 q)
      = v32 (ix1 q) + ∑ r : Fin 2000, k2_pay4 (F := Ideal) v3 v4 v8 v12 v20 v24 (ix2 r q) := by
  unfold k2_pay5
  rw [addf_apply, shapeCast_self]
  exact congrArg (v32 (ix1 q) + ·) (colsum2_apply _ _ _ q)

/-- The running column sums of squares after the body, at column q: what they were plus the block's. -/
theorem pay2_1_apply (v30 : FVec Ideal S2000x256 .f32) (v37 : Vec Ideal S256 .f32) (q : Fin 256) :
    k2_pay1 (F := Ideal) v30 v37 (ix1 q) = v37 (ix1 q) + ∑ r : Fin 2000, v30 (ix2 r q) * v30 (ix2 r q) := by
  unfold k2_pay1
  rw [addf_apply, shapeCast_self]
  exact congrArg (v37 (ix1 q) + ·) (colsum2_apply _ _ _ q)

/-- The rows the reset stores are zero. -/
theorem pay2_2_apply (j : S256.Idx) : k2_pay2 (F := Ideal) j = 0 := Ideal.ofBits_zero_f32
theorem pay2_3_apply (j : S256.Idx) : k2_pay3 (F := Ideal) j = 0 := Ideal.ofBits_zero_f32

end Cert.KernelIdeal.Hand

end
-- ==== Proof.KI.ValR2z.lean ====
import proofs.«130186_j80642305950442_1_alg».proof.Proof.KI.R2
import proofs.«130186_j80642305950442_1_alg».proof.Proof.Math.Spec
import proofs.«130186_j80642305950442_1_alg».proof.Proof.KI.ValR2Pay
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem
open Idealize.ShloMosaic.Pipeline (Dat)
open Idealize.ShloMosaic.ValueIdx

/-! # The value of region 2's first output: the two dense maps of input plus aggregation, block by block -/

section Pieces

variable {F : FTy → Type} [FloatOps F]

theorem hz2_2 : (![0, 0] : Fin 2 → Nat) = fun _ => 0 := funext fun a => by fin_cases a <;> rfl
theorem hz2_1 : (![0] : Fin 1 → Nat) = fun _ => 0 := funext fun a => by fin_cases a <;> rfl

/-- At the first point the body leaves in the first output's buffer its one whole-block store: the stored value of the
    six input blocks. -/
theorem out2_A_6_eq (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : cond2_0 i)
    (x0 x1 : Vec F S2000x256 .f32) (x2 : Vec F S256x256 .f32) (x3 : Vec F S256 .f32) (x4 : Vec F S256x256 .f32) (x5 : Vec F S256 .f32) :
    out2_A_6 c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  rw [View.canon_unit_zero hz2_2]
  simp only [View.readAt_eq_ld, h1.read_unread, h2.read_unread, h3.read_unread, h4.read_unread, h5.read_unread, h6.read_unread,
    View.ld_unit_zero (S := S2000x256) hz2_2, View.ld_unit_zero (S := S256x256) hz2_2, View.ld_unit_zero (S := S256) hz2_1]

/-- At a later point the same: the running rows entering do not reach the first output. -/
theorem out2_B_6_eq (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : ¬cond2_0 i)
    (x0 x1 : Vec F S2000x256 .f32) (x2 : Vec F S256x256 .f32) (x3 : Vec F S256 .f32) (x4 : Vec F S256x256 .f32) (x5 : Vec F S256 .f32) (xo7 xo8 : Vec F S256 .f32) :
    out2_B_6 c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  rw [View.canon_unit_zero hz2_2]
  simp only [View.readAt_eq_ld, h1.read_unread, h2.read_unread, h3.read_unread, h4.read_unread, h5.read_unread, h6.read_unread,
    View.ld_unit_zero (S := S2000x256) hz2_2, View.ld_unit_zero (S := S256x256) hz2_2, View.ld_unit_zero (S := S256) hz2_1]

/-- After every point the first output's buffer holds the stored value of that point's six input blocks. -/
theorem pay2_eq (V : (c : Dev nD) → (b : Ref sig .tc) → Buf (Elt F) ((c : Thread nD τ).loc b)) (c : Dev nD) (t : Fin cfg2.N) :
    (outsAt2 V c t.val t.isLt).1 = k2_pay4 (iblk2 V c 0 t) (iblk2 V c 1 t) (iblk2 V c 2 t) (iblk2 V c 3 t) (iblk2 V c 4 t) (iblk2 V c 5 t) := by
  by_cases h0 : t.val % 25 = 0
  · rw [outsAt2_A_6 V c t h0]
    exact out2_A_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
  · rw [outsAt2_B_6 V c t h0]
    exact out2_B_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

end Pieces

/-! ## The stored value against the specification, at an entry -/

/-- Addition of two extended reals, written so that its operands may be entries of buffers. -/
local notation:65 x:65 " +ₑ " y:66 => HAdd.hAdd (α := EReal) (β := EReal) (γ := EReal) x y

/-- The pre-norm activations of the arrays the region finds: the two dense maps of input plus aggregation. -/
abbrev z2 (V : (c : Dev nD) → (b : Ref sig .tc) → Buf (Elt Ideal) ((c : Thread nD τ).loc b)) (c : Dev nD) : Cert.Spec.Arr :=
  Cert.Spec.mlp (fun i => V c main_v33 i +ₑ V c main_v43 i) (V c main_v45) (V c main_v47) (V c main_v49) (V c main_v51)

/-- The stored value at (p, q) is the specification's entry (P, q) once row p of the two row blocks sums to row P of
    the input and the parameter blocks are the parameters. -/
theorem mlp2_at (x0 x1 : Vec Ideal S2000x256 .f32) (x2 : Vec Ideal S256x256 .f32) (x3 : Vec Ideal S256 .f32)
    (x4 : Vec Ideal S256x256 .f32) (x5 : Vec Ideal S256 .f32)
    (a : Cert.Spec.Arr) (w1 : Cert.Spec.Wt) (b1 : Cert.Spec.Row) (w2 : Cert.Spec.Wt) (b2 : Cert.Spec.Row)
    (p : Fin 2000) (q : Fin 256) (P : Fin 50000)
    (h0 : ∀ l : Fin 256, x0 (ix2 p l) + x1 (ix2 p l) = a (ix2 P l))
    (h2 : ∀ l k : Fin 256, x2 (ix2 l k) = w1 (ix2 l k)) (h3 : ∀ k : Fin 256, x3 (ix1 k) = b1 (ix1 k))
    (h4 : ∀ l k : Fin 256, x4 (ix2 l k) = w2 (ix2 l k)) (h5 : ∀ k : Fin 256, x5 (ix1 k) = b2 (ix1 k)) :
    k2_pay4 (F := Ideal) x0 x1 x2 x3 x4 x5 (ix2 p q) = Cert.Spec.mlpAt a w1 b1 w2 b2 P q := by
  rw [pay2_4_apply]
  unfold Cert.Spec.mlpAt Cert.Spec.hiddenAt
  simp only [h0, h2, h3, h4, h5]

/-- The index maps over the grid: at point t the two row blocks and the output block are block t of 25 along the
    rows and the only block along the columns; the four parameter windows are always at their only block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 ∧ win2_3.index t (0 : Fin 1) = 0
    ∧ win2_4.index t (0 : Fin 2) = 0 ∧ win2_4.index t (1 : Fin 2) = 0 ∧ win2_5.index t (0 : Fin 1) = 0
    ∧ win2_6.index t (0 : Fin 2) = t.val ∧ win2_6.index t (1 : Fin 2) = 0 :=
  (by decide +kernel : ∀ t : Fin grid2.N, _)

/-- The block of results at point t is the pre-norm activations on rows t * 2000 + r. -/
theorem blk2_at (V : (c : Dev nD) → (b : Ref sig .tc) → Buf (Elt Ideal) ((c : Thread nD τ).loc b)) (c : Dev nD) (t : Fin cfg2.N) (r : Fin 2000) (q : Fin 256) (hr : t.val * 2000 + r.val < 50000) :
    k2_pay4 (F := Ideal) (iblk2 V c 0 t) (iblk2 V c 1 t) (iblk2 V c 2 t) (iblk2 V c 3 t) (iblk2 V c 4 t) (iblk2 V c 5 t) (ix2 r q) = z2 V c (ix2 ⟨t.val * 2000 + r.val, hr⟩ q) := by
  obtain ⟨e0, e1, e2, e3, e4, e5, e6, e7, e8, e9, e10, e11⟩ := idx_facts2 t
  refine (mlp2_at _ _ _ _ _ _ (fun i => V c main_v33 i +ₑ V c main_v43 i) (V c main_v45) (V c main_v47) (V c main_v49) (V c main_v51) r q ⟨t.val * 2000 + r.val, hr⟩ ?_ ?_ ?_ ?_ ?_).trans rfl
  · intro l
    show V c main_v33 (((cfg2.win 0).blk t).view.emb (ix2 r l)) +ₑ V c main_v43 (((cfg2.win 1).blk t).view.emb (ix2 r l))
      = V c main_v33 (ix2 ⟨t.val * 2000 + r.val, hr⟩ l) +ₑ V c main_v43 (ix2 ⟨t.val * 2000 + r.val, hr⟩ l)
    have ea : ((cfg2.win 0).blk t).view.emb (ix2 r l) = ix2 ⟨t.val * 2000 + r.val, hr⟩ l := by
      refine funext fun a => Fin.ext ?_
      match a with
      | ⟨0, _⟩ => show win2_0.index t (0 : Fin 2) * 2000 + 1 * r.val = t.val * 2000 + r.val; omega
      | ⟨1, _⟩ => show win2_0.index t (1 : Fin 2) * 256 + 1 * l.val = l.val; omega
    have eb : ((cfg2.win 1).blk t).view.emb (ix2 r l) = ix2 ⟨t.val * 2000 + r.val, hr⟩ l := by
      refine funext fun a => Fin.ext ?_
      match a with
      | ⟨0, _⟩ => show win2_1.index t (0 : Fin 2) * 2000 + 1 * r.val = t.val * 2000 + r.val; omega
      | ⟨1, _⟩ => show win2_1.index t (1 : Fin 2) * 256 + 1 * l.val = l.val; omega
    rw [ea, eb]
  · intro l k
    show V c main_v45 (((cfg2.win 2).blk t).view.emb (ix2 l k)) = V c main_v45 (ix2 l k)
    refine congrArg _ (funext fun a => Fin.ext ?_)
    match a with
    | ⟨0, _⟩ => show win2_2.index t (0 : Fin 2) * 256 + 1 * l.val = l.val; omega
    | ⟨1, _⟩ => show win2_2.index t (1 : Fin 2) * 256 + 1 * k.val = k.val; omega
  · intro k
    show V c main_v47 (((cfg2.win 3).blk t).view.emb (ix1 k)) = V c main_v47 (ix1 k)
    refine congrArg _ (funext fun a => Fin.ext ?_)
    match a with
    | ⟨0, _⟩ => show win2_3.index t (0 : Fin 1) * 256 + 1 * k.val = k.val; omega
  · intro l k
    show V c main_v49 (((cfg2.win 4).blk t).view.emb (ix2 l k)) = V c main_v49 (ix2 l k)
    refine congrArg _ (funext fun a => Fin.ext ?_)
    match a with
    | ⟨0, _⟩ => show win2_4.index t (0 : Fin 2) * 256 + 1 * l.val = l.val; omega
    | ⟨1, _⟩ => show win2_4.index t (1 : Fin 2) * 256 + 1 * k.val = k.val; omega
  · intro k
    show V c main_v51 (((cfg2.win 5).blk t).view.emb (ix1 k)) = V c main_v51 (ix1 k)
    refine congrArg _ (funext fun a => Fin.ext ?_)
    match a with
    | ⟨0, _⟩ => show win2_5.index t (0 : Fin 1) * 256 + 1 * k.val = k.val; omega

/-! ## From blocks to the array -/

/-- What point t writes back is block t of the pre-norm activations. -/
theorem flushed2_6_eq (V : (c : Dev nD) → (b : Ref sig .tc) → Buf (Elt Ideal) ((c : Thread nD τ).loc b)) (c : Dev nD) (t : Fin cfg2.N) :
    (dat2 (F := Ideal) V c).flushed 6 t = ((cfg2.win 6).blk t).view.read (Elt Ideal) (z2 V c) := by
  show (cfg2.win 6).cut (grid2.coords t) ((dat2 V c).after 6 t) = _
  rw [after2_6, pay2_eq]
  obtain ⟨e0, e1, e2, e3, e4, e5, e6, e7, e8, e9, e10, e11⟩ := idx_facts2 t
  funext j
  obtain ⟨r, q, rfl⟩ : ∃ (r : Fin 2000) (q : Fin 256), j = ix2 r q := ⟨j 0, j 1, eq_ix2 j⟩
  have hN : cfg2.N = 25 := N_2
  have hr : t.val * 2000 + r.val < 50000 := by have := t.isLt; have := r.isLt; omega
  refine (blk2_at V c t r q hr).trans ?_
  show z2 V c (ix2 ⟨t.val * 2000 + r.val, hr⟩ q) = z2 V c (((cfg2.win 6).blk t).view.emb (ix2 r q))
  refine congrArg _ (funext fun a => Fin.ext ?_)
  match a with
  | ⟨0, _⟩ => show t.val * 2000 + r.val = win2_6.index t (0 : Fin 2) * 2000 + 1 * r.val; omega
  | ⟨1, _⟩ => show q.val = win2_6.index t (1 : Fin 2) * 256 + 1 * q.val; omega

/-- An entry of the array is in point t's block iff each coordinate is in the block's range on its axis. -/
theorem mem_blk2_6 (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v52_0).slice (win2_6.rect t)).set ↔ _
  rw [View.set_slice_whole, Rect.mem_set_unit]
  exact Iff.rfl

/-- Every entry is in some point's block: row r is in the block of point r / 2000. -/
theorem cover2_6 (i : S50000x256.Idx) : ∃ t : Fin cfg2.N, (cfg2.win 6).flush t = true ∧ i ∈ ((cfg2.win 6).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_6 _, ?_⟩
  obtain ⟨e0, e1, e2, e3, e4, e5, e6, e7, e8, e9, e10, e11⟩ := idx_facts2 ⟨(i 0).val / 2000, by rw [hN]; omega⟩
  rw [mem_blk2_6]
  intro a
  match a with
  | ⟨0, _⟩ => show win2_6.index _ (0 : Fin 2) * 2000 ≤ (i 0).val ∧ (i 0).val < win2_6.index _ (0 : Fin 2) * 2000 + 2000; rw [e10]; show (i 0).val / 2000 * 2000 ≤ (i 0).val ∧ (i 0).val < (i 0).val / 2000 * 2000 + 2000; omega
  | ⟨1, _⟩ => show win2_6.index _ (1 : Fin 2) * 256 ≤ (i 1).val ∧ (i 1).val < win2_6.index _ (1 : Fin 2) * 256 + 256; rw [e11]; omega

/-- The first output array after the region is the pre-norm activations of the arrays the region finds. -/
theorem final2_6 (V : (c : Dev nD) → (b : Ref sig .tc) → Buf (Elt Ideal) ((c : Thread nD τ).loc b)) (c : Dev nD) :
    ((dat2 (F := Ideal) V c).arrAt 6 cfg2.N : Cert.Spec.Arr) = z2 V c :=
  (dat2 (F := Ideal) V c).arrAt_eq_of_cover 6 _ (fun t _ => flushed2_6_eq V c t) cover2_6

end Cert.KernelIdeal.Hand

end
-- ==== Proof.KI.ValR2s.lean ====
/-
  The two statistics arrays of region 2 at the ideal instance. The kernel keeps two running rows across its 25 grid
  points: zeroed at the first point, and at every point increased by the column sums, respectively the column sums
  of squares, of the block of 2000 result rows computed there; they are written back once, after the last point.
  So after point n they hold the sums over the first 2000 (n + 1) rows, and what is written back is the column sums
  and the column sums of squares over all 50000 rows of the array whose blocks are the blocks of results.
-/
import proofs.«130186_j80642305950442_1_alg».proof.Proof.KI.R2
import proofs.«130186_j80642305950442_1_alg».proof.Proof.KI.ValR2Pay
import proofs.«130186_j80642305950442_1_alg».proof.Proof.KI.ValR2z
import proofs.«130186_j80642305950442_1_alg».proof.Proof.Math.Blocks
import proofs.«130186_j80642305950442_1_alg».proof.Proof.Math.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Tactic
open Idealize.ShloMosaic.Pipeline (Dat)
open Idealize.ShloMosaic.ValueIdx

variable {F : FTy → Type} [FloatOps F]

/-! ## What the body leaves in the two running rows -/

/-- At a later point the running column sums end at the body's sum of what they held and the block's column sums. -/
theorem out2_B_7_eq (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : ¬cond2_0 i) (x0 : Vec F S2000x256 .f32) (x1 : Vec F S2000x256 .f32) (x2 : Vec F S256x256 .f32) (x3 : Vec F S256 .f32) (x4 : Vec F S256x256 .f32) (x5 : Vec F S256 .f32) (xo7 xo8 : Vec F S256 .f32) :
    out2_B_7 c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz2_1]
  simp only [View.readAt_eq_ld, h1.read_unread, h2.read_unread, h3.read_unread, h4.read_unread, h5.read_unread, h6.read_unread, h8.read_unread, h9.read_unread,
    View.ld_unit_zero (S := S2000x256) hz2_2, View.ld_unit_zero (S := S256x256) hz2_2, View.ld_unit_zero (S := S256) hz2_1]

/-- At a later point the running column sums of squares likewise, of the block of results. -/
theorem out2_B_8_eq (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : ¬cond2_0 i) (x0 : Vec F S2000x256 .f32) (x1 : Vec F S2000x256 .f32) (x2 : Vec F S256x256 .f32) (x3 : Vec F S256 .f32) (x4 : Vec F S256x256 .f32) (x5 : Vec F S256 .f32) (xo7 xo8 : Vec F S256 .f32) :
    out2_B_8 c i a1 h1 a2 h2 a3 h3 a4 h4 a5 h5 a6 h6 a7 h7 a8 h8 a9 h9 hc x0 x1 x2 x3 x4 x5 xo7 xo8 = k2_pay1 (k2_pay4 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz2_1]
  simp only [View.readAt_eq_ld, h1.read_unread, h2.read_unread, h3.read_unread, h4.read_unread, h5.read_unread, h6.read_unread, h8.read_unread, h9.read_unread,
    View.ld_unit_zero (S := S2000x256) hz2_2, View.ld_unit_zero (S := S256x256) hz2_2, View.ld_unit_zero (S := S256) hz2_1]

/-- At the first point the running column sums are reset to zeros first. -/
theorem out2_A_7_eq (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : cond2_0 i) (x0 : Vec F S2000x256 .f32) (x1 : Vec F S2000x256 .f32) (x2 : Vec F S256x256 .f32) (x3 : Vec F S256 .f32) (x4 : Vec F S256x256 .f32) (x5 : Vec F S256 .f32) :
    out2_A_7 c i a1 h1 a2 h2 a3 h3 a4 h4 a5 h5 a6 h6 a7 h7 a8 h8 a9 h9 hc x0 x1 x2 x3 x4 x5 = k2_pay5 x0 x1 x2 x3 x4 x5 k2_pay2 := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S256) hz2_1, View.readCov_unit_zero (S := S256) _ hz2_1]
  simp only [View.readAt_eq_ld, h1.read_unread, h2.read_unread, h3.read_unread, h4.read_unread, h5.read_unread, h6.read_unread, h8.read_unread, h9.read_unread,
    View.ld_unit_zero (S := S2000x256) hz2_2, View.ld_unit_zero (S := S256x256) hz2_2, View.ld_unit_zero (S := S256) hz2_1]

/-- At the first point the running column sums of squares are reset to zeros first. -/
theorem out2_A_8_eq (c : Dev nD) (i : grid2.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : cond2_0 i) (x0 : Vec F S2000x256 .f32) (x1 : Vec F S2000x256 .f32) (x2 : Vec F S256x256 .f32) (x3 : Vec F S256 .f32) (x4 : Vec F S256x256 .f32) (x5 : Vec F S256 .f32) :
    out2_A_8 c i a1 h1 a2 h2 a3 h3 a4 h4 a5 h5 a6 h6 a7 h7 a8 h8 a9 h9 hc x0 x1 x2 x3 x4 x5 = k2_pay1 (k2_pay4 x0 x1 x2 x3 x4 x5) k2_pay3 := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S256) hz2_1, View.readCov_unit_zero (S := S256) _ hz2_1]
  simp only [View.readAt_eq_ld, h1.read_unread, h2.read_unread, h3.read_unread, h4.read_unread, h5.read_unread, h6.read_unread, h8.read_unread, h9.read_unread,
    View.ld_unit_zero (S := S2000x256) hz2_2, View.ld_unit_zero (S := S256x256) hz2_2, View.ld_unit_zero (S := S256) hz2_1]

/-! ## The running rows after each point, and the arrays after the region

  Stated for any array Z whose rows 2000 t … 2000 t + 1999 are the block of results at point t: after point n
  the running column sums hold, at column q, the sum of Z over the rows of the first n + 1 blocks, and the running
  column sums of squares the sum of the squares; the one write-back, after the last point, leaves the column sums
  of Z over all 50000 rows. -/

section Acc
variable (V : (c : Dev nD) → (b : Ref sig .tc) → Buf (Elt Ideal) ((c : Thread nD τ).loc b)) (c : Dev nD)

/-- The block of results at point t: the body's stored value of the six input blocks there. -/
abbrev blk2 (t : Fin cfg2.N) : Vec Ideal S2000x256 .f32 :=
  k2_pay4 (F := Ideal) (iblk2 V c 0 t) (iblk2 V c 1 t) (iblk2 V c 2 t) (iblk2 V c 3 t) (iblk2 V c 4 t) (iblk2 V c 5 t)

/-- Z restricted to the rows of block t is the block of results at point t. -/
def IsBlocks2 (Z : Cert.Spec.Arr) : Prop :=
  ∀ (t : Fin cfg2.N) (r : Fin 2000) (q : Fin 256) (h : t.val * 2000 + r.val < 50000), blk2 V c t (ix2 r q) = Z (ix2 ⟨t.val * 2000 + r.val, h⟩ q)

variable {V c}

/-- The column sum of the block of results at point t is the sum of Z over block t's rows. -/
theorem blockSum2_7 {Z : Cert.Spec.Arr} (hZ : IsBlocks2 V c Z) (t : Fin cfg2.N) (q : Fin 256) :
    (∑ r : Fin 2000, blk2 V c t (ix2 r q)) = Cert.Spec.blockSum (fun p => Z (ix2 p q)) t.val := by
  have hN : cfg2.N = 25 := N_2
  have ht : t.val < 25 := lt_of_lt_of_eq t.isLt hN
  unfold Cert.Spec.blockSum
  refine Finset.sum_congr rfl fun r _ => ?_
  have hr := r.isLt
  rw [dif_pos (by omega : t.val * 2000 + r.val < 50000)]
  exact hZ t r q _

/-- The column sum of squares likewise. -/
theorem blockSum2_8 {Z : Cert.Spec.Arr} (hZ : IsBlocks2 V c Z) (t : Fin cfg2.N) (q : Fin 256) :
    (∑ r : Fin 2000, blk2 V c t (ix2 r q) * blk2 V c t (ix2 r q))
      = Cert.Spec.blockSum (fun p => Z (ix2 p q) * Z (ix2 p q)) t.val := by
  have hN : cfg2.N = 25 := N_2
  have ht : t.val < 25 := lt_of_lt_of_eq t.isLt hN
  unfold Cert.Spec.blockSum
  refine Finset.sum_congr rfl fun r _ => ?_
  have hr := r.isLt
  rw [dif_pos (by omega : t.val * 2000 + r.val < 50000), hZ t r q _]

/-- After point n the running column sums hold the sums over the first n + 1 blocks: by induction on the point. -/
theorem acc2_7 {Z : Cert.Spec.Arr} (hZ : IsBlocks2 V c Z) (q : Fin 256) : ∀ (n : ℕ) (hn : n < cfg2.N),
    (outsAt2 (F := Ideal) V c n hn).2.1 (ix1 q) = ∑ t ∈ Finset.range (n + 1), Cert.Spec.blockSum (fun p => Z (ix2 p q)) t
  | 0, hn => by
    refine (congrFun (outsAt2_A_7 V c ⟨0, hn⟩ rfl) (ix1 q)).trans ?_
    rw [out2_A_7_eq, pay2_5_apply, pay2_2_apply, zero_add, Finset.sum_range_one]
    exact blockSum2_7 hZ ⟨0, hn⟩ q
  | n + 1, hn => by
    have hN : cfg2.N = 25 := N_2
    have hB : ¬(⟨n + 1, hn⟩ : Fin cfg2.N).val % 25 = 0 := by dsimp only; omega
    refine (congrFun (outsAt2_B_7 V c ⟨n + 1, hn⟩ hB) (ix1 q)).trans ?_
    rw [out2_B_7_eq, pay2_5_apply, Finset.sum_range_succ]
    exact congrArg₂ (· + ·) (acc2_7 hZ q n _) (blockSum2_7 hZ ⟨n + 1, hn⟩ q)

/-- After point n the running column sums of squares hold the sums of squares over the first n + 1 blocks. -/
theorem acc2_8 {Z : Cert.Spec.Arr} (hZ : IsBlocks2 V c Z) (q : Fin 256) : ∀ (n : ℕ) (hn : n < cfg2.N),
    (outsAt2 (F := Ideal) V c n hn).2.2 (ix1 q)
      = ∑ t ∈ Finset.range (n + 1), Cert.Spec.blockSum (fun p => Z (ix2 p q) * Z (ix2 p q)) t
  | 0, hn => by
    refine (congrFun (outsAt2_A_8 V c ⟨0, hn⟩ rfl) (ix1 q)).trans ?_
    rw [out2_A_8_eq, pay2_1_apply, pay2_3_apply, zero_add, Finset.sum_range_one]
    exact blockSum2_8 hZ ⟨0, hn⟩ q
  | n + 1, hn => by
    have hN : cfg2.N = 25 := N_2
    have hB : ¬(⟨n + 1, hn⟩ : Fin cfg2.N).val % 25 = 0 := by dsimp only; omega
    refine (congrFun (outsAt2_B_8 V c ⟨n + 1, hn⟩ hB) (ix1 q)).trans ?_
    rw [out2_B_8_eq, pay2_1_apply, Finset.sum_range_succ]
    exact congrArg₂ (· + ·) (acc2_8 hZ q n _) (blockSum2_8 hZ ⟨n + 1, hn⟩ q)

/-- All 25 blocks together are all the rows. -/
theorem sum_blockSum_all2 (f : Fin 50000 → EReal) : (∑ t ∈ Finset.range 25, Cert.Spec.blockSum f t) = ∑ p : Fin 50000, f p :=
  Cert.Spec.sum_all_blocks f

/-- After the last point the running column sums are the column sums of Z. -/
theorem last2_7 {Z : Cert.Spec.Arr} (hZ : IsBlocks2 V c Z) (t : Fin cfg2.N) (h24 : t.val = 24) (y : S256.Idx)
    (i : Cert.Spec.SR.Idx) (hi : (i 0).val = (y 0).val) :
    (outsAt2 (F := Ideal) V c t.val t.isLt).2.1 y = Cert.Spec.colSum Z i := by
  obtain ⟨q, rfl⟩ : ∃ q : Fin 256, y = ix1 q := ⟨y 0, eq_ix1 y⟩
  have hq : i 0 = q := Fin.ext hi
  obtain ⟨n, hn⟩ := t
  dsimp only at h24
  subst h24
  rw [acc2_7 hZ q 24 hn, sum_blockSum_all2]
  unfold Cert.Spec.colSum
  rw [hq]

/-- After the last point the running column sums of squares are the column sums of squares of Z. -/
theorem last2_8 {Z : Cert.Spec.Arr} (hZ : IsBlocks2 V c Z) (t : Fin cfg2.N) (h24 : t.val = 24) (y : S256.Idx)
    (i : Cert.Spec.SR.Idx) (hi : (i 0).val = (y 0).val) :
    (outsAt2 (F := Ideal) V c t.val t.isLt).2.2 y = Cert.Spec.colSumSq Z i := by
  obtain ⟨q, rfl⟩ : ∃ q : Fin 256, y = ix1 q := ⟨y 0, eq_ix1 y⟩
  have hq : i 0 = q := Fin.ext hi
  obtain ⟨n, hn⟩ := t
  dsimp only at h24
  subst h24
  rw [acc2_8 hZ q 24 hn, sum_blockSum_all2]
  unfold Cert.Spec.colSumSq
  rw [hq]

/-- The two running rows' windows always sit at their only block. -/
theorem idx_facts2_78 : ∀ t : Fin cfg2.N, win2_7.index t (0 : Fin 1) = 0 ∧ win2_8.index t (0 : Fin 1) = 0 :=
  (by decide +kernel : ∀ t : Fin grid2.N, _)

/-- What the last point writes back of the running column sums is the column sums of Z, whole. -/
theorem flushed2_7_eq {Z : Cert.Spec.Arr} (hZ : IsBlocks2 V c Z) (t : Fin cfg2.N) (hf : (cfg2.win 7).flush t = true) :
    (dat2 (F := Ideal) V c).flushed 7 t = ((cfg2.win 7).blk t).view.read (Elt Ideal) (Cert.Spec.colSum Z) := by
  have hN : cfg2.N = 25 := N_2
  have h24 : t.val = 24 := by have := (flush2_7 t).mp hf; have := t.isLt; omega
  show (cfg2.win 7).cut (grid2.coords t) ((dat2 V c).after 7 t) = _
  rw [after2_7]
  obtain ⟨e7, e8⟩ := idx_facts2_78 t
  generalize hG : Cert.Spec.colSum Z = G
  funext j
  show (outsAt2 (F := Ideal) V c t.val t.isLt).2.1 j = G (((cfg2.win 7).blk t).view.emb j)
  rw [← hG]
  refine last2_7 hZ t h24 j (((cfg2.win 7).blk t).view.emb j) ?_
  show win2_7.index t (0 : Fin 1) * 256 + 1 * (j 0).val = (j 0).val
  omega

theorem flushed2_8_eq {Z : Cert.Spec.Arr} (hZ : IsBlocks2 V c Z) (t : Fin cfg2.N) (hf : (cfg2.win 8).flush t = true) :
    (dat2 (F := Ideal) V c).flushed 8 t = ((cfg2.win 8).blk t).view.read (Elt Ideal) (Cert.Spec.colSumSq Z) := by
  have hN : cfg2.N = 25 := N_2
  have h24 : t.val = 24 := by have := (flush2_8 t).mp hf; have := t.isLt; omega
  show (cfg2.win 8).cut (grid2.coords t) ((dat2 V c).after 8 t) = _
  rw [after2_8]
  obtain ⟨e7, e8⟩ := idx_facts2_78 t
  generalize hG : Cert.Spec.colSumSq Z = G
  funext j
  show (outsAt2 (F := Ideal) V c t.val t.isLt).2.2 j = G (((cfg2.win 8).blk t).view.emb j)
  rw [← hG]
  refine last2_8 hZ t h24 j (((cfg2.win 8).blk t).view.emb j) ?_
  show win2_8.index t (0 : Fin 1) * 256 + 1 * (j 0).val = (j 0).val
  omega

/-- An entry of a row array is in point t's block iff its coordinate is in the block's range. -/
theorem mem_blk2_7 (t : Fin cfg2.N) (i : S256.Idx) :
    i ∈ ((cfg2.win 7).blk t).view.set ↔ ∀ a : Fin 1, win2_7.index t a * S256.size a ≤ (i a).val ∧ (i a).val < win2_7.index t a * S256.size a + S256.size a := by
  show i ∈ ((View.whole main_v52_1).slice (win2_7.rect t)).set ↔ _
  rw [View.set_slice_whole, Rect.mem_set_unit]
  exact Iff.rfl
theorem mem_blk2_8 (t : Fin cfg2.N) (i : S256.Idx) :
    i ∈ ((cfg2.win 8).blk t).view.set ↔ ∀ a : Fin 1, win2_8.index t a * S256.size a ≤ (i a).val ∧ (i a).val < win2_8.index t a * S256.size a + S256.size a := by
  show i ∈ ((View.whole main_v52_2).slice (win2_8.rect t)).set ↔ _
  rw [View.set_slice_whole, Rect.mem_set_unit]
  exact Iff.rfl

/-- The last point's block is the whole row array. -/
theorem cover2_7 (i : S256.Idx) : ∃ t : Fin cfg2.N, (cfg2.win 7).flush t = true ∧ i ∈ ((cfg2.win 7).blk t).view.set := by
  have hi0 : (i 0).val < 256 := (i 0).isLt
  have hN : cfg2.N = 25 := N_2
  refine ⟨⟨24, by rw [hN]; omega⟩, (flush2_7 _).mpr rfl, ?_⟩
  obtain ⟨e7, e8⟩ := idx_facts2_78 ⟨24, by rw [hN]; omega⟩
  rw [mem_blk2_7]
  intro a
  match a with
  | ⟨0, _⟩ => show win2_7.index _ (0 : Fin 1) * 256 ≤ (i 0).val ∧ (i 0).val < win2_7.index _ (0 : Fin 1) * 256 + 256; rw [e7]; omega
theorem cover2_8 (i : S256.Idx) : ∃ t : Fin cfg2.N, (cfg2.win 8).flush t = true ∧ i ∈ ((cfg2.win 8).blk t).view.set := by
  have hi0 : (i 0).val < 256 := (i 0).isLt
  have hN : cfg2.N = 25 := N_2
  refine ⟨⟨24, by rw [hN]; omega⟩, (flush2_8 _).mpr rfl, ?_⟩
  obtain ⟨e7, e8⟩ := idx_facts2_78 ⟨24, by rw [hN]; omega⟩
  rw [mem_blk2_8]
  intro a
  match a with
  | ⟨0, _⟩ => show win2_8.index _ (0 : Fin 1) * 256 ≤ (i 0).val ∧ (i 0).val < win2_8.index _ (0 : Fin 1) * 256 + 256; rw [e8]; omega

/-- The column-sum array after the region is the column sums of Z. -/
theorem arr2_7 {Z : Cert.Spec.Arr} (hZ : IsBlocks2 V c Z) :
    ((dat2 (F := Ideal) V c).arrAt 7 cfg2.N : Cert.Spec.Row) = Cert.Spec.colSum Z :=
  (dat2 (F := Ideal) V c).arrAt_eq_of_cover 7 _ (fun t hf => flushed2_7_eq hZ t hf) cover2_7

/-- The column-sum-of-squares array after the region is the column sums of squares of Z. -/
theorem arr2_8 {Z : Cert.Spec.Arr} (hZ : IsBlocks2 V c Z) :
    ((dat2 (F := Ideal) V c).arrAt 8 cfg2.N : Cert.Spec.Row) = Cert.Spec.colSumSq Z :=
  (dat2 (F := Ideal) V c).arrAt_eq_of_cover 8 _ (fun t hf => flushed2_8_eq hZ t hf) cover2_8

end Acc

/-! ## The two statistics arrays of region 2 -/

/-- The rows of block t of the dense maps' result are the block of results at point t. -/
theorem isBlocks2_z2 (V : (c : Dev nD) → (b : Ref sig .tc) → Buf (Elt Ideal) ((c : Thread nD τ).loc b)) (c : Dev nD) :
    IsBlocks2 V c (z2 V c) := fun t r q h => blk2_at V c t r q h

/-- The column-sum array after the region is the column sums of the dense maps' result. -/
theorem final2_7 (V : (c : Dev nD) → (b : Ref sig .tc) → Buf (Elt Ideal) ((c : Thread nD τ).loc b)) (c : Dev nD) :
    ((dat2 (F := Ideal) V c).arrAt 7 cfg2.N : Cert.Spec.Row) = Cert.Spec.colSum (z2 V c) :=
  arr2_7 (isBlocks2_z2 V c)

/-- The column-sum-of-squares array after the region is the column sums of squares of the dense maps' result. -/
theorem final2_8 (V : (c : Dev nD) → (b : Ref sig .tc) → Buf (Elt Ideal) ((c : Thread nD τ).loc b)) (c : Dev nD) :
    ((dat2 (F := Ideal) V c).arrAt 8 cfg2.N : Cert.Spec.Row) = Cert.Spec.colSumSq (z2 V c) :=
  arr2_8 (isBlocks2_z2 V c)

end Cert.KernelIdeal.Hand

end
-- ==== Proof.KI.ValR2.lean ====
/-
  The three arrays region 2 (the second dense-and-statistics kernel) writes, at the ideal instance. The first
  holds, row by row, the two dense maps with their clamps applied to the region's input rows plus the aggregated
  neighbours' rows; the second holds that array's column sums over the 50000 rows; the third the column sums of
  its squares.
-/
import proofs.«130186_j80642305950442_1_alg».proof.Proof.KI.ValR2Pay
import proofs.«130186_j80642305950442_1_alg».proof.Proof.KI.ValR2z
import proofs.«130186_j80642305950442_1_alg».proof.Proof.KI.ValR2s
-- ==== Proof.KI.ValR4Pay.lean ====
import proofs.«130186_j80642305950442_1_alg».proof.Proof.Gen.KernelIdeal.Skeleton
import proofs.«130186_j80642305950442_1_alg».proof.Proof.Math.Spec
import proofs.«130186_j80642305950442_1_alg».proof.Proof.LibMatRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-! # The values region 4's body stores, entry by entry

  The block of results is the two dense maps with their clamps applied to the block of rows plus the block of
  aggregated neighbours; the two running rows get the block's column sums and column sums of squares added. -/

/-- The body's products are plain [2000, 256] by [256, 256] products. -/
theorem dot4_eq : dot_S2000x256_S256x256_S2000x256_1_0_0_1_n_n = DotDims.plain 2000 256 256 := rfl

/-- One row of 256 laid over 2000 rows reads, at (p, q), the row's entry q. -/
theorem row4_apply {α : Type} (w : S256.Idx → α) (p : Fin 2000) (q : Fin 256) :
    broadcastTo S2000x256 (shapeCast S1x256 w shapeCasts_S256_S1x256) broadcasts_S1x256_S2000x256 (ix2 p q) = w (ix1 q) :=
  (broadcastTo_1b_ab_apply _ broadcasts_S1x256_S2000x256 p q).trans (shapeCast_a_1a_apply w shapeCasts_S256_S1x256 0 q)

/-- Summing a block over its rows: the row coordinate r inserted before column q is the entry (r, q). -/
theorem lift4_eq (r : Fin 2000) (q : Fin 256) : reduces_S2000x256_S256.lift (ix1 q) r = ix2 r q := by
  funext a
  refine Fin.ext ?_
  match a with
  | ⟨0, _⟩ => rfl
  | ⟨1, _⟩ => rfl

/-- The column sums of a block: at column q, the sum over the 2000 rows. -/
theorem colsum4_apply (src : FVec Ideal S2000x256 .f32) (hφ : FKind.Formats .f32)
    (hacc : (0x00000000#32 : BitVec 32) = FKind.add.neutral .f32 hφ) (q : Fin 256) :
    multiReduction .add [0] S256 src 0x00000000#32 reduces_S2000x256_S256 hφ hacc (ix1 q) = ∑ r : Fin 2000, src (ix2 r q) :=
  (Ideal.multiReduction_add_single src 0x00000000#32 reduces_S2000x256_S256 hφ hacc (ix1 q)).trans
    (Finset.sum_congr rfl fun r _ => congrArg src (lift4_eq r q))

/-- The block of results at (p, q): the second dense map and clamp of the first dense map and clamp of row p of
    the block of rows plus the block of aggregated neighbours. -/
theorem pay4_4_apply (v3 v4 : Vec Ideal S2000x256 .f32) (v8 : Vec Ideal S256x256 .f32) (v12 : Vec Ideal S256 .f32)
    (v20 : Vec Ideal S256x256 .f32) (v24 : Vec Ideal S256 .f32) (p : Fin 2000) (q : Fin 256) :
    k4_pay4 (F := Ideal) v3 v4 v8 v12 v20 v24 (ix2 p q)
      = max ((∑ k : Fin 256, max ((∑ l : Fin 256, (v3 (ix2 p l) + v4 (ix2 p l)) * v8 (ix2 l k)) + v12 (ix1 k)) Cert.Spec.zeroW
          * v20 (ix2 k q)) + v24 (ix1 q)) Cert.Spec.zeroW := by
  unfold k4_pay4
  rw [maximumf_apply, addf_apply, row4_apply, dot4_eq]
  refine congrArg₂ max (congrArg₂ (· + ·) ?_ ?_) rfl
  · refine (MatRows.matmul_plain_apply none _ _ p q).trans (Finset.sum_congr rfl fun k _ => ?_)
    rw [truncf_apply, truncf_apply, shapeCast_self v20, maximumf_apply, addf_apply, row4_apply, shapeCast_self v12]
    refine congrArg₂ (· * ·) (congrArg₂ max (congrArg₂ (· + ·) ?_ rfl) rfl) rfl
    refine (MatRows.matmul_plain_apply none _ _ p k).trans (Finset.sum_congr rfl fun l _ => ?_)
    rw [truncf_apply, truncf_apply, shapeCast_self v8, addf_apply, shapeCast_self v4, shapeCast_self v3]
  · rw [shapeCast_self v24]

/-- The running column sums after the body, at column q: what they were plus the block's column sum. -/
theorem pay4_5_apply (v3 v4 : Vec Ideal S2000x256 .f32) (v8 : Vec Ideal S256x256 .f32) (v12 : Vec Ideal S256 .f32)
    (v20 : Vec Ideal S256x256 .f32) (v24 : Vec Ideal S256 .f32) (v32 : Vec Ideal S256 .f32) (q : Fin 256) :
    k4_pay5 (F := Ideal) v3 v4 v8 v12 v20 v24 v32 (ix1 q)
      = v32 (ix1 q) + ∑ r : Fin 2000, k4_pay4 (F := Ideal) v3 v4 v8 v12 v20 v24 (ix2 r q) := by
  unfold k4_pay5
  rw [addf_apply, shapeCast_self]
  exact congrArg (v32 (ix1 q) + ·) (colsum4_apply _ _ _ q)

/-- The running column sums of squares after the body, at column q: what they were plus the block's. -/
theorem pay4_1_apply (v30 : FVec Ideal S2000x256 .f32) (v37 : Vec Ideal S256 .f32) (q : Fin 256) :
    k4_pay1 (F := Ideal) v30 v37 (ix1 q) = v37 (ix1 q) + ∑ r : Fin 2000, v30 (ix2 r q) * v30 (ix2 r q) := by
  unfold k4_pay1
  rw [addf_apply, shapeCast_self]
  exact congrArg (v37 (ix1 q) + ·) (colsum4_apply _ _ _ q)

/-- The rows the reset stores are zero. -/
theorem pay4_2_apply (j : S256.Idx) : k4_pay2 (F := Ideal) j = 0 := Ideal.ofBits_zero_f32
theorem pay4_3_apply (j : S256.Idx) : k4_pay3 (F := Ideal) j = 0 := Ideal.ofBits_zero_f32

end Cert.KernelIdeal.Hand

end
-- ==== Proof.KI.ValR4z.lean ====
import proofs.«130186_j80642305950442_1_alg».proof.Proof.KI.R4
import proofs.«130186_j80642305950442_1_alg».proof.Proof.Math.Spec
import proofs.«130186_j80642305950442_1_alg».proof.Proof.KI.ValR4Pay
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem
open Idealize.ShloMosaic.Pipeline (Dat)
open Idealize.ShloMosaic.ValueIdx

/-! # The value of region 4's first output: the two dense maps of input plus aggregation, block by block -/

section Pieces

variable {F : FTy → Type} [FloatOps F]

theorem hz4_2 : (![0, 0] : Fin 2 → Nat) = fun _ => 0 := funext fun a => by fin_cases a <;> rfl
theorem hz4_1 : (![0] : Fin 1 → Nat) = fun _ => 0 := funext fun a => by fin_cases a <;> rfl

/-- At the first point the body leaves in the first output's buffer its one whole-block store: the stored value of the
    six input blocks. -/
theorem out4_A_6_eq (c : Dev nD) (i : grid4.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : cond4_0 i)
    (x0 x1 : Vec F S2000x256 .f32) (x2 : Vec F S256x256 .f32) (x3 : Vec F S256 .f32) (x4 : Vec F S256x256 .f32) (x5 : Vec F S256 .f32) :
    out4_A_6 c i a1 h1 a2 h2 a3 h3 a4 h4 a5 h5 a6 h6 a7 h7 a8 h8 a9 h9 hc x0 x1 x2 x3 x4 x5 = k4_pay4 x0 x1 x2 x3 x4 x5 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  rw [View.canon_unit_zero hz4_2]
  simp only [View.readAt_eq_ld, h1.read_unread, h2.read_unread, h3.read_unread, h4.read_unread, h5.read_unread, h6.read_unread,
    View.ld_unit_zero (S := S2000x256) hz4_2, View.ld_unit_zero (S := S256x256) hz4_2, View.ld_unit_zero (S := S256) hz4_1]

/-- At a later point the same: the running rows entering do not reach the first output. -/
theorem out4_B_6_eq (c : Dev nD) (i : grid4.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : ¬cond4_0 i)
    (x0 x1 : Vec F S2000x256 .f32) (x2 : Vec F S256x256 .f32) (x3 : Vec F S256 .f32) (x4 : Vec F S256x256 .f32) (x5 : Vec F S256 .f32) (xo7 xo8 : Vec F S256 .f32) :
    out4_B_6 c i a1 h1 a2 h2 a3 h3 a4 h4 a5 h5 a6 h6 a7 h7 a8 h8 a9 h9 hc x0 x1 x2 x3 x4 x5 xo7 xo8 = k4_pay4 x0 x1 x2 x3 x4 x5 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  rw [View.canon_unit_zero hz4_2]
  simp only [View.readAt_eq_ld, h1.read_unread, h2.read_unread, h3.read_unread, h4.read_unread, h5.read_unread, h6.read_unread,
    View.ld_unit_zero (S := S2000x256) hz4_2, View.ld_unit_zero (S := S256x256) hz4_2, View.ld_unit_zero (S := S256) hz4_1]

/-- After every point the first output's buffer holds the stored value of that point's six input blocks. -/
theorem pay4_eq (V : (c : Dev nD) → (b : Ref sig .tc) → Buf (Elt F) ((c : Thread nD τ).loc b)) (c : Dev nD) (t : Fin cfg4.N) :
    (outsAt4 V c t.val t.isLt).1 = k4_pay4 (iblk4 V c 0 t) (iblk4 V c 1 t) (iblk4 V c 2 t) (iblk4 V c 3 t) (iblk4 V c 4 t) (iblk4 V c 5 t) := by
  by_cases h0 : t.val % 25 = 0
  · rw [outsAt4_A_6 V c t h0]
    exact out4_A_6_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)
  · rw [outsAt4_B_6 V c t h0]
    exact out4_B_6_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2

end Pieces

/-! ## The stored value against the specification, at an entry -/

/-- Addition of two extended reals, written so that its operands may be entries of buffers. -/
local notation:65 x:65 " +ₑ " y:66 => HAdd.hAdd (α := EReal) (β := EReal) (γ := EReal) x y

/-- The pre-norm activations of the arrays the region finds: the two dense maps of input plus aggregation. -/
abbrev z4 (V : (c : Dev nD) → (b : Ref sig .tc) → Buf (Elt Ideal) ((c : Thread nD τ).loc b)) (c : Dev nD) : Cert.Spec.Arr :=
  Cert.Spec.mlp (fun i => V c main_v63 i +ₑ V c main_v73 i) (V c main_v75) (V c main_v77) (V c main_v79) (V c main_v81)

/-- The stored value at (p, q) is the specification's entry (P, q) once row p of the two row blocks sums to row P of
    the input and the parameter blocks are the parameters. -/
theorem mlp4_at (x0 x1 : Vec Ideal S2000x256 .f32) (x2 : Vec Ideal S256x256 .f32) (x3 : Vec Ideal S256 .f32)
    (x4 : Vec Ideal S256x256 .f32) (x5 : Vec Ideal S256 .f32)
    (a : Cert.Spec.Arr) (w1 : Cert.Spec.Wt) (b1 : Cert.Spec.Row) (w2 : Cert.Spec.Wt) (b2 : Cert.Spec.Row)
    (p : Fin 2000) (q : Fin 256) (P : Fin 50000)
    (h0 : ∀ l : Fin 256, x0 (ix2 p l) + x1 (ix2 p l) = a (ix2 P l))
    (h2 : ∀ l k : Fin 256, x2 (ix2 l k) = w1 (ix2 l k)) (h3 : ∀ k : Fin 256, x3 (ix1 k) = b1 (ix1 k))
    (h4 : ∀ l k : Fin 256, x4 (ix2 l k) = w2 (ix2 l k)) (h5 : ∀ k : Fin 256, x5 (ix1 k) = b2 (ix1 k)) :
    k4_pay4 (F := Ideal) x0 x1 x2 x3 x4 x5 (ix2 p q) = Cert.Spec.mlpAt a w1 b1 w2 b2 P q := by
  rw [pay4_4_apply]
  unfold Cert.Spec.mlpAt Cert.Spec.hiddenAt
  simp only [h0, h2, h3, h4, h5]

/-- The index maps over the grid: at point t the two row blocks and the output block are block t of 25 along the
    rows and the only block along the columns; the four parameter windows are always at their only block. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 ∧ win4_3.index t (0 : Fin 1) = 0
    ∧ win4_4.index t (0 : Fin 2) = 0 ∧ win4_4.index t (1 : Fin 2) = 0 ∧ win4_5.index t (0 : Fin 1) = 0
    ∧ win4_6.index t (0 : Fin 2) = t.val ∧ win4_6.index t (1 : Fin 2) = 0 :=
  (by decide +kernel : ∀ t : Fin grid4.N, _)

/-- The block of results at point t is the pre-norm activations on rows t * 2000 + r. -/
theorem blk4_at (V : (c : Dev nD) → (b : Ref sig .tc) → Buf (Elt Ideal) ((c : Thread nD τ).loc b)) (c : Dev nD) (t : Fin cfg4.N) (r : Fin 2000) (q : Fin 256) (hr : t.val * 2000 + r.val < 50000) :
    k4_pay4 (F := Ideal) (iblk4 V c 0 t) (iblk4 V c 1 t) (iblk4 V c 2 t) (iblk4 V c 3 t) (iblk4 V c 4 t) (iblk4 V c 5 t) (ix2 r q) = z4 V c (ix2 ⟨t.val * 2000 + r.val, hr⟩ q) := by
  obtain ⟨e0, e1, e2, e3, e4, e5, e6, e7, e8, e9, e10, e11⟩ := idx_facts4 t
  refine (mlp4_at _ _ _ _ _ _ (fun i => V c main_v63 i +ₑ V c main_v73 i) (V c main_v75) (V c main_v77) (V c main_v79) (V c main_v81) r q ⟨t.val * 2000 + r.val, hr⟩ ?_ ?_ ?_ ?_ ?_).trans rfl
  · intro l
    show V c main_v63 (((cfg4.win 0).blk t).view.emb (ix2 r l)) +ₑ V c main_v73 (((cfg4.win 1).blk t).view.emb (ix2 r l))
      = V c main_v63 (ix2 ⟨t.val * 2000 + r.val, hr⟩ l) +ₑ V c main_v73 (ix2 ⟨t.val * 2000 + r.val, hr⟩ l)
    have ea : ((cfg4.win 0).blk t).view.emb (ix2 r l) = ix2 ⟨t.val * 2000 + r.val, hr⟩ l := by
      refine funext fun a => Fin.ext ?_
      match a with
      | ⟨0, _⟩ => show win4_0.index t (0 : Fin 2) * 2000 + 1 * r.val = t.val * 2000 + r.val; omega
      | ⟨1, _⟩ => show win4_0.index t (1 : Fin 2) * 256 + 1 * l.val = l.val; omega
    have eb : ((cfg4.win 1).blk t).view.emb (ix2 r l) = ix2 ⟨t.val * 2000 + r.val, hr⟩ l := by
      refine funext fun a => Fin.ext ?_
      match a with
      | ⟨0, _⟩ => show win4_1.index t (0 : Fin 2) * 2000 + 1 * r.val = t.val * 2000 + r.val; omega
      | ⟨1, _⟩ => show win4_1.index t (1 : Fin 2) * 256 + 1 * l.val = l.val; omega
    rw [ea, eb]
  · intro l k
    show V c main_v75 (((cfg4.win 2).blk t).view.emb (ix2 l k)) = V c main_v75 (ix2 l k)
    refine congrArg _ (funext fun a => Fin.ext ?_)
    match a with
    | ⟨0, _⟩ => show win4_2.index t (0 : Fin 2) * 256 + 1 * l.val = l.val; omega
    | ⟨1, _⟩ => show win4_2.index t (1 : Fin 2) * 256 + 1 * k.val = k.val; omega
  · intro k
    show V c main_v77 (((cfg4.win 3).blk t).view.emb (ix1 k)) = V c main_v77 (ix1 k)
    refine congrArg _ (funext fun a => Fin.ext ?_)
    match a with
    | ⟨0, _⟩ => show win4_3.index t (0 : Fin 1) * 256 + 1 * k.val = k.val; omega
  · intro l k
    show V c main_v79 (((cfg4.win 4).blk t).view.emb (ix2 l k)) = V c main_v79 (ix2 l k)
    refine congrArg _ (funext fun a => Fin.ext ?_)
    match a with
    | ⟨0, _⟩ => show win4_4.index t (0 : Fin 2) * 256 + 1 * l.val = l.val; omega
    | ⟨1, _⟩ => show win4_4.index t (1 : Fin 2) * 256 + 1 * k.val = k.val; omega
  · intro k
    show V c main_v81 (((cfg4.win 5).blk t).view.emb (ix1 k)) = V c main_v81 (ix1 k)
    refine congrArg _ (funext fun a => Fin.ext ?_)
    match a with
    | ⟨0, _⟩ => show win4_5.index t (0 : Fin 1) * 256 + 1 * k.val = k.val; omega

/-! ## From blocks to the array -/

/-- What point t writes back is block t of the pre-norm activations. -/
theorem flushed4_6_eq (V : (c : Dev nD) → (b : Ref sig .tc) → Buf (Elt Ideal) ((c : Thread nD τ).loc b)) (c : Dev nD) (t : Fin cfg4.N) :
    (dat4 (F := Ideal) V c).flushed 6 t = ((cfg4.win 6).blk t).view.read (Elt Ideal) (z4 V c) := by
  show (cfg4.win 6).cut (grid4.coords t) ((dat4 V c).after 6 t) = _
  rw [after4_6, pay4_eq]
  obtain ⟨e0, e1, e2, e3, e4, e5, e6, e7, e8, e9, e10, e11⟩ := idx_facts4 t
  funext j
  obtain ⟨r, q, rfl⟩ : ∃ (r : Fin 2000) (q : Fin 256), j = ix2 r q := ⟨j 0, j 1, eq_ix2 j⟩
  have hN : cfg4.N = 25 := N_4
  have hr : t.val * 2000 + r.val < 50000 := by have := t.isLt; have := r.isLt; omega
  refine (blk4_at V c t r q hr).trans ?_
  show z4 V c (ix2 ⟨t.val * 2000 + r.val, hr⟩ q) = z4 V c (((cfg4.win 6).blk t).view.emb (ix2 r q))
  refine congrArg _ (funext fun a => Fin.ext ?_)
  match a with
  | ⟨0, _⟩ => show t.val * 2000 + r.val = win4_6.index t (0 : Fin 2) * 2000 + 1 * r.val; omega
  | ⟨1, _⟩ => show q.val = win4_6.index t (1 : Fin 2) * 256 + 1 * q.val; omega

/-- An entry of the array is in point t's block iff each coordinate is in the block's range on its axis. -/
theorem mem_blk4_6 (t : Fin cfg4.N) (i : S50000x256.Idx) :
    i ∈ ((cfg4.win 6).blk t).view.set ↔ ∀ a : Fin 2, win4_6.index t a * S2000x256.size a ≤ (i a).val ∧ (i a).val < win4_6.index t a * S2000x256.size a + S2000x256.size a := by
  show i ∈ ((View.whole main_v82_0).slice (win4_6.rect t)).set ↔ _
  rw [View.set_slice_whole, Rect.mem_set_unit]
  exact Iff.rfl

/-- Every entry is in some point's block: row r is in the block of point r / 2000. -/
theorem cover4_6 (i : S50000x256.Idx) : ∃ t : Fin cfg4.N, (cfg4.win 6).flush t = true ∧ i ∈ ((cfg4.win 6).blk t).view.set := by
  have hi0 : (i 0).val < 50000 := (i 0).isLt
  have hi1 : (i 1).val < 256 := (i 1).isLt
  have hN : cfg4.N = 25 := N_4
  refine ⟨⟨(i 0).val / 2000, by rw [hN]; omega⟩, flush4_6 _, ?_⟩
  obtain ⟨e0, e1, e2, e3, e4, e5, e6, e7, e8, e9, e10, e11⟩ := idx_facts4 ⟨(i 0).val / 2000, by rw [hN]; omega⟩
  rw [mem_blk4_6]
  intro a
  match a with
  | ⟨0, _⟩ => show win4_6.index _ (0 : Fin 2) * 2000 ≤ (i 0).val ∧ (i 0).val < win4_6.index _ (0 : Fin 2) * 2000 + 2000; rw [e10]; show (i 0).val / 2000 * 2000 ≤ (i 0).val ∧ (i 0).val < (i 0).val / 2000 * 2000 + 2000; omega
  | ⟨1, _⟩ => show win4_6.index _ (1 : Fin 2) * 256 ≤ (i 1).val ∧ (i 1).val < win4_6.index _ (1 : Fin 2) * 256 + 256; rw [e11]; omega

/-- The first output array after the region is the pre-norm activations of the arrays the region finds. -/
theorem final4_6 (V : (c : Dev nD) → (b : Ref sig .tc) → Buf (Elt Ideal) ((c : Thread nD τ).loc b)) (c : Dev nD) :
    ((dat4 (F := Ideal) V c).arrAt 6 cfg4.N : Cert.Spec.Arr) = z4 V c :=
  (dat4 (F := Ideal) V c).arrAt_eq_of_cover 6 _ (fun t _ => flushed4_6_eq V c t) cover4_6

end Cert.KernelIdeal.Hand

end
-- ==== Proof.KI.ValR4s.lean ====
/-
  The two statistics arrays of region 4 at the ideal instance. The kernel keeps two running rows across its 25 grid
  points: zeroed at the first point, and at every point increased by the column sums, respectively the column sums
  of squares, of the block of 2000 result rows computed there; they are written back once, after the last point.
  So after point n they hold the sums over the first 2000 (n + 1) rows, and what is written back is the column sums
  and the column sums of squares over all 50000 rows of the array whose blocks are the blocks of results.
-/
import proofs.«130186_j80642305950442_1_alg».proof.Proof.KI.R4
import proofs.«130186_j80642305950442_1_alg».proof.Proof.KI.ValR4Pay
import proofs.«130186_j80642305950442_1_alg».proof.Proof.KI.ValR4z
import proofs.«130186_j80642305950442_1_alg».proof.Proof.Math.Blocks
import proofs.«130186_j80642305950442_1_alg».proof.Proof.Math.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Tactic
open Idealize.ShloMosaic.Pipeline (Dat)
open Idealize.ShloMosaic.ValueIdx

variable {F : FTy → Type} [FloatOps F]

/-! ## What the body leaves in the two running rows -/

/-- At a later point the running column sums end at the body's sum of what they held and the block's column sums. -/
theorem out4_B_7_eq (c : Dev nD) (i : grid4.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : ¬cond4_0 i) (x0 : Vec F S2000x256 .f32) (x1 : Vec F S2000x256 .f32) (x2 : Vec F S256x256 .f32) (x3 : Vec F S256 .f32) (x4 : Vec F S256x256 .f32) (x5 : Vec F S256 .f32) (xo7 xo8 : Vec F S256 .f32) :
    out4_B_7 c i a1 h1 a2 h2 a3 h3 a4 h4 a5 h5 a6 h6 a7 h7 a8 h8 a9 h9 hc x0 x1 x2 x3 x4 x5 xo7 xo8 = k4_pay5 x0 x1 x2 x3 x4 x5 xo7 := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz4_1]
  simp only [View.readAt_eq_ld, h1.read_unread, h2.read_unread, h3.read_unread, h4.read_unread, h5.read_unread, h6.read_unread, h8.read_unread, h9.read_unread,
    View.ld_unit_zero (S := S2000x256) hz4_2, View.ld_unit_zero (S := S256x256) hz4_2, View.ld_unit_zero (S := S256) hz4_1]

/-- At a later point the running column sums of squares likewise, of the block of results. -/
theorem out4_B_8_eq (c : Dev nD) (i : grid4.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : ¬cond4_0 i) (x0 : Vec F S2000x256 .f32) (x1 : Vec F S2000x256 .f32) (x2 : Vec F S256x256 .f32) (x3 : Vec F S256 .f32) (x4 : Vec F S256x256 .f32) (x5 : Vec F S256 .f32) (xo7 xo8 : Vec F S256 .f32) :
    out4_B_8 c i a1 h1 a2 h2 a3 h3 a4 h4 a5 h5 a6 h6 a7 h7 a8 h8 a9 h9 hc x0 x1 x2 x3 x4 x5 xo7 xo8 = k4_pay1 (k4_pay4 x0 x1 x2 x3 x4 x5) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz4_1]
  simp only [View.readAt_eq_ld, h1.read_unread, h2.read_unread, h3.read_unread, h4.read_unread, h5.read_unread, h6.read_unread, h8.read_unread, h9.read_unread,
    View.ld_unit_zero (S := S2000x256) hz4_2, View.ld_unit_zero (S := S256x256) hz4_2, View.ld_unit_zero (S := S256) hz4_1]

/-- At the first point the running column sums are reset to zeros first. -/
theorem out4_A_7_eq (c : Dev nD) (i : grid4.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : cond4_0 i) (x0 : Vec F S2000x256 .f32) (x1 : Vec F S2000x256 .f32) (x2 : Vec F S256x256 .f32) (x3 : Vec F S256 .f32) (x4 : Vec F S256x256 .f32) (x5 : Vec F S256 .f32) :
    out4_A_7 c i a1 h1 a2 h2 a3 h3 a4 h4 a5 h5 a6 h6 a7 h7 a8 h8 a9 h9 hc x0 x1 x2 x3 x4 x5 = k4_pay5 x0 x1 x2 x3 x4 x5 k4_pay2 := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S256) hz4_1, View.readCov_unit_zero (S := S256) _ hz4_1]
  simp only [View.readAt_eq_ld, h1.read_unread, h2.read_unread, h3.read_unread, h4.read_unread, h5.read_unread, h6.read_unread, h8.read_unread, h9.read_unread,
    View.ld_unit_zero (S := S2000x256) hz4_2, View.ld_unit_zero (S := S256x256) hz4_2, View.ld_unit_zero (S := S256) hz4_1]

/-- At the first point the running column sums of squares are reset to zeros first. -/
theorem out4_A_8_eq (c : Dev nD) (i : grid4.Coords) (a1 : Memref sig .tc .vmem S2000x256 .f32) (h1 : a1.IsWhole) (a2 : Memref sig .tc .vmem S2000x256 .f32) (h2 : a2.IsWhole) (a3 : Memref sig .tc .vmem S256x256 .f32) (h3 : a3.IsWhole) (a4 : Memref sig .tc .vmem S256 .f32) (h4 : a4.IsWhole) (a5 : Memref sig .tc .vmem S256x256 .f32) (h5 : a5.IsWhole) (a6 : Memref sig .tc .vmem S256 .f32) (h6 : a6.IsWhole) (a7 : Memref sig .tc .vmem S2000x256 .f32) (h7 : a7.IsWhole) (a8 : Memref sig .tc .vmem S256 .f32) (h8 : a8.IsWhole) (a9 : Memref sig .tc .vmem S256 .f32) (h9 : a9.IsWhole) (hc : cond4_0 i) (x0 : Vec F S2000x256 .f32) (x1 : Vec F S2000x256 .f32) (x2 : Vec F S256x256 .f32) (x3 : Vec F S256 .f32) (x4 : Vec F S256x256 .f32) (x5 : Vec F S256 .f32) :
    out4_A_8 c i a1 h1 a2 h2 a3 h3 a4 h4 a5 h5 a6 h6 a7 h7 a8 h8 a9 h9 hc x0 x1 x2 x3 x4 x5 = k4_pay1 (k4_pay4 x0 x1 x2 x3 x4 x5) k4_pay3 := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S256) hz4_1, View.readCov_unit_zero (S := S256) _ hz4_1]
  simp only [View.readAt_eq_ld, h1.read_unread, h2.read_unread, h3.read_unread, h4.read_unread, h5.read_unread, h6.read_unread, h8.read_unread, h9.read_unread,
    View.ld_unit_zero (S := S2000x256) hz4_2, View.ld_unit_zero (S := S256x256) hz4_2, View.ld_unit_zero (S := S256) hz4_1]

/-! ## The running rows after each point, and the arrays after the region

  Stated for any array Z whose rows 2000 t … 2000 t + 1999 are the block of results at point t: after point n
  the running column sums hold, at column q, the sum of Z over the rows of the first n + 1 blocks, and the running
  column sums of squares the sum of the squares; the one write-back, after the last point, leaves the column sums
  of Z over all 50000 rows. -/

section Acc
variable (V : (c : Dev nD) → (b : Ref sig .tc) → Buf (Elt Ideal) ((c : Thread nD τ).loc b)) (c : Dev nD)

/-- The block of results at point t: the body's stored value of the six input blocks there. -/
abbrev blk4 (t : Fin cfg4.N) : Vec Ideal S2000x256 .f32 :=
  k4_pay4 (F := Ideal) (iblk4 V c 0 t) (iblk4 V c 1 t) (iblk4 V c 2 t) (iblk4 V c 3 t) (iblk4 V c 4 t) (iblk4 V c 5 t)

/-- Z restricted to the rows of block t is the block of results at point t. -/
def IsBlocks4 (Z : Cert.Spec.Arr) : Prop :=
  ∀ (t : Fin cfg4.N) (r : Fin 2000) (q : Fin 256) (h : t.val * 2000 + r.val < 50000), blk4 V c t (ix2 r q) = Z (ix2 ⟨t.val * 2000 + r.val, h⟩ q)

variable {V c}

/-- The column sum of the block of results at point t is the sum of Z over block t's rows. -/
theorem blockSum4_7 {Z : Cert.Spec.Arr} (hZ : IsBlocks4 V c Z) (t : Fin cfg4.N) (q : Fin 256) :
    (∑ r : Fin 2000, blk4 V c t (ix2 r q)) = Cert.Spec.blockSum (fun p => Z (ix2 p q)) t.val := by
  have hN : cfg4.N = 25 := N_4
  have ht : t.val < 25 := lt_of_lt_of_eq t.isLt hN
  unfold Cert.Spec.blockSum
  refine Finset.sum_congr rfl fun r _ => ?_
  have hr := r.isLt
  rw [dif_pos (by omega : t.val * 2000 + r.val < 50000)]
  exact hZ t r q _

/-- The column sum of squares likewise. -/
theorem blockSum4_8 {Z : Cert.Spec.Arr} (hZ : IsBlocks4 V c Z) (t : Fin cfg4.N) (q : Fin 256) :
    (∑ r : Fin 2000, blk4 V c t (ix2 r q) * blk4 V c t (ix2 r q))
      = Cert.Spec.blockSum (fun p => Z (ix2 p q) * Z (ix2 p q)) t.val := by
  have hN : cfg4.N = 25 := N_4
  have ht : t.val < 25 := lt_of_lt_of_eq t.isLt hN
  unfold Cert.Spec.blockSum
  refine Finset.sum_congr rfl fun r _ => ?_
  have hr := r.isLt
  rw [dif_pos (by omega : t.val * 2000 + r.val < 50000), hZ t r q _]

/-- After point n the running column sums hold the sums over the first n + 1 blocks: by induction on the point. -/
theorem acc4_7 {Z : Cert.Spec.Arr} (hZ : IsBlocks4 V c Z) (q : Fin 256) : ∀ (n : ℕ) (hn : n < cfg4.N),
    (outsAt4 (F := Ideal) V c n hn).2.1 (ix1 q) = ∑ t ∈ Finset.range (n + 1), Cert.Spec.blockSum (fun p => Z (ix2 p q)) t
  | 0, hn => by
    refine (congrFun (outsAt4_A_7 V c ⟨0, hn⟩ rfl) (ix1 q)).trans ?_
    rw [out4_A_7_eq, pay4_5_apply, pay4_2_apply, zero_add, Finset.sum_range_one]
    exact blockSum4_7 hZ ⟨0, hn⟩ q
  | n + 1, hn => by
    have hN : cfg4.N = 25 := N_4
    have hB : ¬(⟨n + 1, hn⟩ : Fin cfg4.N).val % 25 = 0 := by dsimp only; omega
    refine (congrFun (outsAt4_B_7 V c ⟨n + 1, hn⟩ hB) (ix1 q)).trans ?_
    rw [out4_B_7_eq, pay4_5_apply, Finset.sum_range_succ]
    exact congrArg₂ (· + ·) (acc4_7 hZ q n _) (blockSum4_7 hZ ⟨n + 1, hn⟩ q)

/-- After point n the running column sums of squares hold the sums of squares over the first n + 1 blocks. -/
theorem acc4_8 {Z : Cert.Spec.Arr} (hZ : IsBlocks4 V c Z) (q : Fin 256) : ∀ (n : ℕ) (hn : n < cfg4.N),
    (outsAt4 (F := Ideal) V c n hn).2.2 (ix1 q)
      = ∑ t ∈ Finset.range (n + 1), Cert.Spec.blockSum (fun p => Z (ix2 p q) * Z (ix2 p q)) t
  | 0, hn => by
    refine (congrFun (outsAt4_A_8 V c ⟨0, hn⟩ rfl) (ix1 q)).trans ?_
    rw [out4_A_8_eq, pay4_1_apply, pay4_3_apply, zero_add, Finset.sum_range_one]
    exact blockSum4_8 hZ ⟨0, hn⟩ q
  | n + 1, hn => by
    have hN : cfg4.N = 25 := N_4
    have hB : ¬(⟨n + 1, hn⟩ : Fin cfg4.N).val % 25 = 0 := by dsimp only; omega
    refine (congrFun (outsAt4_B_8 V c ⟨n + 1, hn⟩ hB) (ix1 q)).trans ?_
    rw [out4_B_8_eq, pay4_1_apply, Finset.sum_range_succ]
    exact congrArg₂ (· + ·) (acc4_8 hZ q n _) (blockSum4_8 hZ ⟨n + 1, hn⟩ q)

/-- All 25 blocks together are all the rows. -/
theorem sum_blockSum_all4 (f : Fin 50000 → EReal) : (∑ t ∈ Finset.range 25, Cert.Spec.blockSum f t) = ∑ p : Fin 50000, f p :=
  Cert.Spec.sum_all_blocks f

/-- After the last point the running column sums are the column sums of Z. -/
theorem last4_7 {Z : Cert.Spec.Arr} (hZ : IsBlocks4 V c Z) (t : Fin cfg4.N) (h24 : t.val = 24) (y : S256.Idx)
    (i : Cert.Spec.SR.Idx) (hi : (i 0).val = (y 0).val) :
    (outsAt4 (F := Ideal) V c t.val t.isLt).2.1 y = Cert.Spec.colSum Z i := by
  obtain ⟨q, rfl⟩ : ∃ q : Fin 256, y = ix1 q := ⟨y 0, eq_ix1 y⟩
  have hq : i 0 = q := Fin.ext hi
  obtain ⟨n, hn⟩ := t
  dsimp only at h24
  subst h24
  rw [acc4_7 hZ q 24 hn, sum_blockSum_all4]
  unfold Cert.Spec.colSum
  rw [hq]

/-- After the last point the running column sums of squares are the column sums of squares of Z. -/
theorem last4_8 {Z : Cert.Spec.Arr} (hZ : IsBlocks4 V c Z) (t : Fin cfg4.N) (h24 : t.val = 24) (y : S256.Idx)
    (i : Cert.Spec.SR.Idx) (hi : (i 0).val = (y 0).val) :
    (outsAt4 (F := Ideal) V c t.val t.isLt).2.2 y = Cert.Spec.colSumSq Z i := by
  obtain ⟨q, rfl⟩ : ∃ q : Fin 256, y = ix1 q := ⟨y 0, eq_ix1 y⟩
  have hq : i 0 = q := Fin.ext hi
  obtain ⟨n, hn⟩ := t
  dsimp only at h24
  subst h24
  rw [acc4_8 hZ q 24 hn, sum_blockSum_all4]
  unfold Cert.Spec.colSumSq
  rw [hq]

/-- The two running rows' windows always sit at their only block. -/
theorem idx_facts4_78 : ∀ t : Fin cfg4.N, win4_7.index t (0 : Fin 1) = 0 ∧ win4_8.index t (0 : Fin 1) = 0 :=
  (by decide +kernel : ∀ t : Fin grid4.N, _)

/-- What the last point writes back of the running column sums is the column sums of Z, whole. -/
theorem flushed4_7_eq {Z : Cert.Spec.Arr} (hZ : IsBlocks4 V c Z) (t : Fin cfg4.N) (hf : (cfg4.win 7).flush t = true) :
    (dat4 (F := Ideal) V c).flushed 7 t = ((cfg4.win 7).blk t).view.read (Elt Ideal) (Cert.Spec.colSum Z) := by
  have hN : cfg4.N = 25 := N_4
  have h24 : t.val = 24 := by have := (flush4_7 t).mp hf; have := t.isLt; omega
  show (cfg4.win 7).cut (grid4.coords t) ((dat4 V c).after 7 t) = _
  rw [after4_7]
  obtain ⟨e7, e8⟩ := idx_facts4_78 t
  generalize hG : Cert.Spec.colSum Z = G
  funext j
  show (outsAt4 (F := Ideal) V c t.val t.isLt).2.1 j = G (((cfg4.win 7).blk t).view.emb j)
  rw [← hG]
  refine last4_7 hZ t h24 j (((cfg4.win 7).blk t).view.emb j) ?_
  show win4_7.index t (0 : Fin 1) * 256 + 1 * (j 0).val = (j 0).val
  omega

theorem flushed4_8_eq {Z : Cert.Spec.Arr} (hZ : IsBlocks4 V c Z) (t : Fin cfg4.N) (hf : (cfg4.win 8).flush t = true) :
    (dat4 (F := Ideal) V c).flushed 8 t = ((cfg4.win 8).blk t).view.read (Elt Ideal) (Cert.Spec.colSumSq Z) := by
  have hN : cfg4.N = 25 := N_4
  have h24 : t.val = 24 := by have := (flush4_8 t).mp hf; have := t.isLt; omega
  show (cfg4.win 8).cut (grid4.coords t) ((dat4 V c).after 8 t) = _
  rw [after4_8]
  obtain ⟨e7, e8⟩ := idx_facts4_78 t
  generalize hG : Cert.Spec.colSumSq Z = G
  funext j
  show (outsAt4 (F := Ideal) V c t.val t.isLt).2.2 j = G (((cfg4.win 8).blk t).view.emb j)
  rw [← hG]
  refine last4_8 hZ t h24 j (((cfg4.win 8).blk t).view.emb j) ?_
  show win4_8.index t (0 : Fin 1) * 256 + 1 * (j 0).val = (j 0).val
  omega

/-- An entry of a row array is in point t's block iff its coordinate is in the block's range. -/
theorem mem_blk4_7 (t : Fin cfg4.N) (i : S256.Idx) :
    i ∈ ((cfg4.win 7).blk t).view.set ↔ ∀ a : Fin 1, win4_7.index t a * S256.size a ≤ (i a).val ∧ (i a).val < win4_7.index t a * S256.size a + S256.size a := by
  show i ∈ ((View.whole main_v82_1).slice (win4_7.rect t)).set ↔ _
  rw [View.set_slice_whole, Rect.mem_set_unit]
  exact Iff.rfl
theorem mem_blk4_8 (t : Fin cfg4.N) (i : S256.Idx) :
    i ∈ ((cfg4.win 8).blk t).view.set ↔ ∀ a : Fin 1, win4_8.index t a * S256.size a ≤ (i a).val ∧ (i a).val < win4_8.index t a * S256.size a + S256.size a := by
  show i ∈ ((View.whole main_v82_2).slice (win4_8.rect t)).set ↔ _
  rw [View.set_slice_whole, Rect.mem_set_unit]
  exact Iff.rfl

/-- The last point's block is the whole row array. -/
theorem cover4_7 (i : S256.Idx) : ∃ t : Fin cfg4.N, (cfg4.win 7).flush t = true ∧ i ∈ ((cfg4.win 7).blk t).view.set := by
  have hi0 : (i 0).val < 256 := (i 0).isLt
  have hN : cfg4.N = 25 := N_4
  refine ⟨⟨24, by rw [hN]; omega⟩, (flush4_7 _).mpr rfl, ?_⟩
  obtain ⟨e7, e8⟩ := idx_facts4_78 ⟨24, by rw [hN]; omega⟩
  rw [mem_blk4_7]
  intro a
  match a with
  | ⟨0, _⟩ => show win4_7.index _ (0 : Fin 1) * 256 ≤ (i 0).val ∧ (i 0).val < win4_7.index _ (0 : Fin 1) * 256 + 256; rw [e7]; omega
theorem cover4_8 (i : S256.Idx) : ∃ t : Fin cfg4.N, (cfg4.win 8).flush t = true ∧ i ∈ ((cfg4.win 8).blk t).view.set := by
  have hi0 : (i 0).val < 256 := (i 0).isLt
  have hN : cfg4.N = 25 := N_4
  refine ⟨⟨24, by rw [hN]; omega⟩, (flush4_8 _).mpr rfl, ?_⟩
  obtain ⟨e7, e8⟩ := idx_facts4_78 ⟨24, by rw [hN]; omega⟩
  rw [mem_blk4_8]
  intro a
  match a with
  | ⟨0, _⟩ => show win4_8.index _ (0 : Fin 1) * 256 ≤ (i 0).val ∧ (i 0).val < win4_8.index _ (0 : Fin 1) * 256 + 256; rw [e8]; omega

/-- The column-sum array after the region is the column sums of Z. -/
theorem arr4_7 {Z : Cert.Spec.Arr} (hZ : IsBlocks4 V c Z) :
    ((dat4 (F := Ideal) V c).arrAt 7 cfg4.N : Cert.Spec.Row) = Cert.Spec.colSum Z :=
  (dat4 (F := Ideal) V c).arrAt_eq_of_cover 7 _ (fun t hf => flushed4_7_eq hZ t hf) cover4_7

/-- The column-sum-of-squares array after the region is the column sums of squares of Z. -/
theorem arr4_8 {Z : Cert.Spec.Arr} (hZ : IsBlocks4 V c Z) :
    ((dat4 (F := Ideal) V c).arrAt 8 cfg4.N : Cert.Spec.Row) = Cert.Spec.colSumSq Z :=
  (dat4 (F := Ideal) V c).arrAt_eq_of_cover 8 _ (fun t hf => flushed4_8_eq hZ t hf) cover4_8

end Acc

/-! ## The two statistics arrays of region 4 -/

/-- The rows of block t of the dense maps' result are the block of results at point t. -/
theorem isBlocks4_z4 (V : (c : Dev nD) → (b : Ref sig .tc) → Buf (Elt Ideal) ((c : Thread nD τ).loc b)) (c : Dev nD) :
    IsBlocks4 V c (z4 V c) := fun t r q h => blk4_at V c t r q h

/-- The column-sum array after the region is the column sums of the dense maps' result. -/
theorem final4_7 (V : (c : Dev nD) → (b : Ref sig .tc) → Buf (Elt Ideal) ((c : Thread nD τ).loc b)) (c : Dev nD) :
    ((dat4 (F := Ideal) V c).arrAt 7 cfg4.N : Cert.Spec.Row) = Cert.Spec.colSum (z4 V c) :=
  arr4_7 (isBlocks4_z4 V c)

/-- The column-sum-of-squares array after the region is the column sums of squares of the dense maps' result. -/
theorem final4_8 (V : (c : Dev nD) → (b : Ref sig .tc) → Buf (Elt Ideal) ((c : Thread nD τ).loc b)) (c : Dev nD) :
    ((dat4 (F := Ideal) V c).arrAt 8 cfg4.N : Cert.Spec.Row) = Cert.Spec.colSumSq (z4 V c) :=
  arr4_8 (isBlocks4_z4 V c)

end Cert.KernelIdeal.Hand

end
-- ==== Proof.KI.ValR4.lean ====
/-
  The three arrays region 4 (the third dense-and-statistics kernel) writes, at the ideal instance. The first
  holds, row by row, the two dense maps with their clamps applied to the region's input rows plus the aggregated
  neighbours' rows; the second holds that array's column sums over the 50000 rows; the third the column sums of
  its squares.
-/
import proofs.«130186_j80642305950442_1_alg».proof.Proof.KI.ValR4Pay
import proofs.«130186_j80642305950442_1_alg».proof.Proof.KI.ValR4z
import proofs.«130186_j80642305950442_1_alg».proof.Proof.KI.ValR4s
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.Math.HostStatsK.lean ====
/-
  The kernel side's host statistics read into the specification: a column sum divided by the broadcast literal 50000
  is the column mean, and the mean of squares minus the squared mean, from the column sums of z and of z squared, is
  the one-pass variance.
-/
import proofs.«130186_j80642305950442_1_alg».proof.Proof.KI.Glue
import proofs.«130186_j80642305950442_1_alg».proof.Proof.Math.Spec
import proofs.«130186_j80642305950442_1_alg».proof.Proof.LibHostLayout
import Idealize.ShloMosaic.PureOps.Ideal
import Idealize.ShloMosaic.Lib.ValueIdx

noncomputable section

namespace Cert.KernelIdeal.Hand

open Idealize.ShloMosaic Idealize.ShloMosaic.ValueIdx
open Cert.KernelIdeal Cert.KernelIdeal.Gen

/-- A column statistic divided by the number of rows, at an entry. -/
theorem meanH_apply (s : (⟨S256, .f32⟩ : BufTy).Contents (Elt Ideal)) (j : S256.Idx) :
    meanH (F := Ideal) s j = Ideal.div (s j) Cert.Spec.nW := by
  unfold meanH
  show Ideal.div (s j) (broadcastInDim S256 ![] bcast_S_S256 (constant (F := Ideal) S_ .f32 0x47435000#32) j) = _
  rw [Cert.HostLayout.bcast_scalar_apply]
  rfl

/-- The column sums divided by the number of rows are the column means. -/
theorem meanH_colSum (z : Cert.Spec.Arr) :
    meanH (F := Ideal) (Cert.Spec.colSum z : (⟨S256, .f32⟩ : BufTy).Contents (Elt Ideal)) = Cert.Spec.mean z := by
  funext j
  rw [meanH_apply]
  rfl

/-- The mean of squares minus the squared mean is the one-pass variance. -/
theorem varH_colSums (z : Cert.Spec.Arr) :
    varH (F := Ideal) (Cert.Spec.colSum z : (⟨S256, .f32⟩ : BufTy).Contents (Elt Ideal))
        (Cert.Spec.colSumSq z : (⟨S256, .f32⟩ : BufTy).Contents (Elt Ideal)) = Cert.Spec.varOne z := by
  funext j
  unfold varH
  rw [subf_apply, mulf_apply, meanH_apply, meanH_apply]
  rfl

end Cert.KernelIdeal.Hand

end
-- ==== Proof.KI.Value.lean ====
/-
  What the kernel program leaves in its result buffer, as one function of the launch contents of its arguments.
  Walking the segment boundaries: a host stretch computes the aggregation, the parameter slices or the column
  statistics from buffers earlier segments left; the dense region leaves the clamped dense maps of every row and
  their column sums; the normalising region leaves the layer's output; every other buffer that matters is kept.
  Three layers, each with the ONE-PASS variance, then the three outputs pooled per graph and concatenated.
-/
import proofs.«130186_j80642305950442_1_alg».proof.Proof.KI.Run
import proofs.«130186_j80642305950442_1_alg».proof.Proof.KI.Glue
import proofs.«130186_j80642305950442_1_alg».proof.Proof.KI.Net
import proofs.«130186_j80642305950442_1_alg».proof.Proof.KI.ValA1
import proofs.«130186_j80642305950442_1_alg».proof.Proof.KI.ValA3
import proofs.«130186_j80642305950442_1_alg».proof.Proof.KI.ValA5
import proofs.«130186_j80642305950442_1_alg».proof.Proof.KI.ValR0
import proofs.«130186_j80642305950442_1_alg».proof.Proof.KI.ValR2
import proofs.«130186_j80642305950442_1_alg».proof.Proof.KI.ValR4
import proofs.«130186_j80642305950442_1_alg».proof.Proof.Math.HostStatsK

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen
open Cert.Spec (Arr Wt Row)

variable (m : (ℓ : Loc nD τ sig) → Buf (Elt Ideal) ℓ) (ρ : Dev nD → PrngReg) (c : Dev nD)

/-! ## Arguments and index vectors at the boundaries where they are read -/
theorem A0_main_arg0 : W0 m ρ c (Proc.devRef .tc main_arg0) = m ((c : Thread nD τ).loc main_arg0) := rfl
theorem A0_main_arg1 : W0 m ρ c (Proc.devRef .tc main_arg1) = m ((c : Thread nD τ).loc main_arg1) := rfl
theorem A0_main_arg3 : W0 m ρ c (Proc.devRef .tc main_arg3) = m ((c : Thread nD τ).loc main_arg3) := rfl
theorem A0_main_arg4 : W0 m ρ c (Proc.devRef .tc main_arg4) = m ((c : Thread nD τ).loc main_arg4) := rfl
theorem A0_main_arg5 : W0 m ρ c (Proc.devRef .tc main_arg5) = m ((c : Thread nD τ).loc main_arg5) := rfl
theorem A0_main_arg6 : W0 m ρ c (Proc.devRef .tc main_arg6) = m ((c : Thread nD τ).loc main_arg6) := rfl
theorem A2_main_arg7 : W2 m ρ c (Proc.devRef .tc main_arg7) = m ((c : Thread nD τ).loc main_arg7) := ((W2_of_ne m ρ c main_arg7 (by decide)).trans (W1_keep m ρ c main_arg7 (by decide))).trans rfl
theorem A2_main_arg8 : W2 m ρ c (Proc.devRef .tc main_arg8) = m ((c : Thread nD τ).loc main_arg8) := ((W2_of_ne m ρ c main_arg8 (by decide)).trans (W1_keep m ρ c main_arg8 (by decide))).trans rfl
theorem A4_main_arg3 : W4 m ρ c (Proc.devRef .tc main_arg3) = m ((c : Thread nD τ).loc main_arg3) := ((W4_of_ne m ρ c main_arg3 (by decide)).trans ((W3_keep m ρ c main_arg3 (by decide)).trans ((W2_of_ne m ρ c main_arg3 (by decide)).trans (W1_keep m ρ c main_arg3 (by decide))))).trans rfl
theorem A4_main_arg4 : W4 m ρ c (Proc.devRef .tc main_arg4) = m ((c : Thread nD τ).loc main_arg4) := ((W4_of_ne m ρ c main_arg4 (by decide)).trans ((W3_keep m ρ c main_arg4 (by decide)).trans ((W2_of_ne m ρ c main_arg4 (by decide)).trans (W1_keep m ρ c main_arg4 (by decide))))).trans rfl
theorem A4_main_arg5 : W4 m ρ c (Proc.devRef .tc main_arg5) = m ((c : Thread nD τ).loc main_arg5) := ((W4_of_ne m ρ c main_arg5 (by decide)).trans ((W3_keep m ρ c main_arg5 (by decide)).trans ((W2_of_ne m ρ c main_arg5 (by decide)).trans (W1_keep m ρ c main_arg5 (by decide))))).trans rfl
theorem A4_main_arg6 : W4 m ρ c (Proc.devRef .tc main_arg6) = m ((c : Thread nD τ).loc main_arg6) := ((W4_of_ne m ρ c main_arg6 (by decide)).trans ((W3_keep m ρ c main_arg6 (by decide)).trans ((W2_of_ne m ρ c main_arg6 (by decide)).trans (W1_keep m ρ c main_arg6 (by decide))))).trans rfl
theorem A6_main_arg7 : W6 m ρ c (Proc.devRef .tc main_arg7) = m ((c : Thread nD τ).loc main_arg7) := ((W6_of_ne m ρ c main_arg7 (by decide)).trans ((W5_keep m ρ c main_arg7 (by decide)).trans ((W4_of_ne m ρ c main_arg7 (by decide)).trans ((W3_keep m ρ c main_arg7 (by decide)).trans ((W2_of_ne m ρ c main_arg7 (by decide)).trans (W1_keep m ρ c main_arg7 (by decide))))))).trans rfl
theorem A6_main_arg8 : W6 m ρ c (Proc.devRef .tc main_arg8) = m ((c : Thread nD τ).loc main_arg8) := ((W6_of_ne m ρ c main_arg8 (by decide)).trans ((W5_keep m ρ c main_arg8 (by decide)).trans ((W4_of_ne m ρ c main_arg8 (by decide)).trans ((W3_keep m ρ c main_arg8 (by decide)).trans ((W2_of_ne m ρ c main_arg8 (by decide)).trans (W1_keep m ρ c main_arg8 (by decide))))))).trans rfl
theorem A8_main_arg3 : W8 m ρ c (Proc.devRef .tc main_arg3) = m ((c : Thread nD τ).loc main_arg3) := ((W8_of_ne m ρ c main_arg3 (by decide)).trans ((W7_keep m ρ c main_arg3 (by decide)).trans ((W6_of_ne m ρ c main_arg3 (by decide)).trans ((W5_keep m ρ c main_arg3 (by decide)).trans ((W4_of_ne m ρ c main_arg3 (by decide)).trans ((W3_keep m ρ c main_arg3 (by decide)).trans ((W2_of_ne m ρ c main_arg3 (by decide)).trans (W1_keep m ρ c main_arg3 (by decide))))))))).trans rfl
theorem A8_main_arg4 : W8 m ρ c (Proc.devRef .tc main_arg4) = m ((c : Thread nD τ).loc main_arg4) := ((W8_of_ne m ρ c main_arg4 (by decide)).trans ((W7_keep m ρ c main_arg4 (by decide)).trans ((W6_of_ne m ρ c main_arg4 (by decide)).trans ((W5_keep m ρ c main_arg4 (by decide)).trans ((W4_of_ne m ρ c main_arg4 (by decide)).trans ((W3_keep m ρ c main_arg4 (by decide)).trans ((W2_of_ne m ρ c main_arg4 (by decide)).trans (W1_keep m ρ c main_arg4 (by decide))))))))).trans rfl
theorem A8_main_arg5 : W8 m ρ c (Proc.devRef .tc main_arg5) = m ((c : Thread nD τ).loc main_arg5) := ((W8_of_ne m ρ c main_arg5 (by decide)).trans ((W7_keep m ρ c main_arg5 (by decide)).trans ((W6_of_ne m ρ c main_arg5 (by decide)).trans ((W5_keep m ρ c main_arg5 (by decide)).trans ((W4_of_ne m ρ c main_arg5 (by decide)).trans ((W3_keep m ρ c main_arg5 (by decide)).trans ((W2_of_ne m ρ c main_arg5 (by decide)).trans (W1_keep m ρ c main_arg5 (by decide))))))))).trans rfl
theorem A8_main_arg6 : W8 m ρ c (Proc.devRef .tc main_arg6) = m ((c : Thread nD τ).loc main_arg6) := ((W8_of_ne m ρ c main_arg6 (by decide)).trans ((W7_keep m ρ c main_arg6 (by decide)).trans ((W6_of_ne m ρ c main_arg6 (by decide)).trans ((W5_keep m ρ c main_arg6 (by decide)).trans ((W4_of_ne m ρ c main_arg6 (by decide)).trans ((W3_keep m ρ c main_arg6 (by decide)).trans ((W2_of_ne m ρ c main_arg6 (by decide)).trans (W1_keep m ρ c main_arg6 (by decide))))))))).trans rfl
theorem A10_main_arg7 : W10 m ρ c (Proc.devRef .tc main_arg7) = m ((c : Thread nD τ).loc main_arg7) := ((W10_of_ne m ρ c main_arg7 (by decide)).trans ((W9_keep m ρ c main_arg7 (by decide)).trans ((W8_of_ne m ρ c main_arg7 (by decide)).trans ((W7_keep m ρ c main_arg7 (by decide)).trans ((W6_of_ne m ρ c main_arg7 (by decide)).trans ((W5_keep m ρ c main_arg7 (by decide)).trans ((W4_of_ne m ρ c main_arg7 (by decide)).trans ((W3_keep m ρ c main_arg7 (by decide)).trans ((W2_of_ne m ρ c main_arg7 (by decide)).trans (W1_keep m ρ c main_arg7 (by decide))))))))))).trans rfl
theorem A10_main_arg8 : W10 m ρ c (Proc.devRef .tc main_arg8) = m ((c : Thread nD τ).loc main_arg8) := ((W10_of_ne m ρ c main_arg8 (by decide)).trans ((W9_keep m ρ c main_arg8 (by decide)).trans ((W8_of_ne m ρ c main_arg8 (by decide)).trans ((W7_keep m ρ c main_arg8 (by decide)).trans ((W6_of_ne m ρ c main_arg8 (by decide)).trans ((W5_keep m ρ c main_arg8 (by decide)).trans ((W4_of_ne m ρ c main_arg8 (by decide)).trans ((W3_keep m ρ c main_arg8 (by decide)).trans ((W2_of_ne m ρ c main_arg8 (by decide)).trans (W1_keep m ρ c main_arg8 (by decide))))))))))).trans rfl
theorem A12_main_arg2 : W12 m ρ c (Proc.devRef .tc main_arg2) = m ((c : Thread nD τ).loc main_arg2) := ((W12_of_ne m ρ c main_arg2 (by decide)).trans ((W11_keep m ρ c main_arg2 (by decide)).trans ((W10_of_ne m ρ c main_arg2 (by decide)).trans ((W9_keep m ρ c main_arg2 (by decide)).trans ((W8_of_ne m ρ c main_arg2 (by decide)).trans ((W7_keep m ρ c main_arg2 (by decide)).trans ((W6_of_ne m ρ c main_arg2 (by decide)).trans ((W5_keep m ρ c main_arg2 (by decide)).trans ((W4_of_ne m ρ c main_arg2 (by decide)).trans ((W3_keep m ρ c main_arg2 (by decide)).trans ((W2_of_ne m ρ c main_arg2 (by decide)).trans (W1_keep m ρ c main_arg2 (by decide))))))))))))).trans rfl
theorem A1_main_arg0 : W1 m ρ c (Proc.devRef .tc main_arg0) = m ((c : Thread nD τ).loc main_arg0) := (W1_keep m ρ c main_arg0 (by decide)).trans rfl
theorem S1_v1 : W1 m ρ c (Proc.devRef .tc main_v1) = sK m c := (g0_v1 (W0 m ρ c)).trans rfl
theorem S1_v3 : W1 m ρ c (Proc.devRef .tc main_v3) = dK m c := (g0_v3 (W0 m ρ c)).trans rfl
theorem S4_v1 : W4 m ρ c (Proc.devRef .tc main_v1) = sK m c := ((W4_of_ne m ρ c main_v1 (by decide)).trans ((W3_keep m ρ c main_v1 (by decide)).trans (W2_of_ne m ρ c main_v1 (by decide)))).trans (S1_v1 m ρ c)
theorem S4_v3 : W4 m ρ c (Proc.devRef .tc main_v3) = dK m c := ((W4_of_ne m ρ c main_v3 (by decide)).trans ((W3_keep m ρ c main_v3 (by decide)).trans (W2_of_ne m ρ c main_v3 (by decide)))).trans (S1_v3 m ρ c)
theorem S8_v1 : W8 m ρ c (Proc.devRef .tc main_v1) = sK m c := ((W8_of_ne m ρ c main_v1 (by decide)).trans ((W7_keep m ρ c main_v1 (by decide)).trans ((W6_of_ne m ρ c main_v1 (by decide)).trans ((W5_keep m ρ c main_v1 (by decide)).trans ((W4_of_ne m ρ c main_v1 (by decide)).trans ((W3_keep m ρ c main_v1 (by decide)).trans (W2_of_ne m ρ c main_v1 (by decide)))))))).trans (S1_v1 m ρ c)
theorem S8_v3 : W8 m ρ c (Proc.devRef .tc main_v3) = dK m c := ((W8_of_ne m ρ c main_v3 (by decide)).trans ((W7_keep m ρ c main_v3 (by decide)).trans ((W6_of_ne m ρ c main_v3 (by decide)).trans ((W5_keep m ρ c main_v3 (by decide)).trans ((W4_of_ne m ρ c main_v3 (by decide)).trans ((W3_keep m ρ c main_v3 (by decide)).trans (W2_of_ne m ρ c main_v3 (by decide)))))))).trans (S1_v3 m ρ c)

/-! ## Layer 1 -/

/-- The clamped dense maps of every row of layer 1's input plus its aggregation. -/
def zz1 : Arr := Cert.Spec.mlp (Cert.Spec.pre (aggK m c) (m ((c : Thread nD τ).loc main_arg0))) (wSl0 (m ((c : Thread nD τ).loc main_arg3))) (rSl0 (m ((c : Thread nD τ).loc main_arg4))) (wSl0 (m ((c : Thread nD τ).loc main_arg5))) (rSl0 (m ((c : Thread nD τ).loc main_arg6)))
theorem F1_h : W1 m ρ c (Proc.devRef .tc main_arg0) = (m ((c : Thread nD τ).loc main_arg0)) := A1_main_arg0 m ρ c
theorem F1_agg : W1 m ρ c (Proc.devRef .tc main_v13) = aggK m c (m ((c : Thread nD τ).loc main_arg0)) := (g0_v13 (W0 m ρ c)).trans rfl
theorem F1_w1 : W1 m ρ c (Proc.devRef .tc main_v15) = wSl0 (m ((c : Thread nD τ).loc main_arg3)) := (g0_v15 (W0 m ρ c)).trans rfl
theorem F1_b1 : W1 m ρ c (Proc.devRef .tc main_v17) = rSl0 (m ((c : Thread nD τ).loc main_arg4)) := (g0_v17 (W0 m ρ c)).trans rfl
theorem F1_w2 : W1 m ρ c (Proc.devRef .tc main_v19) = wSl0 (m ((c : Thread nD τ).loc main_arg5)) := (g0_v19 (W0 m ρ c)).trans rfl
theorem F1_b2 : W1 m ρ c (Proc.devRef .tc main_v21) = rSl0 (m ((c : Thread nD τ).loc main_arg6)) := (g0_v21 (W0 m ρ c)).trans rfl
/-- What the dense region is handed is layer 1's input, its aggregation and its parameters. -/
theorem zin1 : z0 (Vin0 m ρ) c = zz1 m c := by
  unfold z0 zz1 Cert.Spec.pre
  rw [show Vin0 m ρ c main_arg0 = (m ((c : Thread nD τ).loc main_arg0)) from F1_h m ρ c, show Vin0 m ρ c main_v13 = aggK m c (m ((c : Thread nD τ).loc main_arg0)) from F1_agg m ρ c,
    show Vin0 m ρ c main_v15 = wSl0 (m ((c : Thread nD τ).loc main_arg3)) from F1_w1 m ρ c, show Vin0 m ρ c main_v17 = rSl0 (m ((c : Thread nD τ).loc main_arg4)) from F1_b1 m ρ c,
    show Vin0 m ρ c main_v19 = wSl0 (m ((c : Thread nD τ).loc main_arg5)) from F1_w2 m ρ c, show Vin0 m ρ c main_v21 = rSl0 (m ((c : Thread nD τ).loc main_arg6)) from F1_b2 m ρ c]
theorem Z1 : W2 m ρ c (Proc.devRef .tc main_v22_0) = zz1 m c :=
  (W2_arr m ρ c 6).trans ((final0_6 (Vin0 m ρ) c).trans (zin1 m ρ c))
theorem Sm1 : W2 m ρ c (Proc.devRef .tc main_v22_1) = Cert.Spec.colSum (zz1 m c) :=
  (W2_arr m ρ c 7).trans ((final0_7 (Vin0 m ρ) c).trans (congrArg Cert.Spec.colSum (zin1 m ρ c)))
theorem Sq1 : W2 m ρ c (Proc.devRef .tc main_v22_2) = Cert.Spec.colSumSq (zz1 m c) :=
  (W2_arr m ρ c 8).trans ((final0_8 (Vin0 m ρ) c).trans (congrArg Cert.Spec.colSumSq (zin1 m ρ c)))
theorem G3_z : W3 m ρ c (Proc.devRef .tc main_v22_0) = zz1 m c := (W3_keep m ρ c main_v22_0 (by decide)).trans (Z1 m ρ c)
theorem G3_mu : W3 m ρ c (Proc.devRef .tc main_v24) = Cert.Spec.mean (zz1 m c) := by
  refine (g1_v24 (W2 m ρ c)).trans ?_
  rw [Sm1 m ρ c]; exact meanH_colSum _
theorem G3_va : W3 m ρ c (Proc.devRef .tc main_v28) = Cert.Spec.varOne (zz1 m c) := by
  refine (g1_v28 (W2 m ρ c)).trans ?_
  rw [Sm1 m ρ c, Sq1 m ρ c]; exact varH_colSums _
theorem G3_ga : W3 m ρ c (Proc.devRef .tc main_v30) = rSl0 (m ((c : Thread nD τ).loc main_arg7)) := by
  refine (g1_v30 (W2 m ρ c)).trans ?_; rw [A2_main_arg7 m ρ c]
theorem G3_be : W3 m ρ c (Proc.devRef .tc main_v32) = rSl0 (m ((c : Thread nD τ).loc main_arg8)) := by
  refine (g1_v32 (W2 m ρ c)).trans ?_; rw [A2_main_arg8 m ρ c]
/-- The normalising region leaves layer 1's output. -/
theorem H1 : W4 m ρ c (Proc.devRef .tc main_v33) = k1 m c := by
  refine (W4_arr m ρ c 5).trans ((final1 (Vin1 m ρ) c).trans ?_)
  rw [show Vin1 m ρ c main_v22_0 = zz1 m c from G3_z m ρ c, show Vin1 m ρ c main_v24 = Cert.Spec.mean (zz1 m c) from G3_mu m ρ c,
    show Vin1 m ρ c main_v28 = Cert.Spec.varOne (zz1 m c) from G3_va m ρ c,
    show Vin1 m ρ c main_v30 = rSl0 (m ((c : Thread nD τ).loc main_arg7)) from G3_ga m ρ c, show Vin1 m ρ c main_v32 = rSl0 (m ((c : Thread nD τ).loc main_arg8)) from G3_be m ρ c]
  rfl

/-! ## Layer 2 -/

/-- The clamped dense maps of every row of layer 2's input plus its aggregation. -/
def zz2 : Arr := Cert.Spec.mlp (Cert.Spec.pre (aggK m c) (k1 m c)) (wSl1 (m ((c : Thread nD τ).loc main_arg3))) (rSl1 (m ((c : Thread nD τ).loc main_arg4))) (wSl1 (m ((c : Thread nD τ).loc main_arg5))) (rSl1 (m ((c : Thread nD τ).loc main_arg6)))
theorem F5_h : W5 m ρ c (Proc.devRef .tc main_v33) = (k1 m c) := (W5_keep m ρ c main_v33 (by decide)).trans (H1 m ρ c)
theorem F5_agg : W5 m ρ c (Proc.devRef .tc main_v43) = aggK m c (k1 m c) := by
  refine (g2_v43 (W4 m ρ c)).trans ?_
  rw [S4_v1 m ρ c, S4_v3 m ρ c, H1 m ρ c]; rfl
theorem F5_w1 : W5 m ρ c (Proc.devRef .tc main_v45) = wSl1 (m ((c : Thread nD τ).loc main_arg3)) := by
  refine (g2_v45 (W4 m ρ c)).trans ?_; rw [A4_main_arg3 m ρ c]
theorem F5_b1 : W5 m ρ c (Proc.devRef .tc main_v47) = rSl1 (m ((c : Thread nD τ).loc main_arg4)) := by
  refine (g2_v47 (W4 m ρ c)).trans ?_; rw [A4_main_arg4 m ρ c]
theorem F5_w2 : W5 m ρ c (Proc.devRef .tc main_v49) = wSl1 (m ((c : Thread nD τ).loc main_arg5)) := by
  refine (g2_v49 (W4 m ρ c)).trans ?_; rw [A4_main_arg5 m ρ c]
theorem F5_b2 : W5 m ρ c (Proc.devRef .tc main_v51) = rSl1 (m ((c : Thread nD τ).loc main_arg6)) := by
  refine (g2_v51 (W4 m ρ c)).trans ?_; rw [A4_main_arg6 m ρ c]
/-- What the dense region is handed is layer 2's input, its aggregation and its parameters. -/
theorem zin2 : z2 (Vin2 m ρ) c = zz2 m c := by
  unfold z2 zz2 Cert.Spec.pre
  rw [show Vin2 m ρ c main_v33 = (k1 m c) from F5_h m ρ c, show Vin2 m ρ c main_v43 = aggK m c (k1 m c) from F5_agg m ρ c,
    show Vin2 m ρ c main_v45 = wSl1 (m ((c : Thread nD τ).loc main_arg3)) from F5_w1 m ρ c, show Vin2 m ρ c main_v47 = rSl1 (m ((c : Thread nD τ).loc main_arg4)) from F5_b1 m ρ c,
    show Vin2 m ρ c main_v49 = wSl1 (m ((c : Thread nD τ).loc main_arg5)) from F5_w2 m ρ c, show Vin2 m ρ c main_v51 = rSl1 (m ((c : Thread nD τ).loc main_arg6)) from F5_b2 m ρ c]
theorem Z2 : W6 m ρ c (Proc.devRef .tc main_v52_0) = zz2 m c :=
  (W6_arr m ρ c 6).trans ((final2_6 (Vin2 m ρ) c).trans (zin2 m ρ c))
theorem Sm2 : W6 m ρ c (Proc.devRef .tc main_v52_1) = Cert.Spec.colSum (zz2 m c) :=
  (W6_arr m ρ c 7).trans ((final2_7 (Vin2 m ρ) c).trans (congrArg Cert.Spec.colSum (zin2 m ρ c)))
theorem Sq2 : W6 m ρ c (Proc.devRef .tc main_v52_2) = Cert.Spec.colSumSq (zz2 m c) :=
  (W6_arr m ρ c 8).trans ((final2_8 (Vin2 m ρ) c).trans (congrArg Cert.Spec.colSumSq (zin2 m ρ c)))
theorem G7_z : W7 m ρ c (Proc.devRef .tc main_v52_0) = zz2 m c := (W7_keep m ρ c main_v52_0 (by decide)).trans (Z2 m ρ c)
theorem G7_mu : W7 m ρ c (Proc.devRef .tc main_v54) = Cert.Spec.mean (zz2 m c) := by
  refine (g3_v54 (W6 m ρ c)).trans ?_
  rw [Sm2 m ρ c]; exact meanH_colSum _
theorem G7_va : W7 m ρ c (Proc.devRef .tc main_v58) = Cert.Spec.varOne (zz2 m c) := by
  refine (g3_v58 (W6 m ρ c)).trans ?_
  rw [Sm2 m ρ c, Sq2 m ρ c]; exact varH_colSums _
theorem G7_ga : W7 m ρ c (Proc.devRef .tc main_v60) = rSl1 (m ((c : Thread nD τ).loc main_arg7)) := by
  refine (g3_v60 (W6 m ρ c)).trans ?_; rw [A6_main_arg7 m ρ c]
theorem G7_be : W7 m ρ c (Proc.devRef .tc main_v62) = rSl1 (m ((c : Thread nD τ).loc main_arg8)) := by
  refine (g3_v62 (W6 m ρ c)).trans ?_; rw [A6_main_arg8 m ρ c]
/-- The normalising region leaves layer 2's output. -/
theorem H2 : W8 m ρ c (Proc.devRef .tc main_v63) = k2 m c := by
  refine (W8_arr m ρ c 5).trans ((final3 (Vin3 m ρ) c).trans ?_)
  rw [show Vin3 m ρ c main_v52_0 = zz2 m c from G7_z m ρ c, show Vin3 m ρ c main_v54 = Cert.Spec.mean (zz2 m c) from G7_mu m ρ c,
    show Vin3 m ρ c main_v58 = Cert.Spec.varOne (zz2 m c) from G7_va m ρ c,
    show Vin3 m ρ c main_v60 = rSl1 (m ((c : Thread nD τ).loc main_arg7)) from G7_ga m ρ c, show Vin3 m ρ c main_v62 = rSl1 (m ((c : Thread nD τ).loc main_arg8)) from G7_be m ρ c]
  rfl

/-! ## Layer 3 -/

/-- The clamped dense maps of every row of layer 3's input plus its aggregation. -/
def zz3 : Arr := Cert.Spec.mlp (Cert.Spec.pre (aggK m c) (k2 m c)) (wSl2 (m ((c : Thread nD τ).loc main_arg3))) (rSl2 (m ((c : Thread nD τ).loc main_arg4))) (wSl2 (m ((c : Thread nD τ).loc main_arg5))) (rSl2 (m ((c : Thread nD τ).loc main_arg6)))
theorem F9_h : W9 m ρ c (Proc.devRef .tc main_v63) = (k2 m c) := (W9_keep m ρ c main_v63 (by decide)).trans (H2 m ρ c)
theorem F9_agg : W9 m ρ c (Proc.devRef .tc main_v73) = aggK m c (k2 m c) := by
  refine (g4_v73 (W8 m ρ c)).trans ?_
  rw [S8_v1 m ρ c, S8_v3 m ρ c, H2 m ρ c]; rfl
theorem F9_w1 : W9 m ρ c (Proc.devRef .tc main_v75) = wSl2 (m ((c : Thread nD τ).loc main_arg3)) := by
  refine (g4_v75 (W8 m ρ c)).trans ?_; rw [A8_main_arg3 m ρ c]
theorem F9_b1 : W9 m ρ c (Proc.devRef .tc main_v77) = rSl2 (m ((c : Thread nD τ).loc main_arg4)) := by
  refine (g4_v77 (W8 m ρ c)).trans ?_; rw [A8_main_arg4 m ρ c]
theorem F9_w2 : W9 m ρ c (Proc.devRef .tc main_v79) = wSl2 (m ((c : Thread nD τ).loc main_arg5)) := by
  refine (g4_v79 (W8 m ρ c)).trans ?_; rw [A8_main_arg5 m ρ c]
theorem F9_b2 : W9 m ρ c (Proc.devRef .tc main_v81) = rSl2 (m ((c : Thread nD τ).loc main_arg6)) := by
  refine (g4_v81 (W8 m ρ c)).trans ?_; rw [A8_main_arg6 m ρ c]
/-- What the dense region is handed is layer 3's input, its aggregation and its parameters. -/
theorem zin3 : z4 (Vin4 m ρ) c = zz3 m c := by
  unfold z4 zz3 Cert.Spec.pre
  rw [show Vin4 m ρ c main_v63 = (k2 m c) from F9_h m ρ c, show Vin4 m ρ c main_v73 = aggK m c (k2 m c) from F9_agg m ρ c,
    show Vin4 m ρ c main_v75 = wSl2 (m ((c : Thread nD τ).loc main_arg3)) from F9_w1 m ρ c, show Vin4 m ρ c main_v77 = rSl2 (m ((c : Thread nD τ).loc main_arg4)) from F9_b1 m ρ c,
    show Vin4 m ρ c main_v79 = wSl2 (m ((c : Thread nD τ).loc main_arg5)) from F9_w2 m ρ c, show Vin4 m ρ c main_v81 = rSl2 (m ((c : Thread nD τ).loc main_arg6)) from F9_b2 m ρ c]
theorem Z3 : W10 m ρ c (Proc.devRef .tc main_v82_0) = zz3 m c :=
  (W10_arr m ρ c 6).trans ((final4_6 (Vin4 m ρ) c).trans (zin3 m ρ c))
theorem Sm3 : W10 m ρ c (Proc.devRef .tc main_v82_1) = Cert.Spec.colSum (zz3 m c) :=
  (W10_arr m ρ c 7).trans ((final4_7 (Vin4 m ρ) c).trans (congrArg Cert.Spec.colSum (zin3 m ρ c)))
theorem Sq3 : W10 m ρ c (Proc.devRef .tc main_v82_2) = Cert.Spec.colSumSq (zz3 m c) :=
  (W10_arr m ρ c 8).trans ((final4_8 (Vin4 m ρ) c).trans (congrArg Cert.Spec.colSumSq (zin3 m ρ c)))
theorem G11_z : W11 m ρ c (Proc.devRef .tc main_v82_0) = zz3 m c := (W11_keep m ρ c main_v82_0 (by decide)).trans (Z3 m ρ c)
theorem G11_mu : W11 m ρ c (Proc.devRef .tc main_v84) = Cert.Spec.mean (zz3 m c) := by
  refine (g5_v84 (W10 m ρ c)).trans ?_
  rw [Sm3 m ρ c]; exact meanH_colSum _
theorem G11_va : W11 m ρ c (Proc.devRef .tc main_v88) = Cert.Spec.varOne (zz3 m c) := by
  refine (g5_v88 (W10 m ρ c)).trans ?_
  rw [Sm3 m ρ c, Sq3 m ρ c]; exact varH_colSums _
theorem G11_ga : W11 m ρ c (Proc.devRef .tc main_v90) = rSl2 (m ((c : Thread nD τ).loc main_arg7)) := by
  refine (g5_v90 (W10 m ρ c)).trans ?_; rw [A10_main_arg7 m ρ c]
theorem G11_be : W11 m ρ c (Proc.devRef .tc main_v92) = rSl2 (m ((c : Thread nD τ).loc main_arg8)) := by
  refine (g5_v92 (W10 m ρ c)).trans ?_; rw [A10_main_arg8 m ρ c]
/-- The normalising region leaves layer 3's output. -/
theorem H3 : W12 m ρ c (Proc.devRef .tc main_v93) = k3 m c := by
  refine (W12_arr m ρ c 5).trans ((final5 (Vin5 m ρ) c).trans ?_)
  rw [show Vin5 m ρ c main_v82_0 = zz3 m c from G11_z m ρ c, show Vin5 m ρ c main_v84 = Cert.Spec.mean (zz3 m c) from G11_mu m ρ c,
    show Vin5 m ρ c main_v88 = Cert.Spec.varOne (zz3 m c) from G11_va m ρ c,
    show Vin5 m ρ c main_v90 = rSl2 (m ((c : Thread nD τ).loc main_arg7)) from G11_ga m ρ c, show Vin5 m ρ c main_v92 = rSl2 (m ((c : Thread nD τ).loc main_arg8)) from G11_be m ρ c]
  rfl

/-! ## The result -/

theorem P12_h1 : W12 m ρ c (Proc.devRef .tc main_v33) = k1 m c := ((W12_of_ne m ρ c main_v33 (by decide)).trans ((W11_keep m ρ c main_v33 (by decide)).trans ((W10_of_ne m ρ c main_v33 (by decide)).trans ((W9_keep m ρ c main_v33 (by decide)).trans ((W8_of_ne m ρ c main_v33 (by decide)).trans ((W7_keep m ρ c main_v33 (by decide)).trans (((W6_arr m ρ c 0).trans (((dat2 (Vin2 m ρ) c).arrAt_in 0 rfl _).trans (A_eq2 (Vin2 m ρ) c 0))).trans (W5_keep m ρ c main_v33 (by decide))))))))).trans (H1 m ρ c)
theorem P12_h2 : W12 m ρ c (Proc.devRef .tc main_v63) = k2 m c := ((W12_of_ne m ρ c main_v63 (by decide)).trans ((W11_keep m ρ c main_v63 (by decide)).trans (((W10_arr m ρ c 0).trans (((dat4 (Vin4 m ρ) c).arrAt_in 0 rfl _).trans (A_eq4 (Vin4 m ρ) c 0))).trans (W9_keep m ρ c main_v63 (by decide))))).trans (H2 m ρ c)

/-- The result buffer at the return: the three layers' outputs pooled per graph, side by side. -/
theorem result_eq : W13 m ρ c (Proc.devRef .tc main_v103)
    = catOf (poolOf (m ((c : Thread nD τ).loc main_arg2)) (k1 m c)) (poolOf (m ((c : Thread nD τ).loc main_arg2)) (k2 m c))
        (poolOf (m ((c : Thread nD τ).loc main_arg2)) (k3 m c)) := by
  refine (g6_v103 (W12 m ρ c)).trans ?_
  rw [A12_main_arg2 m ρ c, P12_h1 m ρ c, P12_h2 m ρ c, H3 m ρ c]

end Cert.KernelIdeal.Hand

end
-- ==== Proof.Math.Consts.lean ====
/-
  The three float literals of the specification as extended reals: the zero word is 0, the word of 50000.0 is the
  real 50000, and the epsilon word is a positive normal number (a positive real; its exact value plays no part).
  A normal word with exponent field E and fraction T denotes (2^23 + T) * 2^(E - 150), the sign bit giving its sign.
-/
import proofs.«130186_j80642305950442_1_alg».proof.Proof.Math.Spec
import Idealize.ShloMosaic.PureOps.Ideal
import Idealize.ShloMosaic.PureOps.Ideal.Laws

noncomputable section

namespace Cert.Spec

open Idealize.ShloMosaic

/-- The all-zero word denotes 0. -/
theorem zeroW_eq : zeroW = 0 := Ideal.ofBits_zero_f32

/-- Sign 0, exponent field 142, fraction 0x435000: (2^23 + 4411392) * 2^(142 - 127 - 23) = 50000. -/
theorem nW_eq : nW = ((50000 : ℝ) : EReal) := by
  simp [nW, Ideal.ofBits, Ideal.ieee, -EReal.coe_mul]; norm_num

/-- Sign 0, exponent field 110 (neither 0 nor 255), so the word is a positive normal number:
    (2^23 + fraction) * 2^(110 - 127 - 23) with a positive significand and a positive power of two. -/
theorem epsW_real : ∃ e : ℝ, 0 < e ∧ epsW = (e : EReal) := by
  simp [epsW, Ideal.ofBits, Ideal.ieee, -EReal.coe_mul]

/-- The row count as a real: positive, in particular not zero. -/
theorem nReal_pos : (0 : ℝ) < 50000 := by norm_num

theorem nReal_ne : (50000 : ℝ) ≠ 0 := by norm_num

end Cert.Spec

end
-- ==== Proof.LibBatchStats.lean ====
/-
  Batch statistics of finitely many REAL entries, read on the extended reals.

  For reals `o i` over a finite index type with `N` elements (N ≠ 0):
  * the mean taken by scaling the sum with the reciprocal `1/N` is the mean taken by dividing the sum by `N`, and it is
    the real `(∑ o) / N`;
  * the variance taken in one pass, `(∑ o²)·(1/N) − mean²`, is the variance taken in two passes,
    `(∑ (o − mean)²) / N`: expanding the square gives `∑ o² − 2·mean·∑ o + N·mean²`, and `∑ o = N·mean`;
    the identity needs every entry real (on the extended reals `∞ − ∞` breaks it);
  * that variance is a nonnegative real, and the reciprocal square root of a positive real is a real.
  Generic in the index type; nothing here mentions a program.
-/
import Idealize.ShloMosaic.PureOps.Ideal
import Idealize.ShloMosaic.PureOps.Ideal.Laws

noncomputable section

namespace Idealize.ShloMosaic.BatchStats

open Idealize.ShloMosaic

/-- A finite sum of reals, coerced term by term, is the coerced sum. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable {ι : Type} [Fintype ι]

/-- Scaling a sum by `1/N` is dividing it by `N`. -/
theorem scaled_eq_div (S : EReal) {N : ℝ} (hN : N ≠ 0) :
    S * ((1 / N : ℝ) : EReal) = Ideal.div S (N : EReal) :=
  (Ideal.div_coe hN S).symm

/-- The mean of reals is the real `(∑ o) / N`. -/
theorem mean_real (o : ι → ℝ) (N : ℝ) :
    (∑ i, ((o i : ℝ) : EReal)) * ((1 / N : ℝ) : EReal) = (((∑ i, o i) / N : ℝ) : EReal) := by
  rw [sum_coe, ← EReal.coe_mul, mul_one_div]

/-- The real identity behind the two variances. -/
theorem sum_sq_dev (o : ι → ℝ) {N : ℝ} (hN : N ≠ 0) (hcard : (Fintype.card ι : ℝ) = N) :
    (∑ i, (o i - (∑ j, o j) / N) * (o i - (∑ j, o j) / N)) = (∑ i, o i * o i) - N * (((∑ j, o j) / N) * ((∑ j, o j) / N)) := by
  set m : ℝ := (∑ j, o j) / N with hm
  have hS : (∑ j, o j) = m * N := by rw [hm]; field_simp
  have h1 : ∀ i, (o i - m) * (o i - m) = o i * o i - 2 * m * o i + m * m := fun i => by ring
  simp only [h1, Finset.sum_add_distrib, Finset.sum_sub_distrib, ← Finset.mul_sum, Finset.sum_const, Finset.card_univ,
    nsmul_eq_mul, hcard, hS]
  ring

/-- ONE PASS = TWO PASSES, for real entries: `(∑ o²)·(1/N) − μ² = (∑ (o − μ)²) / N` with `μ` the mean. -/
theorem var_one_pass_eq_two_pass (o : ι → ℝ) {N : ℝ} (hN : N ≠ 0) (hcard : (Fintype.card ι : ℝ) = N)
    (μ : EReal) (hμ : μ = (∑ i, ((o i : ℝ) : EReal)) * ((1 / N : ℝ) : EReal)) :
    (∑ i, ((o i : ℝ) : EReal) * ((o i : ℝ) : EReal)) * ((1 / N : ℝ) : EReal) - μ * μ
      = Ideal.div (∑ i, (((o i : ℝ) : EReal) - μ) * (((o i : ℝ) : EReal) - μ)) (N : EReal) := by
  rw [mean_real] at hμ
  subst hμ
  rw [Ideal.div_coe hN]
  simp only [← EReal.coe_mul, ← EReal.coe_sub, sum_coe]
  congr 1
  rw [sum_sq_dev o hN hcard]
  field_simp

/-- The two-pass variance of reals is a nonnegative real. -/
theorem var_two_pass_real (o : ι → ℝ) {N : ℝ} (hN : 0 < N) (m : ℝ) :
    ∃ v : ℝ, 0 ≤ v ∧ Ideal.div (∑ i, (((o i : ℝ) : EReal) - (m : EReal)) * (((o i : ℝ) : EReal) - (m : EReal))) (N : EReal) = (v : EReal) := by
  refine ⟨(∑ i, (o i - m) * (o i - m)) / N, div_nonneg (Finset.sum_nonneg fun i _ => mul_self_nonneg _) hN.le, ?_⟩
  rw [Ideal.div_coe hN.ne']
  simp only [← EReal.coe_mul, ← EReal.coe_sub, sum_coe]
  rw [mul_one_div]

/-- The reciprocal square root of a positive real is a (positive) real. -/
theorem rsqrt_pos_real {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

end Idealize.ShloMosaic.BatchStats

end
-- ==== Proof.LibERealFinite.lean ====
/-
  General facts about extended reals that are real numbers, for proofs at the ideal instance that pass to the reals:
  the coercion of a finite sum, a quotient and a square root of reals, a comparison-driven selection as a conditional,
  and that an extended real whose magnitude compares below +∞ is a real.
-/
import Idealize.ShloMosaic.PureOps.Ideal
import Idealize.ShloMosaic.PureOps.Ideal.Laws

noncomputable section

namespace Cert.LibERealFinite

open Idealize.ShloMosaic
open scoped BigOperators

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul]; congr 1; field_simp

/-- The ideal square root of a nonnegative real is the real square root. -/
theorem sqrt_coe_nonneg {r : ℝ} (h : 0 ≤ r) : Ideal.sqrt (r : EReal) = (Real.sqrt r : EReal) := by
  rw [Ideal.sqrt_coe, if_neg (not_lt.mpr h)]

/-- Selecting by an ordered less-than comparison of extended reals is the conditional on the order. -/
theorem select_olt {α : Type} (a b : EReal) (x y : α) :
    Scalar.select (Ideal.cmp .olt a b) x y = if a < b then x else y := by
  by_cases h : a < b <;> simp [Scalar.select, Ideal.cmp, h]

/-- An extended real whose magnitude compares below the +∞ word of f32 is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end Cert.LibERealFinite

end
-- ==== Proof.Math.Real.lean ====
/-
  Every entry is a real number: how that property passes through the operations of a layer.
  Sums, differences, products and maxima of reals are reals, and so are finite sums of them; the ideal quotient of a
  real by the row count 50000 is a real; the two-pass variance of a column of reals is a nonnegative real, so adding
  the positive epsilon gives a positive real, whose reciprocal square root is a real. Hence the dense maps, the
  aggregation input and the normalisation each send arrays of reals to arrays of reals. Re-indexing an array
  (every entry of the result is some entry of the source) keeps the property as well.
-/
import proofs.«130186_j80642305950442_1_alg».proof.Proof.Math.Spec
import proofs.«130186_j80642305950442_1_alg».proof.Proof.Math.Consts
import proofs.«130186_j80642305950442_1_alg».proof.Proof.LibBatchStats
import proofs.«130186_j80642305950442_1_alg».proof.Proof.LibERealFinite
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ### Scalars -/

theorem real_zero : ∃ r : ℝ, (0 : EReal) = (r : EReal) := ⟨0, rfl⟩

theorem real_zeroW : ∃ r : ℝ, zeroW = (r : EReal) := ⟨0, zeroW_eq⟩

theorem real_add {x y : EReal} (hx : ∃ r : ℝ, x = (r : EReal)) (hy : ∃ r : ℝ, y = (r : EReal)) :
    ∃ r : ℝ, x + y = (r : EReal) := by
  obtain ⟨r, rfl⟩ := hx; obtain ⟨s, rfl⟩ := hy; exact ⟨r + s, (EReal.coe_add r s).symm⟩

theorem real_sub {x y : EReal} (hx : ∃ r : ℝ, x = (r : EReal)) (hy : ∃ r : ℝ, y = (r : EReal)) :
    ∃ r : ℝ, x - y = (r : EReal) := by
  obtain ⟨r, rfl⟩ := hx; obtain ⟨s, rfl⟩ := hy; exact ⟨r - s, (EReal.coe_sub r s).symm⟩

theorem real_mul {x y : EReal} (hx : ∃ r : ℝ, x = (r : EReal)) (hy : ∃ r : ℝ, y = (r : EReal)) :
    ∃ r : ℝ, x * y = (r : EReal) := by
  obtain ⟨r, rfl⟩ := hx; obtain ⟨s, rfl⟩ := hy; exact ⟨r * s, (EReal.coe_mul r s).symm⟩

theorem real_max {x y : EReal} (hx : ∃ r : ℝ, x = (r : EReal)) (hy : ∃ r : ℝ, y = (r : EReal)) :
    ∃ r : ℝ, max x y = (r : EReal) := by
  rcases max_choice x y with h | h <;> rw [h] <;> assumption

/-- The ideal quotient of a real by the literal 50000 is a real. -/
theorem real_div_nW {x : EReal} (hx : ∃ r : ℝ, x = (r : EReal)) : ∃ r : ℝ, Ideal.div x nW = (r : EReal) := by
  obtain ⟨r, rfl⟩ := hx
  exact ⟨r / 50000, by rw [nW_eq, Cert.LibERealFinite.div_coe_coe r nReal_ne]⟩

/-! ### Finite sums -/

/-- A finite sum of reals, over any finite set of indices (a filtered one included), is a real. -/
theorem sum_allReal {ι : Type} (s : Finset ι) (f : ι → EReal) (h : ∀ e ∈ s, ∃ r : ℝ, f e = (r : EReal)) :
    ∃ r : ℝ, (∑ e ∈ s, f e) = (r : EReal) := by
  classical
  induction s using Finset.induction_on with
  | empty => exact ⟨0, by simp⟩
  | insert a s ha ih =>
    rw [Finset.sum_insert ha]
    exact real_add (h a (Finset.mem_insert_self a s)) (ih fun e he => h e (Finset.mem_insert_of_mem he))

/-- The sum over a whole finite index type. -/
theorem sum_univ_allReal {ι : Type} [Fintype ι] (f : ι → EReal) (h : ∀ e, ∃ r : ℝ, f e = (r : EReal)) :
    ∃ r : ℝ, (∑ e, f e) = (r : EReal) :=
  sum_allReal Finset.univ f fun e _ => h e

/-- Zero plus a finite sum of reals (an accumulation into zeros) is a real. -/
theorem zero_add_sum_allReal {ι : Type} (s : Finset ι) (f : ι → EReal) (h : ∀ e ∈ s, ∃ r : ℝ, f e = (r : EReal)) :
    ∃ r : ℝ, (0 + ∑ e ∈ s, f e) = (r : EReal) :=
  real_add real_zero (sum_allReal s f h)

/-- A real plus a finite sum of reals (an accumulation into a real array) is a real. -/
theorem add_sum_allReal {ι : Type} {x : EReal} (hx : ∃ r : ℝ, x = (r : EReal)) (s : Finset ι) (f : ι → EReal)
    (h : ∀ e ∈ s, ∃ r : ℝ, f e = (r : EReal)) : ∃ r : ℝ, (x + ∑ e ∈ s, f e) = (r : EReal) :=
  real_add hx (sum_allReal s f h)

/-! ### Re-indexing -/

/-- An array each of whose entries is some entry of a real array is real: slices, reshapes, broadcasts, gathers. -/
theorem allReal_of_entries {S T : Shape} {x : S.Idx → EReal} {y : T.Idx → EReal} (hx : AllReal x)
    (h : ∀ i, ∃ j, y i = x j) : AllReal y := by
  intro i
  obtain ⟨j, hj⟩ := h i
  rw [hj]; exact hx j

/-! ### The layer -/

theorem hiddenAt_real {a : Arr} {w1 : Wt} {b1 : Row} (ha : AllReal a) (hw1 : AllReal w1) (hb1 : AllReal b1)
    (p : Fin 50000) (k : Fin 256) : ∃ r : ℝ, hiddenAt a w1 b1 p k = (r : EReal) :=
  real_max (real_add (sum_univ_allReal _ fun l => real_mul (ha _) (hw1 _)) (hb1 _)) real_zeroW

theorem mlpAt_real {a : Arr} {w1 w2 : Wt} {b1 b2 : Row} (ha : AllReal a) (hw1 : AllReal w1) (hb1 : AllReal b1)
    (hw2 : AllReal w2) (hb2 : AllReal b2) (p : Fin 50000) (q : Fin 256) :
    ∃ r : ℝ, mlpAt a w1 b1 w2 b2 p q = (r : EReal) :=
  real_max (real_add (sum_univ_allReal _ fun k => real_mul (hiddenAt_real ha hw1 hb1 p k) (hw2 _)) (hb2 _)) real_zeroW

/-- The two dense maps with their clamps send reals to reals. -/
theorem mlp_allReal {a : Arr} {w1 w2 : Wt} {b1 b2 : Row} (ha : AllReal a) (hw1 : AllReal w1) (hb1 : AllReal b1)
    (hw2 : AllReal w2) (hb2 : AllReal b2) : AllReal (mlp a w1 b1 w2 b2) :=
  fun i => mlpAt_real ha hw1 hb1 hw2 hb2 (i 0) (i 1)

/-- A row plus its aggregated neighbours. -/
theorem pre_allReal {agg : Arr → Arr} {h : Arr} (hh : AllReal h) (hagg : AllReal (agg h)) : AllReal (pre agg h) :=
  fun i => real_add (hh i) (hagg i)

/-- The column sums of a real array are real. -/
theorem colSum_allReal {z : Arr} (hz : AllReal z) : AllReal (colSum z) :=
  fun _ => sum_univ_allReal _ fun _ => hz _

theorem colSumSq_allReal {z : Arr} (hz : AllReal z) : AllReal (colSumSq z) :=
  fun _ => sum_univ_allReal _ fun _ => real_mul (hz _) (hz _)

/-- The column means of a real array are real. -/
theorem mean_allReal {z : Arr} (hz : AllReal z) : AllReal (mean z) :=
  fun j => real_div_nW (colSum_allReal hz j)

/-- The two-pass variance of a column of reals is a nonnegative real. -/
theorem varTwo_nonneg_real {z : Arr} (hz : AllReal z) (j : SR.Idx) : ∃ v : ℝ, 0 ≤ v ∧ varTwo z j = (v : EReal) := by
  obtain ⟨m, hm⟩ := mean_allReal hz j
  choose o ho using hz
  have h := Idealize.ShloMosaic.BatchStats.var_two_pass_real (fun p : Fin 50000 => o (ix2 p (j 0))) nReal_pos m
  obtain ⟨v, hv0, hv⟩ := h
  refine ⟨v, hv0, ?_⟩
  show Ideal.div (∑ p : Fin 50000, (z (ix2 p (j 0)) - mean z j) * (z (ix2 p (j 0)) - mean z j)) nW = (v : EReal)
  rw [hm, nW_eq]
  simp only [ho]
  exact hv

theorem varTwo_allReal {z : Arr} (hz : AllReal z) : AllReal (varTwo z) := fun j => by
  obtain ⟨v, _, hv⟩ := varTwo_nonneg_real hz j
  exact ⟨v, hv⟩

/-- The reciprocal square root of a nonnegative real plus the epsilon literal is a real. -/
theorem rsqrt_add_eps_real {x : EReal} (hx : ∃ v : ℝ, 0 ≤ v ∧ x = (v : EReal)) :
    ∃ r : ℝ, Ideal.rsqrt (x + epsW) = (r : EReal) := by
  obtain ⟨v, hv0, rfl⟩ := hx
  obtain ⟨e, he0, he⟩ := epsW_real
  refine ⟨(Real.sqrt (v + e))⁻¹, ?_⟩
  rw [he, ← EReal.coe_add]
  exact Idealize.ShloMosaic.BatchStats.rsqrt_pos_real (by linarith)

/-- Normalising by real statistics, the variance a nonnegative real, with real scale and shift, gives reals. -/
theorem bn_allReal {z : Arr} {mu var gamma beta : Row} (hz : AllReal z) (hmu : AllReal mu)
    (hvar : ∀ j, ∃ v : ℝ, 0 ≤ v ∧ var j = (v : EReal)) (hg : AllReal gamma) (hb : AllReal beta) :
    AllReal (bn z mu var gamma beta) :=
  fun i => real_add (real_mul (real_mul (real_sub (hz i) (hmu _)) (rsqrt_add_eps_real (hvar _))) (hg _)) (hb _)

/-- Batch normalisation with the two-pass variance sends reals to reals. -/
theorem bn_two_allReal {z : Arr} {gamma beta : Row} (hz : AllReal z) (hg : AllReal gamma) (hb : AllReal beta) :
    AllReal (bn z (mean z) (varTwo z) gamma beta) :=
  bn_allReal hz (mean_allReal hz) (varTwo_nonneg_real hz) hg hb

end Cert.Spec

end
-- ==== Proof.KI.Reals.lean ====
import proofs.«130186_j80642305950442_1_alg».proof.Proof.KI.Glue
import proofs.«130186_j80642305950442_1_alg».proof.Proof.Math.Spec
import proofs.«130186_j80642305950442_1_alg».proof.Proof.Math.Real

noncomputable section

namespace Cert.KernelIdeal.Hand

open Idealize.ShloMosaic Idealize.ShloMosaic.TcCoe Idealize.SL.Sem
open Cert.KernelIdeal Cert.KernelIdeal.Gen

/-! # Every entry is a real number: the host operations around the regions

  A slice of a stacked array followed by a reshape only re-indexes: each entry of the result is an entry of the
  operand. The aggregation scatter-adds gathered rows into zeros: each entry of the result is the zero word plus a
  finite sum of entries of the gathered array, and each entry of the gathered array is an entry of the operand.
  So all of them send arrays of reals to arrays of reals. -/

/-- Each entry of a layer's weight slice is an entry of the stacked array. -/
theorem wSl0_allReal (w : (⟨S3x256x256, .f32⟩ : BufTy).Contents (Elt Ideal)) (hw : Cert.Spec.AllReal (S := S3x256x256) w) :
    Cert.Spec.AllReal (wSl0 w : Cert.Spec.Wt) :=
  Cert.Spec.allReal_of_entries (S := S3x256x256) (x := w) hw fun i => ⟨_, rfl⟩
theorem wSl1_allReal (w : (⟨S3x256x256, .f32⟩ : BufTy).Contents (Elt Ideal)) (hw : Cert.Spec.AllReal (S := S3x256x256) w) :
    Cert.Spec.AllReal (wSl1 w : Cert.Spec.Wt) :=
  Cert.Spec.allReal_of_entries (S := S3x256x256) (x := w) hw fun i => ⟨_, rfl⟩
theorem wSl2_allReal (w : (⟨S3x256x256, .f32⟩ : BufTy).Contents (Elt Ideal)) (hw : Cert.Spec.AllReal (S := S3x256x256) w) :
    Cert.Spec.AllReal (wSl2 w : Cert.Spec.Wt) :=
  Cert.Spec.allReal_of_entries (S := S3x256x256) (x := w) hw fun i => ⟨_, rfl⟩

/-- Each entry of a layer's row slice is an entry of the stacked rows. -/
theorem rSl0_allReal (b : (⟨S3x256, .f32⟩ : BufTy).Contents (Elt Ideal)) (hb : Cert.Spec.AllReal (S := S3x256) b) :
    Cert.Spec.AllReal (rSl0 b : Cert.Spec.Row) :=
  Cert.Spec.allReal_of_entries (S := S3x256) (x := b) hb fun i => ⟨_, rfl⟩
theorem rSl1_allReal (b : (⟨S3x256, .f32⟩ : BufTy).Contents (Elt Ideal)) (hb : Cert.Spec.AllReal (S := S3x256) b) :
    Cert.Spec.AllReal (rSl1 b : Cert.Spec.Row) :=
  Cert.Spec.allReal_of_entries (S := S3x256) (x := b) hb fun i => ⟨_, rfl⟩
theorem rSl2_allReal (b : (⟨S3x256, .f32⟩ : BufTy).Contents (Elt Ideal)) (hb : Cert.Spec.AllReal (S := S3x256) b) :
    Cert.Spec.AllReal (rSl2 b : Cert.Spec.Row) :=
  Cert.Spec.allReal_of_entries (S := S3x256) (x := b) hb fun i => ⟨_, rfl⟩

/-- An accumulating scatter of reals into reals is real: each entry is the operand's plus a finite sum of updates. -/
theorem scatterAdd_allReal {s si u : Shape} {w : Nat} (d : ScatterDims s si u) (x : FVec Ideal s .f32) (idx : IVec si w)
    (upd : FVec Ideal u .f32) (hx : Cert.Spec.AllReal (S := s) x) (hu : Cert.Spec.AllReal (S := u) upd) :
    Cert.Spec.AllReal (S := s) (Host.scatterAdd (F := Ideal) d x idx upd) := fun i => by
  show ∃ r : ℝ, (x i + ∑ j ∈ Finset.univ.filter (fun j => d.resultIdx? j idx = some i), upd j) = (r : EReal)
  exact Cert.Spec.real_add (hx i) (Cert.Spec.sum_allReal _ _ fun e _ => hu e)

/-- Each entry of a gather is an entry of the operand. -/
theorem gather_allReal {s si t : Shape} {w : Nat} (d : GatherDims s si t) (x : s.Idx → EReal) (idx : IVec si w)
    (hx : Cert.Spec.AllReal (S := s) x) : Cert.Spec.AllReal (S := t) (Host.gather d x idx) :=
  fun j => hx (d.operandIdx j idx)

/-- An array filled with the zero word is real. -/
theorem zeros_allReal {t : Shape} (h : S_.BroadcastsInDim t (![] : Fin 0 → Fin t.rank)) :
    Cert.Spec.AllReal (S := t) (broadcastInDim t ![] h (constant (F := Ideal) S_ .f32 0x00000000#32)) := fun i => by
  show ∃ r : ℝ, Ideal.ofBits .f32 0x00000000#32 = (r : EReal)
  exact Cert.Spec.real_zeroW

/-- The aggregation of a real array is real: at each entry, the zero word plus the sum, over the gathered rows
    landing there, of entries of the operand. -/
theorem aggOf_allReal (s d : (⟨S800000, .i32⟩ : BufTy).Contents (Elt Ideal)) (h : Cert.Spec.Arr) (hh : Cert.Spec.AllReal h) :
    Cert.Spec.AllReal (aggOf (F := Ideal) s d h : Cert.Spec.Arr) := by
  unfold aggOf
  exact scatterAdd_allReal _ _ _ _ (zeros_allReal bcast_S_S50000x256) (gather_allReal _ h _ hh)

end Cert.KernelIdeal.Hand

end
-- ==== Proof.Ref.Ops.lean ====
/-
  The reference program as a straight line.

  Its entry function is a sequence of tensor operations, three of which are calls of the variance function, which in turn
  calls the select function.  A call runs the callee's lines on the caller's buffers, so the program is one list of
  operations: the callee's lines stand at each call site over that call's own buffers.  The list is written in stages —
  the edge table's rows; per layer the normalised senders, the aggregation, the pre-norm activations, their column mean,
  their column variance and the layer output; last the pooling — and is the concatenation of the stages in order.
-/
import proofs.«130186_j80642305950442_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table, each as a vector: senders (row 0) and targets (row 1). -/
abbrev c_idx : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- The senders normalised: a negative index has the node count added (layer 1's own copy of this computation). -/
abbrev c_src1 : List (HloOp τ sig (Elt F)) :=
  [ StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ]

/-- The aggregation of layer 1: the rows of the layer's input gathered at the senders and summed into a zero array at the targets. -/
abbrev c_agg1 : List (HloOp τ sig (Elt F)) :=
  [ StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst (constant S_ .f32 0x00000000#32),
    StableHlo.unary main_cst main_v11 (broadcastInDim S50000x256 ![] bcast_S_S50000x256 : (⟨S_, .f32⟩ : BufTy).Contents (Elt F) → (⟨S50000x256, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- The pre-norm activations of layer 1: input plus aggregation, through the two dense maps with their biases, a clamp at zero after each. -/
abbrev c_z1 : List (HloOp τ sig (Elt F)) :=
  [ StableHlo.binary main_arg0 main_v13 main_v14 (addf : (⟨S50000x256, .f32⟩ : BufTy).Contents (Elt F) → (⟨S50000x256, .f32⟩ : BufTy).Contents (Elt F) → (⟨S50000x256, .f32⟩ : BufTy).Contents (Elt F)),
    StableHlo.unary main_arg3 main_v15 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v15 main_v16 rfl shapeCasts_S1x256x256_S256x256,
    StableHlo.binary main_v14 main_v16 main_v17 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg4 main_v18 ((extractStridedSlice S1x256 ![0, 0] · slices_S3x256_S1x256_0_0) : (⟨S3x256, .f32⟩ : BufTy).Contents (Elt F) → (⟨S1x256, .f32⟩ : BufTy).Contents (Elt F)),
    StableHlo.reshape main_v18 main_v19 rfl shapeCasts_S1x256_S256,
    StableHlo.unary main_v19 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S50000x256 ![0, 1] bcast_S1x256_S50000x256_0_1 : (⟨S1x256, .f32⟩ : BufTy).Contents (Elt F) → (⟨S50000x256, .f32⟩ : BufTy).Contents (Elt F)),
    StableHlo.binary main_v17 main_v21 main_v22 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x00000000#32),
    StableHlo.unary main_cst_1 main_v23 (broadcastInDim S50000x256 ![] bcast_S_S50000x256 : (⟨S_, .f32⟩ : BufTy).Contents (Elt F) → (⟨S50000x256, .f32⟩ : BufTy).Contents (Elt F)),
    StableHlo.binary main_v22 main_v23 main_v24 (maximumf : (⟨S50000x256, .f32⟩ : BufTy).Contents (Elt F) → (⟨S50000x256, .f32⟩ : BufTy).Contents (Elt F) → (⟨S50000x256, .f32⟩ : BufTy).Contents (Elt F)),
    StableHlo.unary main_arg5 main_v25 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v25 main_v26 rfl shapeCasts_S1x256x256_S256x256,
    StableHlo.binary main_v24 main_v26 main_v27 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v28 ((extractStridedSlice S1x256 ![0, 0] · slices_S3x256_S1x256_0_0) : (⟨S3x256, .f32⟩ : BufTy).Contents (Elt F) → (⟨S1x256, .f32⟩ : BufTy).Contents (Elt F)),
    StableHlo.reshape main_v28 main_v29 rfl shapeCasts_S1x256_S256,
    StableHlo.unary main_v29 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S50000x256 ![0, 1] bcast_S1x256_S50000x256_0_1 : (⟨S1x256, .f32⟩ : BufTy).Contents (Elt F) → (⟨S50000x256, .f32⟩ : BufTy).Contents (Elt F)),
    StableHlo.binary main_v27 main_v31 main_v32 (addf : (⟨S50000x256, .f32⟩ : BufTy).Contents (Elt F) → (⟨S50000x256, .f32⟩ : BufTy).Contents (Elt F) → (⟨S50000x256, .f32⟩ : BufTy).Contents (Elt F)),
    StableHlo.nullary main_cst_2 (constant S_ .f32 0x00000000#32),
    StableHlo.unary main_cst_2 main_v33 (broadcastInDim S50000x256 ![] bcast_S_S50000x256 : (⟨S_, .f32⟩ : BufTy).Contents (Elt F) → (⟨S50000x256, .f32⟩ : BufTy).Contents (Elt F)),
    StableHlo.binary main_v32 main_v33 main_v34 (maximumf : (⟨S50000x256, .f32⟩ : BufTy).Contents (Elt F) → (⟨S50000x256, .f32⟩ : BufTy).Contents (Elt F) → (⟨S50000x256, .f32⟩ : BufTy).Contents (Elt F)) ]

/-- The column mean of the pre-norm activations of layer 1: column sums divided by the row count. -/
abbrev c_mean1 : List (HloOp τ sig (Elt F)) :=
  [ StableHlo.nullary main_cst_3 (constant S_ .f32 0x00000000#32),
    StableHlo.binary main_v34 main_cst_3 main_v35 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_4 (constant S_ .f32 0x47435000#32),
    StableHlo.unary main_cst_4 main_v36 (broadcastInDim S256 ![] bcast_S_S256 : (⟨S_, .f32⟩ : BufTy).Contents (Elt F) → (⟨S256, .f32⟩ : BufTy).Contents (Elt F)),
    StableHlo.binary main_v35 main_v36 main_v37 (Host.divf : (⟨S256, .f32⟩ : BufTy).Contents (Elt F) → (⟨S256, .f32⟩ : BufTy).Contents (Elt F) → (⟨S256, .f32⟩ : BufTy).Contents (Elt F)) ]

/-- The column variance of the pre-norm activations of layer 1, as the variance function states it: centred squares summed, divided by the row count less the correction, kept where that normaliser is positive. -/
abbrev c_var1 : List (HloOp τ sig (Elt F)) :=
  [ StableHlo.nullary main_c_5 (constantI S_ 32 0#32),
    StableHlo.TRef.nullary main_call0.cst (constant S_ .f32 0x00000000#32),
    StableHlo.TRef.binary (TRef.of main_v34 : TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (TRef.of main_v34 : TRef sig ⟨S50000x256, .f32⟩) main_call0.v4 main_call0.v5 subf,
    StableHlo.TRef.binary main_call0.v5 main_call0.v5 main_call0.v6 mulf,
    StableHlo.TRef.unary (TRef.of main_c_5 : TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

/-- The layer output of layer 1, first lines: centring, the reciprocal root of variance plus epsilon, the scale row read. -/
abbrev c_out1a : List (HloOp τ sig (Elt F)) :=
  [ StableHlo.unary main_v37 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S50000x256 ![0, 1] bcast_S1x256_S50000x256_0_1 : (⟨S1x256, .f32⟩ : BufTy).Contents (Elt F) → (⟨S50000x256, .f32⟩ : BufTy).Contents (Elt F)),
    StableHlo.binary main_v34 main_v40 main_v41 (subf : (⟨S50000x256, .f32⟩ : BufTy).Contents (Elt F) → (⟨S50000x256, .f32⟩ : BufTy).Contents (Elt F) → (⟨S50000x256, .f32⟩ : BufTy).Contents (Elt F)),
    StableHlo.nullary main_cst_6 (constant S_ .f32 0x3727C5AC#32),
    StableHlo.unary main_cst_6 main_v42 (broadcastInDim S256 ![] bcast_S_S256 : (⟨S_, .f32⟩ : BufTy).Contents (Elt F) → (⟨S256, .f32⟩ : BufTy).Contents (Elt F)),
    StableHlo.binary main_v38 main_v42 main_v43 (addf : (⟨S256, .f32⟩ : BufTy).Contents (Elt F) → (⟨S256, .f32⟩ : BufTy).Contents (Elt F) → (⟨S256, .f32⟩ : BufTy).Contents (Elt F)),
    StableHlo.unary main_v43 main_v44 (Host.rsqrt : (⟨S256, .f32⟩ : BufTy).Contents (Elt F) → (⟨S256, .f32⟩ : BufTy).Contents (Elt F)),
    StableHlo.unary main_v44 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S50000x256 ![0, 1] bcast_S1x256_S50000x256_0_1 : (⟨S1x256, .f32⟩ : BufTy).Contents (Elt F) → (⟨S50000x256, .f32⟩ : BufTy).Contents (Elt F)),
    StableHlo.binary main_v41 main_v46 main_v47 (mulf : (⟨S50000x256, .f32⟩ : BufTy).Contents (Elt F) → (⟨S50000x256, .f32⟩ : BufTy).Contents (Elt F) → (⟨S50000x256, .f32⟩ : BufTy).Contents (Elt F)),
    StableHlo.unary main_arg7 main_v48 ((extractStridedSlice S1x256 ![0, 0] · slices_S3x256_S1x256_0_0) : (⟨S3x256, .f32⟩ : BufTy).Contents (Elt F) → (⟨S1x256, .f32⟩ : BufTy).Contents (Elt F)),
    StableHlo.reshape main_v48 main_v49 rfl shapeCasts_S1x256_S256,
    StableHlo.unary main_v49 main_v50 (broadcastInDim S1x256 ![1] bcast_S256_S1x256_1 : (⟨S256, .f32⟩ : BufTy).Contents (Elt F) → (⟨S1x256, .f32⟩ : BufTy).Contents (Elt F)) ]

/-- The layer output of layer 1, remaining lines: scaling, the shift row, the sum. -/
abbrev c_out1b : List (HloOp τ sig (Elt F)) :=
  [ StableHlo.unary main_v50 main_v51 (broadcastInDim S50000x256 ![0, 1] bcast_S1x256_S50000x256_0_1 : (⟨S1x256, .f32⟩ : BufTy).Contents (Elt F) → (⟨S50000x256, .f32⟩ : BufTy).Contents (Elt F)),
    StableHlo.binary main_v47 main_v51 main_v52 (mulf : (⟨S50000x256, .f32⟩ : BufTy).Contents (Elt F) → (⟨S50000x256, .f32⟩ : BufTy).Contents (Elt F) → (⟨S50000x256, .f32⟩ : BufTy).Contents (Elt F)),
    StableHlo.unary main_arg8 main_v53 ((extractStridedSlice S1x256 ![0, 0] · slices_S3x256_S1x256_0_0) : (⟨S3x256, .f32⟩ : BufTy).Contents (Elt F) → (⟨S1x256, .f32⟩ : BufTy).Contents (Elt F)),
    StableHlo.reshape main_v53 main_v54 rfl shapeCasts_S1x256_S256,
    StableHlo.unary main_v54 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S50000x256 ![0, 1] bcast_S1x256_S50000x256_0_1 : (⟨S1x256, .f32⟩ : BufTy).Contents (Elt F) → (⟨S50000x256, .f32⟩ : BufTy).Contents (Elt F)),
    StableHlo.binary main_v52 main_v56 main_v57 (addf : (⟨S50000x256, .f32⟩ : BufTy).Contents (Elt F) → (⟨S50000x256, .f32⟩ : BufTy).Contents (Elt F) → (⟨S50000x256, .f32⟩ : BufTy).Contents (Elt F)) ]

/-- The senders normalised: a negative index has the node count added (layer 2's own copy of this computation). -/
abbrev c_src2 : List (HloOp τ sig (Elt F)) :=
  [ StableHlo.nullary main_c_7 (constantI S_ 32 0#32),
    StableHlo.unary main_c_7 main_v58 (broadcastInDim S800000 ![] bcast_S_S800000 : (⟨S_, .i32⟩ : BufTy).Contents (Elt F) → (⟨S800000, .i32⟩ : BufTy).Contents (Elt F)),
    StableHlo.binary main_v1 main_v58 main_v59 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v60 (broadcastInDim S800000 ![] bcast_S_S800000 : (⟨S_, .i32⟩ : BufTy).Contents (Elt F) → (⟨S800000, .i32⟩ : BufTy).Contents (Elt F)),
    StableHlo.binary main_v1 main_v60 main_v61 (addi : (⟨S800000, .i32⟩ : BufTy).Contents (Elt F) → (⟨S800000, .i32⟩ : BufTy).Contents (Elt F) → (⟨S800000, .i32⟩ : BufTy).Contents (Elt F)),
    StableHlo.ternary main_v59 main_v61 main_v1 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ]

/-- The aggregation of layer 2: the rows of the layer's input gathered at the senders and summed into a zero array at the targets. -/
abbrev c_agg2 : List (HloOp τ sig (Elt F)) :=
  [ StableHlo.unary main_v62 main_v63 (broadcastInDim S800000x1 ![0] bcast_S800000_S800000x1_0 : (⟨S800000, .i32⟩ : BufTy).Contents (Elt F) → (⟨S800000x1, .i32⟩ : BufTy).Contents (Elt F)),
    StableHlo.binary main_v57 main_v63 main_v64 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_9 (constant S_ .f32 0x00000000#32),
    StableHlo.unary main_cst_9 main_v65 (broadcastInDim S50000x256 ![] bcast_S_S50000x256 : (⟨S_, .f32⟩ : BufTy).Contents (Elt F) → (⟨S50000x256, .f32⟩ : BufTy).Contents (Elt F)),
    StableHlo.unary main_v3 main_v66 (broadcastInDim S800000x1 ![0] bcast_S800000_S800000x1_0 : (⟨S800000, .i32⟩ : BufTy).Contents (Elt F) → (⟨S800000x1, .i32⟩ : BufTy).Contents (Elt F)),
    StableHlo.ternary main_v65 main_v66 main_v64 main_v67 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- The pre-norm activations of layer 2: input plus aggregation, through the two dense maps with their biases, a clamp at zero after each. -/
abbrev c_z2 : List (HloOp τ sig (Elt F)) :=
  [ StableHlo.binary main_v57 main_v67 main_v68 (addf : (⟨S50000x256, .f32⟩ : BufTy).Contents (Elt F) → (⟨S50000x256, .f32⟩ : BufTy).Contents (Elt F) → (⟨S50000x256, .f32⟩ : BufTy).Contents (Elt F)),
    StableHlo.unary main_arg3 main_v69 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v69 main_v70 rfl shapeCasts_S1x256x256_S256x256,
    StableHlo.binary main_v68 main_v70 main_v71 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg4 main_v72 ((extractStridedSlice S1x256 ![1, 0] · slices_S3x256_S1x256_1_0) : (⟨S3x256, .f32⟩ : BufTy).Contents (Elt F) → (⟨S1x256, .f32⟩ : BufTy).Contents (Elt F)),
    StableHlo.reshape main_v72 main_v73 rfl shapeCasts_S1x256_S256,
    StableHlo.unary main_v73 main_v74 (broadcastInDim S1x256 ![1] bcast_S256_S1x256_1 : (⟨S256, .f32⟩ : BufTy).Contents (Elt F) → (⟨S1x256, .f32⟩ : BufTy).Contents (Elt F)),
    StableHlo.unary main_v74 main_v75 (broadcastInDim S50000x256 ![0, 1] bcast_S1x256_S50000x256_0_1 : (⟨S1x256, .f32⟩ : BufTy).Contents (Elt F) → (⟨S50000x256, .f32⟩ : BufTy).Contents (Elt F)),
    StableHlo.binary main_v71 main_v75 main_v76 (addf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x00000000#32),
    StableHlo.unary main_cst_10 main_v77 (broadcastInDim S50000x256 ![] bcast_S_S50000x256 : (⟨S_, .f32⟩ : BufTy).Contents (Elt F) → (⟨S50000x256, .f32⟩ : BufTy).Contents (Elt F)),
    StableHlo.binary main_v76 main_v77 main_v78 (maximumf : (⟨S50000x256, .f32⟩ : BufTy).Contents (Elt F) → (⟨S50000x256, .f32⟩ : BufTy).Contents (Elt F) → (⟨S50000x256, .f32⟩ : BufTy).Contents (Elt F)),
    StableHlo.unary main_arg5 main_v79 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v79 main_v80 rfl shapeCasts_S1x256x256_S256x256,
    StableHlo.binary main_v78 main_v80 main_v81 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v82 ((extractStridedSlice S1x256 ![1, 0] · slices_S3x256_S1x256_1_0) : (⟨S3x256, .f32⟩ : BufTy).Contents (Elt F) → (⟨S1x256, .f32⟩ : BufTy).Contents (Elt F)),
    StableHlo.reshape main_v82 main_v83 rfl shapeCasts_S1x256_S256,
    StableHlo.unary main_v83 main_v84 (broadcastInDim S1x256 ![1] bcast_S256_S1x256_1 : (⟨S256, .f32⟩ : BufTy).Contents (Elt F) → (⟨S1x256, .f32⟩ : BufTy).Contents (Elt F)),
    StableHlo.unary main_v84 main_v85 (broadcastInDim S50000x256 ![0, 1] bcast_S1x256_S50000x256_0_1 : (⟨S1x256, .f32⟩ : BufTy).Contents (Elt F) → (⟨S50000x256, .f32⟩ : BufTy).Contents (Elt F)),
    StableHlo.binary main_v81 main_v85 main_v86 (addf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x00000000#32),
    StableHlo.unary main_cst_11 main_v87 (broadcastInDim S50000x256 ![] bcast_S_S50000x256 : (⟨S_, .f32⟩ : BufTy).Contents (Elt F) → (⟨S50000x256, .f32⟩ : BufTy).Contents (Elt F)),
    StableHlo.binary main_v86 main_v87 main_v88 (maximumf : (⟨S50000x256, .f32⟩ : BufTy).Contents (Elt F) → (⟨S50000x256, .f32⟩ : BufTy).Contents (Elt F) → (⟨S50000x256, .f32⟩ : BufTy).Contents (Elt F)) ]

/-- The column mean of the pre-norm activations of layer 2: column sums divided by the row count. -/
abbrev c_mean2 : List (HloOp τ sig (Elt F)) :=
  [ StableHlo.nullary main_cst_12 (constant S_ .f32 0x00000000#32),
    StableHlo.binary main_v88 main_cst_12 main_v89 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_13 (constant S_ .f32 0x47435000#32),
    StableHlo.unary main_cst_13 main_v90 (broadcastInDim S256 ![] bcast_S_S256 : (⟨S_, .f32⟩ : BufTy).Contents (Elt F) → (⟨S256, .f32⟩ : BufTy).Contents (Elt F)),
    StableHlo.binary main_v89 main_v90 main_v91 (Host.divf : (⟨S256, .f32⟩ : BufTy).Contents (Elt F) → (⟨S256, .f32⟩ : BufTy).Contents (Elt F) → (⟨S256, .f32⟩ : BufTy).Contents (Elt F)) ]

/-- The column variance of the pre-norm activations of layer 2, as the variance function states it: centred squares summed, divided by the row count less the correction, kept where that normaliser is positive. -/
abbrev c_var2 : List (HloOp τ sig (Elt F)) :=
  [ StableHlo.nullary main_c_14 (constantI S_ 32 0#32),
    StableHlo.TRef.nullary main_call1.cst (constant S_ .f32 0x00000000#32),
    StableHlo.TRef.binary (TRef.of main_v88 : TRef sig ⟨S50000x256, .f32⟩) main_call1.cst main_call1.v0 (fun x v => Host.reduceAdd x v reducesTo_S50000x256_S256_d0 h_S_),
    StableHlo.TRef.unary main_call1.v0 main_call1.v1 (broadcastInDim S1x256 ![1] bcast_S256_S1x256_1),
    StableHlo.TRef.nullary main_call1.cst_0 (constant S_ .f32 0x47435000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S50000x256 ![0, 1] bcast_S1x256_S50000x256_0_1),
    StableHlo.TRef.binary (TRef.of main_v88 : TRef sig ⟨S50000x256, .f32⟩) main_call1.v4 main_call1.v5 subf,
    StableHlo.TRef.binary main_call1.v5 main_call1.v5 main_call1.v6 mulf,
    StableHlo.TRef.unary (TRef.of main_c_14 : TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b) ]

/-- The layer output of layer 2, first lines: centring, the reciprocal root of variance plus epsilon, the scale row read. -/
abbrev c_out2a : List (HloOp τ sig (Elt F)) :=
  [ StableHlo.unary main_v91 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v88 main_v94 main_v95 (subf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x3727C5AC#32),
    StableHlo.unary main_cst_15 main_v96 (broadcastInDim S256 ![] bcast_S_S256 : (⟨S_, .f32⟩ : BufTy).Contents (Elt F) → (⟨S256, .f32⟩ : BufTy).Contents (Elt F)),
    StableHlo.binary main_v92 main_v96 main_v97 (addf : (⟨S256, .f32⟩ : BufTy).Contents (Elt F) → (⟨S256, .f32⟩ : BufTy).Contents (Elt F) → (⟨S256, .f32⟩ : BufTy).Contents (Elt F)),
    StableHlo.unary main_v97 main_v98 (Host.rsqrt : (⟨S256, .f32⟩ : BufTy).Contents (Elt F) → (⟨S256, .f32⟩ : BufTy).Contents (Elt F)),
    StableHlo.unary main_v98 main_v99 (broadcastInDim S1x256 ![1] bcast_S256_S1x256_1 : (⟨S256, .f32⟩ : BufTy).Contents (Elt F) → (⟨S1x256, .f32⟩ : BufTy).Contents (Elt F)),
    StableHlo.unary main_v99 main_v100 (broadcastInDim S50000x256 ![0, 1] bcast_S1x256_S50000x256_0_1 : (⟨S1x256, .f32⟩ : BufTy).Contents (Elt F) → (⟨S50000x256, .f32⟩ : BufTy).Contents (Elt F)),
    StableHlo.binary main_v95 main_v100 main_v101 (mulf : (⟨S50000x256, .f32⟩ : BufTy).Contents (Elt F) → (⟨S50000x256, .f32⟩ : BufTy).Contents (Elt F) → (⟨S50000x256, .f32⟩ : BufTy).Contents (Elt F)) ]

/-- The layer output of layer 2, remaining lines: scaling, the shift row, the sum. -/
abbrev c_out2b : List (HloOp τ sig (Elt F)) :=
  [ StableHlo.unary main_arg7 main_v102 ((extractStridedSlice S1x256 ![1, 0] · slices_S3x256_S1x256_1_0) : (⟨S3x256, .f32⟩ : BufTy).Contents (Elt F) → (⟨S1x256, .f32⟩ : BufTy).Contents (Elt F)),
    StableHlo.reshape main_v102 main_v103 rfl shapeCasts_S1x256_S256,
    StableHlo.unary main_v103 main_v104 (broadcastInDim S1x256 ![1] bcast_S256_S1x256_1 : (⟨S256, .f32⟩ : BufTy).Contents (Elt F) → (⟨S1x256, .f32⟩ : BufTy).Contents (Elt F)),
    StableHlo.unary main_v104 main_v105 (broadcastInDim S50000x256 ![0, 1] bcast_S1x256_S50000x256_0_1 : (⟨S1x256, .f32⟩ : BufTy).Contents (Elt F) → (⟨S50000x256, .f32⟩ : BufTy).Contents (Elt F)),
    StableHlo.binary main_v101 main_v105 main_v106 (mulf : (⟨S50000x256, .f32⟩ : BufTy).Contents (Elt F) → (⟨S50000x256, .f32⟩ : BufTy).Contents (Elt F) → (⟨S50000x256, .f32⟩ : BufTy).Contents (Elt F)),
    StableHlo.unary main_arg8 main_v107 ((extractStridedSlice S1x256 ![1, 0] · slices_S3x256_S1x256_1_0) : (⟨S3x256, .f32⟩ : BufTy).Contents (Elt F) → (⟨S1x256, .f32⟩ : BufTy).Contents (Elt F)),
    StableHlo.reshape main_v107 main_v108 rfl shapeCasts_S1x256_S256,
    StableHlo.unary main_v108 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S50000x256 ![0, 1] bcast_S1x256_S50000x256_0_1 : (⟨S1x256, .f32⟩ : BufTy).Contents (Elt F) → (⟨S50000x256, .f32⟩ : BufTy).Contents (Elt F)),
    StableHlo.binary main_v106 main_v110 main_v111 (addf : (⟨S50000x256, .f32⟩ : BufTy).Contents (Elt F) → (⟨S50000x256, .f32⟩ : BufTy).Contents (Elt F) → (⟨S50000x256, .f32⟩ : BufTy).Contents (Elt F)) ]

/-- The senders normalised: a negative index has the node count added (layer 3's own copy of this computation). -/
abbrev c_src3 : List (HloOp τ sig (Elt F)) :=
  [ StableHlo.nullary main_c_16 (constantI S_ 32 0#32),
    StableHlo.unary main_c_16 main_v112 (broadcastInDim S800000 ![] bcast_S_S800000 : (⟨S_, .i32⟩ : BufTy).Contents (Elt F) → (⟨S800000, .i32⟩ : BufTy).Contents (Elt F)),
    StableHlo.binary main_v1 main_v112 main_v113 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v114 (broadcastInDim S800000 ![] bcast_S_S800000 : (⟨S_, .i32⟩ : BufTy).Contents (Elt F) → (⟨S800000, .i32⟩ : BufTy).Contents (Elt F)),
    StableHlo.binary main_v1 main_v114 main_v115 (addi : (⟨S800000, .i32⟩ : BufTy).Contents (Elt F) → (⟨S800000, .i32⟩ : BufTy).Contents (Elt F) → (⟨S800000, .i32⟩ : BufTy).Contents (Elt F)),
    StableHlo.ternary main_v113 main_v115 main_v1 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ]

/-- The aggregation of layer 3: the rows of the layer's input gathered at the senders and summed into a zero array at the targets. -/
abbrev c_agg3 : List (HloOp τ sig (Elt F)) :=
  [ StableHlo.unary main_v116 main_v117 (broadcastInDim S800000x1 ![0] bcast_S800000_S800000x1_0 : (⟨S800000, .i32⟩ : BufTy).Contents (Elt F) → (⟨S800000x1, .i32⟩ : BufTy).Contents (Elt F)),
    StableHlo.binary main_v111 main_v117 main_v118 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_18 (constant S_ .f32 0x00000000#32),
    StableHlo.unary main_cst_18 main_v119 (broadcastInDim S50000x256 ![] bcast_S_S50000x256 : (⟨S_, .f32⟩ : BufTy).Contents (Elt F) → (⟨S50000x256, .f32⟩ : BufTy).Contents (Elt F)),
    StableHlo.unary main_v3 main_v120 (broadcastInDim S800000x1 ![0] bcast_S800000_S800000x1_0 : (⟨S800000, .i32⟩ : BufTy).Contents (Elt F) → (⟨S800000x1, .i32⟩ : BufTy).Contents (Elt F)),
    StableHlo.ternary main_v119 main_v120 main_v118 main_v121 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- The pre-norm activations of layer 3: input plus aggregation, through the two dense maps with their biases, a clamp at zero after each. -/
abbrev c_z3 : List (HloOp τ sig (Elt F)) :=
  [ StableHlo.binary main_v111 main_v121 main_v122 (addf : (⟨S50000x256, .f32⟩ : BufTy).Contents (Elt F) → (⟨S50000x256, .f32⟩ : BufTy).Contents (Elt F) → (⟨S50000x256, .f32⟩ : BufTy).Contents (Elt F)),
    StableHlo.unary main_arg3 main_v123 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v123 main_v124 rfl shapeCasts_S1x256x256_S256x256,
    StableHlo.binary main_v122 main_v124 main_v125 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg4 main_v126 ((extractStridedSlice S1x256 ![2, 0] · slices_S3x256_S1x256_2_0) : (⟨S3x256, .f32⟩ : BufTy).Contents (Elt F) → (⟨S1x256, .f32⟩ : BufTy).Contents (Elt F)),
    StableHlo.reshape main_v126 main_v127 rfl shapeCasts_S1x256_S256,
    StableHlo.unary main_v127 main_v128 (broadcastInDim S1x256 ![1] bcast_S256_S1x256_1 : (⟨S256, .f32⟩ : BufTy).Contents (Elt F) → (⟨S1x256, .f32⟩ : BufTy).Contents (Elt F)),
    StableHlo.unary main_v128 main_v129 (broadcastInDim S50000x256 ![0, 1] bcast_S1x256_S50000x256_0_1 : (⟨S1x256, .f32⟩ : BufTy).Contents (Elt F) → (⟨S50000x256, .f32⟩ : BufTy).Contents (Elt F)),
    StableHlo.binary main_v125 main_v129 main_v130 (addf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x00000000#32),
    StableHlo.unary main_cst_19 main_v131 (broadcastInDim S50000x256 ![] bcast_S_S50000x256 : (⟨S_, .f32⟩ : BufTy).Contents (Elt F) → (⟨S50000x256, .f32⟩ : BufTy).Contents (Elt F)),
    StableHlo.binary main_v130 main_v131 main_v132 (maximumf : (⟨S50000x256, .f32⟩ : BufTy).Contents (Elt F) → (⟨S50000x256, .f32⟩ : BufTy).Contents (Elt F) → (⟨S50000x256, .f32⟩ : BufTy).Contents (Elt F)),
    StableHlo.unary main_arg5 main_v133 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v133 main_v134 rfl shapeCasts_S1x256x256_S256x256,
    StableHlo.binary main_v132 main_v134 main_v135 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg6 main_v136 ((extractStridedSlice S1x256 ![2, 0] · slices_S3x256_S1x256_2_0) : (⟨S3x256, .f32⟩ : BufTy).Contents (Elt F) → (⟨S1x256, .f32⟩ : BufTy).Contents (Elt F)),
    StableHlo.reshape main_v136 main_v137 rfl shapeCasts_S1x256_S256,
    StableHlo.unary main_v137 main_v138 (broadcastInDim S1x256 ![1] bcast_S256_S1x256_1 : (⟨S256, .f32⟩ : BufTy).Contents (Elt F) → (⟨S1x256, .f32⟩ : BufTy).Contents (Elt F)),
    StableHlo.unary main_v138 main_v139 (broadcastInDim S50000x256 ![0, 1] bcast_S1x256_S50000x256_0_1 : (⟨S1x256, .f32⟩ : BufTy).Contents (Elt F) → (⟨S50000x256, .f32⟩ : BufTy).Contents (Elt F)),
    StableHlo.binary main_v135 main_v139 main_v140 (addf : (⟨S50000x256, .f32⟩ : BufTy).Contents (Elt F) → (⟨S50000x256, .f32⟩ : BufTy).Contents (Elt F) → (⟨S50000x256, .f32⟩ : BufTy).Contents (Elt F)),
    StableHlo.nullary main_cst_20 (constant S_ .f32 0x00000000#32),
    StableHlo.unary main_cst_20 main_v141 (broadcastInDim S50000x256 ![] bcast_S_S50000x256 : (⟨S_, .f32⟩ : BufTy).Contents (Elt F) → (⟨S50000x256, .f32⟩ : BufTy).Contents (Elt F)),
    StableHlo.binary main_v140 main_v141 main_v142 (maximumf : (⟨S50000x256, .f32⟩ : BufTy).Contents (Elt F) → (⟨S50000x256, .f32⟩ : BufTy).Contents (Elt F) → (⟨S50000x256, .f32⟩ : BufTy).Contents (Elt F)) ]

/-- The column mean of the pre-norm activations of layer 3: column sums divided by the row count. -/
abbrev c_mean3 : List (HloOp τ sig (Elt F)) :=
  [ StableHlo.nullary main_cst_21 (constant S_ .f32 0x00000000#32),
    StableHlo.binary main_v142 main_cst_21 main_v143 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_22 (constant S_ .f32 0x47435000#32),
    StableHlo.unary main_cst_22 main_v144 (broadcastInDim S256 ![] bcast_S_S256 : (⟨S_, .f32⟩ : BufTy).Contents (Elt F) → (⟨S256, .f32⟩ : BufTy).Contents (Elt F)),
    StableHlo.binary main_v143 main_v144 main_v145 (Host.divf : (⟨S256, .f32⟩ : BufTy).Contents (Elt F) → (⟨S256, .f32⟩ : BufTy).Contents (Elt F) → (⟨S256, .f32⟩ : BufTy).Contents (Elt F)) ]

/-- The column variance of the pre-norm activations of layer 3, as the variance function states it: centred squares summed, divided by the row count less the correction, kept where that normaliser is positive. -/
abbrev c_var3 : List (HloOp τ sig (Elt F)) :=
  [ StableHlo.nullary main_c_23 (constantI S_ 32 0#32),
    StableHlo.TRef.nullary main_call2.cst (constant S_ .f32 0x00000000#32),
    StableHlo.TRef.binary (TRef.of main_v142 : TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (TRef.of main_v142 : TRef sig ⟨S50000x256, .f32⟩) main_call2.v4 main_call2.v5 subf,
    StableHlo.TRef.binary main_call2.v5 main_call2.v5 main_call2.v6 mulf,
    StableHlo.TRef.unary (TRef.of main_c_23 : TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

/-- The layer output of layer 3, first lines: centring, the reciprocal root of variance plus epsilon, the scale row read. -/
abbrev c_out3a : List (HloOp τ sig (Elt F)) :=
  [ StableHlo.unary main_v145 main_v147 (broadcastInDim S1x256 ![1] bcast_S256_S1x256_1 : (⟨S256, .f32⟩ : BufTy).Contents (Elt F) → (⟨S1x256, .f32⟩ : BufTy).Contents (Elt F)),
    StableHlo.unary main_v147 main_v148 (broadcastInDim S50000x256 ![0, 1] bcast_S1x256_S50000x256_0_1 : (⟨S1x256, .f32⟩ : BufTy).Contents (Elt F) → (⟨S50000x256, .f32⟩ : BufTy).Contents (Elt F)),
    StableHlo.binary main_v142 main_v148 main_v149 (subf : (⟨S50000x256, .f32⟩ : BufTy).Contents (Elt F) → (⟨S50000x256, .f32⟩ : BufTy).Contents (Elt F) → (⟨S50000x256, .f32⟩ : BufTy).Contents (Elt F)),
    StableHlo.nullary main_cst_24 (constant S_ .f32 0x3727C5AC#32),
    StableHlo.unary main_cst_24 main_v150 (broadcastInDim S256 ![] bcast_S_S256 : (⟨S_, .f32⟩ : BufTy).Contents (Elt F) → (⟨S256, .f32⟩ : BufTy).Contents (Elt F)),
    StableHlo.binary main_v146 main_v150 main_v151 (addf : (⟨S256, .f32⟩ : BufTy).Contents (Elt F) → (⟨S256, .f32⟩ : BufTy).Contents (Elt F) → (⟨S256, .f32⟩ : BufTy).Contents (Elt F)),
    StableHlo.unary main_v151 main_v152 (Host.rsqrt : (⟨S256, .f32⟩ : BufTy).Contents (Elt F) → (⟨S256, .f32⟩ : BufTy).Contents (Elt F)) ]

/-- The layer output of layer 3, remaining lines: scaling, the shift row, the sum. -/
abbrev c_out3b : List (HloOp τ sig (Elt F)) :=
  [ StableHlo.unary main_v152 main_v153 (broadcastInDim S1x256 ![1] bcast_S256_S1x256_1 : (⟨S256, .f32⟩ : BufTy).Contents (Elt F) → (⟨S1x256, .f32⟩ : BufTy).Contents (Elt F)),
    StableHlo.unary main_v153 main_v154 (broadcastInDim S50000x256 ![0, 1] bcast_S1x256_S50000x256_0_1 : (⟨S1x256, .f32⟩ : BufTy).Contents (Elt F) → (⟨S50000x256, .f32⟩ : BufTy).Contents (Elt F)),
    StableHlo.binary main_v149 main_v154 main_v155 (mulf : (⟨S50000x256, .f32⟩ : BufTy).Contents (Elt F) → (⟨S50000x256, .f32⟩ : BufTy).Contents (Elt F) → (⟨S50000x256, .f32⟩ : BufTy).Contents (Elt F)),
    StableHlo.unary main_arg7 main_v156 ((extractStridedSlice S1x256 ![2, 0] · slices_S3x256_S1x256_2_0) : (⟨S3x256, .f32⟩ : BufTy).Contents (Elt F) → (⟨S1x256, .f32⟩ : BufTy).Contents (Elt F)),
    StableHlo.reshape main_v156 main_v157 rfl shapeCasts_S1x256_S256,
    StableHlo.unary main_v157 main_v158 (broadcastInDim S1x256 ![1] bcast_S256_S1x256_1 : (⟨S256, .f32⟩ : BufTy).Contents (Elt F) → (⟨S1x256, .f32⟩ : BufTy).Contents (Elt F)),
    StableHlo.unary main_v158 main_v159 (broadcastInDim S50000x256 ![0, 1] bcast_S1x256_S50000x256_0_1 : (⟨S1x256, .f32⟩ : BufTy).Contents (Elt F) → (⟨S50000x256, .f32⟩ : BufTy).Contents (Elt F)),
    StableHlo.binary main_v155 main_v159 main_v160 (mulf : (⟨S50000x256, .f32⟩ : BufTy).Contents (Elt F) → (⟨S50000x256, .f32⟩ : BufTy).Contents (Elt F) → (⟨S50000x256, .f32⟩ : BufTy).Contents (Elt F)),
    StableHlo.unary main_arg8 main_v161 ((extractStridedSlice S1x256 ![2, 0] · slices_S3x256_S1x256_2_0) : (⟨S3x256, .f32⟩ : BufTy).Contents (Elt F) → (⟨S1x256, .f32⟩ : BufTy).Contents (Elt F)),
    StableHlo.reshape main_v161 main_v162 rfl shapeCasts_S1x256_S256,
    StableHlo.unary main_v162 main_v163 (broadcastInDim S1x256 ![1] bcast_S256_S1x256_1 : (⟨S256, .f32⟩ : BufTy).Contents (Elt F) → (⟨S1x256, .f32⟩ : BufTy).Contents (Elt F)),
    StableHlo.unary main_v163 main_v164 (broadcastInDim S50000x256 ![0, 1] bcast_S1x256_S50000x256_0_1 : (⟨S1x256, .f32⟩ : BufTy).Contents (Elt F) → (⟨S50000x256, .f32⟩ : BufTy).Contents (Elt F)),
    StableHlo.binary main_v160 main_v164 main_v165 (addf : (⟨S50000x256, .f32⟩ : BufTy).Contents (Elt F) → (⟨S50000x256, .f32⟩ : BufTy).Contents (Elt F) → (⟨S50000x256, .f32⟩ : BufTy).Contents (Elt F)) ]

/-- The pooled sums of the three layer outputs by graph and their concatenation along columns. -/
abbrev c_pool : List (HloOp τ sig (Elt F)) :=
  [ StableHlo.nullary main_cst_25 (constant S_ .f32 0x00000000#32),
    StableHlo.unary main_cst_25 main_v166 (broadcastInDim S256x256 ![] bcast_S_S256x256 : (⟨S_, .f32⟩ : BufTy).Contents (Elt F) → (⟨S256x256, .f32⟩ : BufTy).Contents (Elt F)),
    StableHlo.unary main_arg2 main_v167 (broadcastInDim S50000x1 ![0] bcast_S50000_S50000x1_0 : (⟨S50000, .i32⟩ : BufTy).Contents (Elt F) → (⟨S50000x1, .i32⟩ : BufTy).Contents (Elt F)),
    StableHlo.ternary main_v166 main_v167 main_v57 main_v168 ((fun x i u => Host.scatterAdd scatter_S256x256_S50000x1_S50000x256_1_0_0_1 x i u) : (⟨S256x256, .f32⟩ : BufTy).Contents (Elt F) → (⟨S50000x1, .i32⟩ : BufTy).Contents (Elt F) → (⟨S50000x256, .f32⟩ : BufTy).Contents (Elt F) → (⟨S256x256, .f32⟩ : BufTy).Contents (Elt F)),
    StableHlo.nullary main_cst_26 (constant S_ .f32 0x00000000#32),
    StableHlo.unary main_cst_26 main_v169 (broadcastInDim S256x256 ![] bcast_S_S256x256 : (⟨S_, .f32⟩ : BufTy).Contents (Elt F) → (⟨S256x256, .f32⟩ : BufTy).Contents (Elt F)),
    StableHlo.unary main_arg2 main_v170 (broadcastInDim S50000x1 ![0] bcast_S50000_S50000x1_0 : (⟨S50000, .i32⟩ : BufTy).Contents (Elt F) → (⟨S50000x1, .i32⟩ : BufTy).Contents (Elt F)),
    StableHlo.ternary main_v169 main_v170 main_v111 main_v171 ((fun x i u => Host.scatterAdd scatter_S256x256_S50000x1_S50000x256_1_0_0_1 x i u) : (⟨S256x256, .f32⟩ : BufTy).Contents (Elt F) → (⟨S50000x1, .i32⟩ : BufTy).Contents (Elt F) → (⟨S50000x256, .f32⟩ : BufTy).Contents (Elt F) → (⟨S256x256, .f32⟩ : BufTy).Contents (Elt F)),
    StableHlo.nullary main_cst_27 (constant S_ .f32 0x00000000#32),
    StableHlo.unary main_cst_27 main_v172 (broadcastInDim S256x256 ![] bcast_S_S256x256 : (⟨S_, .f32⟩ : BufTy).Contents (Elt F) → (⟨S256x256, .f32⟩ : BufTy).Contents (Elt F)),
    StableHlo.unary main_arg2 main_v173 (broadcastInDim S50000x1 ![0] bcast_S50000_S50000x1_0 : (⟨S50000, .i32⟩ : BufTy).Contents (Elt F) → (⟨S50000x1, .i32⟩ : BufTy).Contents (Elt F)),
    StableHlo.ternary main_v172 main_v173 main_v165 main_v174 ((fun x i u => Host.scatterAdd scatter_S256x256_S50000x1_S50000x256_1_0_0_1 x i u) : (⟨S256x256, .f32⟩ : BufTy).Contents (Elt F) → (⟨S50000x1, .i32⟩ : BufTy).Contents (Elt F) → (⟨S50000x256, .f32⟩ : BufTy).Contents (Elt F) → (⟨S256x256, .f32⟩ : BufTy).Contents (Elt F)),
    StableHlo.nary ![main_v168, main_v171, main_v174] main_v175 (fun u => concatenate S256x768 1 [⟨S256x256, u 0⟩, ⟨S256x256, u 1⟩, ⟨S256x256, u 2⟩] concatenates_S256x256_S256x256_S256x256_S256x768_d1) ]

/-- The operations of the entry function's window 0. -/
abbrev ops0 : List (HloOp τ sig (Elt F)) :=
  c_idx ++ (c_src1 ++ (c_agg1 ++ (c_z1 ++ (c_mean1 ++ (c_var1 ++ (c_out1a))))))

/-- The operations of the entry function's window 1. -/
abbrev ops1 : List (HloOp τ sig (Elt F)) :=
  c_out1b ++ (c_src2 ++ (c_agg2 ++ (c_z2 ++ (c_mean2 ++ (c_var2 ++ (c_out2a))))))

/-- The operations of the entry function's window 2. -/
abbrev ops2 : List (HloOp τ sig (Elt F)) :=
  c_out2b ++ (c_src3 ++ (c_agg3 ++ (c_z3 ++ (c_mean3 ++ (c_var3 ++ (c_out3a))))))

/-- The operations of the entry function's window 3. -/
abbrev ops3 : List (HloOp τ sig (Elt F)) :=
  c_out3b ++ (c_pool)

/-- The entry function's operations, in order: the stages one after the other. -/
abbrev ops : List (HloOp τ sig (Elt F)) :=
  c_idx ++ (c_src1 ++ (c_agg1 ++ (c_z1 ++ (c_mean1 ++ (c_var1 ++ (c_out1a ++ (c_out1b ++ (c_src2 ++ (c_agg2 ++ (c_z2 ++ (c_mean2 ++ (c_var2 ++ (c_out2a ++ (c_out2b ++ (c_src3 ++ (c_agg3 ++ (c_z3 ++ (c_mean3 ++ (c_var3 ++ (c_out3a ++ (c_out3b ++ (c_pool))))))))))))))))))))))

set_option maxRecDepth 8192 in
set_option maxHeartbeats 4000000 in
/-- Window 0 is its operations run in order: the calls unfolded and sequencing reassociated, both sides are one chain of steps. -/
theorem part0_eq (c : Dev nD) : main_part0 (F := F) c = seq ops0 := by
  simp only [main_part0, fn_var.body, fn_where.body, seq_append, seq, bind_assoc, pure_bind]
  rfl

set_option maxRecDepth 8192 in
set_option maxHeartbeats 4000000 in
/-- Window 1 is its operations run in order: the calls unfolded and sequencing reassociated, both sides are one chain of steps. -/
theorem part1_eq (c : Dev nD) : main_part1 (F := F) c = seq ops1 := by
  simp only [main_part1, fn_var.body, fn_where.body, seq_append, seq, bind_assoc, pure_bind]
  rfl

set_option maxRecDepth 8192 in
set_option maxHeartbeats 4000000 in
/-- Window 2 is its operations run in order: the calls unfolded and sequencing reassociated, both sides are one chain of steps. -/
theorem part2_eq (c : Dev nD) : main_part2 (F := F) c = seq ops2 := by
  simp only [main_part2, fn_var.body, fn_where.body, seq_append, seq, bind_assoc, pure_bind]
  rfl

set_option maxRecDepth 8192 in
set_option maxHeartbeats 4000000 in
/-- Window 3 is its operations run in order: the calls unfolded and sequencing reassociated, both sides are one chain of steps. -/
theorem part3_eq (c : Dev nD) : main_part3 (F := F) c = seq ops3 := by
  simp only [main_part3, seq_append, seq, bind_assoc, pure_bind]

/-- The entry function is the whole list run in order. -/
theorem main_eq (c : Dev nD) : main (F := F) c = seq ops := by
  simp only [main, part0_eq, part1_eq, part2_eq, part3_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem c_idx_sub : (c_idx : List (HloOp τ sig (Elt F))).Forall fun op => op.bufs ⊆ tcRefs τ sig :=
  ⟨unary_bufs_sub .., reshape_bufs_sub .., unary_bufs_sub .., reshape_bufs_sub ..⟩

theorem c_src1_sub : (c_src1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

theorem c_agg1_sub : (c_agg1 : List (HloOp τ sig (Elt F))).Forall fun op => op.bufs ⊆ tcRefs τ sig :=
  ⟨unary_bufs_sub .., binary_bufs_sub .., nullary_bufs_sub .., unary_bufs_sub .., unary_bufs_sub .., ternary_bufs_sub ..⟩

theorem c_z1_sub : (c_z1 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem c_mean1_sub : (c_mean1 : List (HloOp τ sig (Elt F))).Forall fun op => op.bufs ⊆ tcRefs τ sig :=
  ⟨nullary_bufs_sub .., binary_bufs_sub .., nullary_bufs_sub .., unary_bufs_sub .., binary_bufs_sub ..⟩

theorem c_var1_sub : (c_var1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem c_out1a_sub : (c_out1a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub ..⟩

theorem c_out1b_sub : (c_out1b : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub ..⟩

theorem c_src2_sub : (c_src2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

theorem c_agg2_sub : (c_agg2 : List (HloOp τ sig (Elt F))).Forall fun op => op.bufs ⊆ tcRefs τ sig :=
  ⟨unary_bufs_sub .., binary_bufs_sub .., nullary_bufs_sub .., unary_bufs_sub .., unary_bufs_sub .., ternary_bufs_sub ..⟩

theorem c_z2_sub : (c_z2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem c_mean2_sub : (c_mean2 : List (HloOp τ sig (Elt F))).Forall fun op => op.bufs ⊆ tcRefs τ sig :=
  ⟨nullary_bufs_sub .., binary_bufs_sub .., nullary_bufs_sub .., unary_bufs_sub .., binary_bufs_sub ..⟩

theorem c_var2_sub : (c_var2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem c_out2a_sub : (c_out2a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub ..⟩

theorem c_out2b_sub : (c_out2b : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub ..⟩

theorem c_src3_sub : (c_src3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

theorem c_agg3_sub : (c_agg3 : List (HloOp τ sig (Elt F))).Forall fun op => op.bufs ⊆ tcRefs τ sig :=
  ⟨unary_bufs_sub .., binary_bufs_sub .., nullary_bufs_sub .., unary_bufs_sub .., unary_bufs_sub .., ternary_bufs_sub ..⟩

theorem c_z3_sub : (c_z3 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem c_mean3_sub : (c_mean3 : List (HloOp τ sig (Elt F))).Forall fun op => op.bufs ⊆ tcRefs τ sig :=
  ⟨nullary_bufs_sub .., binary_bufs_sub .., nullary_bufs_sub .., unary_bufs_sub .., binary_bufs_sub ..⟩

theorem c_var3_sub : (c_var3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem c_out3a_sub : (c_out3a : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub ..⟩

theorem c_out3b_sub : (c_out3b : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

theorem c_pool_sub : (c_pool : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nary_bufs_sub ..⟩

/-- Every operation touches buffers of the core only. -/
theorem ops_sub : (ops : List (HloOp τ sig (Elt F))).Forall fun op => op.bufs ⊆ tcRefs τ sig :=
  List.forall_append.mpr ⟨c_idx_sub, List.forall_append.mpr ⟨c_src1_sub, List.forall_append.mpr ⟨c_agg1_sub, List.forall_append.mpr ⟨c_z1_sub, List.forall_append.mpr ⟨c_mean1_sub, List.forall_append.mpr ⟨c_var1_sub, List.forall_append.mpr ⟨c_out1a_sub, List.forall_append.mpr ⟨c_out1b_sub, List.forall_append.mpr ⟨c_src2_sub, List.forall_append.mpr ⟨c_agg2_sub, List.forall_append.mpr ⟨c_z2_sub, List.forall_append.mpr ⟨c_mean2_sub, List.forall_append.mpr ⟨c_var2_sub, List.forall_append.mpr ⟨c_out2a_sub, List.forall_append.mpr ⟨c_out2b_sub, List.forall_append.mpr ⟨c_src3_sub, List.forall_append.mpr ⟨c_agg3_sub, List.forall_append.mpr ⟨c_z3_sub, List.forall_append.mpr ⟨c_mean3_sub, List.forall_append.mpr ⟨c_var3_sub, List.forall_append.mpr ⟨c_out3a_sub, List.forall_append.mpr ⟨c_out3b_sub, c_pool_sub⟩⟩⟩⟩⟩⟩⟩⟩⟩⟩⟩⟩⟩⟩⟩⟩⟩⟩⟩⟩⟩⟩

end Cert.ReferenceIdeal.Hand

end
-- ==== Proof.Ref.Run.lean ====
/-
  The reference program's run.

  The entry function is a straight line of tensor operations on buffers that are never scoped, so from any memory
  every fair execution ends, and each buffer then holds the fold of the operations' results over what the memory held
  at the start.  Every operation writes one buffer, its result's, and no result buffer is an argument's: the arguments
  end as they began.
-/
import proofs.«130186_j80642305950442_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096

/-! ## Folding in pieces

The contents of the buffers after a list of operations is a fold over the list.  The fold over a concatenation is the
fold over the second list started from the fold over the first; a list writes only the result buffers of its
operations, so a buffer none of them writes is left as it was. -/

section Fold

variable {τ' : Topo} {sig' : RefSig} {Val : EltTy → Type}

/-- The fold over a concatenation: the second list from where the first ends. -/
theorem after_append (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- A single result buffer that is in a list of references lies in the set of that list's buffers. -/
theorem writes_single {W : List (Ref sig' .tc)} {y : Ref sig' .tc} (h : y ∈ W) :
    ({Proc.devRef (τ := τ') .tc y} : Finset (DevRef τ' sig')) ⊆ (W.map (Proc.devRef (τ := τ') .tc)).toFinset :=
  Finset.singleton_subset_iff.mpr (List.mem_toFinset.mpr (List.mem_map_of_mem h))

/-- If each of two lists writes only within its own list of references, their concatenation writes only within the
    concatenation of the two. -/
theorem writes_append {l₁ l₂ : List (HloOp τ' sig' Val)} {W₁ W₂ : List (Ref sig' .tc)}
    (h₁ : l₁.Forall fun op => op.writes ⊆ (W₁.map (Proc.devRef (τ := τ') .tc)).toFinset)
    (h₂ : l₂.Forall fun op => op.writes ⊆ (W₂.map (Proc.devRef (τ := τ') .tc)).toFinset) :
    (l₁ ++ l₂).Forall fun op => op.writes ⊆ ((W₁ ++ W₂).map (Proc.devRef (τ := τ') .tc)).toFinset := by
  refine List.forall_append.mpr ⟨List.Forall.imp (fun op h => h.trans ?_) h₁, List.Forall.imp (fun op h => h.trans ?_) h₂⟩
  · intro b hb
    rw [List.map_append, List.toFinset_append, Finset.mem_union]
    exact Or.inl hb
  · intro b hb
    rw [List.map_append, List.toFinset_append, Finset.mem_union]
    exact Or.inr hb

/-- In a list cut in two, a buffer the second part does not write holds what the first part leaves. -/
theorem after_pre {pre rest : List (HloOp τ' sig' Val)} {W : List (Ref sig' .tc)} (V : Valuation τ' sig' Val) (r : Ref sig' .tc)
    (hrest : rest.Forall fun op => op.writes ⊆ (W.map (Proc.devRef (τ := τ') .tc)).toFinset) (hr : r ∉ W) :
    after (pre ++ rest) V (Proc.devRef .tc r) = after pre V (Proc.devRef .tc r) := by
  rw [after_append, after_of_writes_sub rest _ hrest hr]

/-- In a list cut in three, a buffer the last part does not write holds what the middle part leaves, started from
    what the first part leaves. -/
theorem after_mid {pre mid post : List (HloOp τ' sig' Val)} {W : List (Ref sig' .tc)} (V : Valuation τ' sig' Val) (r : Ref sig' .tc)
    (hpost : post.Forall fun op => op.writes ⊆ (W.map (Proc.devRef (τ := τ') .tc)).toFinset) (hr : r ∉ W) :
    after (pre ++ (mid ++ post)) V (Proc.devRef .tc r) = after mid (after pre V) (Proc.devRef .tc r) := by
  rw [after_append, after_append, after_of_writes_sub post _ hpost hr]

end Fold

/-! ## What the stages write -/

/-- The buffers stage `c_idx` writes: one per operation, its result's. -/
abbrev W_idx : List (Ref sig .tc) := [main_v0, main_v1, main_v2, main_v3]
theorem c_idx_writes : (c_idx : List (HloOp τ sig (Elt F))).Forall fun op => op.writes ⊆ (W_idx.map (Proc.devRef (τ := τ) .tc)).toFinset :=
  ⟨writes_single (by decide), writes_single (by decide), writes_single (by decide), writes_single (by decide)⟩
theorem c_idx_fresh : (c_idx : List (HloOp τ sig (Elt F))).Forall fun op => op.fresh = ∅ := by
  simp only [List.Forall]; repeat' constructor

/-- The buffers stage `c_src1` writes: one per operation, its result's. -/
abbrev W_src1 : List (Ref sig .tc) := [main_c, main_v4, main_v5, main_c_0, main_v6, main_v7, main_v8]
theorem c_src1_writes : (c_src1 : List (HloOp τ sig (Elt F))).Forall fun op => op.writes ⊆ (W_src1.map (Proc.devRef (τ := τ) .tc)).toFinset :=
  ⟨writes_single (by decide), writes_single (by decide), writes_single (by decide), writes_single (by decide), writes_single (by decide), writes_single (by decide), writes_single (by decide)⟩
theorem c_src1_fresh : (c_src1 : List (HloOp τ sig (Elt F))).Forall fun op => op.fresh = ∅ := by
  simp only [List.Forall]; repeat' constructor

/-- The buffers stage `c_agg1` writes: one per operation, its result's. -/
abbrev W_agg1 : List (Ref sig .tc) := [main_v9, main_v10, main_cst, main_v11, main_v12, main_v13]
theorem c_agg1_writes : (c_agg1 : List (HloOp τ sig (Elt F))).Forall fun op => op.writes ⊆ (W_agg1.map (Proc.devRef (τ := τ) .tc)).toFinset :=
  ⟨writes_single (by decide), writes_single (by decide), writes_single (by decide), writes_single (by decide), writes_single (by decide), writes_single (by decide)⟩
theorem c_agg1_fresh : (c_agg1 : List (HloOp τ sig (Elt F))).Forall fun op => op.fresh = ∅ := by
  simp only [List.Forall]; repeat' constructor

/-- The buffers stage `c_z1` writes: one per operation, its result's. -/
abbrev W_z1 : List (Ref sig .tc) := [main_v14, main_v15, main_v16, main_v17, main_v18, main_v19, main_v20, main_v21, main_v22, main_cst_1, main_v23, main_v24, main_v25, main_v26, main_v27, main_v28, main_v29, main_v30, main_v31, main_v32, main_cst_2, main_v33, main_v34]
theorem c_z1_writes : (c_z1 : List (HloOp τ sig (Elt F))).Forall fun op => op.writes ⊆ (W_z1.map (Proc.devRef (τ := τ) .tc)).toFinset :=
  ⟨writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide)⟩
theorem c_z1_fresh : (c_z1 : List (HloOp τ sig (Elt F))).Forall fun op => op.fresh = ∅ := by
  simp only [List.Forall]; repeat' constructor

/-- The buffers stage `c_mean1` writes: one per operation, its result's. -/
abbrev W_mean1 : List (Ref sig .tc) := [main_cst_3, main_v35, main_cst_4, main_v36, main_v37]
theorem c_mean1_writes : (c_mean1 : List (HloOp τ sig (Elt F))).Forall fun op => op.writes ⊆ (W_mean1.map (Proc.devRef (τ := τ) .tc)).toFinset :=
  ⟨writes_single (by decide), writes_single (by decide), writes_single (by decide), writes_single (by decide), writes_single (by decide)⟩
theorem c_mean1_fresh : (c_mean1 : List (HloOp τ sig (Elt F))).Forall fun op => op.fresh = ∅ := by
  simp only [List.Forall]; repeat' constructor

/-- The buffers stage `c_var1` writes: one per operation, its result's. -/
abbrev W_var1 : List (Ref sig .tc) := [main_c_5, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v38]
theorem c_var1_writes : (c_var1 : List (HloOp τ sig (Elt F))).Forall fun op => op.writes ⊆ (W_var1.map (Proc.devRef (τ := τ) .tc)).toFinset :=
  ⟨writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide)⟩
theorem c_var1_fresh : (c_var1 : List (HloOp τ sig (Elt F))).Forall fun op => op.fresh = ∅ := by
  simp only [List.Forall]; repeat' constructor

/-- The buffers stage `c_out1a` writes: one per operation, its result's. -/
abbrev W_out1a : List (Ref sig .tc) := [main_v39, main_v40, main_v41, main_cst_6, main_v42, main_v43, main_v44, main_v45, main_v46, main_v47, main_v48, main_v49, main_v50]
theorem c_out1a_writes : (c_out1a : List (HloOp τ sig (Elt F))).Forall fun op => op.writes ⊆ (W_out1a.map (Proc.devRef (τ := τ) .tc)).toFinset :=
  ⟨writes_single (by decide), writes_single (by decide), writes_single (by decide), writes_single (by decide), writes_single (by decide), writes_single (by decide), writes_single (by decide), writes_single (by decide), writes_single (by decide), writes_single (by decide), writes_single (by decide), writes_single (by decide), writes_single (by decide)⟩
theorem c_out1a_fresh : (c_out1a : List (HloOp τ sig (Elt F))).Forall fun op => op.fresh = ∅ := by
  simp only [List.Forall]; repeat' constructor

/-- The buffers stage `c_out1b` writes: one per operation, its result's. -/
abbrev W_out1b : List (Ref sig .tc) := [main_v51, main_v52, main_v53, main_v54, main_v55, main_v56, main_v57]
theorem c_out1b_writes : (c_out1b : List (HloOp τ sig (Elt F))).Forall fun op => op.writes ⊆ (W_out1b.map (Proc.devRef (τ := τ) .tc)).toFinset :=
  ⟨writes_single (by decide), writes_single (by decide), writes_single (by decide), writes_single (by decide), writes_single (by decide), writes_single (by decide), writes_single (by decide)⟩
theorem c_out1b_fresh : (c_out1b : List (HloOp τ sig (Elt F))).Forall fun op => op.fresh = ∅ := by
  simp only [List.Forall]; repeat' constructor

/-- The buffers stage `c_src2` writes: one per operation, its result's. -/
abbrev W_src2 : List (Ref sig .tc) := [main_c_7, main_v58, main_v59, main_c_8, main_v60, main_v61, main_v62]
theorem c_src2_writes : (c_src2 : List (HloOp τ sig (Elt F))).Forall fun op => op.writes ⊆ (W_src2.map (Proc.devRef (τ := τ) .tc)).toFinset :=
  ⟨writes_single (by decide), writes_single (by decide), writes_single (by decide), writes_single (by decide), writes_single (by decide), writes_single (by decide), writes_single (by decide)⟩
theorem c_src2_fresh : (c_src2 : List (HloOp τ sig (Elt F))).Forall fun op => op.fresh = ∅ := by
  simp only [List.Forall]; repeat' constructor

/-- The buffers stage `c_agg2` writes: one per operation, its result's. -/
abbrev W_agg2 : List (Ref sig .tc) := [main_v63, main_v64, main_cst_9, main_v65, main_v66, main_v67]
theorem c_agg2_writes : (c_agg2 : List (HloOp τ sig (Elt F))).Forall fun op => op.writes ⊆ (W_agg2.map (Proc.devRef (τ := τ) .tc)).toFinset :=
  ⟨writes_single (by decide), writes_single (by decide), writes_single (by decide), writes_single (by decide), writes_single (by decide), writes_single (by decide)⟩
theorem c_agg2_fresh : (c_agg2 : List (HloOp τ sig (Elt F))).Forall fun op => op.fresh = ∅ := by
  simp only [List.Forall]; repeat' constructor

/-- The buffers stage `c_z2` writes: one per operation, its result's. -/
abbrev W_z2 : List (Ref sig .tc) := [main_v68, main_v69, main_v70, main_v71, main_v72, main_v73, main_v74, main_v75, main_v76, main_cst_10, main_v77, main_v78, main_v79, main_v80, main_v81, main_v82, main_v83, main_v84, main_v85, main_v86, main_cst_11, main_v87, main_v88]
theorem c_z2_writes : (c_z2 : List (HloOp τ sig (Elt F))).Forall fun op => op.writes ⊆ (W_z2.map (Proc.devRef (τ := τ) .tc)).toFinset :=
  ⟨writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide)⟩
theorem c_z2_fresh : (c_z2 : List (HloOp τ sig (Elt F))).Forall fun op => op.fresh = ∅ := by
  simp only [List.Forall]; repeat' constructor

/-- The buffers stage `c_mean2` writes: one per operation, its result's. -/
abbrev W_mean2 : List (Ref sig .tc) := [main_cst_12, main_v89, main_cst_13, main_v90, main_v91]
theorem c_mean2_writes : (c_mean2 : List (HloOp τ sig (Elt F))).Forall fun op => op.writes ⊆ (W_mean2.map (Proc.devRef (τ := τ) .tc)).toFinset :=
  ⟨writes_single (by decide), writes_single (by decide), writes_single (by decide), writes_single (by decide), writes_single (by decide)⟩
theorem c_mean2_fresh : (c_mean2 : List (HloOp τ sig (Elt F))).Forall fun op => op.fresh = ∅ := by
  simp only [List.Forall]; repeat' constructor

/-- The buffers stage `c_var2` writes: one per operation, its result's. -/
abbrev W_var2 : List (Ref sig .tc) := [main_c_14, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v92]
theorem c_var2_writes : (c_var2 : List (HloOp τ sig (Elt F))).Forall fun op => op.writes ⊆ (W_var2.map (Proc.devRef (τ := τ) .tc)).toFinset :=
  ⟨writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide)⟩
theorem c_var2_fresh : (c_var2 : List (HloOp τ sig (Elt F))).Forall fun op => op.fresh = ∅ := by
  simp only [List.Forall]; repeat' constructor

/-- The buffers stage `c_out2a` writes: one per operation, its result's. -/
abbrev W_out2a : List (Ref sig .tc) := [main_v93, main_v94, main_v95, main_cst_15, main_v96, main_v97, main_v98, main_v99, main_v100, main_v101]
theorem c_out2a_writes : (c_out2a : List (HloOp τ sig (Elt F))).Forall fun op => op.writes ⊆ (W_out2a.map (Proc.devRef (τ := τ) .tc)).toFinset :=
  ⟨writes_single (by decide), writes_single (by decide), writes_single (by decide), writes_single (by decide), writes_single (by decide), writes_single (by decide), writes_single (by decide), writes_single (by decide), writes_single (by decide), writes_single (by decide)⟩
theorem c_out2a_fresh : (c_out2a : List (HloOp τ sig (Elt F))).Forall fun op => op.fresh = ∅ := by
  simp only [List.Forall]; repeat' constructor

/-- The buffers stage `c_out2b` writes: one per operation, its result's. -/
abbrev W_out2b : List (Ref sig .tc) := [main_v102, main_v103, main_v104, main_v105, main_v106, main_v107, main_v108, main_v109, main_v110, main_v111]
theorem c_out2b_writes : (c_out2b : List (HloOp τ sig (Elt F))).Forall fun op => op.writes ⊆ (W_out2b.map (Proc.devRef (τ := τ) .tc)).toFinset :=
  ⟨writes_single (by decide), writes_single (by decide), writes_single (by decide), writes_single (by decide), writes_single (by decide), writes_single (by decide), writes_single (by decide), writes_single (by decide), writes_single (by decide), writes_single (by decide)⟩
theorem c_out2b_fresh : (c_out2b : List (HloOp τ sig (Elt F))).Forall fun op => op.fresh = ∅ := by
  simp only [List.Forall]; repeat' constructor

/-- The buffers stage `c_src3` writes: one per operation, its result's. -/
abbrev W_src3 : List (Ref sig .tc) := [main_c_16, main_v112, main_v113, main_c_17, main_v114, main_v115, main_v116]
theorem c_src3_writes : (c_src3 : List (HloOp τ sig (Elt F))).Forall fun op => op.writes ⊆ (W_src3.map (Proc.devRef (τ := τ) .tc)).toFinset :=
  ⟨writes_single (by decide), writes_single (by decide), writes_single (by decide), writes_single (by decide), writes_single (by decide), writes_single (by decide), writes_single (by decide)⟩
theorem c_src3_fresh : (c_src3 : List (HloOp τ sig (Elt F))).Forall fun op => op.fresh = ∅ := by
  simp only [List.Forall]; repeat' constructor

/-- The buffers stage `c_agg3` writes: one per operation, its result's. -/
abbrev W_agg3 : List (Ref sig .tc) := [main_v117, main_v118, main_cst_18, main_v119, main_v120, main_v121]
theorem c_agg3_writes : (c_agg3 : List (HloOp τ sig (Elt F))).Forall fun op => op.writes ⊆ (W_agg3.map (Proc.devRef (τ := τ) .tc)).toFinset :=
  ⟨writes_single (by decide), writes_single (by decide), writes_single (by decide), writes_single (by decide), writes_single (by decide), writes_single (by decide)⟩
theorem c_agg3_fresh : (c_agg3 : List (HloOp τ sig (Elt F))).Forall fun op => op.fresh = ∅ := by
  simp only [List.Forall]; repeat' constructor

/-- The buffers stage `c_z3` writes: one per operation, its result's. -/
abbrev W_z3 : List (Ref sig .tc) := [main_v122, main_v123, main_v124, main_v125, main_v126, main_v127, main_v128, main_v129, main_v130, main_cst_19, main_v131, main_v132, main_v133, main_v134, main_v135, main_v136, main_v137, main_v138, main_v139, main_v140, main_cst_20, main_v141, main_v142]
theorem c_z3_writes : (c_z3 : List (HloOp τ sig (Elt F))).Forall fun op => op.writes ⊆ (W_z3.map (Proc.devRef (τ := τ) .tc)).toFinset :=
  ⟨writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide)⟩
theorem c_z3_fresh : (c_z3 : List (HloOp τ sig (Elt F))).Forall fun op => op.fresh = ∅ := by
  simp only [List.Forall]; repeat' constructor

/-- The buffers stage `c_mean3` writes: one per operation, its result's. -/
abbrev W_mean3 : List (Ref sig .tc) := [main_cst_21, main_v143, main_cst_22, main_v144, main_v145]
theorem c_mean3_writes : (c_mean3 : List (HloOp τ sig (Elt F))).Forall fun op => op.writes ⊆ (W_mean3.map (Proc.devRef (τ := τ) .tc)).toFinset :=
  ⟨writes_single (by decide), writes_single (by decide), writes_single (by decide), writes_single (by decide), writes_single (by decide)⟩
theorem c_mean3_fresh : (c_mean3 : List (HloOp τ sig (Elt F))).Forall fun op => op.fresh = ∅ := by
  simp only [List.Forall]; repeat' constructor

/-- The buffers stage `c_var3` writes: one per operation, its result's. -/
abbrev W_var3 : List (Ref sig .tc) := [main_c_23, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v146]
theorem c_var3_writes : (c_var3 : List (HloOp τ sig (Elt F))).Forall fun op => op.writes ⊆ (W_var3.map (Proc.devRef (τ := τ) .tc)).toFinset :=
  ⟨writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide), writes_single (by decide)⟩
theorem c_var3_fresh : (c_var3 : List (HloOp τ sig (Elt F))).Forall fun op => op.fresh = ∅ := by
  simp only [List.Forall]; repeat' constructor

/-- The buffers stage `c_out3a` writes: one per operation, its result's. -/
abbrev W_out3a : List (Ref sig .tc) := [main_v147, main_v148, main_v149, main_cst_24, main_v150, main_v151, main_v152]
theorem c_out3a_writes : (c_out3a : List (HloOp τ sig (Elt F))).Forall fun op => op.writes ⊆ (W_out3a.map (Proc.devRef (τ := τ) .tc)).toFinset :=
  ⟨writes_single (by decide), writes_single (by decide), writes_single (by decide), writes_single (by decide), writes_single (by decide), writes_single (by decide), writes_single (by decide)⟩
theorem c_out3a_fresh : (c_out3a : List (HloOp τ sig (Elt F))).Forall fun op => op.fresh = ∅ := by
  simp only [List.Forall]; repeat' constructor

/-- The buffers stage `c_out3b` writes: one per operation, its result's. -/
abbrev W_out3b : List (Ref sig .tc) := [main_v153, main_v154, main_v155, main_v156, main_v157, main_v158, main_v159, main_v160, main_v161, main_v162, main_v163, main_v164, main_v165]
theorem c_out3b_writes : (c_out3b : List (HloOp τ sig (Elt F))).Forall fun op => op.writes ⊆ (W_out3b.map (Proc.devRef (τ := τ) .tc)).toFinset :=
  ⟨writes_single (by decide), writes_single (by decide), writes_single (by decide), writes_single (by decide), writes_single (by decide), writes_single (by decide), writes_single (by decide), writes_single (by decide), writes_single (by decide), writes_single (by decide), writes_single (by decide), writes_single (by decide), writes_single (by decide)⟩
theorem c_out3b_fresh : (c_out3b : List (HloOp τ sig (Elt F))).Forall fun op => op.fresh = ∅ := by
  simp only [List.Forall]; repeat' constructor

/-- The buffers stage `c_pool` writes: one per operation, its result's. -/
abbrev W_pool : List (Ref sig .tc) := [main_cst_25, main_v166, main_v167, main_v168, main_cst_26, main_v169, main_v170, main_v171, main_cst_27, main_v172, main_v173, main_v174, main_v175]
theorem c_pool_writes : (c_pool : List (HloOp τ sig (Elt F))).Forall fun op => op.writes ⊆ (W_pool.map (Proc.devRef (τ := τ) .tc)).toFinset :=
  ⟨writes_single (by decide), writes_single (by decide), writes_single (by decide), writes_single (by decide), writes_single (by decide), writes_single (by decide), writes_single (by decide), writes_single (by decide), writes_single (by decide), writes_single (by decide), writes_single (by decide), writes_single (by decide), writes_single (by decide)⟩
theorem c_pool_fresh : (c_pool : List (HloOp τ sig (Elt F))).Forall fun op => op.fresh = ∅ := by
  simp only [List.Forall]; repeat' constructor

/-- Every buffer the program writes, in order. -/
abbrev W_all : List (Ref sig .tc) :=
  W_idx ++ (W_src1 ++ (W_agg1 ++ (W_z1 ++ (W_mean1 ++ (W_var1 ++ (W_out1a ++ (W_out1b ++ (W_src2 ++ (W_agg2 ++ (W_z2 ++ (W_mean2 ++ (W_var2 ++ (W_out2a ++ (W_out2b ++ (W_src3 ++ (W_agg3 ++ (W_z3 ++ (W_mean3 ++ (W_var3 ++ (W_out3a ++ (W_out3b ++ (W_pool))))))))))))))))))))))

theorem ops_writes : (ops : List (HloOp τ sig (Elt F))).Forall fun op => op.writes ⊆ (W_all.map (Proc.devRef (τ := τ) .tc)).toFinset :=
  writes_append c_idx_writes (writes_append c_src1_writes (writes_append c_agg1_writes (writes_append c_z1_writes (writes_append c_mean1_writes (writes_append c_var1_writes (writes_append c_out1a_writes (writes_append c_out1b_writes (writes_append c_src2_writes (writes_append c_agg2_writes (writes_append c_z2_writes (writes_append c_mean2_writes (writes_append c_var2_writes (writes_append c_out2a_writes (writes_append c_out2b_writes (writes_append c_src3_writes (writes_append c_agg3_writes (writes_append c_z3_writes (writes_append c_mean3_writes (writes_append c_var3_writes (writes_append c_out3a_writes (writes_append c_out3b_writes (c_pool_writes))))))))))))))))))))))

/-- Every operation determines its results. -/
theorem ops_fresh : (ops : List (HloOp τ sig (Elt F))).Forall fun op => op.fresh = ∅ :=
  List.forall_append.mpr ⟨c_idx_fresh, List.forall_append.mpr ⟨c_src1_fresh, List.forall_append.mpr ⟨c_agg1_fresh, List.forall_append.mpr ⟨c_z1_fresh, List.forall_append.mpr ⟨c_mean1_fresh, List.forall_append.mpr ⟨c_var1_fresh, List.forall_append.mpr ⟨c_out1a_fresh, List.forall_append.mpr ⟨c_out1b_fresh, List.forall_append.mpr ⟨c_src2_fresh, List.forall_append.mpr ⟨c_agg2_fresh, List.forall_append.mpr ⟨c_z2_fresh, List.forall_append.mpr ⟨c_mean2_fresh, List.forall_append.mpr ⟨c_var2_fresh, List.forall_append.mpr ⟨c_out2a_fresh, List.forall_append.mpr ⟨c_out2b_fresh, List.forall_append.mpr ⟨c_src3_fresh, List.forall_append.mpr ⟨c_agg3_fresh, List.forall_append.mpr ⟨c_z3_fresh, List.forall_append.mpr ⟨c_mean3_fresh, List.forall_append.mpr ⟨c_var3_fresh, List.forall_append.mpr ⟨c_out3a_fresh, List.forall_append.mpr ⟨c_out3b_fresh, c_pool_fresh⟩⟩⟩⟩⟩⟩⟩⟩⟩⟩⟩⟩⟩⟩⟩⟩⟩⟩⟩⟩⟩⟩

/-- From any memory with zero counters, every weakly fair execution of the entry function ends, and every buffer of
    the core then holds the fold of the operations over the memory's contents at the start. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- No operation writes argument 0. -/
theorem arg0_eq (V : Valuation τ sig (Elt F)) : after ops V (main_arg0 : DevRef τ sig) = V (main_arg0 : DevRef τ sig) :=
  after_of_writes_sub ops V ops_writes (by decide)

/-- No operation writes argument 1. -/
theorem arg1_eq (V : Valuation τ sig (Elt F)) : after ops V (main_arg1 : DevRef τ sig) = V (main_arg1 : DevRef τ sig) :=
  after_of_writes_sub ops V ops_writes (by decide)

/-- No operation writes argument 2. -/
theorem arg2_eq (V : Valuation τ sig (Elt F)) : after ops V (main_arg2 : DevRef τ sig) = V (main_arg2 : DevRef τ sig) :=
  after_of_writes_sub ops V ops_writes (by decide)

/-- No operation writes argument 3. -/
theorem arg3_eq (V : Valuation τ sig (Elt F)) : after ops V (main_arg3 : DevRef τ sig) = V (main_arg3 : DevRef τ sig) :=
  after_of_writes_sub ops V ops_writes (by decide)

/-- No operation writes argument 4. -/
theorem arg4_eq (V : Valuation τ sig (Elt F)) : after ops V (main_arg4 : DevRef τ sig) = V (main_arg4 : DevRef τ sig) :=
  after_of_writes_sub ops V ops_writes (by decide)

/-- No operation writes argument 5. -/
theorem arg5_eq (V : Valuation τ sig (Elt F)) : after ops V (main_arg5 : DevRef τ sig) = V (main_arg5 : DevRef τ sig) :=
  after_of_writes_sub ops V ops_writes (by decide)

/-- No operation writes argument 6. -/
theorem arg6_eq (V : Valuation τ sig (Elt F)) : after ops V (main_arg6 : DevRef τ sig) = V (main_arg6 : DevRef τ sig) :=
  after_of_writes_sub ops V ops_writes (by decide)

/-- No operation writes argument 7. -/
theorem arg7_eq (V : Valuation τ sig (Elt F)) : after ops V (main_arg7 : DevRef τ sig) = V (main_arg7 : DevRef τ sig) :=
  after_of_writes_sub ops V ops_writes (by decide)

/-- No operation writes argument 8. -/
theorem arg8_eq (V : Valuation τ sig (Elt F)) : after ops V (main_arg8 : DevRef τ sig) = V (main_arg8 : DevRef τ sig) :=
  after_of_writes_sub ops V ops_writes (by decide)

/-- Every execution of the entry function ends with each argument's buffer as the memory held it at the start. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_all m ρ)

end Cert.ReferenceIdeal.Hand

end
-- ==== Proof.Ref.Stages.lean ====
/-
  The reference program's result, stage by stage.

  After the whole list of operations has run, the buffer of each stage's result holds that stage's printed term of the
  buffers it reads, each of those read after the whole list too.  No equation here opens the fold beyond one stage: the
  list is cut at the stage, the buffers the stage reads are written before it and never again, its result is written in
  it and never again, and within the stage each operation's result is its function of its operands' contents.

  Stages: the edge table's two rows (senders `main_v1`, targets `main_v3`); per layer the normalised senders
  (`main_v8`, `main_v62`, `main_v116`), the aggregation (`main_v13`, `main_v67`, `main_v121`), the pre-norm activations
  (`main_v34`, `main_v88`, `main_v142`), their column mean (`main_v37`, `main_v91`, `main_v145`), their column variance
  (`main_v38`, `main_v92`, `main_v146`), the layer output (`main_v57`, `main_v111`, `main_v165`); the pooled and
  concatenated result (`main_v175`).  The input of layer 1 is argument 0, of layer 2 `main_v57`, of layer 3 `main_v111`.
-/
import proofs.«130186_j80642305950442_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

/-- The result of an operation of three operands listed as a literal family, each operand's contents at its own
    reference. -/
theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- One pass over a stage: each operation's result at its own buffer is its function's value, at any other buffer what
    was there. -/
macro "stage_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ## The list cut at each stage -/

abbrev T_22 : List (HloOp τ sig (Elt F)) := c_pool
abbrev WT_22 : List (Ref sig .tc) := W_pool
theorem T_22_writes : (T_22 : List (HloOp τ sig (Elt F))).Forall fun op => op.writes ⊆ (WT_22.map (Proc.devRef (τ := τ) .tc)).toFinset := c_pool_writes

abbrev T_21 : List (HloOp τ sig (Elt F)) := c_out3b ++ T_22
abbrev WT_21 : List (Ref sig .tc) := W_out3b ++ WT_22
theorem T_21_writes : (T_21 : List (HloOp τ sig (Elt F))).Forall fun op => op.writes ⊆ (WT_21.map (Proc.devRef (τ := τ) .tc)).toFinset := writes_append c_out3b_writes T_22_writes

abbrev T_20 : List (HloOp τ sig (Elt F)) := c_out3a ++ T_21
abbrev WT_20 : List (Ref sig .tc) := W_out3a ++ WT_21
theorem T_20_writes : (T_20 : List (HloOp τ sig (Elt F))).Forall fun op => op.writes ⊆ (WT_20.map (Proc.devRef (τ := τ) .tc)).toFinset := writes_append c_out3a_writes T_21_writes

abbrev T_19 : List (HloOp τ sig (Elt F)) := c_var3 ++ T_20
abbrev WT_19 : List (Ref sig .tc) := W_var3 ++ WT_20
theorem T_19_writes : (T_19 : List (HloOp τ sig (Elt F))).Forall fun op => op.writes ⊆ (WT_19.map (Proc.devRef (τ := τ) .tc)).toFinset := writes_append c_var3_writes T_20_writes

abbrev T_18 : List (HloOp τ sig (Elt F)) := c_mean3 ++ T_19
abbrev WT_18 : List (Ref sig .tc) := W_mean3 ++ WT_19
theorem T_18_writes : (T_18 : List (HloOp τ sig (Elt F))).Forall fun op => op.writes ⊆ (WT_18.map (Proc.devRef (τ := τ) .tc)).toFinset := writes_append c_mean3_writes T_19_writes

abbrev T_17 : List (HloOp τ sig (Elt F)) := c_z3 ++ T_18
abbrev WT_17 : List (Ref sig .tc) := W_z3 ++ WT_18
theorem T_17_writes : (T_17 : List (HloOp τ sig (Elt F))).Forall fun op => op.writes ⊆ (WT_17.map (Proc.devRef (τ := τ) .tc)).toFinset := writes_append c_z3_writes T_18_writes

abbrev T_16 : List (HloOp τ sig (Elt F)) := c_agg3 ++ T_17
abbrev WT_16 : List (Ref sig .tc) := W_agg3 ++ WT_17
theorem T_16_writes : (T_16 : List (HloOp τ sig (Elt F))).Forall fun op => op.writes ⊆ (WT_16.map (Proc.devRef (τ := τ) .tc)).toFinset := writes_append c_agg3_writes T_17_writes

abbrev T_15 : List (HloOp τ sig (Elt F)) := c_src3 ++ T_16
abbrev WT_15 : List (Ref sig .tc) := W_src3 ++ WT_16
theorem T_15_writes : (T_15 : List (HloOp τ sig (Elt F))).Forall fun op => op.writes ⊆ (WT_15.map (Proc.devRef (τ := τ) .tc)).toFinset := writes_append c_src3_writes T_16_writes

abbrev T_14 : List (HloOp τ sig (Elt F)) := c_out2b ++ T_15
abbrev WT_14 : List (Ref sig .tc) := W_out2b ++ WT_15
theorem T_14_writes : (T_14 : List (HloOp τ sig (Elt F))).Forall fun op => op.writes ⊆ (WT_14.map (Proc.devRef (τ := τ) .tc)).toFinset := writes_append c_out2b_writes T_15_writes

abbrev T_13 : List (HloOp τ sig (Elt F)) := c_out2a ++ T_14
abbrev WT_13 : List (Ref sig .tc) := W_out2a ++ WT_14
theorem T_13_writes : (T_13 : List (HloOp τ sig (Elt F))).Forall fun op => op.writes ⊆ (WT_13.map (Proc.devRef (τ := τ) .tc)).toFinset := writes_append c_out2a_writes T_14_writes

abbrev T_12 : List (HloOp τ sig (Elt F)) := c_var2 ++ T_13
abbrev WT_12 : List (Ref sig .tc) := W_var2 ++ WT_13
theorem T_12_writes : (T_12 : List (HloOp τ sig (Elt F))).Forall fun op => op.writes ⊆ (WT_12.map (Proc.devRef (τ := τ) .tc)).toFinset := writes_append c_var2_writes T_13_writes

abbrev T_11 : List (HloOp τ sig (Elt F)) := c_mean2 ++ T_12
abbrev WT_11 : List (Ref sig .tc) := W_mean2 ++ WT_12
theorem T_11_writes : (T_11 : List (HloOp τ sig (Elt F))).Forall fun op => op.writes ⊆ (WT_11.map (Proc.devRef (τ := τ) .tc)).toFinset := writes_append c_mean2_writes T_12_writes

abbrev T_10 : List (HloOp τ sig (Elt F)) := c_z2 ++ T_11
abbrev WT_10 : List (Ref sig .tc) := W_z2 ++ WT_11
theorem T_10_writes : (T_10 : List (HloOp τ sig (Elt F))).Forall fun op => op.writes ⊆ (WT_10.map (Proc.devRef (τ := τ) .tc)).toFinset := writes_append c_z2_writes T_11_writes

abbrev T_9 : List (HloOp τ sig (Elt F)) := c_agg2 ++ T_10
abbrev WT_9 : List (Ref sig .tc) := W_agg2 ++ WT_10
theorem T_9_writes : (T_9 : List (HloOp τ sig (Elt F))).Forall fun op => op.writes ⊆ (WT_9.map (Proc.devRef (τ := τ) .tc)).toFinset := writes_append c_agg2_writes T_10_writes

abbrev T_8 : List (HloOp τ sig (Elt F)) := c_src2 ++ T_9
abbrev WT_8 : List (Ref sig .tc) := W_src2 ++ WT_9
theorem T_8_writes : (T_8 : List (HloOp τ sig (Elt F))).Forall fun op => op.writes ⊆ (WT_8.map (Proc.devRef (τ := τ) .tc)).toFinset := writes_append c_src2_writes T_9_writes

abbrev T_7 : List (HloOp τ sig (Elt F)) := c_out1b ++ T_8
abbrev WT_7 : List (Ref sig .tc) := W_out1b ++ WT_8
theorem T_7_writes : (T_7 : List (HloOp τ sig (Elt F))).Forall fun op => op.writes ⊆ (WT_7.map (Proc.devRef (τ := τ) .tc)).toFinset := writes_append c_out1b_writes T_8_writes

abbrev T_6 : List (HloOp τ sig (Elt F)) := c_out1a ++ T_7
abbrev WT_6 : List (Ref sig .tc) := W_out1a ++ WT_7
theorem T_6_writes : (T_6 : List (HloOp τ sig (Elt F))).Forall fun op => op.writes ⊆ (WT_6.map (Proc.devRef (τ := τ) .tc)).toFinset := writes_append c_out1a_writes T_7_writes

abbrev T_5 : List (HloOp τ sig (Elt F)) := c_var1 ++ T_6
abbrev WT_5 : List (Ref sig .tc) := W_var1 ++ WT_6
theorem T_5_writes : (T_5 : List (HloOp τ sig (Elt F))).Forall fun op => op.writes ⊆ (WT_5.map (Proc.devRef (τ := τ) .tc)).toFinset := writes_append c_var1_writes T_6_writes

abbrev T_4 : List (HloOp τ sig (Elt F)) := c_mean1 ++ T_5
abbrev WT_4 : List (Ref sig .tc) := W_mean1 ++ WT_5
theorem T_4_writes : (T_4 : List (HloOp τ sig (Elt F))).Forall fun op => op.writes ⊆ (WT_4.map (Proc.devRef (τ := τ) .tc)).toFinset := writes_append c_mean1_writes T_5_writes

abbrev T_3 : List (HloOp τ sig (Elt F)) := c_z1 ++ T_4
abbrev WT_3 : List (Ref sig .tc) := W_z1 ++ WT_4
theorem T_3_writes : (T_3 : List (HloOp τ sig (Elt F))).Forall fun op => op.writes ⊆ (WT_3.map (Proc.devRef (τ := τ) .tc)).toFinset := writes_append c_z1_writes T_4_writes

abbrev T_2 : List (HloOp τ sig (Elt F)) := c_agg1 ++ T_3
abbrev WT_2 : List (Ref sig .tc) := W_agg1 ++ WT_3
theorem T_2_writes : (T_2 : List (HloOp τ sig (Elt F))).Forall fun op => op.writes ⊆ (WT_2.map (Proc.devRef (τ := τ) .tc)).toFinset := writes_append c_agg1_writes T_3_writes

abbrev T_1 : List (HloOp τ sig (Elt F)) := c_src1 ++ T_2
abbrev WT_1 : List (Ref sig .tc) := W_src1 ++ WT_2
theorem T_1_writes : (T_1 : List (HloOp τ sig (Elt F))).Forall fun op => op.writes ⊆ (WT_1.map (Proc.devRef (τ := τ) .tc)).toFinset := writes_append c_src1_writes T_2_writes

abbrev T_0 : List (HloOp τ sig (Elt F)) := c_idx ++ T_1
abbrev WT_0 : List (Ref sig .tc) := W_idx ++ WT_1
theorem T_0_writes : (T_0 : List (HloOp τ sig (Elt F))).Forall fun op => op.writes ⊆ (WT_0.map (Proc.devRef (τ := τ) .tc)).toFinset := writes_append c_idx_writes T_1_writes

abbrev Pre_0 : List (HloOp τ sig (Elt F)) := []
theorem split_0 : (ops : List (HloOp τ sig (Elt F))) = Pre_0 ++ T_0 := rfl
abbrev Pre_1 : List (HloOp τ sig (Elt F)) := Pre_0 ++ c_idx
theorem split_1 : (ops : List (HloOp τ sig (Elt F))) = Pre_1 ++ T_1 := split_0.trans (List.append_assoc Pre_0 c_idx T_1).symm
abbrev Pre_2 : List (HloOp τ sig (Elt F)) := Pre_1 ++ c_src1
theorem split_2 : (ops : List (HloOp τ sig (Elt F))) = Pre_2 ++ T_2 := split_1.trans (List.append_assoc Pre_1 c_src1 T_2).symm
abbrev Pre_3 : List (HloOp τ sig (Elt F)) := Pre_2 ++ c_agg1
theorem split_3 : (ops : List (HloOp τ sig (Elt F))) = Pre_3 ++ T_3 := split_2.trans (List.append_assoc Pre_2 c_agg1 T_3).symm
abbrev Pre_4 : List (HloOp τ sig (Elt F)) := Pre_3 ++ c_z1
theorem split_4 : (ops : List (HloOp τ sig (Elt F))) = Pre_4 ++ T_4 := split_3.trans (List.append_assoc Pre_3 c_z1 T_4).symm
abbrev Pre_5 : List (HloOp τ sig (Elt F)) := Pre_4 ++ c_mean1
theorem split_5 : (ops : List (HloOp τ sig (Elt F))) = Pre_5 ++ T_5 := split_4.trans (List.append_assoc Pre_4 c_mean1 T_5).symm
abbrev Pre_6 : List (HloOp τ sig (Elt F)) := Pre_5 ++ c_var1
theorem split_6 : (ops : List (HloOp τ sig (Elt F))) = Pre_6 ++ T_6 := split_5.trans (List.append_assoc Pre_5 c_var1 T_6).symm
abbrev Pre_7 : List (HloOp τ sig (Elt F)) := Pre_6 ++ c_out1a
theorem split_7 : (ops : List (HloOp τ sig (Elt F))) = Pre_7 ++ T_7 := split_6.trans (List.append_assoc Pre_6 c_out1a T_7).symm
abbrev Pre_8 : List (HloOp τ sig (Elt F)) := Pre_7 ++ c_out1b
theorem split_8 : (ops : List (HloOp τ sig (Elt F))) = Pre_8 ++ T_8 := split_7.trans (List.append_assoc Pre_7 c_out1b T_8).symm
abbrev Pre_9 : List (HloOp τ sig (Elt F)) := Pre_8 ++ c_src2
theorem split_9 : (ops : List (HloOp τ sig (Elt F))) = Pre_9 ++ T_9 := split_8.trans (List.append_assoc Pre_8 c_src2 T_9).symm
abbrev Pre_10 : List (HloOp τ sig (Elt F)) := Pre_9 ++ c_agg2
theorem split_10 : (ops : List (HloOp τ sig (Elt F))) = Pre_10 ++ T_10 := split_9.trans (List.append_assoc Pre_9 c_agg2 T_10).symm
abbrev Pre_11 : List (HloOp τ sig (Elt F)) := Pre_10 ++ c_z2
theorem split_11 : (ops : List (HloOp τ sig (Elt F))) = Pre_11 ++ T_11 := split_10.trans (List.append_assoc Pre_10 c_z2 T_11).symm
abbrev Pre_12 : List (HloOp τ sig (Elt F)) := Pre_11 ++ c_mean2
theorem split_12 : (ops : List (HloOp τ sig (Elt F))) = Pre_12 ++ T_12 := split_11.trans (List.append_assoc Pre_11 c_mean2 T_12).symm
abbrev Pre_13 : List (HloOp τ sig (Elt F)) := Pre_12 ++ c_var2
theorem split_13 : (ops : List (HloOp τ sig (Elt F))) = Pre_13 ++ T_13 := split_12.trans (List.append_assoc Pre_12 c_var2 T_13).symm
abbrev Pre_14 : List (HloOp τ sig (Elt F)) := Pre_13 ++ c_out2a
theorem split_14 : (ops : List (HloOp τ sig (Elt F))) = Pre_14 ++ T_14 := split_13.trans (List.append_assoc Pre_13 c_out2a T_14).symm
abbrev Pre_15 : List (HloOp τ sig (Elt F)) := Pre_14 ++ c_out2b
theorem split_15 : (ops : List (HloOp τ sig (Elt F))) = Pre_15 ++ T_15 := split_14.trans (List.append_assoc Pre_14 c_out2b T_15).symm
abbrev Pre_16 : List (HloOp τ sig (Elt F)) := Pre_15 ++ c_src3
theorem split_16 : (ops : List (HloOp τ sig (Elt F))) = Pre_16 ++ T_16 := split_15.trans (List.append_assoc Pre_15 c_src3 T_16).symm
abbrev Pre_17 : List (HloOp τ sig (Elt F)) := Pre_16 ++ c_agg3
theorem split_17 : (ops : List (HloOp τ sig (Elt F))) = Pre_17 ++ T_17 := split_16.trans (List.append_assoc Pre_16 c_agg3 T_17).symm
abbrev Pre_18 : List (HloOp τ sig (Elt F)) := Pre_17 ++ c_z3
theorem split_18 : (ops : List (HloOp τ sig (Elt F))) = Pre_18 ++ T_18 := split_17.trans (List.append_assoc Pre_17 c_z3 T_18).symm
abbrev Pre_19 : List (HloOp τ sig (Elt F)) := Pre_18 ++ c_mean3
theorem split_19 : (ops : List (HloOp τ sig (Elt F))) = Pre_19 ++ T_19 := split_18.trans (List.append_assoc Pre_18 c_mean3 T_19).symm
abbrev Pre_20 : List (HloOp τ sig (Elt F)) := Pre_19 ++ c_var3
theorem split_20 : (ops : List (HloOp τ sig (Elt F))) = Pre_20 ++ T_20 := split_19.trans (List.append_assoc Pre_19 c_var3 T_20).symm
abbrev Pre_21 : List (HloOp τ sig (Elt F)) := Pre_20 ++ c_out3a
theorem split_21 : (ops : List (HloOp τ sig (Elt F))) = Pre_21 ++ T_21 := split_20.trans (List.append_assoc Pre_20 c_out3a T_21).symm
abbrev Pre_22 : List (HloOp τ sig (Elt F)) := Pre_21 ++ c_out3b
theorem split_22 : (ops : List (HloOp τ sig (Elt F))) = Pre_22 ++ T_22 := split_21.trans (List.append_assoc Pre_21 c_out3b T_22).symm

/-! ## A buffer after the whole list, read at its stage -/

theorem before_0 (V : Valuation τ sig (Elt F)) (r : Ref sig .tc) (hr : r ∉ WT_0) :
    after ops V (Proc.devRef .tc r) = after Pre_0 V (Proc.devRef .tc r) := by
  rw [split_0 (F := F)]; exact after_pre V r T_0_writes hr
theorem at_0 (V : Valuation τ sig (Elt F)) (r : Ref sig .tc) (hr : r ∉ WT_1) :
    after ops V (Proc.devRef .tc r) = after c_idx (after Pre_0 V) (Proc.devRef .tc r) := by
  rw [split_0 (F := F)]; exact after_mid V r T_1_writes hr

theorem before_1 (V : Valuation τ sig (Elt F)) (r : Ref sig .tc) (hr : r ∉ WT_1) :
    after ops V (Proc.devRef .tc r) = after Pre_1 V (Proc.devRef .tc r) := by
  rw [split_1 (F := F)]; exact after_pre V r T_1_writes hr
theorem at_1 (V : Valuation τ sig (Elt F)) (r : Ref sig .tc) (hr : r ∉ WT_2) :
    after ops V (Proc.devRef .tc r) = after c_src1 (after Pre_1 V) (Proc.devRef .tc r) := by
  rw [split_1 (F := F)]; exact after_mid V r T_2_writes hr

theorem before_2 (V : Valuation τ sig (Elt F)) (r : Ref sig .tc) (hr : r ∉ WT_2) :
    after ops V (Proc.devRef .tc r) = after Pre_2 V (Proc.devRef .tc r) := by
  rw [split_2 (F := F)]; exact after_pre V r T_2_writes hr
theorem at_2 (V : Valuation τ sig (Elt F)) (r : Ref sig .tc) (hr : r ∉ WT_3) :
    after ops V (Proc.devRef .tc r) = after c_agg1 (after Pre_2 V) (Proc.devRef .tc r) := by
  rw [split_2 (F := F)]; exact after_mid V r T_3_writes hr

theorem before_3 (V : Valuation τ sig (Elt F)) (r : Ref sig .tc) (hr : r ∉ WT_3) :
    after ops V (Proc.devRef .tc r) = after Pre_3 V (Proc.devRef .tc r) := by
  rw [split_3 (F := F)]; exact after_pre V r T_3_writes hr
theorem at_3 (V : Valuation τ sig (Elt F)) (r : Ref sig .tc) (hr : r ∉ WT_4) :
    after ops V (Proc.devRef .tc r) = after c_z1 (after Pre_3 V) (Proc.devRef .tc r) := by
  rw [split_3 (F := F)]; exact after_mid V r T_4_writes hr

theorem before_4 (V : Valuation τ sig (Elt F)) (r : Ref sig .tc) (hr : r ∉ WT_4) :
    after ops V (Proc.devRef .tc r) = after Pre_4 V (Proc.devRef .tc r) := by
  rw [split_4 (F := F)]; exact after_pre V r T_4_writes hr
theorem at_4 (V : Valuation τ sig (Elt F)) (r : Ref sig .tc) (hr : r ∉ WT_5) :
    after ops V (Proc.devRef .tc r) = after c_mean1 (after Pre_4 V) (Proc.devRef .tc r) := by
  rw [split_4 (F := F)]; exact after_mid V r T_5_writes hr

theorem before_5 (V : Valuation τ sig (Elt F)) (r : Ref sig .tc) (hr : r ∉ WT_5) :
    after ops V (Proc.devRef .tc r) = after Pre_5 V (Proc.devRef .tc r) := by
  rw [split_5 (F := F)]; exact after_pre V r T_5_writes hr
theorem at_5 (V : Valuation τ sig (Elt F)) (r : Ref sig .tc) (hr : r ∉ WT_6) :
    after ops V (Proc.devRef .tc r) = after c_var1 (after Pre_5 V) (Proc.devRef .tc r) := by
  rw [split_5 (F := F)]; exact after_mid V r T_6_writes hr

theorem before_6 (V : Valuation τ sig (Elt F)) (r : Ref sig .tc) (hr : r ∉ WT_6) :
    after ops V (Proc.devRef .tc r) = after Pre_6 V (Proc.devRef .tc r) := by
  rw [split_6 (F := F)]; exact after_pre V r T_6_writes hr
theorem at_6 (V : Valuation τ sig (Elt F)) (r : Ref sig .tc) (hr : r ∉ WT_7) :
    after ops V (Proc.devRef .tc r) = after c_out1a (after Pre_6 V) (Proc.devRef .tc r) := by
  rw [split_6 (F := F)]; exact after_mid V r T_7_writes hr

theorem before_7 (V : Valuation τ sig (Elt F)) (r : Ref sig .tc) (hr : r ∉ WT_7) :
    after ops V (Proc.devRef .tc r) = after Pre_7 V (Proc.devRef .tc r) := by
  rw [split_7 (F := F)]; exact after_pre V r T_7_writes hr
theorem at_7 (V : Valuation τ sig (Elt F)) (r : Ref sig .tc) (hr : r ∉ WT_8) :
    after ops V (Proc.devRef .tc r) = after c_out1b (after Pre_7 V) (Proc.devRef .tc r) := by
  rw [split_7 (F := F)]; exact after_mid V r T_8_writes hr

theorem before_8 (V : Valuation τ sig (Elt F)) (r : Ref sig .tc) (hr : r ∉ WT_8) :
    after ops V (Proc.devRef .tc r) = after Pre_8 V (Proc.devRef .tc r) := by
  rw [split_8 (F := F)]; exact after_pre V r T_8_writes hr
theorem at_8 (V : Valuation τ sig (Elt F)) (r : Ref sig .tc) (hr : r ∉ WT_9) :
    after ops V (Proc.devRef .tc r) = after c_src2 (after Pre_8 V) (Proc.devRef .tc r) := by
  rw [split_8 (F := F)]; exact after_mid V r T_9_writes hr

theorem before_9 (V : Valuation τ sig (Elt F)) (r : Ref sig .tc) (hr : r ∉ WT_9) :
    after ops V (Proc.devRef .tc r) = after Pre_9 V (Proc.devRef .tc r) := by
  rw [split_9 (F := F)]; exact after_pre V r T_9_writes hr
theorem at_9 (V : Valuation τ sig (Elt F)) (r : Ref sig .tc) (hr : r ∉ WT_10) :
    after ops V (Proc.devRef .tc r) = after c_agg2 (after Pre_9 V) (Proc.devRef .tc r) := by
  rw [split_9 (F := F)]; exact after_mid V r T_10_writes hr

theorem before_10 (V : Valuation τ sig (Elt F)) (r : Ref sig .tc) (hr : r ∉ WT_10) :
    after ops V (Proc.devRef .tc r) = after Pre_10 V (Proc.devRef .tc r) := by
  rw [split_10 (F := F)]; exact after_pre V r T_10_writes hr
theorem at_10 (V : Valuation τ sig (Elt F)) (r : Ref sig .tc) (hr : r ∉ WT_11) :
    after ops V (Proc.devRef .tc r) = after c_z2 (after Pre_10 V) (Proc.devRef .tc r) := by
  rw [split_10 (F := F)]; exact after_mid V r T_11_writes hr

theorem before_11 (V : Valuation τ sig (Elt F)) (r : Ref sig .tc) (hr : r ∉ WT_11) :
    after ops V (Proc.devRef .tc r) = after Pre_11 V (Proc.devRef .tc r) := by
  rw [split_11 (F := F)]; exact after_pre V r T_11_writes hr
theorem at_11 (V : Valuation τ sig (Elt F)) (r : Ref sig .tc) (hr : r ∉ WT_12) :
    after ops V (Proc.devRef .tc r) = after c_mean2 (after Pre_11 V) (Proc.devRef .tc r) := by
  rw [split_11 (F := F)]; exact after_mid V r T_12_writes hr

theorem before_12 (V : Valuation τ sig (Elt F)) (r : Ref sig .tc) (hr : r ∉ WT_12) :
    after ops V (Proc.devRef .tc r) = after Pre_12 V (Proc.devRef .tc r) := by
  rw [split_12 (F := F)]; exact after_pre V r T_12_writes hr
theorem at_12 (V : Valuation τ sig (Elt F)) (r : Ref sig .tc) (hr : r ∉ WT_13) :
    after ops V (Proc.devRef .tc r) = after c_var2 (after Pre_12 V) (Proc.devRef .tc r) := by
  rw [split_12 (F := F)]; exact after_mid V r T_13_writes hr

theorem before_13 (V : Valuation τ sig (Elt F)) (r : Ref sig .tc) (hr : r ∉ WT_13) :
    after ops V (Proc.devRef .tc r) = after Pre_13 V (Proc.devRef .tc r) := by
  rw [split_13 (F := F)]; exact after_pre V r T_13_writes hr
theorem at_13 (V : Valuation τ sig (Elt F)) (r : Ref sig .tc) (hr : r ∉ WT_14) :
    after ops V (Proc.devRef .tc r) = after c_out2a (after Pre_13 V) (Proc.devRef .tc r) := by
  rw [split_13 (F := F)]; exact after_mid V r T_14_writes hr

theorem before_14 (V : Valuation τ sig (Elt F)) (r : Ref sig .tc) (hr : r ∉ WT_14) :
    after ops V (Proc.devRef .tc r) = after Pre_14 V (Proc.devRef .tc r) := by
  rw [split_14 (F := F)]; exact after_pre V r T_14_writes hr
theorem at_14 (V : Valuation τ sig (Elt F)) (r : Ref sig .tc) (hr : r ∉ WT_15) :
    after ops V (Proc.devRef .tc r) = after c_out2b (after Pre_14 V) (Proc.devRef .tc r) := by
  rw [split_14 (F := F)]; exact after_mid V r T_15_writes hr

theorem before_15 (V : Valuation τ sig (Elt F)) (r : Ref sig .tc) (hr : r ∉ WT_15) :
    after ops V (Proc.devRef .tc r) = after Pre_15 V (Proc.devRef .tc r) := by
  rw [split_15 (F := F)]; exact after_pre V r T_15_writes hr
theorem at_15 (V : Valuation τ sig (Elt F)) (r : Ref sig .tc) (hr : r ∉ WT_16) :
    after ops V (Proc.devRef .tc r) = after c_src3 (after Pre_15 V) (Proc.devRef .tc r) := by
  rw [split_15 (F := F)]; exact after_mid V r T_16_writes hr

theorem before_16 (V : Valuation τ sig (Elt F)) (r : Ref sig .tc) (hr : r ∉ WT_16) :
    after ops V (Proc.devRef .tc r) = after Pre_16 V (Proc.devRef .tc r) := by
  rw [split_16 (F := F)]; exact after_pre V r T_16_writes hr
theorem at_16 (V : Valuation τ sig (Elt F)) (r : Ref sig .tc) (hr : r ∉ WT_17) :
    after ops V (Proc.devRef .tc r) = after c_agg3 (after Pre_16 V) (Proc.devRef .tc r) := by
  rw [split_16 (F := F)]; exact after_mid V r T_17_writes hr

theorem before_17 (V : Valuation τ sig (Elt F)) (r : Ref sig .tc) (hr : r ∉ WT_17) :
    after ops V (Proc.devRef .tc r) = after Pre_17 V (Proc.devRef .tc r) := by
  rw [split_17 (F := F)]; exact after_pre V r T_17_writes hr
theorem at_17 (V : Valuation τ sig (Elt F)) (r : Ref sig .tc) (hr : r ∉ WT_18) :
    after ops V (Proc.devRef .tc r) = after c_z3 (after Pre_17 V) (Proc.devRef .tc r) := by
  rw [split_17 (F := F)]; exact after_mid V r T_18_writes hr

theorem before_18 (V : Valuation τ sig (Elt F)) (r : Ref sig .tc) (hr : r ∉ WT_18) :
    after ops V (Proc.devRef .tc r) = after Pre_18 V (Proc.devRef .tc r) := by
  rw [split_18 (F := F)]; exact after_pre V r T_18_writes hr
theorem at_18 (V : Valuation τ sig (Elt F)) (r : Ref sig .tc) (hr : r ∉ WT_19) :
    after ops V (Proc.devRef .tc r) = after c_mean3 (after Pre_18 V) (Proc.devRef .tc r) := by
  rw [split_18 (F := F)]; exact after_mid V r T_19_writes hr

theorem before_19 (V : Valuation τ sig (Elt F)) (r : Ref sig .tc) (hr : r ∉ WT_19) :
    after ops V (Proc.devRef .tc r) = after Pre_19 V (Proc.devRef .tc r) := by
  rw [split_19 (F := F)]; exact after_pre V r T_19_writes hr
theorem at_19 (V : Valuation τ sig (Elt F)) (r : Ref sig .tc) (hr : r ∉ WT_20) :
    after ops V (Proc.devRef .tc r) = after c_var3 (after Pre_19 V) (Proc.devRef .tc r) := by
  rw [split_19 (F := F)]; exact after_mid V r T_20_writes hr

theorem before_20 (V : Valuation τ sig (Elt F)) (r : Ref sig .tc) (hr : r ∉ WT_20) :
    after ops V (Proc.devRef .tc r) = after Pre_20 V (Proc.devRef .tc r) := by
  rw [split_20 (F := F)]; exact after_pre V r T_20_writes hr
theorem at_20 (V : Valuation τ sig (Elt F)) (r : Ref sig .tc) (hr : r ∉ WT_21) :
    after ops V (Proc.devRef .tc r) = after c_out3a (after Pre_20 V) (Proc.devRef .tc r) := by
  rw [split_20 (F := F)]; exact after_mid V r T_21_writes hr

theorem before_21 (V : Valuation τ sig (Elt F)) (r : Ref sig .tc) (hr : r ∉ WT_21) :
    after ops V (Proc.devRef .tc r) = after Pre_21 V (Proc.devRef .tc r) := by
  rw [split_21 (F := F)]; exact after_pre V r T_21_writes hr
theorem at_21 (V : Valuation τ sig (Elt F)) (r : Ref sig .tc) (hr : r ∉ WT_22) :
    after ops V (Proc.devRef .tc r) = after c_out3b (after Pre_21 V) (Proc.devRef .tc r) := by
  rw [split_21 (F := F)]; exact after_mid V r T_22_writes hr

theorem before_22 (V : Valuation τ sig (Elt F)) (r : Ref sig .tc) (hr : r ∉ WT_22) :
    after ops V (Proc.devRef .tc r) = after Pre_22 V (Proc.devRef .tc r) := by
  rw [split_22 (F := F)]; exact after_pre V r T_22_writes hr
theorem at_22 (V : Valuation τ sig (Elt F)) (r : Ref sig .tc) :
    after ops V (Proc.devRef .tc r) = after c_pool (after Pre_22 V) (Proc.devRef .tc r) := by
  rw [split_22 (F := F), after_append]

/-! ## The stages -/

/-- `main_v1` within its stage, from any contents. -/
theorem c_idx_at_main_v1 (W : Valuation τ sig (Elt F)) :
    after c_idx W (main_v1 : DevRef τ sig) =
      (shapeCast S800000 (extractStridedSlice S1x800000 ![0, 0] (W (main_arg1 : DevRef τ sig) : (⟨S2x800000, .i32⟩ : BufTy).Contents (Elt F)) slices_S2x800000_S1x800000_0_0 : (⟨S1x800000, .i32⟩ : BufTy).Contents (Elt F)) shapeCasts_S1x800000_S800000 : (⟨S800000, .i32⟩ : BufTy).Contents (Elt F)) := by
  stage_results <;> (try simp only [cast_eq]) <;> rfl

/-- `main_v1` after the whole list, as its stage's term of the buffers the stage reads. -/
theorem main_v1_eq (V : Valuation τ sig (Elt F)) :
    after ops V (main_v1 : DevRef τ sig) =
      (shapeCast S800000 (extractStridedSlice S1x800000 ![0, 0] (after ops V (main_arg1 : DevRef τ sig) : (⟨S2x800000, .i32⟩ : BufTy).Contents (Elt F)) slices_S2x800000_S1x800000_0_0 : (⟨S1x800000, .i32⟩ : BufTy).Contents (Elt F)) shapeCasts_S1x800000_S800000 : (⟨S800000, .i32⟩ : BufTy).Contents (Elt F)) := by
  rw [at_0 V main_v1 (by decide), before_0 V main_arg1 (by decide)]
  exact c_idx_at_main_v1 _

/-- `main_v3` within its stage, from any contents. -/
theorem c_idx_at_main_v3 (W : Valuation τ sig (Elt F)) :
    after c_idx W (main_v3 : DevRef τ sig) =
      (shapeCast S800000 (extractStridedSlice S1x800000 ![1, 0] (W (main_arg1 : DevRef τ sig) : (⟨S2x800000, .i32⟩ : BufTy).Contents (Elt F)) slices_S2x800000_S1x800000_1_0 : (⟨S1x800000, .i32⟩ : BufTy).Contents (Elt F)) shapeCasts_S1x800000_S800000 : (⟨S800000, .i32⟩ : BufTy).Contents (Elt F)) := by
  stage_results <;> (try simp only [cast_eq]) <;> rfl

/-- `main_v3` after the whole list, as its stage's term of the buffers the stage reads. -/
theorem main_v3_eq (V : Valuation τ sig (Elt F)) :
    after ops V (main_v3 : DevRef τ sig) =
      (shapeCast S800000 (extractStridedSlice S1x800000 ![1, 0] (after ops V (main_arg1 : DevRef τ sig) : (⟨S2x800000, .i32⟩ : BufTy).Contents (Elt F)) slices_S2x800000_S1x800000_1_0 : (⟨S1x800000, .i32⟩ : BufTy).Contents (Elt F)) shapeCasts_S1x800000_S800000 : (⟨S800000, .i32⟩ : BufTy).Contents (Elt F)) := by
  rw [at_0 V main_v3 (by decide), before_0 V main_arg1 (by decide)]
  exact c_idx_at_main_v3 _

/-- `main_v8` within its stage, from any contents. -/
theorem c_src1_at_main_v8 (W : Valuation τ sig (Elt F)) :
    after c_src1 W (main_v8 : DevRef τ sig) =
      ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) (W (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)) : (⟨S800000, .i32⟩ : BufTy).Contents (Elt F)) : (⟨S800000, .i32⟩ : BufTy).Contents (Elt F)) (W (main_v1 : DevRef τ sig) : (⟨S800000, .i32⟩ : BufTy).Contents (Elt F)) : (⟨S800000, .i32⟩ : BufTy).Contents (Elt F)) := by
  stage_results <;> (try simp only [cast_eq]) <;> rfl

/-- `main_v8` after the whole list, as its stage's term of the buffers the stage reads. -/
theorem main_v8_eq (V : Valuation τ sig (Elt F)) :
    after ops V (main_v8 : DevRef τ sig) =
      ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (after ops V (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) (after ops V (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)) : (⟨S800000, .i32⟩ : BufTy).Contents (Elt F)) : (⟨S800000, .i32⟩ : BufTy).Contents (Elt F)) (after ops V (main_v1 : DevRef τ sig) : (⟨S800000, .i32⟩ : BufTy).Contents (Elt F)) : (⟨S800000, .i32⟩ : BufTy).Contents (Elt F)) := by
  rw [at_1 V main_v8 (by decide), before_1 V main_v1 (by decide)]
  exact c_src1_at_main_v8 _

/-- `main_v13` within its stage, from any contents. -/
theorem c_agg1_at_main_v13 (W : Valuation τ sig (Elt F)) :
    after c_agg1 W (main_v13 : DevRef τ sig) =
      (Host.scatterAdd scatter_S50000x256_S800000x1_S800000x256_1_0_0_1 ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (W (main_v3 : DevRef τ sig) : (⟨S800000, .i32⟩ : BufTy).Contents (Elt F)) : (⟨S800000x1, .i32⟩ : BufTy).Contents (Elt F)) (Host.gather gather_S50000x256_S800000x1_S800000x256_1_0_n_n_0_1_1256 (W (main_arg0 : DevRef τ sig) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (W (main_v8 : DevRef τ sig) : (⟨S800000, .i32⟩ : BufTy).Contents (Elt F)) : (⟨S800000x1, .i32⟩ : BufTy).Contents (Elt F)) : (⟨S800000x256, .f32⟩ : BufTy).Contents (Elt F)) : (⟨S50000x256, .f32⟩ : BufTy).Contents (Elt F)) := by
  stage_results <;> (try simp only [cast_eq]) <;> rfl

/-- `main_v13` after the whole list, as its stage's term of the buffers the stage reads. -/
theorem main_v13_eq (V : Valuation τ sig (Elt F)) :
    after ops V (main_v13 : DevRef τ sig) =
      (Host.scatterAdd scatter_S50000x256_S800000x1_S800000x256_1_0_0_1 ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (after ops V (main_v3 : DevRef τ sig) : (⟨S800000, .i32⟩ : BufTy).Contents (Elt F)) : (⟨S800000x1, .i32⟩ : BufTy).Contents (Elt F)) (Host.gather gather_S50000x256_S800000x1_S800000x256_1_0_n_n_0_1_1256 (after ops V (main_arg0 : DevRef τ sig) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (after ops V (main_v8 : DevRef τ sig) : (⟨S800000, .i32⟩ : BufTy).Contents (Elt F)) : (⟨S800000x1, .i32⟩ : BufTy).Contents (Elt F)) : (⟨S800000x256, .f32⟩ : BufTy).Contents (Elt F)) : (⟨S50000x256, .f32⟩ : BufTy).Contents (Elt F)) := by
  rw [at_2 V main_v13 (by decide), before_2 V main_v3 (by decide), before_2 V main_arg0 (by decide), before_2 V main_v8 (by decide)]
  exact c_agg1_at_main_v13 _

/-- `main_v34` within its stage, from any contents. -/
theorem c_z1_at_main_v34 (W : Valuation τ sig (Elt F)) :
    after c_z1 W (main_v34 : DevRef τ sig) =
      ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((addf : (⟨S50000x256, .f32⟩ : BufTy).Contents (Elt F) → (⟨S50000x256, .f32⟩ : BufTy).Contents (Elt F) → (⟨S50000x256, .f32⟩ : BufTy).Contents (Elt F)) (W (main_arg0 : DevRef τ sig) : (⟨S50000x256, .f32⟩ : BufTy).Contents (Elt F)) (W (main_v13 : DevRef τ sig) : (⟨S50000x256, .f32⟩ : BufTy).Contents (Elt F)) : (⟨S50000x256, .f32⟩ : BufTy).Contents (Elt F)) (shapeCast S256x256 (extractStridedSlice S1x256x256 ![0, 0, 0] (W (main_arg3 : DevRef τ sig) : (⟨S3x256x256, .f32⟩ : BufTy).Contents (Elt F)) slices_S3x256x256_S1x256x256_0_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![0, 0] (W (main_arg4 : DevRef τ sig) : (⟨S3x256, .f32⟩ : BufTy).Contents (Elt F)) slices_S3x256_S1x256_0_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) (shapeCast S256x256 (extractStridedSlice S1x256x256 ![0, 0, 0] (W (main_arg5 : DevRef τ sig) : (⟨S3x256x256, .f32⟩ : BufTy).Contents (Elt F)) slices_S3x256x256_S1x256x256_0_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![0, 0] (W (main_arg6 : DevRef τ sig) : (⟨S3x256, .f32⟩ : BufTy).Contents (Elt F)) slices_S3x256_S1x256_0_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) := by
  stage_results <;> (try simp only [cast_eq]) <;> rfl

/-- `main_v34` after the whole list, as its stage's term of the buffers the stage reads. -/
theorem main_v34_eq (V : Valuation τ sig (Elt F)) :
    after ops V (main_v34 : DevRef τ sig) =
      ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((addf : (⟨S50000x256, .f32⟩ : BufTy).Contents (Elt F) → (⟨S50000x256, .f32⟩ : BufTy).Contents (Elt F) → (⟨S50000x256, .f32⟩ : BufTy).Contents (Elt F)) (after ops V (main_arg0 : DevRef τ sig) : (⟨S50000x256, .f32⟩ : BufTy).Contents (Elt F)) (after ops V (main_v13 : DevRef τ sig) : (⟨S50000x256, .f32⟩ : BufTy).Contents (Elt F)) : (⟨S50000x256, .f32⟩ : BufTy).Contents (Elt F)) (shapeCast S256x256 (extractStridedSlice S1x256x256 ![0, 0, 0] (after ops V (main_arg3 : DevRef τ sig) : (⟨S3x256x256, .f32⟩ : BufTy).Contents (Elt F)) slices_S3x256x256_S1x256x256_0_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![0, 0] (after ops V (main_arg4 : DevRef τ sig) : (⟨S3x256, .f32⟩ : BufTy).Contents (Elt F)) slices_S3x256_S1x256_0_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) (shapeCast S256x256 (extractStridedSlice S1x256x256 ![0, 0, 0] (after ops V (main_arg5 : DevRef τ sig) : (⟨S3x256x256, .f32⟩ : BufTy).Contents (Elt F)) slices_S3x256x256_S1x256x256_0_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![0, 0] (after ops V (main_arg6 : DevRef τ sig) : (⟨S3x256, .f32⟩ : BufTy).Contents (Elt F)) slices_S3x256_S1x256_0_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) := by
  rw [at_3 V main_v34 (by decide), before_3 V main_arg0 (by decide), before_3 V main_v13 (by decide), before_3 V main_arg3 (by decide), before_3 V main_arg4 (by decide), before_3 V main_arg5 (by decide), before_3 V main_arg6 (by decide)]
  exact c_z1_at_main_v34 _

/-- `main_v37` within its stage, from any contents. -/
theorem c_mean1_at_main_v37 (W : Valuation τ sig (Elt F)) :
    after c_mean1 W (main_v37 : DevRef τ sig) =
      ((Host.divf : (⟨S256, .f32⟩ : BufTy).Contents (Elt F) → (⟨S256, .f32⟩ : BufTy).Contents (Elt F) → (⟨S256, .f32⟩ : BufTy).Contents (Elt F)) (Host.reduceAdd (W (main_v34 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x47435000#32 : (⟨S_, .f32⟩ : BufTy).Contents (Elt F)) : (⟨S256, .f32⟩ : BufTy).Contents (Elt F)) : (⟨S256, .f32⟩ : BufTy).Contents (Elt F)) := by
  stage_results <;> (try simp only [cast_eq]) <;> rfl

/-- `main_v37` after the whole list, as its stage's term of the buffers the stage reads. -/
theorem main_v37_eq (V : Valuation τ sig (Elt F)) :
    after ops V (main_v37 : DevRef τ sig) =
      ((Host.divf : (⟨S256, .f32⟩ : BufTy).Contents (Elt F) → (⟨S256, .f32⟩ : BufTy).Contents (Elt F) → (⟨S256, .f32⟩ : BufTy).Contents (Elt F)) (Host.reduceAdd (after ops V (main_v34 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x47435000#32 : (⟨S_, .f32⟩ : BufTy).Contents (Elt F)) : (⟨S256, .f32⟩ : BufTy).Contents (Elt F)) : (⟨S256, .f32⟩ : BufTy).Contents (Elt F)) := by
  rw [at_4 V main_v37 (by decide), before_4 V main_v34 (by decide)]
  exact c_mean1_at_main_v37 _

/-- `main_v38` within its stage, from any contents. -/
theorem c_var1_at_main_v38 (W : Valuation τ sig (Elt F)) :
    after c_var1 W (main_v38 : DevRef τ sig) =
      (select (broadcastInDim S256 ![] bcast_S_S256 (cmpf .ogt (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf (W (main_v34 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (W (main_v34 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) (subf (W (main_v34 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (W (main_v34 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) (broadcastInDim S256 ![] bcast_S_S256 (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) : (⟨S256, .f32⟩ : BufTy).Contents (Elt F)) : (⟨S256, .f32⟩ : BufTy).Contents (Elt F)) (broadcastInDim S256 ![] bcast_S_S256 (id (constant S_ .f32 0x7FC00000#32 : (⟨S_, .f32⟩ : BufTy).Contents (Elt F)) : (⟨S_, .f32⟩ : BufTy).Contents (Elt F)) : (⟨S256, .f32⟩ : BufTy).Contents (Elt F)) : (⟨S256, .f32⟩ : BufTy).Contents (Elt F)) := by
  stage_results <;> (try simp only [cast_eq]) <;> rfl

/-- `main_v38` after the whole list, as its stage's term of the buffers the stage reads. -/
theorem main_v38_eq (V : Valuation τ sig (Elt F)) :
    after ops V (main_v38 : DevRef τ sig) =
      (select (broadcastInDim S256 ![] bcast_S_S256 (cmpf .ogt (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf (after ops V (main_v34 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (after ops V (main_v34 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) (subf (after ops V (main_v34 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (after ops V (main_v34 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) (broadcastInDim S256 ![] bcast_S_S256 (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) : (⟨S256, .f32⟩ : BufTy).Contents (Elt F)) : (⟨S256, .f32⟩ : BufTy).Contents (Elt F)) (broadcastInDim S256 ![] bcast_S_S256 (id (constant S_ .f32 0x7FC00000#32 : (⟨S_, .f32⟩ : BufTy).Contents (Elt F)) : (⟨S_, .f32⟩ : BufTy).Contents (Elt F)) : (⟨S256, .f32⟩ : BufTy).Contents (Elt F)) : (⟨S256, .f32⟩ : BufTy).Contents (Elt F)) := by
  rw [at_5 V main_v38 (by decide), before_5 V main_v34 (by decide)]
  exact c_var1_at_main_v38 _

/-- `main_v50` within its stage, from any contents. -/
theorem c_out1a_at_main_v50 (W : Valuation τ sig (Elt F)) :
    after c_out1a W (main_v50 : DevRef τ sig) =
      ((broadcastInDim S1x256 ![1] bcast_S256_S1x256_1 : (⟨S256, .f32⟩ : BufTy).Contents (Elt F) → (⟨S1x256, .f32⟩ : BufTy).Contents (Elt F)) (shapeCast S256 (extractStridedSlice S1x256 ![0, 0] (W (main_arg7 : DevRef τ sig) : (⟨S3x256, .f32⟩ : BufTy).Contents (Elt F)) slices_S3x256_S1x256_0_0 : (⟨S1x256, .f32⟩ : BufTy).Contents (Elt F)) shapeCasts_S1x256_S256 : (⟨S256, .f32⟩ : BufTy).Contents (Elt F)) : (⟨S1x256, .f32⟩ : BufTy).Contents (Elt F)) := by
  stage_results <;> (try simp only [cast_eq]) <;> rfl

/-- `main_v50` after the whole list, as its stage's term of the buffers the stage reads. -/
theorem main_v50_eq (V : Valuation τ sig (Elt F)) :
    after ops V (main_v50 : DevRef τ sig) =
      ((broadcastInDim S1x256 ![1] bcast_S256_S1x256_1 : (⟨S256, .f32⟩ : BufTy).Contents (Elt F) → (⟨S1x256, .f32⟩ : BufTy).Contents (Elt F)) (shapeCast S256 (extractStridedSlice S1x256 ![0, 0] (after ops V (main_arg7 : DevRef τ sig) : (⟨S3x256, .f32⟩ : BufTy).Contents (Elt F)) slices_S3x256_S1x256_0_0 : (⟨S1x256, .f32⟩ : BufTy).Contents (Elt F)) shapeCasts_S1x256_S256 : (⟨S256, .f32⟩ : BufTy).Contents (Elt F)) : (⟨S1x256, .f32⟩ : BufTy).Contents (Elt F)) := by
  rw [at_6 V main_v50 (by decide), before_6 V main_arg7 (by decide)]
  exact c_out1a_at_main_v50 _

/-- `main_v47` within its stage, from any contents. -/
theorem c_out1a_at_main_v47 (W : Valuation τ sig (Elt F)) :
    after c_out1a W (main_v47 : DevRef τ sig) =
      ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) (W (main_v34 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (W (main_v37 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (W (main_v38 : DevRef τ sig) : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)) : (⟨S256, .f32⟩ : BufTy).Contents (Elt F)) : (⟨S256, .f32⟩ : BufTy).Contents (Elt F)) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  stage_results <;> (try simp only [cast_eq]) <;> rfl

/-- `main_v47` after the whole list, as its stage's term of the buffers the stage reads. -/
theorem main_v47_eq (V : Valuation τ sig (Elt F)) :
    after ops V (main_v47 : DevRef τ sig) =
      ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) (after ops V (main_v34 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (after ops V (main_v37 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (after ops V (main_v38 : DevRef τ sig) : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)) : (⟨S256, .f32⟩ : BufTy).Contents (Elt F)) : (⟨S256, .f32⟩ : BufTy).Contents (Elt F)) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  rw [at_6 V main_v47 (by decide), before_6 V main_v34 (by decide), before_6 V main_v37 (by decide), before_6 V main_v38 (by decide)]
  exact c_out1a_at_main_v47 _

/-- `main_v57` within its stage, from any contents. -/
theorem c_out1b_at_main_v57 (W : Valuation τ sig (Elt F)) :
    after c_out1b W (main_v57 : DevRef τ sig) =
      ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) (W (main_v47 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) (W (main_v50 : DevRef τ sig) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![0, 0] (W (main_arg8 : DevRef τ sig) : (⟨S3x256, .f32⟩ : BufTy).Contents (Elt F)) slices_S3x256_S1x256_0_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  stage_results <;> (try simp only [cast_eq]) <;> rfl

/-- `main_v57` after the whole list, as its stage's term of the buffers the stage reads. -/
theorem main_v57_eq (V : Valuation τ sig (Elt F)) :
    after ops V (main_v57 : DevRef τ sig) =
      ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) (after ops V (main_v47 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) (after ops V (main_v50 : DevRef τ sig) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![0, 0] (after ops V (main_arg8 : DevRef τ sig) : (⟨S3x256, .f32⟩ : BufTy).Contents (Elt F)) slices_S3x256_S1x256_0_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  rw [at_7 V main_v57 (by decide), before_7 V main_v47 (by decide), before_7 V main_v50 (by decide), before_7 V main_arg8 (by decide)]
  exact c_out1b_at_main_v57 _

/-- `main_v62` within its stage, from any contents. -/
theorem c_src2_at_main_v62 (W : Valuation τ sig (Elt F)) :
    after c_src2 W (main_v62 : DevRef τ sig) =
      ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) (W (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)) : (⟨S800000, .i32⟩ : BufTy).Contents (Elt F)) : (⟨S800000, .i32⟩ : BufTy).Contents (Elt F)) (W (main_v1 : DevRef τ sig) : (⟨S800000, .i32⟩ : BufTy).Contents (Elt F)) : (⟨S800000, .i32⟩ : BufTy).Contents (Elt F)) := by
  stage_results <;> (try simp only [cast_eq]) <;> rfl

/-- `main_v62` after the whole list, as its stage's term of the buffers the stage reads. -/
theorem main_v62_eq (V : Valuation τ sig (Elt F)) :
    after ops V (main_v62 : DevRef τ sig) =
      ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (after ops V (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) (after ops V (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)) : (⟨S800000, .i32⟩ : BufTy).Contents (Elt F)) : (⟨S800000, .i32⟩ : BufTy).Contents (Elt F)) (after ops V (main_v1 : DevRef τ sig) : (⟨S800000, .i32⟩ : BufTy).Contents (Elt F)) : (⟨S800000, .i32⟩ : BufTy).Contents (Elt F)) := by
  rw [at_8 V main_v62 (by decide), before_8 V main_v1 (by decide)]
  exact c_src2_at_main_v62 _

/-- `main_v67` within its stage, from any contents. -/
theorem c_agg2_at_main_v67 (W : Valuation τ sig (Elt F)) :
    after c_agg2 W (main_v67 : DevRef τ sig) =
      (Host.scatterAdd scatter_S50000x256_S800000x1_S800000x256_1_0_0_1 ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (W (main_v3 : DevRef τ sig) : (⟨S800000, .i32⟩ : BufTy).Contents (Elt F)) : (⟨S800000x1, .i32⟩ : BufTy).Contents (Elt F)) (Host.gather gather_S50000x256_S800000x1_S800000x256_1_0_n_n_0_1_1256 (W (main_v57 : DevRef τ sig) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (W (main_v62 : DevRef τ sig) : (⟨S800000, .i32⟩ : BufTy).Contents (Elt F)) : (⟨S800000x1, .i32⟩ : BufTy).Contents (Elt F)) : (⟨S800000x256, .f32⟩ : BufTy).Contents (Elt F)) : (⟨S50000x256, .f32⟩ : BufTy).Contents (Elt F)) := by
  stage_results <;> (try simp only [cast_eq]) <;> rfl

/-- `main_v67` after the whole list, as its stage's term of the buffers the stage reads. -/
theorem main_v67_eq (V : Valuation τ sig (Elt F)) :
    after ops V (main_v67 : DevRef τ sig) =
      (Host.scatterAdd scatter_S50000x256_S800000x1_S800000x256_1_0_0_1 ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (after ops V (main_v3 : DevRef τ sig) : (⟨S800000, .i32⟩ : BufTy).Contents (Elt F)) : (⟨S800000x1, .i32⟩ : BufTy).Contents (Elt F)) (Host.gather gather_S50000x256_S800000x1_S800000x256_1_0_n_n_0_1_1256 (after ops V (main_v57 : DevRef τ sig) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (after ops V (main_v62 : DevRef τ sig) : (⟨S800000, .i32⟩ : BufTy).Contents (Elt F)) : (⟨S800000x1, .i32⟩ : BufTy).Contents (Elt F)) : (⟨S800000x256, .f32⟩ : BufTy).Contents (Elt F)) : (⟨S50000x256, .f32⟩ : BufTy).Contents (Elt F)) := by
  rw [at_9 V main_v67 (by decide), before_9 V main_v3 (by decide), before_9 V main_v57 (by decide), before_9 V main_v62 (by decide)]
  exact c_agg2_at_main_v67 _

/-- `main_v88` within its stage, from any contents. -/
theorem c_z2_at_main_v88 (W : Valuation τ sig (Elt F)) :
    after c_z2 W (main_v88 : DevRef τ sig) =
      ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((addf : (⟨S50000x256, .f32⟩ : BufTy).Contents (Elt F) → (⟨S50000x256, .f32⟩ : BufTy).Contents (Elt F) → (⟨S50000x256, .f32⟩ : BufTy).Contents (Elt F)) (W (main_v57 : DevRef τ sig) : (⟨S50000x256, .f32⟩ : BufTy).Contents (Elt F)) (W (main_v67 : DevRef τ sig) : (⟨S50000x256, .f32⟩ : BufTy).Contents (Elt F)) : (⟨S50000x256, .f32⟩ : BufTy).Contents (Elt F)) (shapeCast S256x256 (extractStridedSlice S1x256x256 ![1, 0, 0] (W (main_arg3 : DevRef τ sig) : (⟨S3x256x256, .f32⟩ : BufTy).Contents (Elt F)) slices_S3x256x256_S1x256x256_1_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![1, 0] (W (main_arg4 : DevRef τ sig) : (⟨S3x256, .f32⟩ : BufTy).Contents (Elt F)) slices_S3x256_S1x256_1_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) (shapeCast S256x256 (extractStridedSlice S1x256x256 ![1, 0, 0] (W (main_arg5 : DevRef τ sig) : (⟨S3x256x256, .f32⟩ : BufTy).Contents (Elt F)) slices_S3x256x256_S1x256x256_1_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![1, 0] (W (main_arg6 : DevRef τ sig) : (⟨S3x256, .f32⟩ : BufTy).Contents (Elt F)) slices_S3x256_S1x256_1_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) := by
  stage_results <;> (try simp only [cast_eq]) <;> rfl

/-- `main_v88` after the whole list, as its stage's term of the buffers the stage reads. -/
theorem main_v88_eq (V : Valuation τ sig (Elt F)) :
    after ops V (main_v88 : DevRef τ sig) =
      ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((addf : (⟨S50000x256, .f32⟩ : BufTy).Contents (Elt F) → (⟨S50000x256, .f32⟩ : BufTy).Contents (Elt F) → (⟨S50000x256, .f32⟩ : BufTy).Contents (Elt F)) (after ops V (main_v57 : DevRef τ sig) : (⟨S50000x256, .f32⟩ : BufTy).Contents (Elt F)) (after ops V (main_v67 : DevRef τ sig) : (⟨S50000x256, .f32⟩ : BufTy).Contents (Elt F)) : (⟨S50000x256, .f32⟩ : BufTy).Contents (Elt F)) (shapeCast S256x256 (extractStridedSlice S1x256x256 ![1, 0, 0] (after ops V (main_arg3 : DevRef τ sig) : (⟨S3x256x256, .f32⟩ : BufTy).Contents (Elt F)) slices_S3x256x256_S1x256x256_1_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![1, 0] (after ops V (main_arg4 : DevRef τ sig) : (⟨S3x256, .f32⟩ : BufTy).Contents (Elt F)) slices_S3x256_S1x256_1_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) (shapeCast S256x256 (extractStridedSlice S1x256x256 ![1, 0, 0] (after ops V (main_arg5 : DevRef τ sig) : (⟨S3x256x256, .f32⟩ : BufTy).Contents (Elt F)) slices_S3x256x256_S1x256x256_1_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![1, 0] (after ops V (main_arg6 : DevRef τ sig) : (⟨S3x256, .f32⟩ : BufTy).Contents (Elt F)) slices_S3x256_S1x256_1_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) := by
  rw [at_10 V main_v88 (by decide), before_10 V main_v57 (by decide), before_10 V main_v67 (by decide), before_10 V main_arg3 (by decide), before_10 V main_arg4 (by decide), before_10 V main_arg5 (by decide), before_10 V main_arg6 (by decide)]
  exact c_z2_at_main_v88 _

/-- `main_v91` within its stage, from any contents. -/
theorem c_mean2_at_main_v91 (W : Valuation τ sig (Elt F)) :
    after c_mean2 W (main_v91 : DevRef τ sig) =
      ((Host.divf : (⟨S256, .f32⟩ : BufTy).Contents (Elt F) → (⟨S256, .f32⟩ : BufTy).Contents (Elt F) → (⟨S256, .f32⟩ : BufTy).Contents (Elt F)) (Host.reduceAdd (W (main_v88 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x47435000#32 : (⟨S_, .f32⟩ : BufTy).Contents (Elt F)) : (⟨S256, .f32⟩ : BufTy).Contents (Elt F)) : (⟨S256, .f32⟩ : BufTy).Contents (Elt F)) := by
  stage_results <;> (try simp only [cast_eq]) <;> rfl

/-- `main_v91` after the whole list, as its stage's term of the buffers the stage reads. -/
theorem main_v91_eq (V : Valuation τ sig (Elt F)) :
    after ops V (main_v91 : DevRef τ sig) =
      ((Host.divf : (⟨S256, .f32⟩ : BufTy).Contents (Elt F) → (⟨S256, .f32⟩ : BufTy).Contents (Elt F) → (⟨S256, .f32⟩ : BufTy).Contents (Elt F)) (Host.reduceAdd (after ops V (main_v88 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x47435000#32 : (⟨S_, .f32⟩ : BufTy).Contents (Elt F)) : (⟨S256, .f32⟩ : BufTy).Contents (Elt F)) : (⟨S256, .f32⟩ : BufTy).Contents (Elt F)) := by
  rw [at_11 V main_v91 (by decide), before_11 V main_v88 (by decide)]
  exact c_mean2_at_main_v91 _

/-- `main_v92` within its stage, from any contents. -/
theorem c_var2_at_main_v92 (W : Valuation τ sig (Elt F)) :
    after c_var2 W (main_v92 : DevRef τ sig) =
      (select (broadcastInDim S256 ![] bcast_S_S256 (cmpf .ogt (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf (W (main_v88 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (W (main_v88 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) (subf (W (main_v88 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (W (main_v88 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) (broadcastInDim S256 ![] bcast_S_S256 (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) : (⟨S256, .f32⟩ : BufTy).Contents (Elt F)) : (⟨S256, .f32⟩ : BufTy).Contents (Elt F)) (broadcastInDim S256 ![] bcast_S_S256 (id (constant S_ .f32 0x7FC00000#32 : (⟨S_, .f32⟩ : BufTy).Contents (Elt F)) : (⟨S_, .f32⟩ : BufTy).Contents (Elt F)) : (⟨S256, .f32⟩ : BufTy).Contents (Elt F)) : (⟨S256, .f32⟩ : BufTy).Contents (Elt F)) := by
  stage_results <;> (try simp only [cast_eq]) <;> rfl

/-- `main_v92` after the whole list, as its stage's term of the buffers the stage reads. -/
theorem main_v92_eq (V : Valuation τ sig (Elt F)) :
    after ops V (main_v92 : DevRef τ sig) =
      (select (broadcastInDim S256 ![] bcast_S_S256 (cmpf .ogt (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf (after ops V (main_v88 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (after ops V (main_v88 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) (subf (after ops V (main_v88 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (after ops V (main_v88 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) (broadcastInDim S256 ![] bcast_S_S256 (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) : (⟨S256, .f32⟩ : BufTy).Contents (Elt F)) : (⟨S256, .f32⟩ : BufTy).Contents (Elt F)) (broadcastInDim S256 ![] bcast_S_S256 (id (constant S_ .f32 0x7FC00000#32 : (⟨S_, .f32⟩ : BufTy).Contents (Elt F)) : (⟨S_, .f32⟩ : BufTy).Contents (Elt F)) : (⟨S256, .f32⟩ : BufTy).Contents (Elt F)) : (⟨S256, .f32⟩ : BufTy).Contents (Elt F)) := by
  rw [at_12 V main_v92 (by decide), before_12 V main_v88 (by decide)]
  exact c_var2_at_main_v92 _

/-- `main_v101` within its stage, from any contents. -/
theorem c_out2a_at_main_v101 (W : Valuation τ sig (Elt F)) :
    after c_out2a W (main_v101 : DevRef τ sig) =
      ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) (W (main_v88 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (W (main_v91 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (W (main_v92 : DevRef τ sig) : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)) : (⟨S256, .f32⟩ : BufTy).Contents (Elt F)) : (⟨S256, .f32⟩ : BufTy).Contents (Elt F)) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  stage_results <;> (try simp only [cast_eq]) <;> rfl

/-- `main_v101` after the whole list, as its stage's term of the buffers the stage reads. -/
theorem main_v101_eq (V : Valuation τ sig (Elt F)) :
    after ops V (main_v101 : DevRef τ sig) =
      ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) (after ops V (main_v88 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (after ops V (main_v91 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (after ops V (main_v92 : DevRef τ sig) : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)) : (⟨S256, .f32⟩ : BufTy).Contents (Elt F)) : (⟨S256, .f32⟩ : BufTy).Contents (Elt F)) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  rw [at_13 V main_v101 (by decide), before_13 V main_v88 (by decide), before_13 V main_v91 (by decide), before_13 V main_v92 (by decide)]
  exact c_out2a_at_main_v101 _

/-- `main_v111` within its stage, from any contents. -/
theorem c_out2b_at_main_v111 (W : Valuation τ sig (Elt F)) :
    after c_out2b W (main_v111 : DevRef τ sig) =
      ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) (W (main_v101 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![1, 0] (W (main_arg7 : DevRef τ sig) : (⟨S3x256, .f32⟩ : BufTy).Contents (Elt F)) slices_S3x256_S1x256_1_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![1, 0] (W (main_arg8 : DevRef τ sig) : (⟨S3x256, .f32⟩ : BufTy).Contents (Elt F)) slices_S3x256_S1x256_1_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  stage_results <;> (try simp only [cast_eq]) <;> rfl

/-- `main_v111` after the whole list, as its stage's term of the buffers the stage reads. -/
theorem main_v111_eq (V : Valuation τ sig (Elt F)) :
    after ops V (main_v111 : DevRef τ sig) =
      ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) (after ops V (main_v101 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![1, 0] (after ops V (main_arg7 : DevRef τ sig) : (⟨S3x256, .f32⟩ : BufTy).Contents (Elt F)) slices_S3x256_S1x256_1_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![1, 0] (after ops V (main_arg8 : DevRef τ sig) : (⟨S3x256, .f32⟩ : BufTy).Contents (Elt F)) slices_S3x256_S1x256_1_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  rw [at_14 V main_v111 (by decide), before_14 V main_v101 (by decide), before_14 V main_arg7 (by decide), before_14 V main_arg8 (by decide)]
  exact c_out2b_at_main_v111 _

/-- `main_v116` within its stage, from any contents. -/
theorem c_src3_at_main_v116 (W : Valuation τ sig (Elt F)) :
    after c_src3 W (main_v116 : DevRef τ sig) =
      ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (W (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) (W (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)) : (⟨S800000, .i32⟩ : BufTy).Contents (Elt F)) : (⟨S800000, .i32⟩ : BufTy).Contents (Elt F)) (W (main_v1 : DevRef τ sig) : (⟨S800000, .i32⟩ : BufTy).Contents (Elt F)) : (⟨S800000, .i32⟩ : BufTy).Contents (Elt F)) := by
  stage_results <;> (try simp only [cast_eq]) <;> rfl

/-- `main_v116` after the whole list, as its stage's term of the buffers the stage reads. -/
theorem main_v116_eq (V : Valuation τ sig (Elt F)) :
    after ops V (main_v116 : DevRef τ sig) =
      ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (after ops V (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) (after ops V (main_v1 : DevRef τ sig) : (⟨S800000, .i32⟩ : BufTy).Contents (Elt F)) ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)) : (⟨S800000, .i32⟩ : BufTy).Contents (Elt F)) : (⟨S800000, .i32⟩ : BufTy).Contents (Elt F)) (after ops V (main_v1 : DevRef τ sig) : (⟨S800000, .i32⟩ : BufTy).Contents (Elt F)) : (⟨S800000, .i32⟩ : BufTy).Contents (Elt F)) := by
  rw [at_15 V main_v116 (by decide), before_15 V main_v1 (by decide)]
  exact c_src3_at_main_v116 _

/-- `main_v121` within its stage, from any contents. -/
theorem c_agg3_at_main_v121 (W : Valuation τ sig (Elt F)) :
    after c_agg3 W (main_v121 : DevRef τ sig) =
      (Host.scatterAdd scatter_S50000x256_S800000x1_S800000x256_1_0_0_1 ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (W (main_v3 : DevRef τ sig) : (⟨S800000, .i32⟩ : BufTy).Contents (Elt F)) : (⟨S800000x1, .i32⟩ : BufTy).Contents (Elt F)) (Host.gather gather_S50000x256_S800000x1_S800000x256_1_0_n_n_0_1_1256 (W (main_v111 : DevRef τ sig) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (W (main_v116 : DevRef τ sig) : (⟨S800000, .i32⟩ : BufTy).Contents (Elt F)) : (⟨S800000x1, .i32⟩ : BufTy).Contents (Elt F)) : (⟨S800000x256, .f32⟩ : BufTy).Contents (Elt F)) : (⟨S50000x256, .f32⟩ : BufTy).Contents (Elt F)) := by
  stage_results <;> (try simp only [cast_eq]) <;> rfl

/-- `main_v121` after the whole list, as its stage's term of the buffers the stage reads. -/
theorem main_v121_eq (V : Valuation τ sig (Elt F)) :
    after ops V (main_v121 : DevRef τ sig) =
      (Host.scatterAdd scatter_S50000x256_S800000x1_S800000x256_1_0_0_1 ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (after ops V (main_v3 : DevRef τ sig) : (⟨S800000, .i32⟩ : BufTy).Contents (Elt F)) : (⟨S800000x1, .i32⟩ : BufTy).Contents (Elt F)) (Host.gather gather_S50000x256_S800000x1_S800000x256_1_0_n_n_0_1_1256 (after ops V (main_v111 : DevRef τ sig) : (⟨S50000x256, .f32⟩ : BufTy).Contents (Elt F)) ((broadcastInDim S800000x1 ![0] bcast_S800000_S800000x1_0 : (⟨S800000, .i32⟩ : BufTy).Contents (Elt F) → (⟨S800000x1, .i32⟩ : BufTy).Contents (Elt F)) (after ops V (main_v116 : DevRef τ sig) : (⟨S800000, .i32⟩ : BufTy).Contents (Elt F)) : (⟨S800000x1, .i32⟩ : BufTy).Contents (Elt F)) : (⟨S800000x256, .f32⟩ : BufTy).Contents (Elt F)) : (⟨S50000x256, .f32⟩ : BufTy).Contents (Elt F)) := by
  rw [at_16 V main_v121 (by decide), before_16 V main_v3 (by decide), before_16 V main_v111 (by decide), before_16 V main_v116 (by decide)]
  exact c_agg3_at_main_v121 _

/-- `main_v142` within its stage, from any contents. -/
theorem c_z3_at_main_v142 (W : Valuation τ sig (Elt F)) :
    after c_z3 W (main_v142 : DevRef τ sig) =
      ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((addf : (⟨S50000x256, .f32⟩ : BufTy).Contents (Elt F) → (⟨S50000x256, .f32⟩ : BufTy).Contents (Elt F) → (⟨S50000x256, .f32⟩ : BufTy).Contents (Elt F)) (W (main_v111 : DevRef τ sig) : (⟨S50000x256, .f32⟩ : BufTy).Contents (Elt F)) (W (main_v121 : DevRef τ sig) : (⟨S50000x256, .f32⟩ : BufTy).Contents (Elt F)) : (⟨S50000x256, .f32⟩ : BufTy).Contents (Elt F)) (shapeCast S256x256 (extractStridedSlice S1x256x256 ![2, 0, 0] (W (main_arg3 : DevRef τ sig) : (⟨S3x256x256, .f32⟩ : BufTy).Contents (Elt F)) slices_S3x256x256_S1x256x256_2_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![2, 0] (W (main_arg4 : DevRef τ sig) : (⟨S3x256, .f32⟩ : BufTy).Contents (Elt F)) slices_S3x256_S1x256_2_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) (shapeCast S256x256 (extractStridedSlice S1x256x256 ![2, 0, 0] (W (main_arg5 : DevRef τ sig) : (⟨S3x256x256, .f32⟩ : BufTy).Contents (Elt F)) slices_S3x256x256_S1x256x256_2_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![2, 0] (W (main_arg6 : DevRef τ sig) : (⟨S3x256, .f32⟩ : BufTy).Contents (Elt F)) slices_S3x256_S1x256_2_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) := by
  stage_results <;> (try simp only [cast_eq]) <;> rfl

/-- `main_v142` after the whole list, as its stage's term of the buffers the stage reads. -/
theorem main_v142_eq (V : Valuation τ sig (Elt F)) :
    after ops V (main_v142 : DevRef τ sig) =
      ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((maximumf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (Host.dotGeneral dot_S50000x256_S256x256_S50000x256_1_0_0_1_n_n none ((addf : (⟨S50000x256, .f32⟩ : BufTy).Contents (Elt F) → (⟨S50000x256, .f32⟩ : BufTy).Contents (Elt F) → (⟨S50000x256, .f32⟩ : BufTy).Contents (Elt F)) (after ops V (main_v111 : DevRef τ sig) : (⟨S50000x256, .f32⟩ : BufTy).Contents (Elt F)) (after ops V (main_v121 : DevRef τ sig) : (⟨S50000x256, .f32⟩ : BufTy).Contents (Elt F)) : (⟨S50000x256, .f32⟩ : BufTy).Contents (Elt F)) (shapeCast S256x256 (extractStridedSlice S1x256x256 ![2, 0, 0] (after ops V (main_arg3 : DevRef τ sig) : (⟨S3x256x256, .f32⟩ : BufTy).Contents (Elt F)) slices_S3x256x256_S1x256x256_2_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![2, 0] (after ops V (main_arg4 : DevRef τ sig) : (⟨S3x256, .f32⟩ : BufTy).Contents (Elt F)) slices_S3x256_S1x256_2_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) (shapeCast S256x256 (extractStridedSlice S1x256x256 ![2, 0, 0] (after ops V (main_arg5 : DevRef τ sig) : (⟨S3x256x256, .f32⟩ : BufTy).Contents (Elt F)) slices_S3x256x256_S1x256x256_2_0_0 : (⟨S1x256x256, .f32⟩ : BufTy).Contents (Elt F)) shapeCasts_S1x256x256_S256x256 : (⟨S256x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![2, 0] (after ops V (main_arg6 : DevRef τ sig) : (⟨S3x256, .f32⟩ : BufTy).Contents (Elt F)) slices_S3x256_S1x256_2_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) (constant S_ .f32 0x00000000#32 : (⟨S_, .f32⟩ : BufTy).Contents (Elt F)) : (⟨S50000x256, .f32⟩ : BufTy).Contents (Elt F)) : (⟨S50000x256, .f32⟩ : BufTy).Contents (Elt F)) := by
  rw [at_17 V main_v142 (by decide), before_17 V main_v111 (by decide), before_17 V main_v121 (by decide), before_17 V main_arg3 (by decide), before_17 V main_arg4 (by decide), before_17 V main_arg5 (by decide), before_17 V main_arg6 (by decide)]
  exact c_z3_at_main_v142 _

/-- `main_v145` within its stage, from any contents. -/
theorem c_mean3_at_main_v145 (W : Valuation τ sig (Elt F)) :
    after c_mean3 W (main_v145 : DevRef τ sig) =
      ((Host.divf : (⟨S256, .f32⟩ : BufTy).Contents (Elt F) → (⟨S256, .f32⟩ : BufTy).Contents (Elt F) → (⟨S256, .f32⟩ : BufTy).Contents (Elt F)) (Host.reduceAdd (W (main_v142 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x47435000#32 : (⟨S_, .f32⟩ : BufTy).Contents (Elt F)) : (⟨S256, .f32⟩ : BufTy).Contents (Elt F)) : (⟨S256, .f32⟩ : BufTy).Contents (Elt F)) := by
  stage_results <;> (try simp only [cast_eq]) <;> rfl

/-- `main_v145` after the whole list, as its stage's term of the buffers the stage reads. -/
theorem main_v145_eq (V : Valuation τ sig (Elt F)) :
    after ops V (main_v145 : DevRef τ sig) =
      ((Host.divf : (⟨S256, .f32⟩ : BufTy).Contents (Elt F) → (⟨S256, .f32⟩ : BufTy).Contents (Elt F) → (⟨S256, .f32⟩ : BufTy).Contents (Elt F)) (Host.reduceAdd (after ops V (main_v142 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x47435000#32 : (⟨S_, .f32⟩ : BufTy).Contents (Elt F)) : (⟨S256, .f32⟩ : BufTy).Contents (Elt F)) : (⟨S256, .f32⟩ : BufTy).Contents (Elt F)) := by
  rw [at_18 V main_v145 (by decide), before_18 V main_v142 (by decide)]
  exact c_mean3_at_main_v145 _

/-- `main_v146` within its stage, from any contents. -/
theorem c_var3_at_main_v146 (W : Valuation τ sig (Elt F)) :
    after c_var3 W (main_v146 : DevRef τ sig) =
      (select (broadcastInDim S256 ![] bcast_S_S256 (cmpf .ogt (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf (W (main_v142 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (W (main_v142 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) (subf (W (main_v142 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (W (main_v142 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) (broadcastInDim S256 ![] bcast_S_S256 (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) : (⟨S256, .f32⟩ : BufTy).Contents (Elt F)) : (⟨S256, .f32⟩ : BufTy).Contents (Elt F)) (broadcastInDim S256 ![] bcast_S_S256 (id (constant S_ .f32 0x7FC00000#32 : (⟨S_, .f32⟩ : BufTy).Contents (Elt F)) : (⟨S_, .f32⟩ : BufTy).Contents (Elt F)) : (⟨S256, .f32⟩ : BufTy).Contents (Elt F)) : (⟨S256, .f32⟩ : BufTy).Contents (Elt F)) := by
  stage_results <;> (try simp only [cast_eq]) <;> rfl

/-- `main_v146` after the whole list, as its stage's term of the buffers the stage reads. -/
theorem main_v146_eq (V : Valuation τ sig (Elt F)) :
    after ops V (main_v146 : DevRef τ sig) =
      (select (broadcastInDim S256 ![] bcast_S_S256 (cmpf .ogt (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf (after ops V (main_v142 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (after ops V (main_v142 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) (subf (after ops V (main_v142 : DevRef τ sig) : (⟨S50000x256, .f32⟩ : BufTy).Contents (Elt F)) (broadcastInDim S50000x256 ![0, 1] bcast_S1x256_S50000x256_0_1 (Host.divf (broadcastInDim S1x256 ![1] bcast_S256_S1x256_1 (Host.reduceAdd (after ops V (main_v142 : DevRef τ sig) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) : (⟨S1x256, .f32⟩ : BufTy).Contents (Elt F)) (broadcastInDim S1x256 ![] bcast_S_S1x256 (constant S_ .f32 0x47435000#32 : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) : (⟨S50000x256, .f32⟩ : BufTy).Contents (Elt F)) (constant S_ .f32 0x00000000#32 : (⟨S_, .f32⟩ : BufTy).Contents (Elt F)) reducesTo_S50000x256_S256_d0 h_S_ : (⟨S256, .f32⟩ : BufTy).Contents (Elt F)) (broadcastInDim S256 ![] bcast_S_S256 (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) : (⟨S256, .f32⟩ : BufTy).Contents (Elt F)) : (⟨S256, .f32⟩ : BufTy).Contents (Elt F)) (broadcastInDim S256 ![] bcast_S_S256 (id (constant S_ .f32 0x7FC00000#32 : (⟨S_, .f32⟩ : BufTy).Contents (Elt F)) : (⟨S_, .f32⟩ : BufTy).Contents (Elt F)) : (⟨S256, .f32⟩ : BufTy).Contents (Elt F)) : (⟨S256, .f32⟩ : BufTy).Contents (Elt F)) := by
  rw [at_19 V main_v146 (by decide), before_19 V main_v142 (by decide)]
  exact c_var3_at_main_v146 _

/-- `main_v152` within its stage, from any contents. -/
theorem c_out3a_at_main_v152 (W : Valuation τ sig (Elt F)) :
    after c_out3a W (main_v152 : DevRef τ sig) =
      ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (W (main_v146 : DevRef τ sig) : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)) : (⟨S256, .f32⟩ : BufTy).Contents (Elt F)) : (⟨S256, .f32⟩ : BufTy).Contents (Elt F)) : (⟨S256, .f32⟩ : BufTy).Contents (Elt F)) := by
  stage_results <;> (try simp only [cast_eq]) <;> rfl

/-- `main_v152` after the whole list, as its stage's term of the buffers the stage reads. -/
theorem main_v152_eq (V : Valuation τ sig (Elt F)) :
    after ops V (main_v152 : DevRef τ sig) =
      ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (after ops V (main_v146 : DevRef τ sig) : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)) : (⟨S256, .f32⟩ : BufTy).Contents (Elt F)) : (⟨S256, .f32⟩ : BufTy).Contents (Elt F)) : (⟨S256, .f32⟩ : BufTy).Contents (Elt F)) := by
  rw [at_20 V main_v152 (by decide), before_20 V main_v146 (by decide)]
  exact c_out3a_at_main_v152 _

/-- `main_v149` within its stage, from any contents. -/
theorem c_out3a_at_main_v149 (W : Valuation τ sig (Elt F)) :
    after c_out3a W (main_v149 : DevRef τ sig) =
      ((subf : (⟨S50000x256, .f32⟩ : BufTy).Contents (Elt F) → (⟨S50000x256, .f32⟩ : BufTy).Contents (Elt F) → (⟨S50000x256, .f32⟩ : BufTy).Contents (Elt F)) (W (main_v142 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (W (main_v145 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  stage_results <;> (try simp only [cast_eq]) <;> rfl

/-- `main_v149` after the whole list, as its stage's term of the buffers the stage reads. -/
theorem main_v149_eq (V : Valuation τ sig (Elt F)) :
    after ops V (main_v149 : DevRef τ sig) =
      ((subf : (⟨S50000x256, .f32⟩ : BufTy).Contents (Elt F) → (⟨S50000x256, .f32⟩ : BufTy).Contents (Elt F) → (⟨S50000x256, .f32⟩ : BufTy).Contents (Elt F)) (after ops V (main_v142 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (after ops V (main_v145 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  rw [at_20 V main_v149 (by decide), before_20 V main_v142 (by decide), before_20 V main_v145 (by decide)]
  exact c_out3a_at_main_v149 _

/-- `main_v165` within its stage, from any contents. -/
theorem c_out3b_at_main_v165 (W : Valuation τ sig (Elt F)) :
    after c_out3b W (main_v165 : DevRef τ sig) =
      ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) (W (main_v149 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (W (main_v152 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![2, 0] (W (main_arg7 : DevRef τ sig) : (⟨S3x256, .f32⟩ : BufTy).Contents (Elt F)) slices_S3x256_S1x256_2_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![2, 0] (W (main_arg8 : DevRef τ sig) : (⟨S3x256, .f32⟩ : BufTy).Contents (Elt F)) slices_S3x256_S1x256_2_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  stage_results <;> (try simp only [cast_eq]) <;> rfl

/-- `main_v165` after the whole list, as its stage's term of the buffers the stage reads. -/
theorem main_v165_eq (V : Valuation τ sig (Elt F)) :
    after ops V (main_v165 : DevRef τ sig) =
      ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) (after ops V (main_v149 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (after ops V (main_v152 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![2, 0] (after ops V (main_arg7 : DevRef τ sig) : (⟨S3x256, .f32⟩ : BufTy).Contents (Elt F)) slices_S3x256_S1x256_2_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![2, 0] (after ops V (main_arg8 : DevRef τ sig) : (⟨S3x256, .f32⟩ : BufTy).Contents (Elt F)) slices_S3x256_S1x256_2_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  rw [at_21 V main_v165 (by decide), before_21 V main_v149 (by decide), before_21 V main_v152 (by decide), before_21 V main_arg7 (by decide), before_21 V main_arg8 (by decide)]
  exact c_out3b_at_main_v165 _

/-- The pooling stage without its last line: the three pooled sums. -/
abbrev c_poolA : List (HloOp τ sig (Elt F)) :=
  [ StableHlo.nullary main_cst_25 (constant S_ .f32 0x00000000#32),
    StableHlo.unary main_cst_25 main_v166 (broadcastInDim S256x256 ![] bcast_S_S256x256 : (⟨S_, .f32⟩ : BufTy).Contents (Elt F) → (⟨S256x256, .f32⟩ : BufTy).Contents (Elt F)),
    StableHlo.unary main_arg2 main_v167 (broadcastInDim S50000x1 ![0] bcast_S50000_S50000x1_0 : (⟨S50000, .i32⟩ : BufTy).Contents (Elt F) → (⟨S50000x1, .i32⟩ : BufTy).Contents (Elt F)),
    StableHlo.ternary main_v166 main_v167 main_v57 main_v168 ((fun x i u => Host.scatterAdd scatter_S256x256_S50000x1_S50000x256_1_0_0_1 x i u) : (⟨S256x256, .f32⟩ : BufTy).Contents (Elt F) → (⟨S50000x1, .i32⟩ : BufTy).Contents (Elt F) → (⟨S50000x256, .f32⟩ : BufTy).Contents (Elt F) → (⟨S256x256, .f32⟩ : BufTy).Contents (Elt F)),
    StableHlo.nullary main_cst_26 (constant S_ .f32 0x00000000#32),
    StableHlo.unary main_cst_26 main_v169 (broadcastInDim S256x256 ![] bcast_S_S256x256 : (⟨S_, .f32⟩ : BufTy).Contents (Elt F) → (⟨S256x256, .f32⟩ : BufTy).Contents (Elt F)),
    StableHlo.unary main_arg2 main_v170 (broadcastInDim S50000x1 ![0] bcast_S50000_S50000x1_0 : (⟨S50000, .i32⟩ : BufTy).Contents (Elt F) → (⟨S50000x1, .i32⟩ : BufTy).Contents (Elt F)),
    StableHlo.ternary main_v169 main_v170 main_v111 main_v171 ((fun x i u => Host.scatterAdd scatter_S256x256_S50000x1_S50000x256_1_0_0_1 x i u) : (⟨S256x256, .f32⟩ : BufTy).Contents (Elt F) → (⟨S50000x1, .i32⟩ : BufTy).Contents (Elt F) → (⟨S50000x256, .f32⟩ : BufTy).Contents (Elt F) → (⟨S256x256, .f32⟩ : BufTy).Contents (Elt F)),
    StableHlo.nullary main_cst_27 (constant S_ .f32 0x00000000#32),
    StableHlo.unary main_cst_27 main_v172 (broadcastInDim S256x256 ![] bcast_S_S256x256 : (⟨S_, .f32⟩ : BufTy).Contents (Elt F) → (⟨S256x256, .f32⟩ : BufTy).Contents (Elt F)),
    StableHlo.unary main_arg2 main_v173 (broadcastInDim S50000x1 ![0] bcast_S50000_S50000x1_0 : (⟨S50000, .i32⟩ : BufTy).Contents (Elt F) → (⟨S50000x1, .i32⟩ : BufTy).Contents (Elt F)),
    StableHlo.ternary main_v172 main_v173 main_v165 main_v174 ((fun x i u => Host.scatterAdd scatter_S256x256_S50000x1_S50000x256_1_0_0_1 x i u) : (⟨S256x256, .f32⟩ : BufTy).Contents (Elt F) → (⟨S50000x1, .i32⟩ : BufTy).Contents (Elt F) → (⟨S50000x256, .f32⟩ : BufTy).Contents (Elt F) → (⟨S256x256, .f32⟩ : BufTy).Contents (Elt F)) ]
/-- The pooling stage's last line: the concatenation. -/
abbrev c_cat : List (HloOp τ sig (Elt F)) :=
  [ StableHlo.nary ![main_v168, main_v171, main_v174] main_v175 (fun u => concatenate S256x768 1 [⟨S256x256, u 0⟩, ⟨S256x256, u 1⟩, ⟨S256x256, u 2⟩] concatenates_S256x256_S256x256_S256x256_S256x768_d1) ]
theorem c_pool_split : (c_pool : List (HloOp τ sig (Elt F))) = c_poolA ++ c_cat := rfl

theorem c_poolA_at_main_v168 (W : Valuation τ sig (Elt F)) :
    after c_poolA W (main_v168 : DevRef τ sig) =
      (Host.scatterAdd scatter_S256x256_S50000x1_S50000x256_1_0_0_1 ((broadcastInDim S256x256 ![] bcast_S_S256x256 : (⟨S_, .f32⟩ : BufTy).Contents (Elt F) → (⟨S256x256, .f32⟩ : BufTy).Contents (Elt F)) (constant S_ .f32 0x00000000#32 : (⟨S_, .f32⟩ : BufTy).Contents (Elt F)) : (⟨S256x256, .f32⟩ : BufTy).Contents (Elt F)) ((broadcastInDim S50000x1 ![0] bcast_S50000_S50000x1_0 : (⟨S50000, .i32⟩ : BufTy).Contents (Elt F) → (⟨S50000x1, .i32⟩ : BufTy).Contents (Elt F)) (W (main_arg2 : DevRef τ sig) : (⟨S50000, .i32⟩ : BufTy).Contents (Elt F)) : (⟨S50000x1, .i32⟩ : BufTy).Contents (Elt F)) (W (main_v57 : DevRef τ sig) : (⟨S50000x256, .f32⟩ : BufTy).Contents (Elt F)) : (⟨S256x256, .f32⟩ : BufTy).Contents (Elt F)) := by
  stage_results <;> (try simp only [cast_eq]) <;> rfl

theorem c_poolA_at_main_v171 (W : Valuation τ sig (Elt F)) :
    after c_poolA W (main_v171 : DevRef τ sig) =
      (Host.scatterAdd scatter_S256x256_S50000x1_S50000x256_1_0_0_1 ((broadcastInDim S256x256 ![] bcast_S_S256x256 : (⟨S_, .f32⟩ : BufTy).Contents (Elt F) → (⟨S256x256, .f32⟩ : BufTy).Contents (Elt F)) (constant S_ .f32 0x00000000#32 : (⟨S_, .f32⟩ : BufTy).Contents (Elt F)) : (⟨S256x256, .f32⟩ : BufTy).Contents (Elt F)) ((broadcastInDim S50000x1 ![0] bcast_S50000_S50000x1_0 : (⟨S50000, .i32⟩ : BufTy).Contents (Elt F) → (⟨S50000x1, .i32⟩ : BufTy).Contents (Elt F)) (W (main_arg2 : DevRef τ sig) : (⟨S50000, .i32⟩ : BufTy).Contents (Elt F)) : (⟨S50000x1, .i32⟩ : BufTy).Contents (Elt F)) (W (main_v111 : DevRef τ sig) : (⟨S50000x256, .f32⟩ : BufTy).Contents (Elt F)) : (⟨S256x256, .f32⟩ : BufTy).Contents (Elt F)) := by
  stage_results <;> (try simp only [cast_eq]) <;> rfl

theorem c_poolA_at_main_v174 (W : Valuation τ sig (Elt F)) :
    after c_poolA W (main_v174 : DevRef τ sig) =
      (Host.scatterAdd scatter_S256x256_S50000x1_S50000x256_1_0_0_1 ((broadcastInDim S256x256 ![] bcast_S_S256x256 : (⟨S_, .f32⟩ : BufTy).Contents (Elt F) → (⟨S256x256, .f32⟩ : BufTy).Contents (Elt F)) (constant S_ .f32 0x00000000#32 : (⟨S_, .f32⟩ : BufTy).Contents (Elt F)) : (⟨S256x256, .f32⟩ : BufTy).Contents (Elt F)) ((broadcastInDim S50000x1 ![0] bcast_S50000_S50000x1_0 : (⟨S50000, .i32⟩ : BufTy).Contents (Elt F) → (⟨S50000x1, .i32⟩ : BufTy).Contents (Elt F)) (W (main_arg2 : DevRef τ sig) : (⟨S50000, .i32⟩ : BufTy).Contents (Elt F)) : (⟨S50000x1, .i32⟩ : BufTy).Contents (Elt F)) (W (main_v165 : DevRef τ sig) : (⟨S50000x256, .f32⟩ : BufTy).Contents (Elt F)) : (⟨S256x256, .f32⟩ : BufTy).Contents (Elt F)) := by
  stage_results <;> (try simp only [cast_eq]) <;> rfl

/-- `main_v175` within its stage, from any contents. -/
theorem c_pool_at_main_v175 (W : Valuation τ sig (Elt F)) :
    after c_pool W (main_v175 : DevRef τ sig) =
      (concatenate S256x768 1 [⟨S256x256, (Host.scatterAdd scatter_S256x256_S50000x1_S50000x256_1_0_0_1 ((broadcastInDim S256x256 ![] bcast_S_S256x256 : (⟨S_, .f32⟩ : BufTy).Contents (Elt F) → (⟨S256x256, .f32⟩ : BufTy).Contents (Elt F)) (constant S_ .f32 0x00000000#32 : (⟨S_, .f32⟩ : BufTy).Contents (Elt F)) : (⟨S256x256, .f32⟩ : BufTy).Contents (Elt F)) ((broadcastInDim S50000x1 ![0] bcast_S50000_S50000x1_0 : (⟨S50000, .i32⟩ : BufTy).Contents (Elt F) → (⟨S50000x1, .i32⟩ : BufTy).Contents (Elt F)) (W (main_arg2 : DevRef τ sig) : (⟨S50000, .i32⟩ : BufTy).Contents (Elt F)) : (⟨S50000x1, .i32⟩ : BufTy).Contents (Elt F)) (W (main_v57 : DevRef τ sig) : (⟨S50000x256, .f32⟩ : BufTy).Contents (Elt F)) : (⟨S256x256, .f32⟩ : BufTy).Contents (Elt F))⟩, ⟨S256x256, (Host.scatterAdd scatter_S256x256_S50000x1_S50000x256_1_0_0_1 ((broadcastInDim S256x256 ![] bcast_S_S256x256 : (⟨S_, .f32⟩ : BufTy).Contents (Elt F) → (⟨S256x256, .f32⟩ : BufTy).Contents (Elt F)) (constant S_ .f32 0x00000000#32 : (⟨S_, .f32⟩ : BufTy).Contents (Elt F)) : (⟨S256x256, .f32⟩ : BufTy).Contents (Elt F)) ((broadcastInDim S50000x1 ![0] bcast_S50000_S50000x1_0 : (⟨S50000, .i32⟩ : BufTy).Contents (Elt F) → (⟨S50000x1, .i32⟩ : BufTy).Contents (Elt F)) (W (main_arg2 : DevRef τ sig) : (⟨S50000, .i32⟩ : BufTy).Contents (Elt F)) : (⟨S50000x1, .i32⟩ : BufTy).Contents (Elt F)) (W (main_v111 : DevRef τ sig) : (⟨S50000x256, .f32⟩ : BufTy).Contents (Elt F)) : (⟨S256x256, .f32⟩ : BufTy).Contents (Elt F))⟩, ⟨S256x256, (Host.scatterAdd scatter_S256x256_S50000x1_S50000x256_1_0_0_1 ((broadcastInDim S256x256 ![] bcast_S_S256x256 : (⟨S_, .f32⟩ : BufTy).Contents (Elt F) → (⟨S256x256, .f32⟩ : BufTy).Contents (Elt F)) (constant S_ .f32 0x00000000#32 : (⟨S_, .f32⟩ : BufTy).Contents (Elt F)) : (⟨S256x256, .f32⟩ : BufTy).Contents (Elt F)) ((broadcastInDim S50000x1 ![0] bcast_S50000_S50000x1_0 : (⟨S50000, .i32⟩ : BufTy).Contents (Elt F) → (⟨S50000x1, .i32⟩ : BufTy).Contents (Elt F)) (W (main_arg2 : DevRef τ sig) : (⟨S50000, .i32⟩ : BufTy).Contents (Elt F)) : (⟨S50000x1, .i32⟩ : BufTy).Contents (Elt F)) (W (main_v165 : DevRef τ sig) : (⟨S50000x256, .f32⟩ : BufTy).Contents (Elt F)) : (⟨S256x256, .f32⟩ : BufTy).Contents (Elt F))⟩] concatenates_S256x256_S256x256_S256x256_S256x768_d1 : (⟨S256x768, .f32⟩ : BufTy).Contents (Elt F)) := by
  rw [c_pool_split, after_append, ← c_poolA_at_main_v168 W, ← c_poolA_at_main_v171 W, ← c_poolA_at_main_v174 W]
  simp only [after_cons, after_nil]
  rw [nary_result]
  rfl

/-- `main_v175` after the whole list, as its stage's term of the buffers the stage reads. -/
theorem main_v175_eq (V : Valuation τ sig (Elt F)) :
    after ops V (main_v175 : DevRef τ sig) =
      (concatenate S256x768 1 [⟨S256x256, (Host.scatterAdd scatter_S256x256_S50000x1_S50000x256_1_0_0_1 ((broadcastInDim S256x256 ![] bcast_S_S256x256 : (⟨S_, .f32⟩ : BufTy).Contents (Elt F) → (⟨S256x256, .f32⟩ : BufTy).Contents (Elt F)) (constant S_ .f32 0x00000000#32 : (⟨S_, .f32⟩ : BufTy).Contents (Elt F)) : (⟨S256x256, .f32⟩ : BufTy).Contents (Elt F)) ((broadcastInDim S50000x1 ![0] bcast_S50000_S50000x1_0 : (⟨S50000, .i32⟩ : BufTy).Contents (Elt F) → (⟨S50000x1, .i32⟩ : BufTy).Contents (Elt F)) (after ops V (main_arg2 : DevRef τ sig) : (⟨S50000, .i32⟩ : BufTy).Contents (Elt F)) : (⟨S50000x1, .i32⟩ : BufTy).Contents (Elt F)) (after ops V (main_v57 : DevRef τ sig) : (⟨S50000x256, .f32⟩ : BufTy).Contents (Elt F)) : (⟨S256x256, .f32⟩ : BufTy).Contents (Elt F))⟩, ⟨S256x256, (Host.scatterAdd scatter_S256x256_S50000x1_S50000x256_1_0_0_1 ((broadcastInDim S256x256 ![] bcast_S_S256x256 : (⟨S_, .f32⟩ : BufTy).Contents (Elt F) → (⟨S256x256, .f32⟩ : BufTy).Contents (Elt F)) (constant S_ .f32 0x00000000#32 : (⟨S_, .f32⟩ : BufTy).Contents (Elt F)) : (⟨S256x256, .f32⟩ : BufTy).Contents (Elt F)) ((broadcastInDim S50000x1 ![0] bcast_S50000_S50000x1_0 : (⟨S50000, .i32⟩ : BufTy).Contents (Elt F) → (⟨S50000x1, .i32⟩ : BufTy).Contents (Elt F)) (after ops V (main_arg2 : DevRef τ sig) : (⟨S50000, .i32⟩ : BufTy).Contents (Elt F)) : (⟨S50000x1, .i32⟩ : BufTy).Contents (Elt F)) (after ops V (main_v111 : DevRef τ sig) : (⟨S50000x256, .f32⟩ : BufTy).Contents (Elt F)) : (⟨S256x256, .f32⟩ : BufTy).Contents (Elt F))⟩, ⟨S256x256, (Host.scatterAdd scatter_S256x256_S50000x1_S50000x256_1_0_0_1 ((broadcastInDim S256x256 ![] bcast_S_S256x256 : (⟨S_, .f32⟩ : BufTy).Contents (Elt F) → (⟨S256x256, .f32⟩ : BufTy).Contents (Elt F)) (constant S_ .f32 0x00000000#32 : (⟨S_, .f32⟩ : BufTy).Contents (Elt F)) : (⟨S256x256, .f32⟩ : BufTy).Contents (Elt F)) ((broadcastInDim S50000x1 ![0] bcast_S50000_S50000x1_0 : (⟨S50000, .i32⟩ : BufTy).Contents (Elt F) → (⟨S50000x1, .i32⟩ : BufTy).Contents (Elt F)) (after ops V (main_arg2 : DevRef τ sig) : (⟨S50000, .i32⟩ : BufTy).Contents (Elt F)) : (⟨S50000x1, .i32⟩ : BufTy).Contents (Elt F)) (after ops V (main_v165 : DevRef τ sig) : (⟨S50000x256, .f32⟩ : BufTy).Contents (Elt F)) : (⟨S256x256, .f32⟩ : BufTy).Contents (Elt F))⟩] concatenates_S256x256_S256x256_S256x256_S256x768_d1 : (⟨S256x768, .f32⟩ : BufTy).Contents (Elt F)) := by
  rw [at_22 V main_v175, before_22 V main_arg2 (by decide), before_22 V main_v57 (by decide), before_22 V main_v111 (by decide), before_22 V main_v165 (by decide)]
  exact c_pool_at_main_v175 _

/-! ## The layer outputs over the layer's own stages

The layer output is written in two runs of lines; here the first run's results are put into the second's, so the output
reads over the pre-norm activations, their mean and variance, and the scale and shift rows. -/

/-- The output of the layer (`main_v57`) over the layer's pre-norm activations, mean, variance and parameter rows. -/
theorem out1_eq (V : Valuation τ sig (Elt F)) :
    after ops V (main_v57 : DevRef τ sig) =
      ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) (after ops V (main_v34 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (after ops V (main_v37 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (after ops V (main_v38 : DevRef τ sig) : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)) : (⟨S256, .f32⟩ : BufTy).Contents (Elt F)) : (⟨S256, .f32⟩ : BufTy).Contents (Elt F)) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![0, 0] (after ops V (main_arg7 : DevRef τ sig) : (⟨S3x256, .f32⟩ : BufTy).Contents (Elt F)) slices_S3x256_S1x256_0_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![0, 0] (after ops V (main_arg8 : DevRef τ sig) : (⟨S3x256, .f32⟩ : BufTy).Contents (Elt F)) slices_S3x256_S1x256_0_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  rw [main_v57_eq V, main_v50_eq V, main_v47_eq V]

/-- The output of the layer (`main_v111`) over the layer's pre-norm activations, mean, variance and parameter rows. -/
theorem out2_eq (V : Valuation τ sig (Elt F)) :
    after ops V (main_v111 : DevRef τ sig) =
      ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) (after ops V (main_v88 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (after ops V (main_v91 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (after ops V (main_v92 : DevRef τ sig) : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)) : (⟨S256, .f32⟩ : BufTy).Contents (Elt F)) : (⟨S256, .f32⟩ : BufTy).Contents (Elt F)) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![1, 0] (after ops V (main_arg7 : DevRef τ sig) : (⟨S3x256, .f32⟩ : BufTy).Contents (Elt F)) slices_S3x256_S1x256_1_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![1, 0] (after ops V (main_arg8 : DevRef τ sig) : (⟨S3x256, .f32⟩ : BufTy).Contents (Elt F)) slices_S3x256_S1x256_1_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  rw [main_v111_eq V, main_v101_eq V]

/-- The output of the layer (`main_v165`) over the layer's pre-norm activations, mean, variance and parameter rows. -/
theorem out3_eq (V : Valuation τ sig (Elt F)) :
    after ops V (main_v165 : DevRef τ sig) =
      ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) (after ops V (main_v142 : DevRef τ sig) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (after ops V (main_v145 : DevRef τ sig) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (after ops V (main_v146 : DevRef τ sig) : (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x3727C5AC#32 : (⟨S_, .f32⟩ : BufTy).Contents (Elt F)) : (⟨S256, .f32⟩ : BufTy).Contents (Elt F)) : (⟨S256, .f32⟩ : BufTy).Contents (Elt F)) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![2, 0] (after ops V (main_arg7 : DevRef τ sig) : (⟨S3x256, .f32⟩ : BufTy).Contents (Elt F)) slices_S3x256_S1x256_2_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (shapeCast S256 (extractStridedSlice S1x256 ![2, 0] (after ops V (main_arg8 : DevRef τ sig) : (⟨S3x256, .f32⟩ : BufTy).Contents (Elt F)) slices_S3x256_S1x256_2_0 : (⟨S1x256, .f32⟩ : BufTy).Contents (Elt F)) shapeCasts_S1x256_S256 : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) := by
  rw [main_v165_eq V, main_v152_eq V, main_v149_eq V]

end Cert.ReferenceIdeal.Hand

end
-- ==== Proof.Ref.GlueDefs.lean ====
/-
  The reference's host operations outside the dense maps and the statistics, as named pure functions of whole
  arrays: senders and targets (the two rows of the edge list), the aggregation (gather the senders' rows, a negative
  sender wrapped by the number of nodes, scatter-add them at the targets into zeros), a layer's slices of the
  stacked parameter arrays, the pooling per graph and the concatenation of the three pooled arrays. The gather,
  the scatter-adds and the concatenation are never opened.
-/
import proofs.«130186_j80642305950442_1_alg».proof.Proof.Gen.ReferenceIdeal
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-- The senders: row 0 of the edge list. -/
def srcOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
/-- The targets: row 1 of the edge list. -/
def dstOf (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000
/-- The sum, at each target row, of the senders' rows (a negative sender index wrapped by 50000). -/
def aggOf (s d : (⟨S800000, .i32⟩ : BufTy).Contents (Elt F)) (h : (⟨S50000x256, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))
/-- Layer L's slice of a stacked weight array. -/
def wSl0 (w : (⟨S3x256x256, .f32⟩ : BufTy).Contents (Elt F)) : (⟨S256x256, .f32⟩ : BufTy).Contents (Elt F) :=
  shapeCast S256x256 (extractStridedSlice S1x256x256 ![0, 0, 0] w slices_S3x256x256_S1x256x256_0_0_0) shapeCasts_S1x256x256_S256x256
def wSl1 (w : (⟨S3x256x256, .f32⟩ : BufTy).Contents (Elt F)) : (⟨S256x256, .f32⟩ : BufTy).Contents (Elt F) :=
  shapeCast S256x256 (extractStridedSlice S1x256x256 ![1, 0, 0] w slices_S3x256x256_S1x256x256_1_0_0) shapeCasts_S1x256x256_S256x256
def wSl2 (w : (⟨S3x256x256, .f32⟩ : BufTy).Contents (Elt F)) : (⟨S256x256, .f32⟩ : BufTy).Contents (Elt F) :=
  shapeCast S256x256 (extractStridedSlice S1x256x256 ![2, 0, 0] w slices_S3x256x256_S1x256x256_2_0_0) shapeCasts_S1x256x256_S256x256
/-- Layer L's row of a stacked row array. -/
def rSl0 (b : (⟨S3x256, .f32⟩ : BufTy).Contents (Elt F)) : (⟨S256, .f32⟩ : BufTy).Contents (Elt F) :=
  shapeCast S256 (extractStridedSlice S1x256 ![0, 0] b slices_S3x256_S1x256_0_0) shapeCasts_S1x256_S256
def rSl1 (b : (⟨S3x256, .f32⟩ : BufTy).Contents (Elt F)) : (⟨S256, .f32⟩ : BufTy).Contents (Elt F) :=
  shapeCast S256 (extractStridedSlice S1x256 ![1, 0] b slices_S3x256_S1x256_1_0) shapeCasts_S1x256_S256
def rSl2 (b : (⟨S3x256, .f32⟩ : BufTy).Contents (Elt F)) : (⟨S256, .f32⟩ : BufTy).Contents (Elt F) :=
  shapeCast S256 (extractStridedSlice S1x256 ![2, 0] b slices_S3x256_S1x256_2_0) shapeCasts_S1x256_S256
/-- A column statistic divided by the number of rows. -/
def meanH (s : (⟨S256, .f32⟩ : BufTy).Contents (Elt F)) : (⟨S256, .f32⟩ : BufTy).Contents (Elt F) :=
  Host.divf s (broadcastInDim S256 ![] bcast_S_S256 (constant S_ .f32 0x47435000#32))
/-- The one-pass variance from the column sums of z and of z squared. -/
def varH (s ssq : (⟨S256, .f32⟩ : BufTy).Contents (Elt F)) : (⟨S256, .f32⟩ : BufTy).Contents (Elt F) :=
  subf (meanH ssq) (mulf (meanH s) (meanH s))
/-- The rows of z summed per graph. -/
def poolOf (bt : (⟨S50000, .i32⟩ : BufTy).Contents (Elt F)) (z : (⟨S50000x256, .f32⟩ : BufTy).Contents (Elt F)) : (⟨S256x256, .f32⟩ : BufTy).Contents (Elt F) :=
  Host.scatterAdd scatter_S256x256_S50000x1_S50000x256_1_0_0_1
    (broadcastInDim S256x256 ![] bcast_S_S256x256 (constant S_ .f32 0x00000000#32))
    (broadcastInDim S50000x1 ![0] bcast_S50000_S50000x1_0 bt) z
/-- The three pooled arrays side by side. -/
def catOf (a b c : (⟨S256x256, .f32⟩ : BufTy).Contents (Elt F)) : (⟨S256x768, .f32⟩ : BufTy).Contents (Elt F) :=
  concatenate S256x768 1 [⟨S256x256, a⟩, ⟨S256x256, b⟩, ⟨S256x256, c⟩] concatenates_S256x256_S256x256_S256x256_S256x768_d1

end Cert.ReferenceIdeal.Hand

end
-- ==== Proof.Math.HostStats.lean ====
/-
  The host program's spellings of a layer's pieces, read into the specification, entry by entry.
  A product of a [50000, 256] array by a [256, 256] matrix, plus a bias vector broadcast first to a row and then down
  the rows, clamped at zero, is at entry (p, q) the maximum of (sum over k of a(p, k) w(k, q)) + b(q) and 0; two of
  them composed are the two dense maps. A sum over the rows started from the zero literal is the column sum; divided
  by the broadcast literal 50000 it is the column mean. Normalisation broadcasts the column statistics the same way.
  The variance function subtracts the broadcast mean, squares, sums over the rows and divides by 50000 minus the
  converted integer 0; its guard "the divisor is positive" holds, so the selection keeps the quotient.
-/
import proofs.«130186_j80642305950442_1_alg».proof.ReferenceIdeal
import proofs.«130186_j80642305950442_1_alg».proof.Proof.Math.Spec
import proofs.«130186_j80642305950442_1_alg».proof.Proof.Math.Consts
import proofs.«130186_j80642305950442_1_alg».proof.Proof.LibMatRows
import proofs.«130186_j80642305950442_1_alg».proof.Proof.LibHostLayout
import Idealize.ShloMosaic.PureOps.Ideal
import Idealize.ShloMosaic.PureOps.Ideal.Laws
import Idealize.ShloMosaic.Lib.ValueIdx

noncomputable section

namespace Cert.Spec.HostStats

open Idealize.ShloMosaic Idealize.ShloMosaic.ValueIdx Cert.ReferenceIdeal Cert.ReferenceIdeal.Facts₀

variable [Cert.ReferenceIdeal.Facts]

/-! ### Broadcasts read at an entry -/

/-- A vector broadcast to a row and then down the rows: entry (p, q) is the vector's entry q. -/
theorem rows_apply (b : FVec Ideal S256 .f32) (p : Fin 50000) (q : Fin 256) :
    broadcastInDim S50000x256 ![0, 1] bcast_S1x256_S50000x256_0_1 (broadcastInDim S1x256 ![1] bcast_S256_S1x256_1 b) (ix2 p q)
      = b (ix1 q) := by
  rw [Cert.HostLayout.bcast_cols_apply, Cert.HostLayout.bcast_rowvec_apply]

/-- The zero literal broadcast to the whole array. -/
theorem zeros_apply (i : S50000x256.Idx) :
    broadcastInDim S50000x256 ![] bcast_S_S50000x256 (constant (F := Ideal) S_ .f32 0x00000000#32) i = zeroW := by
  rw [Cert.HostLayout.bcast_scalar_apply]; rfl

/-- The literal 50000 broadcast to a row of statistics. -/
theorem count_apply (j : S256.Idx) :
    broadcastInDim S256 ![] bcast_S_S256 (constant (F := Ideal) S_ .f32 0x47435000#32) j = nW := by
  rw [Cert.HostLayout.bcast_scalar_apply]; rfl

/-- The epsilon literal broadcast to a row of statistics. -/
theorem eps_apply (j : S256.Idx) :
    broadcastInDim S256 ![] bcast_S_S256 (constant (F := Ideal) S_ .f32 0x3727C5AC#32) j = epsW := by
  rw [Cert.HostLayout.bcast_scalar_apply]; rfl

/-! ### A dense map with bias and clamp -/

/-- The printed product record is the plain [50000, 256] by [256, 256] contraction. -/
theorem dot_eq_plain : dot_S50000x256_S256x256_S50000x256_1_0_0_1_n_n = DotDims.plain 50000 256 256 := rfl

/-- One dense map, bias and clamp at entry (p, q). -/
theorem dense_apply (x : FVec Ideal S50000x256 .f32) (w : FVec Ideal S256x256 .f32) (b : FVec Ideal S256 .f32)
    (p : Fin 50000) (q : Fin 256) :
    maximumf (addf (Host.dotGeneral (F := Ideal) dot_S50000x256_S256x256_S50000x256_1_0_0_1_n_n none x w : FVec Ideal S50000x256 .f32)
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32)) (ix2 p q)
      = max ((∑ k : Fin 256, x (ix2 p k) * w (ix2 k q)) + b (ix1 q)) zeroW := by
  rw [maximumf_apply, addf_apply, rows_apply, zeros_apply, dot_eq_plain, Idealize.ShloMosaic.MatRows.dotGeneral_plain_apply]

/-- (iii) The reference's two dense maps are the specification's. -/
theorem ref_mlp (a : FVec Ideal S50000x256 .f32) (w1 w2 : FVec Ideal S256x256 .f32) (b1 b2 : FVec Ideal S256 .f32) :
    maximumf (addf (Host.dotGeneral (F := Ideal) dot_S50000x256_S256x256_S50000x256_1_0_0_1_n_n none
        (maximumf (addf (Host.dotGeneral (F := Ideal) dot_S50000x256_S256x256_S50000x256_1_0_0_1_n_n none a w1 : FVec Ideal S50000x256 .f32)
            (broadcastInDim S50000x256 ![0, 1] bcast_S1x256_S50000x256_0_1 (broadcastInDim S1x256 ![1] bcast_S256_S1x256_1 b1)))
          (broadcastInDim S50000x256 ![] bcast_S_S50000x256 (constant (F := Ideal) S_ .f32 0x00000000#32)))
        w2 : FVec Ideal S50000x256 .f32)
        (broadcastInDim S50000x256 ![0, 1] bcast_S1x256_S50000x256_0_1 (broadcastInDim S1x256 ![1] bcast_S256_S1x256_1 b2)))
      (broadcastInDim S50000x256 ![] bcast_S_S50000x256 (constant (F := Ideal) S_ .f32 0x00000000#32))
      = Cert.Spec.mlp a w1 b1 w2 b2 := by
  funext i
  obtain ⟨p, q, rfl⟩ : ∃ (p : Fin 50000) (q : Fin 256), i = ix2 p q := ⟨i 0, i 1, eq_ix2 i⟩
  rw [dense_apply]
  show _ = mlpAt a w1 b1 w2 b2 p q
  unfold mlpAt hiddenAt
  refine congrArg (fun s => max (s + b2 (ix1 q)) zeroW) (Finset.sum_congr rfl fun k _ => ?_)
  rw [dense_apply]

/-! ### Normalisation -/

/-- (iv) The reference's normalise, scale and shift is the specification's. -/
theorem ref_bn (z : FVec Ideal S50000x256 .f32) (mu var gamma beta : FVec Ideal S256 .f32) :
    addf (mulf (mulf (subf z
            (broadcastInDim S50000x256 ![0, 1] bcast_S1x256_S50000x256_0_1 (broadcastInDim S1x256 ![1] bcast_S256_S1x256_1 mu)))
          (broadcastInDim S50000x256 ![0, 1] bcast_S1x256_S50000x256_0_1 (broadcastInDim S1x256 ![1] bcast_S256_S1x256_1
            (Host.rsqrt (F := Ideal) (addf var (broadcastInDim S256 ![] bcast_S_S256 (constant (F := Ideal) S_ .f32 0x3727C5AC#32)))))))
        (broadcastInDim S50000x256 ![0, 1] bcast_S1x256_S50000x256_0_1 (broadcastInDim S1x256 ![1] bcast_S256_S1x256_1 gamma)))
      (broadcastInDim S50000x256 ![0, 1] bcast_S1x256_S50000x256_0_1 (broadcastInDim S1x256 ![1] bcast_S256_S1x256_1 beta))
      = Cert.Spec.bn z mu var gamma beta := by
  funext i
  obtain ⟨p, q, rfl⟩ : ∃ (p : Fin 50000) (q : Fin 256), i = ix2 p q := ⟨i 0, i 1, eq_ix2 i⟩
  rw [addf_apply, mulf_apply, mulf_apply, subf_apply, rows_apply, rows_apply, rows_apply, rows_apply]
  show _ = ((z (ix2 p q) - mu (ix1 q)) * Ideal.rsqrt (var (ix1 q) + epsW)) * gamma (ix1 q) + beta (ix1 q)
  have h : Host.rsqrt (F := Ideal) (addf var (broadcastInDim S256 ![] bcast_S_S256 (constant (F := Ideal) S_ .f32 0x3727C5AC#32))) (ix1 q)
      = Ideal.rsqrt (var (ix1 q) + epsW) := by
    show Ideal.rsqrt (addf var (broadcastInDim S256 ![] bcast_S_S256 (constant (F := Ideal) S_ .f32 0x3727C5AC#32)) (ix1 q)) = _
    rw [addf_apply, eps_apply]
  rw [h]

/-! ### Column statistics -/

/-- The index over column j with row k inserted is (k, j). -/
theorem lift_eq (h : S50000x256.Reduces [0] S256) (j : S256.Idx) (k : Fin 50000) : h.lift j k = ix2 k (j 0) := by
  funext c
  match c with
  | ⟨0, _⟩ => exact Fin.ext rfl
  | ⟨1, _⟩ => exact Fin.ext rfl

/-- A host sum over the rows from the zero literal is the column sum. -/
theorem reduce_rows_apply (z : FVec Ideal S50000x256 .f32) (j : S256.Idx) :
    Host.reduceAdd (F := Ideal) z (constant (F := Ideal) S_ .f32 0x00000000#32) reducesTo_S50000x256_S256_d0 h_S_ j
      = ∑ p : Fin 50000, z (ix2 p (j 0)) := by
  have hR : S50000x256.Reduces [0] S256 := by decide
  show Ideal.hostReduceAdd reducesTo_S50000x256_S256_d0 z (Ideal.ofBits .f32 0x00000000#32) j = _
  rw [Ideal.hostReduceAdd_single _ hR, Ideal.ofBits_zero_f32, zero_add]
  exact Finset.sum_congr rfl fun k _ => congrArg z (lift_eq hR j k)

theorem reduce_rows (z : FVec Ideal S50000x256 .f32) :
    Host.reduceAdd (F := Ideal) z (constant (F := Ideal) S_ .f32 0x00000000#32) reducesTo_S50000x256_S256_d0 h_S_ = colSum z :=
  funext fun j => reduce_rows_apply z j

/-- A host quotient by the broadcast literal 50000, at an entry. -/
theorem div_count_apply (s : FVec Ideal S256 .f32) (j : S256.Idx) :
    Host.divf (F := Ideal) s (broadcastInDim S256 ![] bcast_S_S256 (constant (F := Ideal) S_ .f32 0x47435000#32)) j
      = Ideal.div (s j) nW := by
  show Ideal.div (s j) (broadcastInDim S256 ![] bcast_S_S256 (constant (F := Ideal) S_ .f32 0x47435000#32) j) = _
  rw [count_apply]

/-- (i) The reference's column mean is the specification's. -/
theorem ref_mean (z : FVec Ideal S50000x256 .f32) :
    Host.divf (F := Ideal)
        (Host.reduceAdd (F := Ideal) z (constant (F := Ideal) S_ .f32 0x00000000#32) reducesTo_S50000x256_S256_d0 h_S_)
        (broadcastInDim S256 ![] bcast_S_S256 (constant (F := Ideal) S_ .f32 0x47435000#32))
      = Cert.Spec.mean z := by
  funext j
  rw [div_count_apply, reduce_rows]
  rfl

/-- (v) The column sums divided by the broadcast literal 50000 are the specification's mean … -/
theorem sums_mean (z : FVec Ideal S50000x256 .f32) (s : FVec Ideal S256 .f32) (hs : s = colSum z) :
    Host.divf (F := Ideal) s (broadcastInDim S256 ![] bcast_S_S256 (constant (F := Ideal) S_ .f32 0x47435000#32))
      = Cert.Spec.mean z := by
  subst hs
  funext j
  rw [div_count_apply]
  rfl

/-- … and E[z^2] - E[z]^2 from the two column sums is the specification's one-pass variance. -/
theorem sums_varOne (z : FVec Ideal S50000x256 .f32) (s ssq : FVec Ideal S256 .f32) (hs : s = colSum z) (hq : ssq = colSumSq z) :
    subf (Host.divf (F := Ideal) ssq (broadcastInDim S256 ![] bcast_S_S256 (constant (F := Ideal) S_ .f32 0x47435000#32)))
        (mulf (Host.divf (F := Ideal) s (broadcastInDim S256 ![] bcast_S_S256 (constant (F := Ideal) S_ .f32 0x47435000#32)))
          (Host.divf (F := Ideal) s (broadcastInDim S256 ![] bcast_S_S256 (constant (F := Ideal) S_ .f32 0x47435000#32))))
      = Cert.Spec.varOne z := by
  subst hs hq
  funext j
  rw [subf_apply, mulf_apply, div_count_apply, div_count_apply]
  rfl

/-! ### The variance function -/

/-- The normaliser: the literal 50000 minus the converted integer 0 is the literal 50000. -/
theorem norm_apply (i : S_.Idx) :
    subf (constant (F := Ideal) S_ .f32 0x47435000#32) (sitofp (F := Ideal) .f32 (constantI S_ 32 0#32)) i = nW := by
  show nW - (((0#32 : BitVec 32).toInt : ℝ) : EReal) = nW
  simp

/-- The guard "the normaliser is positive" holds at every column. -/
theorem guard_apply (j : S256.Idx) :
    broadcastInDim S256 ![] bcast_S_S256
        (cmpf (F := Ideal) .ogt
          (subf (constant (F := Ideal) S_ .f32 0x47435000#32) (sitofp (F := Ideal) .f32 (constantI S_ 32 0#32)))
          (constant (F := Ideal) S_ .f32 0x00000000#32)) j = 1#1 := by
  rw [Cert.HostLayout.bcast_scalar_apply, cmpf_apply, norm_apply]
  show Ideal.cmp .ogt nW (Ideal.ofBits .f32 0x00000000#32) = 1#1
  rw [nW_eq, Ideal.ofBits_zero_f32]
  simp [Ideal.cmp]

/-- The deviations from the column mean, as the variance function spells them, at entry (p, q). -/
theorem dev_apply (z : FVec Ideal S50000x256 .f32) (p : Fin 50000) (q : Fin 256) :
    subf z (broadcastInDim S50000x256 ![0, 1] bcast_S1x256_S50000x256_0_1
        (Host.divf (F := Ideal)
          (broadcastInDim S1x256 ![1] bcast_S256_S1x256_1
            (Host.reduceAdd (F := Ideal) z (constant (F := Ideal) S_ .f32 0x00000000#32) reducesTo_S50000x256_S256_d0 h_S_))
          (broadcastInDim S1x256 ![] bcast_S_S1x256 (constant (F := Ideal) S_ .f32 0x47435000#32)))) (ix2 p q)
      = z (ix2 p q) - mean z (ix1 q) := by
  rw [subf_apply, Cert.HostLayout.bcast_cols_apply]
  show z (ix2 p q) - Ideal.div
      (broadcastInDim S1x256 ![1] bcast_S256_S1x256_1
        (Host.reduceAdd (F := Ideal) z (constant (F := Ideal) S_ .f32 0x00000000#32) reducesTo_S50000x256_S256_d0 h_S_) (ix2 (0 : Fin 1) q))
      (broadcastInDim S1x256 ![] bcast_S_S1x256 (constant (F := Ideal) S_ .f32 0x47435000#32) (ix2 (0 : Fin 1) q)) = _
  rw [Cert.HostLayout.bcast_rowvec_apply, Cert.HostLayout.bcast_scalar_apply, reduce_rows]
  rfl

/-- (ii) The reference's variance function of z (called with the integer 0) is the specification's two-pass variance. -/
theorem ref_var (z : FVec Ideal S50000x256 .f32) :
    select
        (broadcastInDim S256 ![] bcast_S_S256
          (cmpf (F := Ideal) .ogt
            (subf (constant (F := Ideal) S_ .f32 0x47435000#32) (sitofp (F := Ideal) .f32 (constantI S_ 32 0#32)))
            (constant (F := Ideal) S_ .f32 0x00000000#32)))
        (Host.divf (F := Ideal)
          (Host.reduceAdd (F := Ideal)
            (mulf
              (subf z (broadcastInDim S50000x256 ![0, 1] bcast_S1x256_S50000x256_0_1
                (Host.divf (F := Ideal)
                  (broadcastInDim S1x256 ![1] bcast_S256_S1x256_1
                    (Host.reduceAdd (F := Ideal) z (constant (F := Ideal) S_ .f32 0x00000000#32) reducesTo_S50000x256_S256_d0 h_S_))
                  (broadcastInDim S1x256 ![] bcast_S_S1x256 (constant (F := Ideal) S_ .f32 0x47435000#32)))))
              (subf z (broadcastInDim S50000x256 ![0, 1] bcast_S1x256_S50000x256_0_1
                (Host.divf (F := Ideal)
                  (broadcastInDim S1x256 ![1] bcast_S256_S1x256_1
                    (Host.reduceAdd (F := Ideal) z (constant (F := Ideal) S_ .f32 0x00000000#32) reducesTo_S50000x256_S256_d0 h_S_))
                  (broadcastInDim S1x256 ![] bcast_S_S1x256 (constant (F := Ideal) S_ .f32 0x47435000#32))))))
            (constant (F := Ideal) S_ .f32 0x00000000#32) reducesTo_S50000x256_S256_d0 h_S_)
          (broadcastInDim S256 ![] bcast_S_S256
            (subf (constant (F := Ideal) S_ .f32 0x47435000#32) (sitofp (F := Ideal) .f32 (constantI S_ 32 0#32)))))
        (broadcastInDim S256 ![] bcast_S_S256 (id (constant (F := Ideal) S_ .f32 0x7FC00000#32)))
      = Cert.Spec.varTwo z := by
  funext j
  obtain ⟨q, rfl⟩ : ∃ q : Fin 256, j = ix1 q := ⟨j 0, eq_ix1 j⟩
  rw [select_apply, guard_apply, select_one]
  show Ideal.div (Host.reduceAdd (F := Ideal) _ (constant (F := Ideal) S_ .f32 0x00000000#32) reducesTo_S50000x256_S256_d0 h_S_ (ix1 q))
      (broadcastInDim S256 ![] bcast_S_S256
        (subf (constant (F := Ideal) S_ .f32 0x47435000#32) (sitofp (F := Ideal) .f32 (constantI S_ 32 0#32))) (ix1 q)) = _
  rw [Cert.HostLayout.bcast_scalar_apply, norm_apply, reduce_rows_apply]
  show _ = Ideal.div (∑ p : Fin 50000, (z (ix2 p q) - mean z (ix1 q)) * (z (ix2 p q) - mean z (ix1 q))) nW
  refine congrArg (fun s => Ideal.div s nW) (Finset.sum_congr rfl fun p _ => ?_)
  show mulf _ _ (ix2 p q) = _
  rw [mulf_apply, dev_apply]

end Cert.Spec.HostStats

end
-- ==== Proof.Ref.Value.lean ====
/-
  The reference program's result as the specification's layers.

  With the senders and targets read off the edge table once, the aggregation is one function of a layer's input.  Each
  layer's pre-norm activations are the two dense maps of input plus aggregation, its statistics are the column mean and
  the two-pass column variance of those activations, and its output is their normalisation, scaled and shifted: the
  specification's layer.  Layer 1 reads the node features, layer 2 the output of layer 1, layer 3 the output of layer 2;
  the result is the three outputs, each summed per graph, side by side.
-/
import proofs.«130186_j80642305950442_1_alg».proof.Proof.Ref.Stages
import proofs.«130186_j80642305950442_1_alg».proof.Proof.Ref.GlueDefs
import proofs.«130186_j80642305950442_1_alg».proof.Proof.Math.Spec
import proofs.«130186_j80642305950442_1_alg».proof.Proof.Math.HostStats

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable (V : Valuation τ sig (Elt Ideal))

/-- The senders and the targets, read off the edge table. -/
def sR : (⟨S800000, .i32⟩ : BufTy).Contents (Elt Ideal) := srcOf (V (main_arg1 : DevRef τ sig))
def dR : (⟨S800000, .i32⟩ : BufTy).Contents (Elt Ideal) := dstOf (V (main_arg1 : DevRef τ sig))
/-- The aggregation of a layer's input. -/
def aggR : Cert.Spec.Arr → Cert.Spec.Arr := fun h => aggOf (F := Ideal) (sR V) (dR V) h
/-- The output of layer 1. -/
def r1 : Cert.Spec.Arr := Cert.Spec.layerTwo (aggR V) (V (main_arg0 : DevRef τ sig)) (wSl0 (V (main_arg3 : DevRef τ sig))) (rSl0 (V (main_arg4 : DevRef τ sig))) (wSl0 (V (main_arg5 : DevRef τ sig))) (rSl0 (V (main_arg6 : DevRef τ sig))) (rSl0 (V (main_arg7 : DevRef τ sig))) (rSl0 (V (main_arg8 : DevRef τ sig)))
/-- The output of layer 2. -/
def r2 : Cert.Spec.Arr := Cert.Spec.layerTwo (aggR V) (r1 V) (wSl1 (V (main_arg3 : DevRef τ sig))) (rSl1 (V (main_arg4 : DevRef τ sig))) (wSl1 (V (main_arg5 : DevRef τ sig))) (rSl1 (V (main_arg6 : DevRef τ sig))) (rSl1 (V (main_arg7 : DevRef τ sig))) (rSl1 (V (main_arg8 : DevRef τ sig)))
/-- The output of layer 3. -/
def r3 : Cert.Spec.Arr := Cert.Spec.layerTwo (aggR V) (r2 V) (wSl2 (V (main_arg3 : DevRef τ sig))) (rSl2 (V (main_arg4 : DevRef τ sig))) (wSl2 (V (main_arg5 : DevRef τ sig))) (rSl2 (V (main_arg6 : DevRef τ sig))) (rSl2 (V (main_arg7 : DevRef τ sig))) (rSl2 (V (main_arg8 : DevRef τ sig)))

theorem v1_src : after ops V (main_v1 : DevRef τ sig) = sR V := by
  rw [main_v1_eq V, arg1_eq V]; rfl
theorem v3_dst : after ops V (main_v3 : DevRef τ sig) = dR V := by
  rw [main_v3_eq V, arg1_eq V]; rfl

/-! ## Layer 1 -/

theorem agg1_val : after ops V (main_v13 : DevRef τ sig) = aggR V (V (main_arg0 : DevRef τ sig)) := by
  rw [main_v13_eq V, main_v8_eq V, v1_src V, v3_dst V, arg0_eq V]; rfl
theorem z1_val : after ops V (main_v34 : DevRef τ sig) = Cert.Spec.mlp (Cert.Spec.pre (aggR V) (V (main_arg0 : DevRef τ sig))) (wSl0 (V (main_arg3 : DevRef τ sig))) (rSl0 (V (main_arg4 : DevRef τ sig))) (wSl0 (V (main_arg5 : DevRef τ sig))) (rSl0 (V (main_arg6 : DevRef τ sig))) := by
  rw [main_v34_eq V, agg1_val V, arg0_eq V, arg3_eq V, arg4_eq V, arg5_eq V, arg6_eq V]
  exact Cert.Spec.HostStats.ref_mlp (Cert.Spec.pre (aggR V) (V (main_arg0 : DevRef τ sig))) (wSl0 (V (main_arg3 : DevRef τ sig))) (wSl0 (V (main_arg5 : DevRef τ sig))) (rSl0 (V (main_arg4 : DevRef τ sig))) (rSl0 (V (main_arg6 : DevRef τ sig)))
theorem mean1_val : after ops V (main_v37 : DevRef τ sig) = Cert.Spec.mean (Cert.Spec.mlp (Cert.Spec.pre (aggR V) (V (main_arg0 : DevRef τ sig))) (wSl0 (V (main_arg3 : DevRef τ sig))) (rSl0 (V (main_arg4 : DevRef τ sig))) (wSl0 (V (main_arg5 : DevRef τ sig))) (rSl0 (V (main_arg6 : DevRef τ sig)))) := by
  rw [main_v37_eq V, z1_val V]
  exact Cert.Spec.HostStats.ref_mean _
theorem var1_val : after ops V (main_v38 : DevRef τ sig) = Cert.Spec.varTwo (Cert.Spec.mlp (Cert.Spec.pre (aggR V) (V (main_arg0 : DevRef τ sig))) (wSl0 (V (main_arg3 : DevRef τ sig))) (rSl0 (V (main_arg4 : DevRef τ sig))) (wSl0 (V (main_arg5 : DevRef τ sig))) (rSl0 (V (main_arg6 : DevRef τ sig)))) := by
  rw [main_v38_eq V, z1_val V]
  exact Cert.Spec.HostStats.ref_var _
theorem out1_val : after ops V (main_v57 : DevRef τ sig) = r1 V := by
  rw [out1_eq V, z1_val V, mean1_val V, var1_val V, arg7_eq V, arg8_eq V]
  exact Cert.Spec.HostStats.ref_bn _ _ _ (rSl0 (V (main_arg7 : DevRef τ sig))) (rSl0 (V (main_arg8 : DevRef τ sig)))

/-! ## Layer 2 -/

theorem agg2_val : after ops V (main_v67 : DevRef τ sig) = aggR V (r1 V) := by
  rw [main_v67_eq V, main_v62_eq V, v1_src V, v3_dst V, out1_val V]; rfl
theorem z2_val : after ops V (main_v88 : DevRef τ sig) = Cert.Spec.mlp (Cert.Spec.pre (aggR V) (r1 V)) (wSl1 (V (main_arg3 : DevRef τ sig))) (rSl1 (V (main_arg4 : DevRef τ sig))) (wSl1 (V (main_arg5 : DevRef τ sig))) (rSl1 (V (main_arg6 : DevRef τ sig))) := by
  rw [main_v88_eq V, agg2_val V, out1_val V, arg3_eq V, arg4_eq V, arg5_eq V, arg6_eq V]
  exact Cert.Spec.HostStats.ref_mlp (Cert.Spec.pre (aggR V) (r1 V)) (wSl1 (V (main_arg3 : DevRef τ sig))) (wSl1 (V (main_arg5 : DevRef τ sig))) (rSl1 (V (main_arg4 : DevRef τ sig))) (rSl1 (V (main_arg6 : DevRef τ sig)))
theorem mean2_val : after ops V (main_v91 : DevRef τ sig) = Cert.Spec.mean (Cert.Spec.mlp (Cert.Spec.pre (aggR V) (r1 V)) (wSl1 (V (main_arg3 : DevRef τ sig))) (rSl1 (V (main_arg4 : DevRef τ sig))) (wSl1 (V (main_arg5 : DevRef τ sig))) (rSl1 (V (main_arg6 : DevRef τ sig)))) := by
  rw [main_v91_eq V, z2_val V]
  exact Cert.Spec.HostStats.ref_mean _
theorem var2_val : after ops V (main_v92 : DevRef τ sig) = Cert.Spec.varTwo (Cert.Spec.mlp (Cert.Spec.pre (aggR V) (r1 V)) (wSl1 (V (main_arg3 : DevRef τ sig))) (rSl1 (V (main_arg4 : DevRef τ sig))) (wSl1 (V (main_arg5 : DevRef τ sig))) (rSl1 (V (main_arg6 : DevRef τ sig)))) := by
  rw [main_v92_eq V, z2_val V]
  exact Cert.Spec.HostStats.ref_var _
theorem out2_val : after ops V (main_v111 : DevRef τ sig) = r2 V := by
  rw [out2_eq V, z2_val V, mean2_val V, var2_val V, arg7_eq V, arg8_eq V]
  exact Cert.Spec.HostStats.ref_bn _ _ _ (rSl1 (V (main_arg7 : DevRef τ sig))) (rSl1 (V (main_arg8 : DevRef τ sig)))

/-! ## Layer 3 -/

theorem agg3_val : after ops V (main_v121 : DevRef τ sig) = aggR V (r2 V) := by
  rw [main_v121_eq V, main_v116_eq V, v1_src V, v3_dst V, out2_val V]; rfl
theorem z3_val : after ops V (main_v142 : DevRef τ sig) = Cert.Spec.mlp (Cert.Spec.pre (aggR V) (r2 V)) (wSl2 (V (main_arg3 : DevRef τ sig))) (rSl2 (V (main_arg4 : DevRef τ sig))) (wSl2 (V (main_arg5 : DevRef τ sig))) (rSl2 (V (main_arg6 : DevRef τ sig))) := by
  rw [main_v142_eq V, agg3_val V, out2_val V, arg3_eq V, arg4_eq V, arg5_eq V, arg6_eq V]
  exact Cert.Spec.HostStats.ref_mlp (Cert.Spec.pre (aggR V) (r2 V)) (wSl2 (V (main_arg3 : DevRef τ sig))) (wSl2 (V (main_arg5 : DevRef τ sig))) (rSl2 (V (main_arg4 : DevRef τ sig))) (rSl2 (V (main_arg6 : DevRef τ sig)))
theorem mean3_val : after ops V (main_v145 : DevRef τ sig) = Cert.Spec.mean (Cert.Spec.mlp (Cert.Spec.pre (aggR V) (r2 V)) (wSl2 (V (main_arg3 : DevRef τ sig))) (rSl2 (V (main_arg4 : DevRef τ sig))) (wSl2 (V (main_arg5 : DevRef τ sig))) (rSl2 (V (main_arg6 : DevRef τ sig)))) := by
  rw [main_v145_eq V, z3_val V]
  exact Cert.Spec.HostStats.ref_mean _
theorem var3_val : after ops V (main_v146 : DevRef τ sig) = Cert.Spec.varTwo (Cert.Spec.mlp (Cert.Spec.pre (aggR V) (r2 V)) (wSl2 (V (main_arg3 : DevRef τ sig))) (rSl2 (V (main_arg4 : DevRef τ sig))) (wSl2 (V (main_arg5 : DevRef τ sig))) (rSl2 (V (main_arg6 : DevRef τ sig)))) := by
  rw [main_v146_eq V, z3_val V]
  exact Cert.Spec.HostStats.ref_var _
theorem out3_val : after ops V (main_v165 : DevRef τ sig) = r3 V := by
  rw [out3_eq V, z3_val V, mean3_val V, var3_val V, arg7_eq V, arg8_eq V]
  exact Cert.Spec.HostStats.ref_bn _ _ _ (rSl2 (V (main_arg7 : DevRef τ sig))) (rSl2 (V (main_arg8 : DevRef τ sig)))

/-! ## The result -/

/-- The result buffer after the whole program: the three layer outputs pooled per graph, side by side. -/
theorem result_eq : after ops V (main_v175 : DevRef τ sig) = catOf (poolOf (V (main_arg2 : DevRef τ sig)) (r1 V)) (poolOf (V (main_arg2 : DevRef τ sig)) (r2 V)) (poolOf (V (main_arg2 : DevRef τ sig)) (r3 V)) := by
  rw [main_v175_eq V, arg2_eq V, out1_val V, out2_val V, out3_val V]; rfl

end Cert.ReferenceIdeal.Hand

end
-- ==== Proof.Math.Var.lean ====
/-
  One pass and two passes give the same batch variance on columns of real numbers, hence the same layer.
  With mu = (sum z) / N, expanding the square gives sum (z - mu)^2 = sum z^2 - 2 mu sum z + N mu^2 = sum z^2 - N mu^2,
  so (sum z^2) / N - mu^2 = (sum (z - mu)^2) / N. On the extended reals this needs every entry of the column to be a
  real (an infinite entry makes both sides junk values that differ), which is the hypothesis carried here.
-/
import proofs.«130186_j80642305950442_1_alg».proof.Proof.Math.Spec
import proofs.«130186_j80642305950442_1_alg».proof.Proof.Math.Consts
import proofs.«130186_j80642305950442_1_alg».proof.Proof.Math.Real
import proofs.«130186_j80642305950442_1_alg».proof.Proof.LibBatchStats
import proofs.«130186_j80642305950442_1_alg».proof.Proof.LibERealFinite
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- On an array of reals the one-pass variance E[z^2] - E[z]^2 is the two-pass variance E[(z - E z)^2]. -/
theorem varOne_eq_varTwo {z : Arr} (hz : AllReal z) : varOne z = varTwo z := by
  funext j
  have hz' : ∀ i, ∃ r : ℝ, z i = (r : EReal) := hz
  choose o ho using hz'
  have hcard : (Fintype.card (Fin 50000) : ℝ) = 50000 := by simp
  have hμ : mean z j = (∑ p : Fin 50000, ((o (ix2 p (j 0)) : ℝ) : EReal)) * ((1 / 50000 : ℝ) : EReal) := by
    show Ideal.div (∑ p : Fin 50000, z (ix2 p (j 0))) nW = _
    rw [nW_eq, ← BatchStats.scaled_eq_div _ nReal_ne]
    simp only [ho]
  have h := BatchStats.var_one_pass_eq_two_pass (fun p : Fin 50000 => o (ix2 p (j 0))) nReal_ne hcard (mean z j) hμ
  show Ideal.div (∑ p : Fin 50000, z (ix2 p (j 0)) * z (ix2 p (j 0))) nW - mean z j * mean z j
      = Ideal.div (∑ p : Fin 50000, (z (ix2 p (j 0)) - mean z j) * (z (ix2 p (j 0)) - mean z j)) nW
  rw [nW_eq, ← BatchStats.scaled_eq_div (∑ p : Fin 50000, z (ix2 p (j 0)) * z (ix2 p (j 0))) nReal_ne]
  simp only [ho]
  exact h

/-- The two spellings of a layer agree when the dense maps' output is real. -/
theorem layerOne_eq_layerTwo (agg : Arr → Arr) (h : Arr) (w1 : Wt) (b1 : Row) (w2 : Wt) (b2 gamma beta : Row)
    (hz : AllReal (mlp (pre agg h) w1 b1 w2 b2)) :
    layerOne agg h w1 b1 w2 b2 gamma beta = layerTwo agg h w1 b1 w2 b2 gamma beta := by
  unfold layerOne layerTwo
  rw [varOne_eq_varTwo hz]

/-- A layer (two-pass spelling) sends real features, with a real aggregation and real parameters, to real features. -/
theorem layerTwo_allReal (agg : Arr → Arr) (h : Arr) (w1 : Wt) (b1 : Row) (w2 : Wt) (b2 gamma beta : Row)
    (hh : AllReal h) (hagg : AllReal (agg h)) (hw1 : AllReal w1) (hb1 : AllReal b1) (hw2 : AllReal w2)
    (hb2 : AllReal b2) (hg : AllReal gamma) (hb : AllReal beta) :
    AllReal (layerTwo agg h w1 b1 w2 b2 gamma beta) :=
  bn_two_allReal (mlp_allReal (pre_allReal hh hagg) hw1 hb1 hw2 hb2) hg hb

/-- The same for the one-pass spelling, which is the same array. -/
theorem layerOne_allReal (agg : Arr → Arr) (h : Arr) (w1 : Wt) (b1 : Row) (w2 : Wt) (b2 gamma beta : Row)
    (hh : AllReal h) (hagg : AllReal (agg h)) (hw1 : AllReal w1) (hb1 : AllReal b1) (hw2 : AllReal w2)
    (hb2 : AllReal b2) (hg : AllReal gamma) (hb : AllReal beta) :
    AllReal (layerOne agg h w1 b1 w2 b2 gamma beta) := by
  rw [layerOne_eq_layerTwo agg h w1 b1 w2 b2 gamma beta (mlp_allReal (pre_allReal hh hagg) hw1 hb1 hw2 hb2)]
  exact layerTwo_allReal agg h w1 b1 w2 b2 gamma beta hh hagg hw1 hb1 hw2 hb2 hg hb

end Cert.Spec

end
-- ==== Proof.Math.Pre.lean ====
/-
  The precondition read back: every float argument is an array of real numbers.
  The printed predicate is the conjunction, over the seven float arguments, of "every entry's magnitude compares below
  +infinity". A conjunction of one-bit words that is 1 has every conjunct 1; a reduction by "and" over all axes that is 1
  met a 1 at every entry; and an extended real whose magnitude is below +infinity is a real number.
-/
import proofs.«130186_j80642305950442_1_alg».proof.Defs
import proofs.«130186_j80642305950442_1_alg».proof.Proof.Gen.Pre_finite_inputs
import proofs.«130186_j80642305950442_1_alg».proof.Proof.Math.Spec
import proofs.«130186_j80642305950442_1_alg».proof.Proof.LibERealFinite
import Idealize.ShloMosaic.PureOps.Ideal
import Idealize.ShloMosaic.PureOps.Ideal.Laws
import Idealize.ShloMosaic.Lib.ValueIdx
import Idealize.ShloMosaic.Lib.ReduceAll

noncomputable section

namespace Cert.Spec

open Idealize.ShloMosaic Idealize.ShloMosaic.ValueIdx Idealize.ShloMosaic.TcCoe Idealize.SL.Sem

/-- The scalar shape has one index. -/
instance subsingleton_scalarIdx : Subsingleton Cert.Pre_finite_inputs.S_.Idx := ⟨fun a b => funext fun d => d.elim0⟩

/-- One conjunct decoded: if "all entries have magnitude below +infinity" is 1, every entry is a real. -/
theorem allReal_of_all_abs_lt {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (e : Host.reduce IntOp.andi
          (cmpf (F := Ideal) .olt (Host.absf (F := Ideal) x)
            (broadcastInDim S ![] hb (constant (F := Ideal) Cert.Pre_finite_inputs.S_ .f32 0x7F800000#32)))
          (constantI Cert.Pre_finite_inputs.S_ 1 1#1) hr h0 ix0 = 1#1) :
    AllReal (S := S) x := by
  intro i
  have hi := Host.reduce_andi_all _ _ hr h0 ix0 e i
  exact Cert.LibERealFinite.real_of_abs_lt (x i) hi

/-- The printed predicate, all ones, gives the seven float arguments real. -/
theorem fn_allReal [hP : Cert.Pre_finite_inputs.Facts]
    (a0 : FVec Ideal Cert.Pre_finite_inputs.S50000x256 .f32) (a1 : IVec Cert.Pre_finite_inputs.S2x800000 32)
    (a2 : IVec Cert.Pre_finite_inputs.S50000 32) (a3 : FVec Ideal Cert.Pre_finite_inputs.S3x256x256 .f32)
    (a4 : FVec Ideal Cert.Pre_finite_inputs.S3x256 .f32) (a5 : FVec Ideal Cert.Pre_finite_inputs.S3x256x256 .f32)
    (a6 a7 a8 : FVec Ideal Cert.Pre_finite_inputs.S3x256 .f32)
    (h : Cert.Pre_finite_inputs.fn (F := Ideal) a0 a1 a2 a3 a4 a5 a6 a7 a8 = fun _ => 1#1) :
    AllReal (S := Cert.Pre_finite_inputs.S50000x256) a0 ∧ AllReal (S := Cert.Pre_finite_inputs.S3x256x256) a3
      ∧ AllReal (S := Cert.Pre_finite_inputs.S3x256) a4 ∧ AllReal (S := Cert.Pre_finite_inputs.S3x256x256) a5
      ∧ AllReal (S := Cert.Pre_finite_inputs.S3x256) a6 ∧ AllReal (S := Cert.Pre_finite_inputs.S3x256) a7
      ∧ AllReal (S := Cert.Pre_finite_inputs.S3x256) a8 := by
  have e := congrFun h ix0
  dsimp only [Cert.Pre_finite_inputs.fn, Cert.Pre_finite_inputs.fn_part1, andi] at e
  simp only [IntOp.andi_eq_one] at e
  obtain ⟨⟨⟨⟨⟨⟨e0, e3⟩, e4⟩, e5⟩, e6⟩, e7⟩, e8⟩ := e
  exact ⟨allReal_of_all_abs_lt a0 _ _ _ e0, allReal_of_all_abs_lt a3 _ _ _ e3, allReal_of_all_abs_lt a4 _ _ _ e4,
    allReal_of_all_abs_lt a5 _ _ _ e5, allReal_of_all_abs_lt a6 _ _ _ e6, allReal_of_all_abs_lt a7 _ _ _ e7,
    allReal_of_all_abs_lt a8 _ _ _ e8⟩

/-- Under the kernel's precondition, on every device, the seven float argument arrays hold real numbers. -/
theorem args_allReal [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (S := Cert.Pre_finite_inputs.S50000x256) (m ((c.tc : Thread Cert.KernelIdeal.nD Cert.KernelIdeal.τ).loc Cert.KernelIdeal.main_arg0))
      ∧ AllReal (S := Cert.Pre_finite_inputs.S3x256x256) (m ((c.tc : Thread Cert.KernelIdeal.nD Cert.KernelIdeal.τ).loc Cert.KernelIdeal.main_arg3))
      ∧ AllReal (S := Cert.Pre_finite_inputs.S3x256) (m ((c.tc : Thread Cert.KernelIdeal.nD Cert.KernelIdeal.τ).loc Cert.KernelIdeal.main_arg4))
      ∧ AllReal (S := Cert.Pre_finite_inputs.S3x256x256) (m ((c.tc : Thread Cert.KernelIdeal.nD Cert.KernelIdeal.τ).loc Cert.KernelIdeal.main_arg5))
      ∧ AllReal (S := Cert.Pre_finite_inputs.S3x256) (m ((c.tc : Thread Cert.KernelIdeal.nD Cert.KernelIdeal.τ).loc Cert.KernelIdeal.main_arg6))
      ∧ AllReal (S := Cert.Pre_finite_inputs.S3x256) (m ((c.tc : Thread Cert.KernelIdeal.nD Cert.KernelIdeal.τ).loc Cert.KernelIdeal.main_arg7))
      ∧ AllReal (S := Cert.Pre_finite_inputs.S3x256) (m ((c.tc : Thread Cert.KernelIdeal.nD Cert.KernelIdeal.τ).loc Cert.KernelIdeal.main_arg8)) :=
  fn_allReal _ _ _ _ _ _ _ _ _ (hpre c)

end Cert.Spec

end
-- ==== Proof.Bridge.lean ====
/-
  The two networks agree on finite inputs. The reference's layer takes the batch variance as the mean of squared
  deviations, the kernel's as E[z^2] - E[z]^2; on real entries these are the same number, and real entries are
  carried from layer to layer: sums, products and clamps of reals are reals, the variance of reals is a nonnegative
  real and the literal added to it is positive. The aggregation, the parameter slices, the pooling and the
  concatenation are the same host functions in both programs.
-/
import proofs.«130186_j80642305950442_1_alg».proof.Defs
import proofs.«130186_j80642305950442_1_alg».proof.Proof.Gen.Pre_finite_inputs
import proofs.«130186_j80642305950442_1_alg».proof.Proof.KI.Net
import proofs.«130186_j80642305950442_1_alg».proof.Proof.KI.Reals
import proofs.«130186_j80642305950442_1_alg».proof.Proof.Ref.Value
import proofs.«130186_j80642305950442_1_alg».proof.Proof.Math.Var
import proofs.«130186_j80642305950442_1_alg».proof.Proof.Math.Pre

noncomputable section

namespace Cert.Proof

open Idealize.ShloMosaic Idealize.ShloMosaic.TcCoe Idealize.SL.Sem Idealize.ShloMosaic.StableHlo
open Cert.Spec (Arr Wt Row AllReal)

/-! ## The two programs' named host functions are the same functions -/

theorem srcOf_eq (e : (⟨Cert.ReferenceIdeal.S2x800000, .i32⟩ : BufTy).Contents (Elt Ideal)) : Cert.ReferenceIdeal.Hand.srcOf (F := Ideal) e = Cert.KernelIdeal.Hand.srcOf (F := Ideal) e := rfl
theorem dstOf_eq (e : (⟨Cert.ReferenceIdeal.S2x800000, .i32⟩ : BufTy).Contents (Elt Ideal)) : Cert.ReferenceIdeal.Hand.dstOf (F := Ideal) e = Cert.KernelIdeal.Hand.dstOf (F := Ideal) e := rfl
theorem aggOf_eq (s d : (⟨Cert.ReferenceIdeal.S800000, .i32⟩ : BufTy).Contents (Elt Ideal)) (h : (⟨Cert.ReferenceIdeal.S50000x256, .f32⟩ : BufTy).Contents (Elt Ideal)) :
    Cert.ReferenceIdeal.Hand.aggOf (F := Ideal) s d h = Cert.KernelIdeal.Hand.aggOf (F := Ideal) s d h := rfl
theorem wSl0_eq (w : (⟨Cert.ReferenceIdeal.S3x256x256, .f32⟩ : BufTy).Contents (Elt Ideal)) : Cert.ReferenceIdeal.Hand.wSl0 (F := Ideal) w = Cert.KernelIdeal.Hand.wSl0 (F := Ideal) w := rfl
theorem wSl1_eq (w : (⟨Cert.ReferenceIdeal.S3x256x256, .f32⟩ : BufTy).Contents (Elt Ideal)) : Cert.ReferenceIdeal.Hand.wSl1 (F := Ideal) w = Cert.KernelIdeal.Hand.wSl1 (F := Ideal) w := rfl
theorem wSl2_eq (w : (⟨Cert.ReferenceIdeal.S3x256x256, .f32⟩ : BufTy).Contents (Elt Ideal)) : Cert.ReferenceIdeal.Hand.wSl2 (F := Ideal) w = Cert.KernelIdeal.Hand.wSl2 (F := Ideal) w := rfl
theorem rSl0_eq (b : (⟨Cert.ReferenceIdeal.S3x256, .f32⟩ : BufTy).Contents (Elt Ideal)) : Cert.ReferenceIdeal.Hand.rSl0 (F := Ideal) b = Cert.KernelIdeal.Hand.rSl0 (F := Ideal) b := rfl
theorem rSl1_eq (b : (⟨Cert.ReferenceIdeal.S3x256, .f32⟩ : BufTy).Contents (Elt Ideal)) : Cert.ReferenceIdeal.Hand.rSl1 (F := Ideal) b = Cert.KernelIdeal.Hand.rSl1 (F := Ideal) b := rfl
theorem rSl2_eq (b : (⟨Cert.ReferenceIdeal.S3x256, .f32⟩ : BufTy).Contents (Elt Ideal)) : Cert.ReferenceIdeal.Hand.rSl2 (F := Ideal) b = Cert.KernelIdeal.Hand.rSl2 (F := Ideal) b := rfl
theorem poolOf_eq (bt : (⟨Cert.ReferenceIdeal.S50000, .i32⟩ : BufTy).Contents (Elt Ideal)) (z : (⟨Cert.ReferenceIdeal.S50000x256, .f32⟩ : BufTy).Contents (Elt Ideal)) :
    Cert.ReferenceIdeal.Hand.poolOf (F := Ideal) bt z = Cert.KernelIdeal.Hand.poolOf (F := Ideal) bt z := rfl
theorem catOf_eq (a b c : (⟨Cert.ReferenceIdeal.S256x256, .f32⟩ : BufTy).Contents (Elt Ideal)) : Cert.ReferenceIdeal.Hand.catOf (F := Ideal) a b c = Cert.KernelIdeal.Hand.catOf (F := Ideal) a b c := rfl

/-! ## The two networks agree on finite inputs -/

/-- Layer by layer: the reference's layer (two-pass variance) on the same input is the kernel's (one-pass variance),
    because the clamped dense maps of real rows are real; and the output is real again. -/
theorem nets_agree [hP : Cert.Pre_finite_inputs.Facts]
    (m : (ℓ : Loc Cert.KernelIdeal.nD Cert.KernelIdeal.τ Cert.KernelIdeal.sig) → Buf (Elt Ideal) ℓ) (hpre : Cert.Pre_KernelIdeal m) (c : Dev Cert.KernelIdeal.nD)
    (V' : Valuation Cert.ReferenceIdeal.τ Cert.ReferenceIdeal.sig (Elt Ideal))
    (h0 : V' (Cert.ReferenceIdeal.main_arg0 : DevRef Cert.ReferenceIdeal.τ Cert.ReferenceIdeal.sig) = m ((c.tc : Thread Cert.KernelIdeal.nD Cert.KernelIdeal.τ).loc Cert.KernelIdeal.main_arg0))
    (h1 : V' (Cert.ReferenceIdeal.main_arg1 : DevRef Cert.ReferenceIdeal.τ Cert.ReferenceIdeal.sig) = m ((c.tc : Thread Cert.KernelIdeal.nD Cert.KernelIdeal.τ).loc Cert.KernelIdeal.main_arg1))
    (h2 : V' (Cert.ReferenceIdeal.main_arg2 : DevRef Cert.ReferenceIdeal.τ Cert.ReferenceIdeal.sig) = m ((c.tc : Thread Cert.KernelIdeal.nD Cert.KernelIdeal.τ).loc Cert.KernelIdeal.main_arg2))
    (h3 : V' (Cert.ReferenceIdeal.main_arg3 : DevRef Cert.ReferenceIdeal.τ Cert.ReferenceIdeal.sig) = m ((c.tc : Thread Cert.KernelIdeal.nD Cert.KernelIdeal.τ).loc Cert.KernelIdeal.main_arg3))
    (h4 : V' (Cert.ReferenceIdeal.main_arg4 : DevRef Cert.ReferenceIdeal.τ Cert.ReferenceIdeal.sig) = m ((c.tc : Thread Cert.KernelIdeal.nD Cert.KernelIdeal.τ).loc Cert.KernelIdeal.main_arg4))
    (h5 : V' (Cert.ReferenceIdeal.main_arg5 : DevRef Cert.ReferenceIdeal.τ Cert.ReferenceIdeal.sig) = m ((c.tc : Thread Cert.KernelIdeal.nD Cert.KernelIdeal.τ).loc Cert.KernelIdeal.main_arg5))
    (h6 : V' (Cert.ReferenceIdeal.main_arg6 : DevRef Cert.ReferenceIdeal.τ Cert.ReferenceIdeal.sig) = m ((c.tc : Thread Cert.KernelIdeal.nD Cert.KernelIdeal.τ).loc Cert.KernelIdeal.main_arg6))
    (h7 : V' (Cert.ReferenceIdeal.main_arg7 : DevRef Cert.ReferenceIdeal.τ Cert.ReferenceIdeal.sig) = m ((c.tc : Thread Cert.KernelIdeal.nD Cert.KernelIdeal.τ).loc Cert.KernelIdeal.main_arg7))
    (h8 : V' (Cert.ReferenceIdeal.main_arg8 : DevRef Cert.ReferenceIdeal.τ Cert.ReferenceIdeal.sig) = m ((c.tc : Thread Cert.KernelIdeal.nD Cert.KernelIdeal.τ).loc Cert.KernelIdeal.main_arg8)) :
    Cert.ReferenceIdeal.Hand.catOf (Cert.ReferenceIdeal.Hand.poolOf (V' (Cert.ReferenceIdeal.main_arg2 : DevRef Cert.ReferenceIdeal.τ Cert.ReferenceIdeal.sig)) (Cert.ReferenceIdeal.Hand.r1 V'))
        (Cert.ReferenceIdeal.Hand.poolOf (V' (Cert.ReferenceIdeal.main_arg2 : DevRef Cert.ReferenceIdeal.τ Cert.ReferenceIdeal.sig)) (Cert.ReferenceIdeal.Hand.r2 V'))
        (Cert.ReferenceIdeal.Hand.poolOf (V' (Cert.ReferenceIdeal.main_arg2 : DevRef Cert.ReferenceIdeal.τ Cert.ReferenceIdeal.sig)) (Cert.ReferenceIdeal.Hand.r3 V'))
      = Cert.KernelIdeal.Hand.catOf (Cert.KernelIdeal.Hand.poolOf (m ((c.tc : Thread Cert.KernelIdeal.nD Cert.KernelIdeal.τ).loc Cert.KernelIdeal.main_arg2)) (Cert.KernelIdeal.Hand.k1 m c))
        (Cert.KernelIdeal.Hand.poolOf (m ((c.tc : Thread Cert.KernelIdeal.nD Cert.KernelIdeal.τ).loc Cert.KernelIdeal.main_arg2)) (Cert.KernelIdeal.Hand.k2 m c))
        (Cert.KernelIdeal.Hand.poolOf (m ((c.tc : Thread Cert.KernelIdeal.nD Cert.KernelIdeal.τ).loc Cert.KernelIdeal.main_arg2)) (Cert.KernelIdeal.Hand.k3 m c)) := by
  obtain ⟨hx, hw1, hb1, hw2, hb2, hg, hbt⟩ := Cert.Spec.args_allReal m hpre c
  have hagg : ∀ h : Arr, AllReal h → AllReal (Cert.KernelIdeal.Hand.aggK m c h) := fun h hh => Cert.KernelIdeal.Hand.aggOf_allReal _ _ h hh
  -- the aggregation over the same edge list is the same function
  have eagg : Cert.ReferenceIdeal.Hand.aggR V' = Cert.KernelIdeal.Hand.aggK m c := by
    unfold Cert.ReferenceIdeal.Hand.aggR Cert.ReferenceIdeal.Hand.sR Cert.ReferenceIdeal.Hand.dR Cert.KernelIdeal.Hand.aggK Cert.KernelIdeal.Hand.sK Cert.KernelIdeal.Hand.dK
    rw [h1]
    funext h
    exact (aggOf_eq _ _ _).trans (by rw [srcOf_eq, dstOf_eq])
  -- layer 1
  have z1 : AllReal (Cert.Spec.mlp (Cert.Spec.pre (Cert.KernelIdeal.Hand.aggK m c) (m ((c.tc : Thread Cert.KernelIdeal.nD Cert.KernelIdeal.τ).loc Cert.KernelIdeal.main_arg0)))
      (Cert.KernelIdeal.Hand.wSl0 (m ((c.tc : Thread Cert.KernelIdeal.nD Cert.KernelIdeal.τ).loc Cert.KernelIdeal.main_arg3))) (Cert.KernelIdeal.Hand.rSl0 (m ((c.tc : Thread Cert.KernelIdeal.nD Cert.KernelIdeal.τ).loc Cert.KernelIdeal.main_arg4))) (Cert.KernelIdeal.Hand.wSl0 (m ((c.tc : Thread Cert.KernelIdeal.nD Cert.KernelIdeal.τ).loc Cert.KernelIdeal.main_arg5))) (Cert.KernelIdeal.Hand.rSl0 (m ((c.tc : Thread Cert.KernelIdeal.nD Cert.KernelIdeal.τ).loc Cert.KernelIdeal.main_arg6)))) :=
    Cert.Spec.mlp_allReal (Cert.Spec.pre_allReal hx (hagg _ hx)) (Cert.KernelIdeal.Hand.wSl0_allReal _ hw1) (Cert.KernelIdeal.Hand.rSl0_allReal _ hb1) (Cert.KernelIdeal.Hand.wSl0_allReal _ hw2) (Cert.KernelIdeal.Hand.rSl0_allReal _ hb2)
  have e1 : Cert.ReferenceIdeal.Hand.r1 V' = Cert.KernelIdeal.Hand.k1 m c := by
    unfold Cert.ReferenceIdeal.Hand.r1 Cert.KernelIdeal.Hand.k1
    rw [eagg, h0, h3, h4, h5, h6, h7, h8]
    simp only [wSl0_eq, rSl0_eq]
    exact (Cert.Spec.layerOne_eq_layerTwo _ _ _ _ _ _ _ _ z1).symm
  have real1 : AllReal (Cert.KernelIdeal.Hand.k1 m c) :=
    Cert.Spec.layerOne_allReal _ _ _ _ _ _ _ _ hx (hagg _ hx) (Cert.KernelIdeal.Hand.wSl0_allReal _ hw1) (Cert.KernelIdeal.Hand.rSl0_allReal _ hb1) (Cert.KernelIdeal.Hand.wSl0_allReal _ hw2) (Cert.KernelIdeal.Hand.rSl0_allReal _ hb2)
      (Cert.KernelIdeal.Hand.rSl0_allReal _ hg) (Cert.KernelIdeal.Hand.rSl0_allReal _ hbt)
  -- layer 2
  have z2 : AllReal (Cert.Spec.mlp (Cert.Spec.pre (Cert.KernelIdeal.Hand.aggK m c) (Cert.KernelIdeal.Hand.k1 m c))
      (Cert.KernelIdeal.Hand.wSl1 (m ((c.tc : Thread Cert.KernelIdeal.nD Cert.KernelIdeal.τ).loc Cert.KernelIdeal.main_arg3))) (Cert.KernelIdeal.Hand.rSl1 (m ((c.tc : Thread Cert.KernelIdeal.nD Cert.KernelIdeal.τ).loc Cert.KernelIdeal.main_arg4))) (Cert.KernelIdeal.Hand.wSl1 (m ((c.tc : Thread Cert.KernelIdeal.nD Cert.KernelIdeal.τ).loc Cert.KernelIdeal.main_arg5))) (Cert.KernelIdeal.Hand.rSl1 (m ((c.tc : Thread Cert.KernelIdeal.nD Cert.KernelIdeal.τ).loc Cert.KernelIdeal.main_arg6)))) :=
    Cert.Spec.mlp_allReal (Cert.Spec.pre_allReal real1 (hagg _ real1)) (Cert.KernelIdeal.Hand.wSl1_allReal _ hw1) (Cert.KernelIdeal.Hand.rSl1_allReal _ hb1) (Cert.KernelIdeal.Hand.wSl1_allReal _ hw2) (Cert.KernelIdeal.Hand.rSl1_allReal _ hb2)
  have e2 : Cert.ReferenceIdeal.Hand.r2 V' = Cert.KernelIdeal.Hand.k2 m c := by
    unfold Cert.ReferenceIdeal.Hand.r2 Cert.KernelIdeal.Hand.k2
    rw [e1, eagg, h3, h4, h5, h6, h7, h8]
    simp only [wSl1_eq, rSl1_eq]
    exact (Cert.Spec.layerOne_eq_layerTwo _ _ _ _ _ _ _ _ z2).symm
  have real2 : AllReal (Cert.KernelIdeal.Hand.k2 m c) :=
    Cert.Spec.layerOne_allReal _ _ _ _ _ _ _ _ real1 (hagg _ real1) (Cert.KernelIdeal.Hand.wSl1_allReal _ hw1) (Cert.KernelIdeal.Hand.rSl1_allReal _ hb1) (Cert.KernelIdeal.Hand.wSl1_allReal _ hw2) (Cert.KernelIdeal.Hand.rSl1_allReal _ hb2)
      (Cert.KernelIdeal.Hand.rSl1_allReal _ hg) (Cert.KernelIdeal.Hand.rSl1_allReal _ hbt)
  -- layer 3
  have z3 : AllReal (Cert.Spec.mlp (Cert.Spec.pre (Cert.KernelIdeal.Hand.aggK m c) (Cert.KernelIdeal.Hand.k2 m c))
      (Cert.KernelIdeal.Hand.wSl2 (m ((c.tc : Thread Cert.KernelIdeal.nD Cert.KernelIdeal.τ).loc Cert.KernelIdeal.main_arg3))) (Cert.KernelIdeal.Hand.rSl2 (m ((c.tc : Thread Cert.KernelIdeal.nD Cert.KernelIdeal.τ).loc Cert.KernelIdeal.main_arg4))) (Cert.KernelIdeal.Hand.wSl2 (m ((c.tc : Thread Cert.KernelIdeal.nD Cert.KernelIdeal.τ).loc Cert.KernelIdeal.main_arg5))) (Cert.KernelIdeal.Hand.rSl2 (m ((c.tc : Thread Cert.KernelIdeal.nD Cert.KernelIdeal.τ).loc Cert.KernelIdeal.main_arg6)))) :=
    Cert.Spec.mlp_allReal (Cert.Spec.pre_allReal real2 (hagg _ real2)) (Cert.KernelIdeal.Hand.wSl2_allReal _ hw1) (Cert.KernelIdeal.Hand.rSl2_allReal _ hb1) (Cert.KernelIdeal.Hand.wSl2_allReal _ hw2) (Cert.KernelIdeal.Hand.rSl2_allReal _ hb2)
  have e3 : Cert.ReferenceIdeal.Hand.r3 V' = Cert.KernelIdeal.Hand.k3 m c := by
    unfold Cert.ReferenceIdeal.Hand.r3 Cert.KernelIdeal.Hand.k3
    rw [e2, eagg, h3, h4, h5, h6, h7, h8]
    simp only [wSl2_eq, rSl2_eq]
    exact (Cert.Spec.layerOne_eq_layerTwo _ _ _ _ _ _ _ _ z3).symm
  rw [e1, e2, e3, h2]
  simp only [poolOf_eq, catOf_eq]

end Cert.Proof

end
-- ==== Proof.lean ====
/-
  The certificate of the three-layer message-passing encoder with batch normalisation against its reference.
  Frames: the kernel program, word-level and idealized, runs as thirteen segments (seven host stretches, six
  kernel regions), each region's body run once per grid point, and no segment writes an argument; the reference
  is one straight line of host operations. The idealization rewrites nothing, so it preserves the kernel.
  Values, on the extended reals: both programs compute, per layer, the clamped dense maps of every row plus its
  aggregated neighbours and normalise each column by its batch mean and variance; the kernel accumulates the column
  sums of z and of z squared over the row blocks and takes the variance as E[z^2] - E[z]^2, the reference takes the
  mean of the squared deviations. The two agree where every entry is a real number, and that is carried through the
  layers: the inputs are finite by the precondition; sums, products and clamps of reals are reals; the variance
  of reals is a nonnegative real and the literal added to it is positive, so the reciprocal root is a real. The
  aggregation, the pooling per graph and the final concatenation are the same host operations in both programs
  and are never opened.
-/
import proofs.«130186_j80642305950442_1_alg».proof.Defs
import proofs.«130186_j80642305950442_1_alg».proof.Proof.Gen.Kernel
import proofs.«130186_j80642305950442_1_alg».proof.Proof.Gen.KernelIdeal
import proofs.«130186_j80642305950442_1_alg».proof.Proof.Gen.ReferenceIdeal
import proofs.«130186_j80642305950442_1_alg».proof.Proof.Gen.Pre_finite_inputs
import proofs.«130186_j80642305950442_1_alg».proof.Proof.K.Run
import proofs.«130186_j80642305950442_1_alg».proof.Proof.KI.Run
import proofs.«130186_j80642305950442_1_alg».proof.Proof.KI.Value
import proofs.«130186_j80642305950442_1_alg».proof.Proof.Bridge
import proofs.«130186_j80642305950442_1_alg».proof.Proof.Ref.Run
import proofs.«130186_j80642305950442_1_alg».proof.Proof.Ref.Value
import proofs.«130186_j80642305950442_1_alg».proof.Proof.Math.Var
import proofs.«130186_j80642305950442_1_alg».proof.Proof.Math.Pre

noncomputable section

namespace Cert.Proof

open Idealize.ShloMosaic Idealize.ShloMosaic.TcCoe Idealize.SL.Sem Idealize.ShloMosaic.StableHlo
open Cert.Spec (Arr Wt Row AllReal)

/-! ## The frames and the idealization -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ
theorem preserves : Cert.preserves_Kernel_KernelIdeal := trivial

/-! ## The value claim -/

theorem algebraic : Cert.algebraic_KernelIdeal_ReferenceIdeal := by
  intro m ρ m' ρ' hpre hagree
  refine ⟨fun c => Cert.KernelIdeal.Hand.catOf (Cert.KernelIdeal.Hand.poolOf (m ((c.tc : Thread Cert.KernelIdeal.nD Cert.KernelIdeal.τ).loc Cert.KernelIdeal.main_arg2)) (Cert.KernelIdeal.Hand.k1 m c))
      (Cert.KernelIdeal.Hand.poolOf (m ((c.tc : Thread Cert.KernelIdeal.nD Cert.KernelIdeal.τ).loc Cert.KernelIdeal.main_arg2)) (Cert.KernelIdeal.Hand.k2 m c)) (Cert.KernelIdeal.Hand.poolOf (m ((c.tc : Thread Cert.KernelIdeal.nD Cert.KernelIdeal.τ).loc Cert.KernelIdeal.main_arg2)) (Cert.KernelIdeal.Hand.k3 m c)), ?_, ?_⟩
  · -- the kernel program: every unscoped buffer at the return is read against the fold of the segment boundaries
    exact (θ_run Cert.KernelIdeal.defs _ _).mono (fun r h c =>
      ⟨(h c _ (Cert.KernelIdeal.Hand.mem_uc Cert.KernelIdeal.main_v103 (by decide))).trans (Cert.KernelIdeal.Hand.result_eq m ρ c),
       (h c _ (Cert.KernelIdeal.Hand.mem_uc Cert.KernelIdeal.main_arg0 (by decide))).trans (Cert.KernelIdeal.Hand.W13_main_arg0 m ρ c),
       (h c _ (Cert.KernelIdeal.Hand.mem_uc Cert.KernelIdeal.main_arg1 (by decide))).trans (Cert.KernelIdeal.Hand.W13_main_arg1 m ρ c),
       (h c _ (Cert.KernelIdeal.Hand.mem_uc Cert.KernelIdeal.main_arg2 (by decide))).trans (Cert.KernelIdeal.Hand.W13_main_arg2 m ρ c),
       (h c _ (Cert.KernelIdeal.Hand.mem_uc Cert.KernelIdeal.main_arg3 (by decide))).trans (Cert.KernelIdeal.Hand.W13_main_arg3 m ρ c),
       (h c _ (Cert.KernelIdeal.Hand.mem_uc Cert.KernelIdeal.main_arg4 (by decide))).trans (Cert.KernelIdeal.Hand.W13_main_arg4 m ρ c),
       (h c _ (Cert.KernelIdeal.Hand.mem_uc Cert.KernelIdeal.main_arg5 (by decide))).trans (Cert.KernelIdeal.Hand.W13_main_arg5 m ρ c),
       (h c _ (Cert.KernelIdeal.Hand.mem_uc Cert.KernelIdeal.main_arg6 (by decide))).trans (Cert.KernelIdeal.Hand.W13_main_arg6 m ρ c),
       (h c _ (Cert.KernelIdeal.Hand.mem_uc Cert.KernelIdeal.main_arg7 (by decide))).trans (Cert.KernelIdeal.Hand.W13_main_arg7 m ρ c),
       (h c _ (Cert.KernelIdeal.Hand.mem_uc Cert.KernelIdeal.main_arg8 (by decide))).trans (Cert.KernelIdeal.Hand.W13_main_arg8 m ρ c)⟩)
      (Cert.KernelIdeal.Hand.run_all m ρ)
  · -- the reference: every buffer at the return is the fold of its operations over the launch contents
    exact (θ_run Cert.ReferenceIdeal.defs _ _).mono (fun r h c =>
      ⟨(h c Cert.ReferenceIdeal.main_v175).trans ((Cert.ReferenceIdeal.Hand.result_eq (launchContents m' c)).trans
          (nets_agree m hpre c (launchContents m' c) (hagree c).1 (hagree c).2.1 (hagree c).2.2.1 (hagree c).2.2.2.1 (hagree c).2.2.2.2.1
            (hagree c).2.2.2.2.2.1 (hagree c).2.2.2.2.2.2.1 (hagree c).2.2.2.2.2.2.2.1 (hagree c).2.2.2.2.2.2.2.2)),
       (h c Cert.ReferenceIdeal.main_arg0).trans (Cert.ReferenceIdeal.Hand.arg0_eq (launchContents m' c)),
       (h c Cert.ReferenceIdeal.main_arg1).trans (Cert.ReferenceIdeal.Hand.arg1_eq (launchContents m' c)),
       (h c Cert.ReferenceIdeal.main_arg2).trans (Cert.ReferenceIdeal.Hand.arg2_eq (launchContents m' c)),
       (h c Cert.ReferenceIdeal.main_arg3).trans (Cert.ReferenceIdeal.Hand.arg3_eq (launchContents m' c)),
       (h c Cert.ReferenceIdeal.main_arg4).trans (Cert.ReferenceIdeal.Hand.arg4_eq (launchContents m' c)),
       (h c Cert.ReferenceIdeal.main_arg5).trans (Cert.ReferenceIdeal.Hand.arg5_eq (launchContents m' c)),
       (h c Cert.ReferenceIdeal.main_arg6).trans (Cert.ReferenceIdeal.Hand.arg6_eq (launchContents m' c)),
       (h c Cert.ReferenceIdeal.main_arg7).trans (Cert.ReferenceIdeal.Hand.arg7_eq (launchContents m' c)),
       (h c Cert.ReferenceIdeal.main_arg8).trans (Cert.ReferenceIdeal.Hand.arg8_eq (launchContents m' c))⟩)
      (Cert.ReferenceIdeal.Hand.run_all m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
